-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v164) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x256 : S_.BroadcastsInDim S128x256 (![] : Fin 0 → Fin S128x256.rank)
  reducesTo_S128x256_S_d0_1 : S128x256.ReducesTo [0, 1] S_
  reducesTo_S_S_d : S_.ReducesTo [] S_

variable [Facts]

def fn_part5 {F : FTy → Type} [FloatOps F] (main_arg19 : FVec F S_ .f32) (main_arg20 : FVec F S_ .f32) (main_v83 : IVec S_ 1) (main_v84 : FVec F S_ .f32) (main_cst_32 : FVec F S_ .f32) : IVec S_ 1 :=
  let main_v85 : IVec S_ 1 := cmpf .olt main_v84 main_cst_32
  let main_c_33 : IVec S_ 1 := constantI S_ 1 1#1
  let main_v86 : IVec S_ 1 := (fun x v => Host.reduce IntOp.andi x v reducesTo_S_S_d h_S_) main_v85 main_c_33
  let main_v87 : IVec S_ 1 := andi main_v83 main_v86
  let main_v88 : FVec F S_ .f32 := Host.absf main_arg19
  let main_cst_34 : FVec F S_ .f32 := constant S_ .f32 0x7F800000#32
  let main_v89 : IVec S_ 1 := cmpf .olt main_v88 main_cst_34
  let main_c_35 : IVec S_ 1 := constantI S_ 1 1#1
  let main_v90 : IVec S_ 1 := (fun x v => Host.reduce IntOp.andi x v reducesTo_S_S_d h_S_) main_v89 main_c_35
  let main_v91 : IVec S_ 1 := andi main_v87 main_v90
  let main_v92 : FVec F S_ .f32 := Host.absf main_arg20
  let main_cst_36 : FVec F S_ .f32 := constant S_ .f32 0x7F800000#32
  let main_v93 : IVec S_ 1 := cmpf .olt main_v92 main_cst_36
  let main_c_37 : IVec S_ 1 := constantI S_ 1 1#1
  let main_v94 : IVec S_ 1 := (fun x v => Host.reduce IntOp.andi x v reducesTo_S_S_d h_S_) main_v93 main_c_37
  let main_v95 : IVec S_ 1 := andi main_v91 main_v94
  main_v95

def fn_part4 {F : FTy → Type} [FloatOps F] (main_arg15 : FVec F S256x128 .f32) (main_arg16 : FVec F S128 .f32) (main_arg17 : FVec F S128 .f32) (main_arg18 : FVec F S_ .f32) (main_arg19 : FVec F S_ .f32) (main_arg20 : FVec F S_ .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S_ .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256x128 .f32) (main_arg7 : FVec F S128 .f32) (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S20000x128 .f32) (main_arg1 : FVec F S320000x128 .f32) (main_arg2 : IVec S2x160000 32) (main_arg3 : FVec F S256x256 .f32) (main_arg4 : FVec F S256 .f32) (main_arg5 : FVec F S256 .f32) (main_arg6 : FVec F S256x128 .f32) (main_arg7 : FVec F S128 .f32) (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S160000x128 : Shape := ⟨2, ![160000, 128]⟩
abbrev S160000x2x128 : Shape := ⟨3, ![160000, 2, 128]⟩
abbrev S160000x1x128 : Shape := ⟨3, ![160000, 1, 128]⟩
abbrev S128x128 : Shape := ⟨2, ![128, 128]⟩
abbrev S1x128 : Shape := ⟨2, ![1, 128]⟩
abbrev S4000x128 : Shape := ⟨2, ![4000, 128]⟩
abbrev S320000 : Shape := ⟨1, ![320000]⟩
abbrev S320000x1 : Shape := ⟨2, ![320000, 1]⟩
abbrev S20000x256 : Shape := ⟨2, ![20000, 256]⟩
abbrev S1x256 : Shape := ⟨2, ![1, 256]⟩
abbrev S2000x128 : Shape := ⟨2, ![2000, 128]⟩
abbrev S2000x256 : Shape := ⟨2, ![2000, 256]⟩
abbrev S320000x256 : Shape := ⟨2, ![320000, 256]⟩
abbrev S4000x256 : Shape := ⟨2, ![4000, 256]⟩

abbrev nBuf : Space → Nat
  | .hbm => 223
  | .vmem => 66
  | .smem => 0
  | _ => 0

abbrev hbmTy0_0 (i : Nat) : BufTy := match i % 128 with
  | 0 => ⟨S20000x128, .f32⟩
  | 1 => ⟨S320000x128, .f32⟩
  | 2 => ⟨S2x160000, .i32⟩
  | 3 => ⟨S256x256, .f32⟩
  | 4 => ⟨S256, .f32⟩
  | 5 => ⟨S256, .f32⟩
  | 6 => ⟨S256x128, .f32⟩
  | 7 => ⟨S128, .f32⟩
  | 8 => ⟨S128, .f32⟩
  | 9 => ⟨S384x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S_, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x128, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x128, .f32⟩
  | 43 => ⟨S160000x128, .f32⟩
  | 44 => ⟨S320000x128, .f32⟩
  | 45 => ⟨S320000x128, .f32⟩
  | 46 => ⟨S160000x2x128, .f32⟩
  | 47 => ⟨S160000x1x128, .f32⟩
  | 48 => ⟨S160000x128, .f32⟩
  | 49 => ⟨S160000x1x128, .f32⟩
  | 50 => ⟨S160000x128, .f32⟩
  | 51 => ⟨S320000x128, .f32⟩
  | 52 => ⟨S128x128, .f32⟩
  | 53 => ⟨S128x128, .f32⟩
  | 54 => ⟨S128x128, .f32⟩
  | 55 => ⟨S320000x128, .f32⟩
  | 56 => ⟨S1x128, .f32⟩
  | 57 => ⟨S1x128, .f32⟩
  | 58 => ⟨S128, .f32⟩
  | 59 => ⟨S_, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S_, .f32⟩
  | 69 => ⟨S128, .f32⟩
  | 70 => ⟨S128, .f32⟩
  | 71 => ⟨S128, .f32⟩
  | 72 => ⟨S128, .f32⟩
  | 73 => ⟨S1x128, .f32⟩
  | 74 => ⟨S128, .f32⟩
  | 75 => ⟨S128, .f32⟩
  | 76 => ⟨S128, .f32⟩
  | 77 => ⟨S1x128, .f32⟩
  | 78 => ⟨S320000x128, .f32⟩
  | 79 => ⟨S320000, .i32⟩
  | 80 => ⟨S160000x128, .f32⟩
  | 81 => ⟨S160000x128, .f32⟩
  | 82 => ⟨S160000x128, .f32⟩
  | 83 => ⟨S_, .f32⟩
  | 84 => ⟨S20000x128, .f32⟩
  | 85 => ⟨S320000x1, .i32⟩
  | 86 => ⟨S20000x128, .f32⟩
  | 87 => ⟨S_, .f32⟩
  | 88 => ⟨S20000x128, .f32⟩
  | 89 => ⟨S160000x1, .i32⟩
  | 90 => ⟨S20000x128, .f32⟩
  | 91 => ⟨S_, .f32⟩
  | 92 => ⟨S20000x128, .f32⟩
  | 93 => ⟨S160000x1, .i32⟩
  | 94 => ⟨S20000x128, .f32⟩
  | 95 => ⟨S20000x128, .f32⟩
  | 96 => ⟨S_, .f32⟩
  | 97 => ⟨S_, .f32⟩
  | 98 => ⟨S20000x128, .f32⟩
  | 99 => ⟨S20000x128, .f32⟩
  | 100 => ⟨S_, .f32⟩
  | 101 => ⟨S_, .f32⟩
  | 102 => ⟨S20000x128, .f32⟩
  | 103 => ⟨S20000x128, .f32⟩
  | 104 => ⟨S20000x128, .f32⟩
  | 105 => ⟨S20000x128, .f32⟩
  | 106 => ⟨S20000x256, .bf16⟩
  | 107 => ⟨S1x256, .f32⟩
  | 108 => ⟨S1x256, .f32⟩
  | 109 => ⟨S256, .f32⟩
  | 110 => ⟨S_, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S256, .f32⟩
  | 118 => ⟨S256, .f32⟩
  | 119 => ⟨S_, .f32⟩
  | 120 => ⟨S256, .f32⟩
  | 121 => ⟨S256, .f32⟩
  | 122 => ⟨S256, .f32⟩
  | 123 => ⟨S256, .f32⟩
  | 124 => ⟨S1x256, .f32⟩
  | 125 => ⟨S256, .f32⟩
  | 126 => ⟨S256, .f32⟩
  | 127 => ⟨S256, .f32⟩
  | _ => ⟨S20000x128, .f32⟩

abbrev hbmTy0_1 (i : Nat) : BufTy := match i % 128 with
  | 0 => ⟨S1x256, .f32⟩
  | 1 => ⟨S20000x128, .f32⟩
  | 2 => ⟨S1x128, .f32⟩
  | 3 => ⟨S1x128, .f32⟩
  | 4 => ⟨S128, .f32⟩
  | 5 => ⟨S_, .f32⟩
  | 6 => ⟨S128, .f32⟩
  | 7 => ⟨S128, .f32⟩
  | 8 => ⟨S128, .f32⟩
  | 9 => ⟨S_, .f32⟩
  | 10 => ⟨S128, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S128, .f32⟩
  | 19 => ⟨S1x128, .f32⟩
  | 20 => ⟨S128, .f32⟩
  | 21 => ⟨S128, .f32⟩
  | 22 => ⟨S128, .f32⟩
  | 23 => ⟨S1x128, .f32⟩
  | 24 => ⟨S20000x128, .f32⟩
  | 25 => ⟨S160000x128, .f32⟩
  | 26 => ⟨S_, .f32⟩
  | 27 => ⟨S160000x128, .f32⟩
  | 28 => ⟨S160000x128, .f32⟩
  | 29 => ⟨S_, .f32⟩
  | 30 => ⟨S_, .f32⟩
  | 31 => ⟨S160000x128, .f32⟩
  | 32 => ⟨S160000x128, .f32⟩
  | 33 => ⟨S160000x128, .f32⟩
  | 34 => ⟨S320000x128, .f32⟩
  | 35 => ⟨S_, .f32⟩
  | 36 => ⟨S_, .f32⟩
  | 37 => ⟨S320000x128, .f32⟩
  | 38 => ⟨S320000x128, .f32⟩
  | 39 => ⟨S320000x128, .f32⟩
  | 40 => ⟨S128x256, .f32⟩
  | 41 => ⟨S128x256, .f32⟩
  | 42 => ⟨S320000x256, .bf16⟩
  | 43 => ⟨S1x256, .f32⟩
  | 44 => ⟨S1x256, .f32⟩
  | 45 => ⟨S256, .f32⟩
  | 46 => ⟨S_, .f32⟩
  | 47 => ⟨S256, .f32⟩
  | 48 => ⟨S256, .f32⟩
  | 49 => ⟨S256, .f32⟩
  | 50 => ⟨S_, .f32⟩
  | 51 => ⟨S256, .f32⟩
  | 52 => ⟨S256, .f32⟩
  | 53 => ⟨S256, .f32⟩
  | 54 => ⟨S256, .f32⟩
  | 55 => ⟨S_, .f32⟩
  | 56 => ⟨S256, .f32⟩
  | 57 => ⟨S256, .f32⟩
  | 58 => ⟨S256, .f32⟩
  | 59 => ⟨S256, .f32⟩
  | 60 => ⟨S1x256, .f32⟩
  | 61 => ⟨S256, .f32⟩
  | 62 => ⟨S256, .f32⟩
  | 63 => ⟨S256, .f32⟩
  | 64 => ⟨S1x256, .f32⟩
  | 65 => ⟨S320000x128, .f32⟩
  | 66 => ⟨S1x128, .f32⟩
  | 67 => ⟨S1x128, .f32⟩
  | 68 => ⟨S128, .f32⟩
  | 69 => ⟨S_, .f32⟩
  | 70 => ⟨S128, .f32⟩
  | 71 => ⟨S128, .f32⟩
  | 72 => ⟨S128, .f32⟩
  | 73 => ⟨S_, .f32⟩
  | 74 => ⟨S128, .f32⟩
  | 75 => ⟨S128, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S1x128, .f32⟩
  | 84 => ⟨S128, .f32⟩
  | 85 => ⟨S128, .f32⟩
  | 86 => ⟨S128, .f32⟩
  | 87 => ⟨S1x128, .f32⟩
  | 88 => ⟨S320000x128, .f32⟩
  | 89 => ⟨S160000x128, .f32⟩
  | 90 => ⟨S160000x128, .f32⟩
  | 91 => ⟨S160000x1x128, .f32⟩
  | 92 => ⟨S160000x1x128, .f32⟩
  | 93 => ⟨S160000x2x128, .f32⟩
  | 94 => ⟨S320000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S2000x128, .f32⟩
  | .local _ .vmem, ⟨20, _⟩ => ⟨S2000x128, .f32⟩
  | .local _ .vmem, ⟨21, _⟩ => ⟨S128x256, .f32⟩
  | .local _ .vmem, ⟨22, _⟩ => ⟨S2000x256, .bf16⟩
  | .local _ .vmem, ⟨23, _⟩ => ⟨S2000x256, .bf16⟩
  | .local _ .vmem, ⟨24, _⟩ => ⟨S1x256, .f32⟩
  | .local _ .vmem, ⟨25, _⟩ => ⟨S1x256, .f32⟩
  | .local _ .vmem, ⟨26, _⟩ => ⟨S2000x256, .bf16⟩
  | .local _ .vmem, ⟨27, _⟩ => ⟨S2000x256, .bf16⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S128x256, .f32⟩
  | .local _ .vmem, ⟨46, _⟩ => ⟨S128x256, .f32⟩
  | .local _ .vmem, ⟨47, _⟩ => ⟨S4000x256, .bf16⟩
  | .local _ .vmem, ⟨48, _⟩ => ⟨S4000x256, .bf16⟩
  | .local _ .vmem, ⟨49, _⟩ => ⟨S1x256, .f32⟩
  | .local _ .vmem, ⟨50, _⟩ => ⟨S1x256, .f32⟩
  | .local _ .vmem, ⟨51, _⟩ => ⟨S4000x256, .bf16⟩
  | .local _ .vmem, ⟨52, _⟩ => ⟨S4000x256, .bf16⟩
  | .local _ .vmem, ⟨53, _⟩ => ⟨S1x256, .f32⟩
  | .local _ .vmem, ⟨54, _⟩ => ⟨S1x256, .f32⟩
  | .local _ .vmem, ⟨55, _⟩ => ⟨S256x128, .f32⟩
  | .local _ .vmem, ⟨56, _⟩ => ⟨S4000x128, .f32⟩
  | .local _ .vmem, ⟨57, _⟩ => ⟨S4000x128, .f32⟩
  | .local _ .vmem, ⟨58, _⟩ => ⟨S1x128, .f32⟩
  | .local _ .vmem, ⟨59, _⟩ => ⟨S1x128, .f32⟩
  | .local _ .vmem, ⟨60, _⟩ => ⟨S4000x128, .f32⟩
  | .local _ .vmem, ⟨61, _⟩ => ⟨S4000x128, .f32⟩
  | .local _ .vmem, ⟨62, _⟩ => ⟨S1x128, .f32⟩
  | .local _ .vmem, ⟨63, _⟩ => ⟨S1x128, .f32⟩
  | .local _ .vmem, ⟨64, _⟩ => ⟨S4000x128, .f32⟩
  | .local _ .vmem, ⟨65, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v31 : Ref sig .tc := ⟨.hbm, 58, rfl⟩
abbrev main_cst : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_5 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_8 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71_0 : Ref sig .tc := ⟨.hbm, 106, rfl⟩
abbrev main_v71_1 : Ref sig .tc := ⟨.hbm, 107, rfl⟩
abbrev main_v71_2 : Ref sig .tc := ⟨.hbm, 108, rfl⟩
abbrev main_v72 : Ref sig .tc := ⟨.hbm, 109, rfl⟩
abbrev main_cst_10 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_12 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89_0 : Ref sig .tc := ⟨.hbm, 129, rfl⟩
abbrev main_v89_1 : Ref sig .tc := ⟨.hbm, 130, rfl⟩
abbrev main_v89_2 : Ref sig .tc := ⟨.hbm, 131, rfl⟩
abbrev main_v90 : Ref sig .tc := ⟨.hbm, 132, rfl⟩
abbrev main_cst_13 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_14 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_15 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_16 : Ref sig .tc := ⟨.hbm, 154, rfl⟩
abbrev main_v109 : Ref sig .tc := ⟨.hbm, 155, rfl⟩
abbrev main_v110 : Ref sig .tc := ⟨.hbm, 156, rfl⟩
abbrev main_cst_17 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_18 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122_0 : Ref sig .tc := ⟨.hbm, 170, rfl⟩
abbrev main_v122_1 : Ref sig .tc := ⟨.hbm, 171, rfl⟩
abbrev main_v122_2 : Ref sig .tc := ⟨.hbm, 172, rfl⟩
abbrev main_v123 : Ref sig .tc := ⟨.hbm, 173, rfl⟩
abbrev main_cst_19 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_20 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_21 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140_0 : Ref sig .tc := ⟨.hbm, 193, rfl⟩
abbrev main_v140_1 : Ref sig .tc := ⟨.hbm, 194, rfl⟩
abbrev main_v140_2 : Ref sig .tc := ⟨.hbm, 195, rfl⟩
abbrev main_v141 : Ref sig .tc := ⟨.hbm, 196, rfl⟩
abbrev main_cst_22 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_23 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_24 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg4_1 : Ref sig .tc := ⟨.vmem, 48, rfl⟩
abbrev cc5_stg5_0 : Ref sig .tc := ⟨.vmem, 49, rfl⟩
abbrev cc5_stg6_0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg4_1 : Ref sig .tc := ⟨.vmem, 57, rfl⟩
abbrev cc6_stg5_0 : Ref sig .tc := ⟨.vmem, 58, rfl⟩
abbrev cc6_stg6_0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem4_1 : DmaSem sig := 32
abbrev cc3_sem5_0 : DmaSem sig := 33
abbrev cc3_sem6_0 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem4_1 : DmaSem sig := 48
abbrev cc5_sem5_0 : DmaSem sig := 49
abbrev cc5_sem6_0 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem4_0 : DmaSem sig := 56
abbrev cc6_sem4_1 : DmaSem sig := 57
abbrev cc6_sem5_0 : DmaSem sig := 58
abbrev cc6_sem6_0 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x128_S160000x128_S320000x128_d0 : Shape.Concatenates [S160000x128, S160000x128] S320000x128 0
  shapeCasts_S320000x128_S160000x2x128 : S320000x128.ShapeCasts S160000x2x128
  slices_S160000x2x128_S160000x1x128_0_0_0 : S160000x2x128.Slices ![0, 0, 0] S160000x1x128
  shapeCasts_S160000x1x128_S160000x128 : S160000x1x128.ShapeCasts S160000x128
  slices_S160000x2x128_S160000x1x128_0_1_0 : S160000x2x128.Slices ![0, 1, 0] S160000x1x128
  slices_S384x128_S128x128_0_0 : S384x128.Slices ![0, 0] S128x128
  slices_S384x128_S128x128_128_0 : S384x128.Slices ![128, 0] S128x128
  slices_S384x128_S128x128_256_0 : S384x128.Slices ![256, 0] S128x128
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  reduces_S4000x128_S128 : S4000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S4000x128 : S1x128.Broadcasts S4000x128
  concatenates_S160000_S160000_S320000_d0 : Shape.Concatenates [S160000, S160000] S320000 0
  slices_S320000x128_S160000x128_0_0 : S320000x128.Slices ![0, 0] S160000x128
  slices_S320000x128_S160000x128_160000_0 : S320000x128.Slices ![160000, 0] S160000x128
  bcast_S_S20000x128 : S_.BroadcastsInDim S20000x128 (![] : Fin 0 → Fin S20000x128.rank)
  bcast_S320000_S320000x1_0 : S320000.BroadcastsInDim S320000x1 (![0] : Fin 1 → Fin S320000x1.rank)
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  shapeCasts_S1x256_S1x256 : S1x256.ShapeCasts S1x256
  reduces_S2000x256_S256 : S2000x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  shapeCasts_S2000x256_S2000x256 : S2000x256.ShapeCasts S2000x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  reduces_S2000x128_S128 : S2000x128.Reduces [0] S128
  broadcasts_S1x128_S2000x128 : S1x128.Broadcasts S2000x128
  bcast_S_S160000x128 : S_.BroadcastsInDim S160000x128 (![] : Fin 0 → Fin S160000x128.rank)
  bcast_S_S320000x128 : S_.BroadcastsInDim S320000x128 (![] : Fin 0 → Fin S320000x128.rank)
  slices_S256x256_S128x256_0_0 : S256x256.Slices ![0, 0] S128x256
  slices_S256x256_S128x256_128_0 : S256x256.Slices ![128, 0] S128x256
  shapeCasts_S128x256_S128x256 : S128x256.ShapeCasts S128x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  reduces_S4000x256_S256 : S4000x256.Reduces [0] S256
  shapeCasts_S4000x256_S4000x256 : S4000x256.ShapeCasts S4000x256
  broadcasts_S1x256_S4000x256 : S1x256.Broadcasts S4000x256
  bcast_S160000x128_S160000x1x128_0_2 : S160000x128.BroadcastsInDim S160000x1x128 (![0, 2] : Fin 2 → Fin S160000x1x128.rank)
  concatenates_S160000x1x128_S160000x1x128_S160000x2x128_d1 : Shape.Concatenates [S160000x1x128, S160000x1x128] S160000x2x128 1
  shapeCasts_S160000x2x128_S320000x128 : S160000x2x128.ShapeCasts S320000x128
  gather_S20000x128_S160000x1_S160000x128_1_0_n_n_0_1_1128_wf : GatherDims.WF S20000x128 S160000x1 S160000x128 [1] [0] [] [0] [] 1 ![1, 128]
  dot_S4000x128_S128x128_S4000x128_1_0_0_1_n_n_wf : DotDims.WF S4000x128 S128x128 S4000x128 [1] [0] [0] [1] [] []
  scatter_S20000x128_S320000x1_S320000x128_1_0_0_1_wf : ScatterDims.WF S20000x128 S320000x1 S320000x128 [1] [0] [0] 1
  scatter_S20000x128_S160000x1_S160000x128_1_0_0_1_wf : ScatterDims.WF S20000x128 S160000x1 S160000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S320000x128.size a
  hwx0_2 : ∀ i : grid0.Coords, EltTy.bits .f32 = 32 ∨ (Rect.block (s := S320000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S320000x128.size a
  hwx0_6 : ∀ i : grid0.Coords, EltTy.bits .f32 = 32 ∨ (Rect.block (s := S320000x128) S4000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S320000x128.size a
  hwx1_0 : ∀ i : grid1.Coords, EltTy.bits .f32 = 32 ∨ (Rect.block (s := S320000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S320000x128.size a
  hwx1_3 : ∀ i : grid1.Coords, EltTy.bits .f32 = 32 ∨ (Rect.block (s := S320000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .bf16 = 32 ∨ (Rect.block (s := S20000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .bf16 = 32 ∨ (Rect.block (s := S20000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S20000x128.size a
  hwx3_4 : ∀ i : grid3.Coords, EltTy.bits .f32 = 32 ∨ (Rect.block (s := S20000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S20000x128.size a
  hwx4_3 : ∀ i : grid4.Coords, EltTy.bits .f32 = 32 ∨ (Rect.block (s := S20000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S320000x128.size a
  hwx5_0 : ∀ i : grid5.Coords, EltTy.bits .f32 = 32 ∨ (Rect.block (s := S320000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S320000x128.size a
  hwx5_1 : ∀ i : grid5.Coords, EltTy.bits .f32 = 32 ∨ (Rect.block (s := S320000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x256.size a ≤ S128x256.size a
  hwx5_3 : ∀ i : grid5.Coords, EltTy.bits .f32 = 32 ∨ (Rect.block (s := S128x256) S128x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x256.size a ≤ S320000x256.size a
  hwx5_4 : ∀ i : grid5.Coords, EltTy.bits .bf16 = 32 ∨ (Rect.block (s := S320000x256) S4000x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S320000x256.size a
  hwx6_0 : ∀ i : grid6.Coords, EltTy.bits .bf16 = 32 ∨ (Rect.block (s := S320000x256) S4000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x128.size a ≤ S320000x128.size a
  hwx6_4 : ∀ i : grid6.Coords, EltTy.bits .f32 = 32 ∨ (Rect.block (s := S320000x128) S4000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S320000x128.size a
  hwx7_0 : ∀ i : grid7.Coords, EltTy.bits .f32 = 32 ∨ (Rect.block (s := S320000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S320000x128.size a
  hwx7_3 : ∀ i : grid7.Coords, EltTy.bits .f32 = 32 ∨ (Rect.block (s := S320000x128) S4000x128.size (cc7_transform_3 i) (hinb7_3 i)).WholeWords (EltTy.packing .f32)

variable [Facts₀]

def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v19) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v30_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71_0) S2000x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71_1) S1x256.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71_2) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v89_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v89_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v115) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v120) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S128x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122_0) S4000x256.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v122_1) S1x256.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v122_2) S1x256.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v122_0) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v135) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v139) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v140_0) S4000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v140_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v140_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v140_0) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v153) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v157) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v158) S4000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩
abbrev S160000x2 : Shape := ⟨2, ![160000, 2]⟩
abbrev S320000 : Shape := ⟨1, ![320000]⟩
abbrev S160000 : Shape := ⟨1, ![160000]⟩
abbrev S320000x1 : Shape := ⟨2, ![320000, 1]⟩
abbrev S160000x128 : Shape := ⟨2, ![160000, 128]⟩
abbrev S320000x256 : Shape := ⟨2, ![320000, 256]⟩
abbrev S320000x384 : Shape := ⟨2, ![320000, 384]⟩
abbrev S1x128 : Shape := ⟨2, ![1, 128]⟩
abbrev S20000x256 : Shape := ⟨2, ![20000, 256]⟩
abbrev S1x256 : Shape := ⟨2, ![1, 256]⟩

abbrev nBuf : Space → Nat
  | .hbm => 273
  | .vmem => 0
  | .smem => 0
  | _ => 0

abbrev hbmTy0_0 (i : Nat) : BufTy := match i % 128 with
  | 0 => ⟨S20000x128, .f32⟩
  | 1 => ⟨S320000x128, .f32⟩
  | 2 => ⟨S2x160000, .i32⟩
  | 3 => ⟨S256x256, .f32⟩
  | 4 => ⟨S256, .f32⟩
  | 5 => ⟨S256, .f32⟩
  | 6 => ⟨S256x128, .f32⟩
  | 7 => ⟨S128, .f32⟩
  | 8 => ⟨S128, .f32⟩
  | 9 => ⟨S384x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S_, .f32⟩
  | 21 => ⟨S160000x2, .i32⟩
  | 22 => ⟨S320000, .i32⟩
  | 23 => ⟨S160000, .i32⟩
  | 24 => ⟨S160000x2, .i32⟩
  | 25 => ⟨S320000, .i32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x128, .f32⟩
  | 35 => ⟨S_, .f32⟩
  | 36 => ⟨S160000x128, .f32⟩
  | 37 => ⟨S320000x1, .i32⟩
  | 38 => ⟨S160000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S320000x256, .f32⟩
  | 49 => ⟨S320000x384, .f32⟩
  | 50 => ⟨S320000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S320000x128, .f32⟩
  | 58 => ⟨S320000x128, .f32⟩
  | 59 => ⟨S320000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S320000x128, .f32⟩
  | 67 => ⟨S320000x128, .f32⟩
  | 68 => ⟨S_, .f32⟩
  | 69 => ⟨S128, .f32⟩
  | 70 => ⟨S128, .f32⟩
  | 71 => ⟨S128, .f32⟩
  | 72 => ⟨S1x128, .f32⟩
  | 73 => ⟨S320000x128, .f32⟩
  | 74 => ⟨S320000x128, .f32⟩
  | 75 => ⟨S1x128, .f32⟩
  | 76 => ⟨S320000x128, .f32⟩
  | 77 => ⟨S320000x128, .f32⟩
  | 78 => ⟨S1x128, .f32⟩
  | 79 => ⟨S320000x128, .f32⟩
  | 80 => ⟨S320000x128, .f32⟩
  | 81 => ⟨S_, .f32⟩
  | 82 => ⟨S320000x128, .f32⟩
  | 83 => ⟨S320000x128, .f32⟩
  | 84 => ⟨S_, .f32⟩
  | 85 => ⟨S20000x128, .f32⟩
  | 86 => ⟨S320000x1, .i32⟩
  | 87 => ⟨S20000x128, .f32⟩
  | 88 => ⟨S_, .f32⟩
  | 89 => ⟨S160000x128, .f32⟩
  | 90 => ⟨S320000x1, .i32⟩
  | 91 => ⟨S160000x128, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S_, .f32⟩
  | 102 => ⟨S20000x128, .f32⟩
  | 103 => ⟨S320000x1, .i32⟩
  | 104 => ⟨S20000x128, .f32⟩
  | 105 => ⟨S_, .f32⟩
  | 106 => ⟨S_, .f32⟩
  | 107 => ⟨S20000x128, .f32⟩
  | 108 => ⟨S20000x128, .f32⟩
  | 109 => ⟨S_, .f32⟩
  | 110 => ⟨S_, .f32⟩
  | 111 => ⟨S20000x128, .f32⟩
  | 112 => ⟨S20000x128, .f32⟩
  | 113 => ⟨S20000x128, .f32⟩
  | 114 => ⟨S20000x128, .f32⟩
  | 115 => ⟨S20000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S20000x256, .f32⟩
  | 123 => ⟨S20000x256, .f32⟩
  | 124 => ⟨S20000x256, .f32⟩
  | 125 => ⟨S_, .f32⟩
  | 126 => ⟨S256, .f32⟩
  | 127 => ⟨S_, .f32⟩
  | _ => ⟨S20000x128, .f32⟩

abbrev hbmTy0_1 (i : Nat) : BufTy := match i % 128 with
  | 0 => ⟨S256, .f32⟩
  | 1 => ⟨S256, .f32⟩
  | 2 => ⟨S1x256, .f32⟩
  | 3 => ⟨S20000x256, .f32⟩
  | 4 => ⟨S20000x256, .f32⟩
  | 5 => ⟨S_, .f32⟩
  | 6 => ⟨S256, .f32⟩
  | 7 => ⟨S256, .f32⟩
  | 8 => ⟨S256, .f32⟩
  | 9 => ⟨S1x256, .f32⟩
  | 10 => ⟨S20000x256, .f32⟩
  | 11 => ⟨S20000x256, .f32⟩
  | 12 => ⟨S1x256, .f32⟩
  | 13 => ⟨S20000x256, .f32⟩
  | 14 => ⟨S20000x256, .f32⟩
  | 15 => ⟨S1x256, .f32⟩
  | 16 => ⟨S20000x256, .f32⟩
  | 17 => ⟨S20000x256, .f32⟩
  | 18 => ⟨S_, .f32⟩
  | 19 => ⟨S20000x256, .f32⟩
  | 20 => ⟨S20000x256, .f32⟩
  | 21 => ⟨S20000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S20000x128, .f32⟩
  | 29 => ⟨S20000x128, .f32⟩
  | 30 => ⟨S20000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S20000x128, .f32⟩
  | 38 => ⟨S20000x128, .f32⟩
  | 39 => ⟨S_, .f32⟩
  | 40 => ⟨S128, .f32⟩
  | 41 => ⟨S128, .f32⟩
  | 42 => ⟨S128, .f32⟩
  | 43 => ⟨S1x128, .f32⟩
  | 44 => ⟨S20000x128, .f32⟩
  | 45 => ⟨S20000x128, .f32⟩
  | 46 => ⟨S1x128, .f32⟩
  | 47 => ⟨S20000x128, .f32⟩
  | 48 => ⟨S20000x128, .f32⟩
  | 49 => ⟨S1x128, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S_, .f32⟩
  | 56 => ⟨S160000x128, .f32⟩
  | 57 => ⟨S320000x1, .i32⟩
  | 58 => ⟨S160000x128, .f32⟩
  | 59 => ⟨S_, .f32⟩
  | 60 => ⟨S160000x128, .f32⟩
  | 61 => ⟨S160000x128, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x128, .f32⟩
  | 71 => ⟨S320000x256, .f32⟩
  | 72 => ⟨S_, .f32⟩
  | 73 => ⟨S_, .f32⟩
  | 74 => ⟨S320000x256, .f32⟩
  | 75 => ⟨S320000x256, .f32⟩
  | 76 => ⟨S320000x256, .f32⟩
  | 77 => ⟨S320000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S320000x256, .f32⟩
  | 85 => ⟨S320000x256, .f32⟩
  | 86 => ⟨S320000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S320000x256, .f32⟩
  | 94 => ⟨S320000x256, .f32⟩
  | 95 => ⟨S_, .f32⟩
  | 96 => ⟨S256, .f32⟩
  | 97 => ⟨S256, .f32⟩
  | 98 => ⟨S256, .f32⟩
  | 99 => ⟨S1x256, .f32⟩
  | 100 => ⟨S320000x256, .f32⟩
  | 101 => ⟨S320000x256, .f32⟩
  | 102 => ⟨S1x256, .f32⟩
  | 103 => ⟨S320000x256, .f32⟩
  | 104 => ⟨S320000x256, .f32⟩
  | 105 => ⟨S1x256, .f32⟩
  | 106 => ⟨S320000x256, .f32⟩
  | 107 => ⟨S320000x256, .f32⟩
  | 108 => ⟨S_, .f32⟩
  | 109 => ⟨S320000x256, .f32⟩
  | 110 => ⟨S320000x256, .f32⟩
  | 111 => ⟨S320000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S320000x128, .f32⟩
  | 119 => ⟨S320000x128, .f32⟩
  | 120 => ⟨S320000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S320000x128, .f32⟩
  | _ => ⟨S20000x128, .f32⟩

abbrev hbmTy0_2 (i : Nat) : BufTy := match i % 128 with
  | 0 => ⟨S320000x128, .f32⟩
  | 1 => ⟨S_, .f32⟩
  | 2 => ⟨S128, .f32⟩
  | 3 => ⟨S128, .f32⟩
  | 4 => ⟨S128, .f32⟩
  | 5 => ⟨S1x128, .f32⟩
  | 6 => ⟨S320000x128, .f32⟩
  | 7 => ⟨S320000x128, .f32⟩
  | 8 => ⟨S1x128, .f32⟩
  | 9 => ⟨S320000x128, .f32⟩
  | 10 => ⟨S320000x128, .f32⟩
  | 11 => ⟨S1x128, .f32⟩
  | 12 => ⟨S320000x128, .f32⟩
  | 13 => ⟨S320000x128, .f32⟩
  | 14 => ⟨S_, .f32⟩
  | 15 => ⟨S320000x128, .f32⟩
  | 16 => ⟨S320000x128, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call0_cst : Ref sig .tc := ⟨.hbm, 81, rfl⟩
abbrev main_call0_v0 : Ref sig .tc := ⟨.hbm, 82, rfl⟩
abbrev main_v50 : Ref sig .tc := ⟨.hbm, 83, rfl⟩
abbrev main_cst_8 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_10 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_17 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call1_cst : Ref sig .tc := ⟨.hbm, 146, rfl⟩
abbrev main_call1_v0 : Ref sig .tc := ⟨.hbm, 147, rfl⟩
abbrev main_v101 : Ref sig .tc := ⟨.hbm, 148, rfl⟩
abbrev main_v102 : Ref sig .tc := ⟨.hbm, 149, rfl⟩
abbrev main_cst_20 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_cst_23 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_24 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_call2_cst : Ref sig .tc := ⟨.hbm, 180, rfl⟩
abbrev main_call2_v0 : Ref sig .tc := ⟨.hbm, 181, rfl⟩
abbrev main_v128 : Ref sig .tc := ⟨.hbm, 182, rfl⟩
abbrev main_cst_25 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_c_27 : Ref sig .tc := ⟨.hbm, 190, rfl⟩
abbrev main_v134 : Ref sig .tc := ⟨.hbm, 191, rfl⟩
abbrev main_v135 : Ref sig .tc := ⟨.hbm, 192, rfl⟩
abbrev main_c_28 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_29 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_30 : Ref sig .tc := ⟨.hbm, 206, rfl⟩
abbrev main_v147 : Ref sig .tc := ⟨.hbm, 207, rfl⟩
abbrev main_cst_31 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_32 : Ref sig .tc := ⟨.hbm, 215, rfl⟩
abbrev main_v154 : Ref sig .tc := ⟨.hbm, 216, rfl⟩
abbrev main_cst_33 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_34 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_call3_cst : Ref sig .tc := ⟨.hbm, 236, rfl⟩
abbrev main_call3_v0 : Ref sig .tc := ⟨.hbm, 237, rfl⟩
abbrev main_v172 : Ref sig .tc := ⟨.hbm, 238, rfl⟩
abbrev main_v173 : Ref sig .tc := ⟨.hbm, 239, rfl⟩
abbrev main_cst_35 : Ref sig .tc := ⟨.hbm, 240, rfl⟩
abbrev main_v174 : Ref sig .tc := ⟨.hbm, 241, rfl⟩
abbrev main_cst_36 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_37 : Ref sig .tc := ⟨.hbm, 249, rfl⟩
abbrev main_v181 : Ref sig .tc := ⟨.hbm, 250, rfl⟩
abbrev main_cst_38 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_39 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_call4_cst : Ref sig .tc := ⟨.hbm, 270, rfl⟩
abbrev main_call4_v0 : Ref sig .tc := ⟨.hbm, 271, rfl⟩
abbrev main_v199 : Ref sig .tc := ⟨.hbm, 272, rfl⟩

abbrev nD : Nat := 1
abbrev τ : Topo := Topo.v7x

variable {F : FTy → Type} [FloatOps F]

class Facts₀ : Prop where
  transposes_S2x160000_S160000x2_1_0 : S2x160000.Transposes [1, 0] S160000x2
  shapeCasts_S160000x2_S320000 : S160000x2.ShapeCasts S320000
  bcast_S160000_S160000x2_0 : S160000.BroadcastsInDim S160000x2 (![0] : Fin 1 → Fin S160000x2.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S160000x128 : S_.BroadcastsInDim S160000x128 (![] : Fin 0 → Fin S160000x128.rank)
  concatenates_S320000x128_S320000x128_S320000x256_d1 : Shape.Concatenates [S320000x128, S320000x128] S320000x256 1
  concatenates_S320000x256_S320000x128_S320000x384_d1 : Shape.Concatenates [S320000x256, S320000x128] S320000x384 1
  reducesTo_S320000x128_S128_d0 : S320000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  reducesTo_S20000x256_S256_d0 : S20000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  reducesTo_S20000x128_S128_d0 : S20000x128.ReducesTo [0] S128
  bcast_S1x128_S20000x128_0_1 : S1x128.BroadcastsInDim S20000x128 (![0, 1] : Fin 2 → Fin S20000x128.rank)
  bcast_S_S320000x256 : S_.BroadcastsInDim S320000x256 (![] : Fin 0 → Fin S320000x256.rank)
  reducesTo_S320000x256_S256_d0 : S320000x256.ReducesTo [0] S256
  bcast_S1x256_S320000x256_0_1 : S1x256.BroadcastsInDim S320000x256 (![0, 1] : Fin 2 → Fin S320000x256.rank)
  gather_S20000x128_S320000x1_S320000x128_1_0_n_n_0_1_1128_wf : GatherDims.WF S20000x128 S320000x1 S320000x128 [1] [0] [] [0] [] 1 ![1, 128]
  scatter_S160000x128_S320000x1_S320000x128_1_0_0_1_wf : ScatterDims.WF S160000x128 S320000x1 S320000x128 [1] [0] [0] 1
  gather_S160000x128_S320000x1_S320000x128_1_0_n_n_0_1_1128_wf : GatherDims.WF S160000x128 S320000x1 S320000x128 [1] [0] [] [0] [] 1 ![1, 128]
  dot_S320000x384_S384x128_S320000x128_1_0_0_1_n_n_wf : DotDims.WF S320000x384 S384x128 S320000x128 [1] [0] [0] [1] [] []
  scatter_S20000x128_S320000x1_S320000x128_1_0_0_1_wf : ScatterDims.WF S20000x128 S320000x1 S320000x128 [1] [0] [0] 1
  dot_S20000x128_S128x256_S20000x256_1_0_0_1_n_n_wf : DotDims.WF S20000x128 S128x256 S20000x256 [1] [0] [0] [1] [] []
  dot_S20000x256_S256x128_S20000x128_1_0_0_1_n_n_wf : DotDims.WF S20000x256 S256x128 S20000x128 [1] [0] [0] [1] [] []
  dot_S320000x256_S256x256_S320000x256_1_0_0_1_n_n_wf : DotDims.WF S320000x256 S256x256 S320000x256 [1] [0] [0] [1] [] []
  dot_S320000x256_S256x128_S320000x128_1_0_0_1_n_n_wf : DotDims.WF S320000x256 S256x128 S320000x128 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S160000x128_S320000x1_S320000x128_1_0_0_1 : ScatterDims S160000x128 S320000x1 S320000x128 where
  updateWindowDims := [1]
  insertedWindowDims := [0]
  scatterDimsToOperandDims := [0]
  indexVectorDim := 1
  wf := scatter_S160000x128_S320000x1_S320000x128_1_0_0_1_wf
def gather_S160000x128_S320000x1_S320000x128_1_0_n_n_0_1_1128 : GatherDims S160000x128 S320000x1 S320000x128 where
  offsetDims := [1]
  collapsedSliceDims := [0]
  operandBatchingDims := []
  startIndicesBatchingDims := []
  startIndexMap := [0]
  indexVectorDim := 1
  sliceSizes := ![1, 128]
  wf := gather_S160000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.Spec.lean ====
/-
  The layer both programs compute, as functions of the argument arrays on the extended reals.

  A graph has 20000 nodes and 160000 edges; every edge `e` owns two rows `(e, 0)`, `(e, 1)`, one per endpoint
  `ei h e`.  Rows are indexed here by the pair `(e, h)`; how a program lays the 320000 rows out in memory (row
  `2 e + h`, or row `160000 h + e`) is not part of this file.  Node features are gathered to the edge rows, summed per
  edge, passed through a linear map with batch normalisation and a rectifier, scattered back to the nodes, and two
  further two-stage maps give the node result and the edge result.

  Batch normalisation over the rows comes in two algebraic forms (`bnTwoPass`: centre, then scale; `bnOnePass`: the
  variance as mean of squares minus squared mean and the affine map folded into one scale and one shift).  Every definition
  below takes the form as a parameter `k`; that the two forms agree on finite data is proved elsewhere.
-/
import Idealize.ShloMosaic.PureOps.Ideal

noncomputable section

open scoped BigOperators

namespace EdgeNodeLayer

open Idealize.ShloMosaic

/-- The constants the programs carry, as their binary words. -/
abbrev cZero : EReal := Ideal.ofBits .f32 0x00000000#32
abbrev cOne : EReal := Ideal.ofBits .f32 0x3F800000#32
abbrev cHalf : EReal := Ideal.ofBits .f32 0x3F000000#32
abbrev cEps : EReal := Ideal.ofBits .f32 0x3727C5AC#32
/-- the row count 320000 -/
abbrev cRowsE : EReal := Ideal.ofBits .f32 0x489C4000#32
/-- the row count 20000 -/
abbrev cRowsN : EReal := Ideal.ofBits .f32 0x469C4000#32

/-- Batch normalisation and rectifier, centred form: mean `m`, variance the mean of `(x - m)²`,
    `max (((x - m) · rsqrt (v + ε)) · g + b) 0`. -/
def bnTwoPass {ι κ : Type} [Fintype ι] (cnt : EReal) (X : ι → κ → EReal) (g b : κ → EReal) : ι → κ → EReal :=
  fun r c =>
    max (((X r c - Ideal.div (∑ s, X s c) cnt)
          * Ideal.rsqrt (Ideal.div (∑ s, (X s c - Ideal.div (∑ s, X s c) cnt) * (X s c - Ideal.div (∑ s, X s c) cnt)) cnt + cEps))
          * g c + b c) cZero

/-- Batch normalisation and rectifier, folded form: variance `(Σ x²)/n - m²`, `scale = g · rsqrt (var + ε)`,
    `shift = b - m · scale`, `max (x · scale + shift) 0`. -/
def bnOnePass {ι κ : Type} [Fintype ι] (cnt : EReal) (X : ι → κ → EReal) (g b : κ → EReal) : ι → κ → EReal :=
  fun r c =>
    max (X r c * (g c * Ideal.rsqrt ((Ideal.div (∑ s, X s c * X s c) cnt
            - Ideal.div (∑ s, X s c) cnt * Ideal.div (∑ s, X s c) cnt) + cEps))
          + (b c - Ideal.div (∑ s, X s c) cnt * (g c * Ideal.rsqrt ((Ideal.div (∑ s, X s c * X s c) cnt
            - Ideal.div (∑ s, X s c) cnt * Ideal.div (∑ s, X s c) cnt) + cEps)))) cZero

/-- The form chosen by `k`: `true` the folded one, `false` the centred one. -/
def bn (k : Bool) {ι κ : Type} [Fintype ι] (cnt : EReal) (X : ι → κ → EReal) (g b : κ → EReal) : ι → κ → EReal :=
  match k with
  | true => bnOnePass cnt X g b
  | false => bnTwoPass cnt X g b

/-- The argument arrays, entry by entry. -/
structure Args where
  nr : Fin 20000 → Fin 128 → EReal
  er : Fin 320000 → Fin 128 → EReal
  ei : Fin 2 → Fin 160000 → BitVec 32
  lw1 : Fin 256 → Fin 256 → EReal
  lg1 : Fin 256 → EReal
  lb1 : Fin 256 → EReal
  lw2 : Fin 256 → Fin 128 → EReal
  lg2 : Fin 128 → EReal
  lb2 : Fin 128 → EReal
  v1w : Fin 384 → Fin 128 → EReal
  v1g : Fin 128 → EReal
  v1b : Fin 128 → EReal
  v2w1 : Fin 128 → Fin 256 → EReal
  v2g1 : Fin 256 → EReal
  v2b1 : Fin 256 → EReal
  v2w2 : Fin 256 → Fin 128 → EReal
  v2g2 : Fin 128 → EReal
  v2b2 : Fin 128 → EReal
  e11 : EReal
  e12 : EReal
  e2 : EReal

/-- A possibly negative index counted from the end: `w + n` when `w < 0`. -/
def wrapIdx (n : Nat) (w : BitVec 32) : BitVec 32 := if w.slt 0#32 then w + BitVec.ofNat 32 n else w

/-- A gather's row: the index read signed and clamped into `[0, n - 1]`. -/
def clampRow (n : Nat) (hn : 0 < n) (w : BitVec 32) : Fin n := ⟨min w.toInt.toNat (n - 1), by omega⟩

variable (a : Args)

/-- The node feature gathered to row `(e, h)`. -/
def gat (e : Fin 160000) (h : Fin 2) (q : Fin 128) : EReal :=
  a.nr (clampRow 20000 (by norm_num) (wrapIdx 20000 (a.ei h e))) q

/-- The edge feature of row `(e, h)`: row `2 e + h` of the edge array. -/
def erp (e : Fin 160000) (h : Fin 2) (q : Fin 128) : EReal := a.er ⟨2 * e.val + h.val, by omega⟩ q

/-- The gathered features summed over an edge's two rows. -/
def dom (e : Fin 160000) (q : Fin 128) : EReal := gat a e 0 q + gat a e 1 q

/-- First linear map, on `[dom | gat | erp]` (384 features), weight rows taken in three blocks of 128. -/
def y1 (r : Fin 160000 × Fin 2) (c : Fin 128) : EReal :=
  (∑ j : Fin 128, dom a r.1 j * a.v1w ⟨j.val, by omega⟩ c)
    + (∑ j : Fin 128, gat a r.1 r.2 j * a.v1w ⟨j.val + 128, by omega⟩ c)
    + (∑ j : Fin 128, erp a r.1 r.2 j * a.v1w ⟨j.val + 256, by omega⟩ c)

variable (k : Bool)

def h1 : Fin 160000 × Fin 2 → Fin 128 → EReal := bn k cRowsE (y1 a) a.v1g a.v1b

/-- Row `r`'s value scattered to node `n`: the rows whose endpoint, read signed, is `n`. -/
def lvlLocal (n : Fin 20000) (q : Fin 128) : EReal :=
  ∑ r : Fin 160000 × Fin 2, if (a.ei r.2 r.1).toInt = (n.val : ℤ) then h1 a k r q else 0

def ds (e : Fin 160000) (q : Fin 128) : EReal := h1 a k (e, 0) q + h1 a k (e, 1) q

def lvlDom (n : Fin 20000) (q : Fin 128) : EReal :=
  ∑ r : Fin 160000 × Fin 2, if (a.ei r.2 r.1).toInt = (n.val : ℤ) then ds a k r.1 q else 0

def nodeIn (n : Fin 20000) (q : Fin 128) : EReal :=
  (cOne + a.e11) * a.nr n q + (cOne + a.e12) * lvlLocal a k n q + lvlDom a k n q

def yA (n : Fin 20000) (c : Fin 256) : EReal := ∑ j : Fin 128, nodeIn a k n j * a.v2w1 j c

def hA : Fin 20000 → Fin 256 → EReal := bn k cRowsN (yA a k) a.v2g1 a.v2b1

def yB (n : Fin 20000) (c : Fin 128) : EReal := ∑ j : Fin 256, hA a k n j * a.v2w2 j c

/-- The node result. -/
def nodeOut : Fin 20000 → Fin 128 → EReal := bn k cRowsN (yB a k) a.v2g2 a.v2b2

/-- Half the sum of an edge's two feature rows. -/
def emean (e : Fin 160000) (q : Fin 128) : EReal := (erp a e 0 q + erp a e 1 q) * cHalf

def p0 (e : Fin 160000) (q : Fin 128) : EReal := (cOne + a.e2) * emean a e q + dom a e q

def p1 (e : Fin 160000) (h : Fin 2) (q : Fin 128) : EReal := (cOne + a.e2) * erp a e h q + gat a e h q

/-- First edge map, on `[p0 | p1]` (256 features), weight rows in two blocks of 128. -/
def yC (r : Fin 160000 × Fin 2) (c : Fin 256) : EReal :=
  (∑ j : Fin 128, p0 a r.1 j * a.lw1 ⟨j.val, by omega⟩ c)
    + (∑ j : Fin 128, p1 a r.1 r.2 j * a.lw1 ⟨j.val + 128, by omega⟩ c)

def hC : Fin 160000 × Fin 2 → Fin 256 → EReal := bn k cRowsE (yC a) a.lg1 a.lb1

def yD (r : Fin 160000 × Fin 2) (c : Fin 128) : EReal := ∑ j : Fin 256, hC a k r j * a.lw2 j c

/-- The edge result, row `(e, h)`. -/
def edgeOut : Fin 160000 × Fin 2 → Fin 128 → EReal := bn k cRowsE (yD a k) a.lg2 a.lb2

/-- Every float entry of the arguments is a real number. -/
structure Args.Finite (a : Args) : Prop where
  nr : ∀ n q, ∃ x : ℝ, a.nr n q = x
  er : ∀ n q, ∃ x : ℝ, a.er n q = x
  lw1 : ∀ i j, ∃ x : ℝ, a.lw1 i j = x
  lg1 : ∀ i, ∃ x : ℝ, a.lg1 i = x
  lb1 : ∀ i, ∃ x : ℝ, a.lb1 i = x
  lw2 : ∀ i j, ∃ x : ℝ, a.lw2 i j = x
  lg2 : ∀ i, ∃ x : ℝ, a.lg2 i = x
  lb2 : ∀ i, ∃ x : ℝ, a.lb2 i = x
  v1w : ∀ i j, ∃ x : ℝ, a.v1w i j = x
  v1g : ∀ i, ∃ x : ℝ, a.v1g i = x
  v1b : ∀ i, ∃ x : ℝ, a.v1b i = x
  v2w1 : ∀ i j, ∃ x : ℝ, a.v2w1 i j = x
  v2g1 : ∀ i, ∃ x : ℝ, a.v2g1 i = x
  v2b1 : ∀ i, ∃ x : ℝ, a.v2b1 i = x
  v2w2 : ∀ i j, ∃ x : ℝ, a.v2w2 i j = x
  v2g2 : ∀ i, ∃ x : ℝ, a.v2g2 i = x
  v2b2 : ∀ i, ∃ x : ℝ, a.v2b2 i = x
  e11 : ∃ x : ℝ, a.e11 = x
  e12 : ∃ x : ℝ, a.e12 = x
  e2 : ∃ x : ℝ, a.e2 = x

end EdgeNodeLayer

end
-- ==== Proof.BnConsts.lean ====
/-
  The constants of the layer as real numbers: each binary word of `Spec.lean` denotes a finite real, and the only
  facts later files need are these values (for the small constant added to the variance, only that it is positive).
-/
import proofs.«131702_j10462540333326_2_alg».proof.Proof.Spec

noncomputable section

namespace EdgeNodeLayer

open Idealize.ShloMosaic

/-- The word `0x00000000` denotes `0`. -/
theorem cZero_eq : cZero = 0 := by
  simp [Ideal.ofBits, Ideal.ieee]

/-- The word `0x3F800000` denotes `1`. -/
theorem cOne_eq : cOne = ((1 : ℝ) : EReal) := by
  simp [Ideal.ofBits, Ideal.ieee, -EReal.coe_mul]; norm_num

/-- The word `0x3F000000` denotes `1/2`. -/
theorem cHalf_eq : cHalf = ((1 / 2 : ℝ) : EReal) := by
  simp [Ideal.ofBits, Ideal.ieee, -EReal.coe_mul]; norm_num

/-- The word `0x489C4000` denotes `320000`. -/
theorem cRowsE_eq : cRowsE = ((320000 : ℝ) : EReal) := by
  simp [Ideal.ofBits, Ideal.ieee, -EReal.coe_mul]; norm_num

/-- The word `0x469C4000` denotes `20000`. -/
theorem cRowsN_eq : cRowsN = ((20000 : ℝ) : EReal) := by
  simp [Ideal.ofBits, Ideal.ieee, -EReal.coe_mul]; norm_num

/-- The word `0x3727C5AC` denotes the real `10995116 · 2⁻⁴⁰`. -/
theorem cEps_eq : cEps = ((10995116 * (2 : ℝ) ^ (-40 : ℤ) : ℝ) : EReal) := by
  simp [Ideal.ofBits, Ideal.ieee, -EReal.coe_mul]

/-- The constant added to the variance is a positive real. -/
theorem cEps_pos : ∃ ε : ℝ, 0 < ε ∧ cEps = (ε : EReal) :=
  ⟨10995116 * (2 : ℝ) ^ (-40 : ℤ), by positivity, cEps_eq⟩

end EdgeNodeLayer

end
-- ==== Proof.LibBnForms.lean ====
/-
  Batch normalisation in its two algebraic forms, on the extended reals, over any finite row type.

  On the extended reals multiplication does not distribute over addition at the infinities, so nothing here is proved
  by rewriting extended-real expressions.  Instead every quantity is shown to be (the image of) a real number, the two
  forms are written as images of two real expressions, and those are equal by algebra in `ℝ`:

    * with `m = (Σ x)/n` and `n` the number of rows, `(Σ (x - m)²)/n = (Σ x²)/n - m²`, a number `v ≥ 0`;
    * with `ε > 0`, `v + ε > 0`, so the reciprocal square root `r` of `v + ε` is a real number;
    * `((x - m) · r) · g + b = x · (g · r) + (b - m · (g · r))`.
-/
import proofs.«131702_j10462540333326_2_alg».proof.Proof.BnConsts

noncomputable section

open scoped BigOperators

namespace EdgeNodeLayer

open Idealize.ShloMosaic

/-! ### Being a real number, and its closure properties -/

/-- An extended real that is (the image of) a real number. -/
def IsReal (y : EReal) : Prop := ∃ x : ℝ, y = (x : EReal)

theorem IsReal.coe (x : ℝ) : IsReal (x : EReal) := ⟨x, rfl⟩

theorem IsReal.zero : IsReal (0 : EReal) := ⟨0, rfl⟩

theorem IsReal.add {y z : EReal} (hy : IsReal y) (hz : IsReal z) : IsReal (y + z) := by
  obtain ⟨p, rfl⟩ := hy; obtain ⟨q, rfl⟩ := hz; exact ⟨p + q, (EReal.coe_add p q).symm⟩

theorem IsReal.sub {y z : EReal} (hy : IsReal y) (hz : IsReal z) : IsReal (y - z) := by
  obtain ⟨p, rfl⟩ := hy; obtain ⟨q, rfl⟩ := hz; exact ⟨p - q, (EReal.coe_sub p q).symm⟩

theorem IsReal.mul {y z : EReal} (hy : IsReal y) (hz : IsReal z) : IsReal (y * z) := by
  obtain ⟨p, rfl⟩ := hy; obtain ⟨q, rfl⟩ := hz; exact ⟨p * q, (EReal.coe_mul p q).symm⟩

theorem IsReal.max {y z : EReal} (hy : IsReal y) (hz : IsReal z) : IsReal (max y z) := by
  rcases max_choice y z with h | h <;> rw [h] <;> assumption

theorem IsReal.ite {p : Prop} [Decidable p] {y z : EReal} (hy : IsReal y) (hz : IsReal z) :
    IsReal (if p then y else z) := by
  split <;> assumption

/-- The image of a finite sum of reals is the sum of the images. -/
theorem coe_sum {ι : Type} (s : Finset ι) (x : ι → ℝ) :
    ((∑ i ∈ s, x i : ℝ) : EReal) = ∑ i ∈ s, (x i : EReal) := by
  classical
  induction s using Finset.induction_on with
  | empty => simp
  | insert i s hi ih => rw [Finset.sum_insert hi, Finset.sum_insert hi, EReal.coe_add, ih]

/-- The image of a maximum of reals is the maximum of the images. -/
theorem coe_max (x y : ℝ) : ((max x y : ℝ) : EReal) = max (x : EReal) (y : EReal) :=
  EReal.coe_strictMono.monotone.map_max

/-- A finite sum of real numbers is a real number. -/
theorem IsReal.sum {ι : Type} (s : Finset ι) {f : ι → EReal} (hf : ∀ i, IsReal (f i)) :
    IsReal (∑ i ∈ s, f i) := by
  choose x hx using hf
  exact ⟨∑ i ∈ s, x i, by rw [coe_sum]; exact Finset.sum_congr rfl (fun i _ => hx i)⟩

/-- The constants `0`, `1`, `1/2` of the layer are real numbers. -/
theorem isReal_cZero : IsReal cZero := ⟨0, cZero_eq⟩
theorem isReal_cOne : IsReal cOne := ⟨1, cOne_eq⟩
theorem isReal_cHalf : IsReal cHalf := ⟨1 / 2, cHalf_eq⟩

/-! ### The algebra in `ℝ` -/

/-- The mean of the squared deviations from the mean is the mean of the squares minus the squared mean. -/
theorem real_var_forms {ι : Type} [Fintype ι] (x : ι → ℝ) (n : ℝ) (hn : n ≠ 0)
    (hcard : (Fintype.card ι : ℝ) = n) :
    (∑ s, (x s - (∑ s, x s) * (1 / n)) * (x s - (∑ s, x s) * (1 / n))) * (1 / n)
      = (∑ s, x s * x s) * (1 / n) - ((∑ s, x s) * (1 / n)) * ((∑ s, x s) * (1 / n)) := by
  have h : ∀ s, (x s - (∑ s, x s) * (1 / n)) * (x s - (∑ s, x s) * (1 / n))
      = x s * x s - (2 * ((∑ s, x s) * (1 / n))) * x s + ((∑ s, x s) * (1 / n)) * ((∑ s, x s) * (1 / n)) := by
    intro s; ring
  simp only [h, Finset.sum_add_distrib, Finset.sum_sub_distrib, ← Finset.mul_sum, Finset.sum_const,
    Finset.card_univ, nsmul_eq_mul, hcard]
  field_simp
  ring

/-- The mean of the squared deviations is nonnegative. -/
theorem real_var_nonneg {ι : Type} [Fintype ι] (x : ι → ℝ) (m n : ℝ) (hn : 0 < n) :
    0 ≤ (∑ s, (x s - m) * (x s - m)) * (1 / n) :=
  mul_nonneg (Finset.sum_nonneg (fun s _ => mul_self_nonneg _)) (by positivity)

/-- Centre-then-scale equals the folded scale and shift. -/
theorem real_affine_forms (x m r g b : ℝ) : ((x - m) * r) * g + b = x * (g * r) + (b - m * (g * r)) := by
  ring

/-! ### The two forms on real data -/

section Forms

variable {ι κ : Type} [Fintype ι]

/-- Dividing the image of a real by the image of a nonzero real. -/
theorem div_coe_coe (s n : ℝ) (hn : n ≠ 0) : Ideal.div (s : EReal) (n : EReal) = ((s * (1 / n) : ℝ) : EReal) := by
  rw [Ideal.div_coe hn, ← EReal.coe_mul]

/-- The reciprocal square root of the image of a positive real. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The real value of the centred form. -/
def bnReal (n ε : ℝ) (x : ι → κ → ℝ) (g b : κ → ℝ) (r : ι) (c : κ) : ℝ :=
  max (((x r c - (∑ s, x s c) * (1 / n))
        * (Real.sqrt ((∑ s, (x s c - (∑ s, x s c) * (1 / n)) * (x s c - (∑ s, x s c) * (1 / n))) * (1 / n) + ε))⁻¹)
        * g c + b c) 0

/-- The centred form on real data is the image of `bnReal`. -/
theorem bnTwoPass_coe (n ε : ℝ) (hn : 0 < n) (hε : 0 < ε) (heps : cEps = (ε : EReal))
    (x : ι → κ → ℝ) (g b : κ → ℝ) (r : ι) (c : κ) :
    bnTwoPass (n : EReal) (fun r c => (x r c : EReal)) (fun c => (g c : EReal)) (fun c => (b c : EReal)) r c
      = (bnReal n ε x g b r c : EReal) := by
  have hv := real_var_nonneg (fun s => x s c) ((∑ s, x s c) * (1 / n)) n hn
  unfold bnTwoPass bnReal
  simp only []
  rw [heps, cZero_eq, ← coe_sum, div_coe_coe _ _ hn.ne']
  simp only [← EReal.coe_sub, ← EReal.coe_mul]
  rw [← coe_sum, div_coe_coe _ _ hn.ne', ← EReal.coe_add, rsqrt_coe_pos _ (by linarith),
    ← EReal.coe_mul, ← EReal.coe_mul, ← EReal.coe_add, ← EReal.coe_zero, ← coe_max]

/-- The folded form on real data is the image of `bnReal` too. -/
theorem bnOnePass_coe (n ε : ℝ) (hn : 0 < n) (hε : 0 < ε) (heps : cEps = (ε : EReal))
    (hcard : (Fintype.card ι : ℝ) = n)
    (x : ι → κ → ℝ) (g b : κ → ℝ) (r : ι) (c : κ) :
    bnOnePass (n : EReal) (fun r c => (x r c : EReal)) (fun c => (g c : EReal)) (fun c => (b c : EReal)) r c
      = (bnReal n ε x g b r c : EReal) := by
  have hv := real_var_nonneg (fun s => x s c) ((∑ s, x s c) * (1 / n)) n hn
  have hvar := real_var_forms (fun s => x s c) n hn.ne' hcard
  unfold bnOnePass bnReal
  simp only []
  rw [heps, cZero_eq, ← coe_sum, div_coe_coe _ _ hn.ne']
  simp only [← EReal.coe_mul]
  rw [← coe_sum, div_coe_coe _ _ hn.ne', ← EReal.coe_sub, ← EReal.coe_add, ← hvar,
    rsqrt_coe_pos _ (by linarith)]
  simp only [← EReal.coe_mul, ← EReal.coe_sub, ← EReal.coe_add]
  rw [← EReal.coe_zero, ← coe_max, real_affine_forms]

/-- The form chosen by `true` is the folded one. -/
theorem bn_true (cnt : EReal) (X : ι → κ → EReal) (g b : κ → EReal) : bn true cnt X g b = bnOnePass cnt X g b := rfl

/-- The form chosen by `false` is the centred one. -/
theorem bn_false (cnt : EReal) (X : ι → κ → EReal) (g b : κ → EReal) : bn false cnt X g b = bnTwoPass cnt X g b := rfl

/-- **The two forms agree on real data.**  Over a row type with `n > 0` rows, with real data, scale and offset, the
    folded form (`true`) and the centred form (`false`) of batch normalisation are the same function. -/
theorem bn_forms (n : ℝ) (hn : 0 < n) (hcard : (Fintype.card ι : ℝ) = n) (cnt : EReal) (hcnt : cnt = (n : EReal))
    (X : ι → κ → EReal) (g b : κ → EReal)
    (hX : ∀ r c, IsReal (X r c)) (hg : ∀ c, IsReal (g c)) (hb : ∀ c, IsReal (b c)) :
    bn true cnt X g b = bn false cnt X g b := by
  obtain ⟨ε, hε, heps⟩ := cEps_pos
  choose x hx using hX
  choose g' hg' using hg
  choose b' hb' using hb
  obtain rfl : X = fun r c => (x r c : EReal) := funext fun r => funext fun c => hx r c
  obtain rfl : g = fun c => (g' c : EReal) := funext hg'
  obtain rfl : b = fun c => (b' c : EReal) := funext hb'
  subst hcnt
  funext r c
  rw [bn_true, bn_false, bnOnePass_coe n ε hn hε heps hcard, bnTwoPass_coe n ε hn hε heps]

/-- **Either form of real data is real.**  Under the hypotheses of `bn_forms` every entry of the result is a real
    number, whichever form computes it. -/
theorem bn_isReal (n : ℝ) (hn : 0 < n) (hcard : (Fintype.card ι : ℝ) = n) (cnt : EReal) (hcnt : cnt = (n : EReal))
    (X : ι → κ → EReal) (g b : κ → EReal)
    (hX : ∀ r c, IsReal (X r c)) (hg : ∀ c, IsReal (g c)) (hb : ∀ c, IsReal (b c)) (k : Bool) (r : ι) (c : κ) :
    IsReal (bn k cnt X g b r c) := by
  have hforms := bn_forms n hn hcard cnt hcnt X g b hX hg hb
  have hfalse : IsReal (bn false cnt X g b r c) := by
    obtain ⟨ε, hε, heps⟩ := cEps_pos
    choose x hx using hX
    choose g' hg' using hg
    choose b' hb' using hb
    obtain rfl : X = fun r c => (x r c : EReal) := funext fun r => funext fun c => hx r c
    obtain rfl : g = fun c => (g' c : EReal) := funext hg'
    obtain rfl : b = fun c => (b' c : EReal) := funext hb'
    subst hcnt
    rw [bn_false]
    exact ⟨_, bnTwoPass_coe n ε hn hε heps x g' b' r c⟩
  cases k
  · exact hfalse
  · rw [hforms]; exact hfalse

end Forms

end EdgeNodeLayer

end
-- ==== Proof.BnFinite.lean ====
/-
  The two forms of batch normalisation through the whole layer: on finite arguments every intermediate of
  `Spec.lean` is a real number, so at each of the five normalisation stages the general law of `LibBnForms.lean`
  applies, and the node result and the edge result do not depend on the form.

  The stages feed one another (the first stage's output is scattered to the nodes and normalised again, twice), so for
  each stage two facts are carried forward, in order: the two forms give the same function, and its values are real.
-/
import proofs.«131702_j10462540333326_2_alg».proof.Proof.LibBnForms

noncomputable section

open scoped BigOperators

namespace EdgeNodeLayer

/-- The edge rows `(e, h)` number `320000`. -/
theorem card_rowsE : (Fintype.card (Fin 160000 × Fin 2) : ℝ) = 320000 := by
  rw [Fintype.card_prod, Fintype.card_fin, Fintype.card_fin]; norm_num

/-- The node rows number `20000`. -/
theorem card_rowsN : (Fintype.card (Fin 20000) : ℝ) = 20000 := by
  rw [Fintype.card_fin]; norm_num

variable (a : Args) (ha : a.Finite)
include ha

/-! ### The inputs of the first stage -/

theorem gat_real (e : Fin 160000) (h : Fin 2) (q : Fin 128) : IsReal (gat a e h q) := ha.nr _ _

theorem erp_real (e : Fin 160000) (h : Fin 2) (q : Fin 128) : IsReal (erp a e h q) := ha.er _ _

theorem dom_real (e : Fin 160000) (q : Fin 128) : IsReal (dom a e q) :=
  (gat_real a ha e 0 q).add (gat_real a ha e 1 q)

theorem y1_real (r : Fin 160000 × Fin 2) (c : Fin 128) : IsReal (y1 a r c) :=
  ((IsReal.sum _ fun _ => (dom_real a ha _ _).mul (ha.v1w _ _)).add
    (IsReal.sum _ fun _ => (gat_real a ha _ _ _).mul (ha.v1w _ _))).add
    (IsReal.sum _ fun _ => (erp_real a ha _ _ _).mul (ha.v1w _ _))

/-! ### First stage, and its scatter to the nodes -/

theorem h1_forms : h1 a true = h1 a false :=
  bn_forms 320000 (by norm_num) card_rowsE cRowsE cRowsE_eq (y1 a) a.v1g a.v1b (y1_real a ha) ha.v1g ha.v1b

theorem h1_real (k : Bool) (r : Fin 160000 × Fin 2) (c : Fin 128) : IsReal (h1 a k r c) :=
  bn_isReal 320000 (by norm_num) card_rowsE cRowsE cRowsE_eq (y1 a) a.v1g a.v1b (y1_real a ha) ha.v1g ha.v1b k r c

theorem lvlLocal_forms : lvlLocal a true = lvlLocal a false := by
  funext n q; unfold lvlLocal; rw [h1_forms a ha]

theorem lvlLocal_real (k : Bool) (n : Fin 20000) (q : Fin 128) : IsReal (lvlLocal a k n q) :=
  IsReal.sum _ fun _ => IsReal.ite (h1_real a ha k _ _) IsReal.zero

theorem ds_forms : ds a true = ds a false := by
  funext e q; unfold ds; rw [h1_forms a ha]

theorem ds_real (k : Bool) (e : Fin 160000) (q : Fin 128) : IsReal (ds a k e q) :=
  (h1_real a ha k _ _).add (h1_real a ha k _ _)

theorem lvlDom_forms : lvlDom a true = lvlDom a false := by
  funext n q; unfold lvlDom; rw [ds_forms a ha]

theorem lvlDom_real (k : Bool) (n : Fin 20000) (q : Fin 128) : IsReal (lvlDom a k n q) :=
  IsReal.sum _ fun _ => IsReal.ite (ds_real a ha k _ _) IsReal.zero

theorem nodeIn_forms : nodeIn a true = nodeIn a false := by
  funext n q; unfold nodeIn; rw [lvlLocal_forms a ha, lvlDom_forms a ha]

theorem nodeIn_real (k : Bool) (n : Fin 20000) (q : Fin 128) : IsReal (nodeIn a k n q) :=
  (((isReal_cOne.add ha.e11).mul (ha.nr _ _)).add ((isReal_cOne.add ha.e12).mul (lvlLocal_real a ha k _ _))).add
    (lvlDom_real a ha k _ _)

theorem yA_forms : yA a true = yA a false := by
  funext n c; unfold yA; rw [nodeIn_forms a ha]

theorem yA_real (k : Bool) (n : Fin 20000) (c : Fin 256) : IsReal (yA a k n c) :=
  IsReal.sum _ fun _ => (nodeIn_real a ha k _ _).mul (ha.v2w1 _ _)

/-! ### The two node stages -/

theorem hA_forms : hA a true = hA a false := by
  unfold hA; rw [yA_forms a ha]
  exact bn_forms 20000 (by norm_num) card_rowsN cRowsN cRowsN_eq (yA a false) a.v2g1 a.v2b1 (yA_real a ha false)
    ha.v2g1 ha.v2b1

theorem hA_real (k : Bool) (n : Fin 20000) (c : Fin 256) : IsReal (hA a k n c) :=
  bn_isReal 20000 (by norm_num) card_rowsN cRowsN cRowsN_eq (yA a k) a.v2g1 a.v2b1 (yA_real a ha k) ha.v2g1 ha.v2b1
    k n c

theorem yB_forms : yB a true = yB a false := by
  funext n c; unfold yB; rw [hA_forms a ha]

theorem yB_real (k : Bool) (n : Fin 20000) (c : Fin 128) : IsReal (yB a k n c) :=
  IsReal.sum _ fun _ => (hA_real a ha k _ _).mul (ha.v2w2 _ _)

/-- The node result does not depend on the form of batch normalisation. -/
theorem nodeOut_forms : nodeOut a true = nodeOut a false := by
  unfold nodeOut; rw [yB_forms a ha]
  exact bn_forms 20000 (by norm_num) card_rowsN cRowsN cRowsN_eq (yB a false) a.v2g2 a.v2b2 (yB_real a ha false)
    ha.v2g2 ha.v2b2

/-! ### The two edge stages -/

theorem emean_real (e : Fin 160000) (q : Fin 128) : IsReal (emean a e q) :=
  ((erp_real a ha e 0 q).add (erp_real a ha e 1 q)).mul isReal_cHalf

theorem p0_real (e : Fin 160000) (q : Fin 128) : IsReal (p0 a e q) :=
  ((isReal_cOne.add ha.e2).mul (emean_real a ha e q)).add (dom_real a ha e q)

theorem p1_real (e : Fin 160000) (h : Fin 2) (q : Fin 128) : IsReal (p1 a e h q) :=
  ((isReal_cOne.add ha.e2).mul (erp_real a ha e h q)).add (gat_real a ha e h q)

theorem yC_real (r : Fin 160000 × Fin 2) (c : Fin 256) : IsReal (yC a r c) :=
  (IsReal.sum _ fun _ => (p0_real a ha _ _).mul (ha.lw1 _ _)).add
    (IsReal.sum _ fun _ => (p1_real a ha _ _ _).mul (ha.lw1 _ _))

theorem hC_forms : hC a true = hC a false :=
  bn_forms 320000 (by norm_num) card_rowsE cRowsE cRowsE_eq (yC a) a.lg1 a.lb1 (yC_real a ha) ha.lg1 ha.lb1

theorem hC_real (k : Bool) (r : Fin 160000 × Fin 2) (c : Fin 256) : IsReal (hC a k r c) :=
  bn_isReal 320000 (by norm_num) card_rowsE cRowsE cRowsE_eq (yC a) a.lg1 a.lb1 (yC_real a ha) ha.lg1 ha.lb1 k r c

theorem yD_forms : yD a true = yD a false := by
  funext r c; unfold yD; rw [hC_forms a ha]

theorem yD_real (k : Bool) (r : Fin 160000 × Fin 2) (c : Fin 128) : IsReal (yD a k r c) :=
  IsReal.sum _ fun _ => (hC_real a ha k _ _).mul (ha.lw2 _ _)

/-- The edge result does not depend on the form of batch normalisation. -/
theorem edgeOut_forms : edgeOut a true = edgeOut a false := by
  unfold edgeOut; rw [yD_forms a ha]
  exact bn_forms 320000 (by norm_num) card_rowsE cRowsE cRowsE_eq (yD a false) a.lg2 a.lb2 (yD_real a ha false)
    ha.lg2 ha.lb2

end EdgeNodeLayer

end
-- ==== Proof.PreFinite.lean ====
/-
  The precondition read back: the printed predicate says, of each float argument, that the absolute value of every entry
  is below `+∞` (the word `0x7F800000`), all twenty statements and-ed together.  On the extended reals `|x| < ⊤` holds
  exactly when `x` is a real number, so the precondition gives: every entry of every float argument is a real number.
-/
import proofs.«131702_j10462540333326_2_alg».proof.Pre_finite_inputs
import proofs.«131702_j10462540333326_2_alg».proof.Proof.Spec
import Idealize.ShloMosaic.Lib.ReduceAll
import Idealize.ShloMosaic.Lib.ValueIdx

noncomputable section

namespace EdgeNodeLayer

open Idealize.ShloMosaic Cert.Pre_finite_inputs

/-- The shape with no axes has one index. -/
instance subsingleton_scalar_idx : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value `max x (-x)` compares below `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  change BitVec.ofBool (decide (max x (-x) < Ideal.ofBits .f32 0x7F800000#32)) = 1#1 at h
  rw [ofBits_inf] at h
  have hlt : max x (-x) < ⊤ := by
    by_contra hc
    rw [decide_eq_false hc] at h
    exact absurd h (by decide)
  induction x using EReal.rec with
  | bot => simp at hlt
  | coe r => exact ⟨r, rfl⟩
  | top => simp at hlt

/-- **All entries below infinity in absolute value, and-reduced to one bit.**  If the and-reduction over all axes of the
    array of comparisons `|x i| < y i`, where every `y i` is `+∞`, is `1`, then every entry of `x` is a real number. -/
theorem real_of_all_abs_lt_inf {s : Shape} {axes : List (Fin s.rank)} (x y : FVec Ideal s .f32)
    (hy : ∀ i, y i = Ideal.ofBits .f32 0x7F800000#32) (init : IVec S_ 1) (hr : s.ReducesTo axes S_)
    (hu : 0 < S_.numel) (j : S_.Idx)
    (e : Host.reduce IntOp.andi (cmpf .olt (Host.absf x) y) init hr hu j = 1#1) (i : s.Idx) :
    ∃ r : ℝ, x i = (r : EReal) := by
  have hi := Host.reduce_andi_all _ init hr hu j e i
  rw [ValueIdx.cmpf_apply, hy i] at hi
  exact real_of_abs_lt_inf (x i) hi

variable [Facts]

/-- **The precondition gives finite arguments.**  If the printed predicate evaluates to `1`, every entry of every float
    argument is a real number (the integer argument `x2` is not constrained). -/
theorem finite_of_pre (x0 : FVec Ideal S20000x128 .f32) (x1 : FVec Ideal S320000x128 .f32) (x2 : IVec S2x160000 32) (x3 : FVec Ideal S256x256 .f32) (x4 : FVec Ideal S256 .f32) (x5 : FVec Ideal S256 .f32) (x6 : FVec Ideal S256x128 .f32) (x7 : FVec Ideal S128 .f32) (x8 : FVec Ideal S128 .f32) (x9 : FVec Ideal S384x128 .f32) (x10 : FVec Ideal S128 .f32) (x11 : FVec Ideal S128 .f32) (x12 : FVec Ideal S128x256 .f32) (x13 : FVec Ideal S256 .f32) (x14 : FVec Ideal S256 .f32) (x15 : FVec Ideal S256x128 .f32) (x16 : FVec Ideal S128 .f32) (x17 : FVec Ideal S128 .f32) (x18 : FVec Ideal S_ .f32) (x19 : FVec Ideal S_ .f32) (x20 : FVec Ideal S_ .f32)
    (h : Cert.Pre_finite_inputs.fn (F := Ideal) x0 x1 x2 x3 x4 x5 x6 x7 x8 x9 x10 x11 x12 x13 x14 x15 x16 x17 x18 x19 x20 = fun _ => 1#1) :
    (∀ i, ∃ r : ℝ, x0 i = (r : EReal)) ∧
      (∀ i, ∃ r : ℝ, x1 i = (r : EReal)) ∧
      (∀ i, ∃ r : ℝ, x3 i = (r : EReal)) ∧
      (∀ i, ∃ r : ℝ, x4 i = (r : EReal)) ∧
      (∀ i, ∃ r : ℝ, x5 i = (r : EReal)) ∧
      (∀ i, ∃ r : ℝ, x6 i = (r : EReal)) ∧
      (∀ i, ∃ r : ℝ, x7 i = (r : EReal)) ∧
      (∀ i, ∃ r : ℝ, x8 i = (r : EReal)) ∧
      (∀ i, ∃ r : ℝ, x9 i = (r : EReal)) ∧
      (∀ i, ∃ r : ℝ, x10 i = (r : EReal)) ∧
      (∀ i, ∃ r : ℝ, x11 i = (r : EReal)) ∧
      (∀ i, ∃ r : ℝ, x12 i = (r : EReal)) ∧
      (∀ i, ∃ r : ℝ, x13 i = (r : EReal)) ∧
      (∀ i, ∃ r : ℝ, x14 i = (r : EReal)) ∧
      (∀ i, ∃ r : ℝ, x15 i = (r : EReal)) ∧
      (∀ i, ∃ r : ℝ, x16 i = (r : EReal)) ∧
      (∀ i, ∃ r : ℝ, x17 i = (r : EReal)) ∧
      (∀ i, ∃ r : ℝ, x18 i = (r : EReal)) ∧
      (∀ i, ∃ r : ℝ, x19 i = (r : EReal)) ∧
      (∀ i, ∃ r : ℝ, x20 i = (r : EReal)) := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩, h16⟩, h17⟩, h18⟩, h19⟩, h20⟩ := h0
  exact ⟨fun i => real_of_all_abs_lt_inf x0 _ (fun _ => rfl) _ _ _ _ h0 i,
    fun i => real_of_all_abs_lt_inf x1 _ (fun _ => rfl) _ _ _ _ h1 i,
    fun i => real_of_all_abs_lt_inf x3 _ (fun _ => rfl) _ _ _ _ h3 i,
    fun i => real_of_all_abs_lt_inf x4 _ (fun _ => rfl) _ _ _ _ h4 i,
    fun i => real_of_all_abs_lt_inf x5 _ (fun _ => rfl) _ _ _ _ h5 i,
    fun i => real_of_all_abs_lt_inf x6 _ (fun _ => rfl) _ _ _ _ h6 i,
    fun i => real_of_all_abs_lt_inf x7 _ (fun _ => rfl) _ _ _ _ h7 i,
    fun i => real_of_all_abs_lt_inf x8 _ (fun _ => rfl) _ _ _ _ h8 i,
    fun i => real_of_all_abs_lt_inf x9 _ (fun _ => rfl) _ _ _ _ h9 i,
    fun i => real_of_all_abs_lt_inf x10 _ (fun _ => rfl) _ _ _ _ h10 i,
    fun i => real_of_all_abs_lt_inf x11 _ (fun _ => rfl) _ _ _ _ h11 i,
    fun i => real_of_all_abs_lt_inf x12 _ (fun _ => rfl) _ _ _ _ h12 i,
    fun i => real_of_all_abs_lt_inf x13 _ (fun _ => rfl) _ _ _ _ h13 i,
    fun i => real_of_all_abs_lt_inf x14 _ (fun _ => rfl) _ _ _ _ h14 i,
    fun i => real_of_all_abs_lt_inf x15 _ (fun _ => rfl) _ _ _ _ h15 i,
    fun i => real_of_all_abs_lt_inf x16 _ (fun _ => rfl) _ _ _ _ h16 i,
    fun i => real_of_all_abs_lt_inf x17 _ (fun _ => rfl) _ _ _ _ h17 i,
    fun i => real_of_all_abs_lt_inf x18 _ (fun _ => rfl) _ _ _ _ h18 i,
    fun i => real_of_all_abs_lt_inf x19 _ (fun _ => rfl) _ _ _ _ h19 i,
    fun i => real_of_all_abs_lt_inf x20 _ (fun _ => rfl) _ _ _ _ h20 i⟩

end EdgeNodeLayer

end
-- ==== Proof.ArgsOf.lean ====
/-
  The argument arrays of the two printed programs, read entry by entry as the `Args` of `Spec.lean`: a rank-2 array at
  the index of its two coordinates, a rank-1 array at the index of its coordinate, a scalar at its one index.  From the
  precondition the kernel's arguments are finite, and memories that agree on the arguments give the same `Args`.
-/
import proofs.«131702_j10462540333326_2_alg».proof.Defs
import proofs.«131702_j10462540333326_2_alg».proof.Proof.Spec
import proofs.«131702_j10462540333326_2_alg».proof.Proof.PreFinite
import Idealize.ShloMosaic.Lib.ValueIdx

open Idealize.ShloMosaic Idealize.SL.Sem

namespace EdgeNodeLayer

/-- Twenty-one arrays of the programs' argument types, read entry by entry. -/
noncomputable def argsOf
    (x0 : FVec Ideal (⟨2, ![20000, 128]⟩ : Shape) .f32)
    (x1 : FVec Ideal (⟨2, ![320000, 128]⟩ : Shape) .f32)
    (x2 : IVec (⟨2, ![2, 160000]⟩ : Shape) 32)
    (x3 : FVec Ideal (⟨2, ![256, 256]⟩ : Shape) .f32)
    (x4 : FVec Ideal (⟨1, ![256]⟩ : Shape) .f32)
    (x5 : FVec Ideal (⟨1, ![256]⟩ : Shape) .f32)
    (x6 : FVec Ideal (⟨2, ![256, 128]⟩ : Shape) .f32)
    (x7 : FVec Ideal (⟨1, ![128]⟩ : Shape) .f32)
    (x8 : FVec Ideal (⟨1, ![128]⟩ : Shape) .f32)
    (x9 : FVec Ideal (⟨2, ![384, 128]⟩ : Shape) .f32)
    (x10 : FVec Ideal (⟨1, ![128]⟩ : Shape) .f32)
    (x11 : FVec Ideal (⟨1, ![128]⟩ : Shape) .f32)
    (x12 : FVec Ideal (⟨2, ![128, 256]⟩ : Shape) .f32)
    (x13 : FVec Ideal (⟨1, ![256]⟩ : Shape) .f32)
    (x14 : FVec Ideal (⟨1, ![256]⟩ : Shape) .f32)
    (x15 : FVec Ideal (⟨2, ![256, 128]⟩ : Shape) .f32)
    (x16 : FVec Ideal (⟨1, ![128]⟩ : Shape) .f32)
    (x17 : FVec Ideal (⟨1, ![128]⟩ : Shape) .f32)
    (x18 : FVec Ideal (⟨0, ![]⟩ : Shape) .f32)
    (x19 : FVec Ideal (⟨0, ![]⟩ : Shape) .f32)
    (x20 : FVec Ideal (⟨0, ![]⟩ : Shape) .f32) : Args :=
  {
    nr := fun i j => x0 (ValueIdx.ix2 i j)
    er := fun i j => x1 (ValueIdx.ix2 i j)
    ei := fun i j => x2 (ValueIdx.ix2 i j)
    lw1 := fun i j => x3 (ValueIdx.ix2 i j)
    lg1 := fun i => x4 (ValueIdx.ix1 i)
    lb1 := fun i => x5 (ValueIdx.ix1 i)
    lw2 := fun i j => x6 (ValueIdx.ix2 i j)
    lg2 := fun i => x7 (ValueIdx.ix1 i)
    lb2 := fun i => x8 (ValueIdx.ix1 i)
    v1w := fun i j => x9 (ValueIdx.ix2 i j)
    v1g := fun i => x10 (ValueIdx.ix1 i)
    v1b := fun i => x11 (ValueIdx.ix1 i)
    v2w1 := fun i j => x12 (ValueIdx.ix2 i j)
    v2g1 := fun i => x13 (ValueIdx.ix1 i)
    v2b1 := fun i => x14 (ValueIdx.ix1 i)
    v2w2 := fun i j => x15 (ValueIdx.ix2 i j)
    v2g2 := fun i => x16 (ValueIdx.ix1 i)
    v2b2 := fun i => x17 (ValueIdx.ix1 i)
    e11 := x18 ValueIdx.ix0
    e12 := x19 ValueIdx.ix0
    e2 := x20 ValueIdx.ix0 }

/-- If the printed precondition holds of the arrays, every float entry is a real number. -/
theorem argsOf_finite [Cert.Pre_finite_inputs.Facts]
    (x0 : FVec Ideal (⟨2, ![20000, 128]⟩ : Shape) .f32)
    (x1 : FVec Ideal (⟨2, ![320000, 128]⟩ : Shape) .f32)
    (x2 : IVec (⟨2, ![2, 160000]⟩ : Shape) 32)
    (x3 : FVec Ideal (⟨2, ![256, 256]⟩ : Shape) .f32)
    (x4 : FVec Ideal (⟨1, ![256]⟩ : Shape) .f32)
    (x5 : FVec Ideal (⟨1, ![256]⟩ : Shape) .f32)
    (x6 : FVec Ideal (⟨2, ![256, 128]⟩ : Shape) .f32)
    (x7 : FVec Ideal (⟨1, ![128]⟩ : Shape) .f32)
    (x8 : FVec Ideal (⟨1, ![128]⟩ : Shape) .f32)
    (x9 : FVec Ideal (⟨2, ![384, 128]⟩ : Shape) .f32)
    (x10 : FVec Ideal (⟨1, ![128]⟩ : Shape) .f32)
    (x11 : FVec Ideal (⟨1, ![128]⟩ : Shape) .f32)
    (x12 : FVec Ideal (⟨2, ![128, 256]⟩ : Shape) .f32)
    (x13 : FVec Ideal (⟨1, ![256]⟩ : Shape) .f32)
    (x14 : FVec Ideal (⟨1, ![256]⟩ : Shape) .f32)
    (x15 : FVec Ideal (⟨2, ![256, 128]⟩ : Shape) .f32)
    (x16 : FVec Ideal (⟨1, ![128]⟩ : Shape) .f32)
    (x17 : FVec Ideal (⟨1, ![128]⟩ : Shape) .f32)
    (x18 : FVec Ideal (⟨0, ![]⟩ : Shape) .f32)
    (x19 : FVec Ideal (⟨0, ![]⟩ : Shape) .f32)
    (x20 : FVec Ideal (⟨0, ![]⟩ : Shape) .f32)
    (h : Cert.Pre_finite_inputs.fn (F := Ideal) x0 x1 x2 x3 x4 x5 x6 x7 x8 x9 x10 x11 x12 x13 x14 x15 x16 x17 x18 x19 x20 = fun _ => 1#1) :
    (argsOf x0 x1 x2 x3 x4 x5 x6 x7 x8 x9 x10 x11 x12 x13 x14 x15 x16 x17 x18 x19 x20).Finite := by
  obtain ⟨f0, f1, f3, f4, f5, f6, f7, f8, f9, f10, f11, f12, f13, f14, f15, f16, f17, f18, f19, f20⟩ :=
    finite_of_pre x0 x1 x2 x3 x4 x5 x6 x7 x8 x9 x10 x11 x12 x13 x14 x15 x16 x17 x18 x19 x20 h
  exact {
    nr := fun i j => f0 (ValueIdx.ix2 i j)
    er := fun i j => f1 (ValueIdx.ix2 i j)
    lw1 := fun i j => f3 (ValueIdx.ix2 i j)
    lg1 := fun i => f4 (ValueIdx.ix1 i)
    lb1 := fun i => f5 (ValueIdx.ix1 i)
    lw2 := fun i j => f6 (ValueIdx.ix2 i j)
    lg2 := fun i => f7 (ValueIdx.ix1 i)
    lb2 := fun i => f8 (ValueIdx.ix1 i)
    v1w := fun i j => f9 (ValueIdx.ix2 i j)
    v1g := fun i => f10 (ValueIdx.ix1 i)
    v1b := fun i => f11 (ValueIdx.ix1 i)
    v2w1 := fun i j => f12 (ValueIdx.ix2 i j)
    v2g1 := fun i => f13 (ValueIdx.ix1 i)
    v2b1 := fun i => f14 (ValueIdx.ix1 i)
    v2w2 := fun i j => f15 (ValueIdx.ix2 i j)
    v2g2 := fun i => f16 (ValueIdx.ix1 i)
    v2b2 := fun i => f17 (ValueIdx.ix1 i)
    e11 := f18 ValueIdx.ix0
    e12 := f19 ValueIdx.ix0
    e2 := f20 ValueIdx.ix0 }

/-- Equal arrays give equal arguments. -/
theorem argsOf_congr
    {x0 y0 : FVec Ideal (⟨2, ![20000, 128]⟩ : Shape) .f32}
    {x1 y1 : FVec Ideal (⟨2, ![320000, 128]⟩ : Shape) .f32}
    {x2 y2 : IVec (⟨2, ![2, 160000]⟩ : Shape) 32}
    {x3 y3 : FVec Ideal (⟨2, ![256, 256]⟩ : Shape) .f32}
    {x4 y4 : FVec Ideal (⟨1, ![256]⟩ : Shape) .f32}
    {x5 y5 : FVec Ideal (⟨1, ![256]⟩ : Shape) .f32}
    {x6 y6 : FVec Ideal (⟨2, ![256, 128]⟩ : Shape) .f32}
    {x7 y7 : FVec Ideal (⟨1, ![128]⟩ : Shape) .f32}
    {x8 y8 : FVec Ideal (⟨1, ![128]⟩ : Shape) .f32}
    {x9 y9 : FVec Ideal (⟨2, ![384, 128]⟩ : Shape) .f32}
    {x10 y10 : FVec Ideal (⟨1, ![128]⟩ : Shape) .f32}
    {x11 y11 : FVec Ideal (⟨1, ![128]⟩ : Shape) .f32}
    {x12 y12 : FVec Ideal (⟨2, ![128, 256]⟩ : Shape) .f32}
    {x13 y13 : FVec Ideal (⟨1, ![256]⟩ : Shape) .f32}
    {x14 y14 : FVec Ideal (⟨1, ![256]⟩ : Shape) .f32}
    {x15 y15 : FVec Ideal (⟨2, ![256, 128]⟩ : Shape) .f32}
    {x16 y16 : FVec Ideal (⟨1, ![128]⟩ : Shape) .f32}
    {x17 y17 : FVec Ideal (⟨1, ![128]⟩ : Shape) .f32}
    {x18 y18 : FVec Ideal (⟨0, ![]⟩ : Shape) .f32}
    {x19 y19 : FVec Ideal (⟨0, ![]⟩ : Shape) .f32}
    {x20 y20 : FVec Ideal (⟨0, ![]⟩ : Shape) .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    argsOf x0 x1 x2 x3 x4 x5 x6 x7 x8 x9 x10 x11 x12 x13 x14 x15 x16 x17 x18 x19 x20 = argsOf y0 y1 y2 y3 y4 y5 y6 y7 y8 y9 y10 y11 y12 y13 y14 y15 y16 y17 y18 y19 y20 := by
  subst_vars; rfl

end EdgeNodeLayer

namespace Cert.KernelIdeal.ArgsOf

/-- The kernel program's argument arrays on device `c`, entry by entry. -/
noncomputable def kerArgs (m : (ℓ : Loc Cert.KernelIdeal.nD Cert.KernelIdeal.τ Cert.KernelIdeal.sig) → Buf (Elt Ideal) ℓ) (c : Dev Cert.KernelIdeal.nD) : EdgeNodeLayer.Args :=
  {
    nr := fun i j => (m ((c.tc : Thread Cert.KernelIdeal.nD Cert.KernelIdeal.τ).loc Cert.KernelIdeal.main_arg0) : FVec Ideal (⟨2, ![20000, 128]⟩ : Shape) .f32) (ValueIdx.ix2 i j)
    er := fun i j => (m ((c.tc : Thread Cert.KernelIdeal.nD Cert.KernelIdeal.τ).loc Cert.KernelIdeal.main_arg1) : FVec Ideal (⟨2, ![320000, 128]⟩ : Shape) .f32) (ValueIdx.ix2 i j)
    ei := fun i j => (m ((c.tc : Thread Cert.KernelIdeal.nD Cert.KernelIdeal.τ).loc Cert.KernelIdeal.main_arg2) : IVec (⟨2, ![2, 160000]⟩ : Shape) 32) (ValueIdx.ix2 i j)
    lw1 := fun i j => (m ((c.tc : Thread Cert.KernelIdeal.nD Cert.KernelIdeal.τ).loc Cert.KernelIdeal.main_arg3) : FVec Ideal (⟨2, ![256, 256]⟩ : Shape) .f32) (ValueIdx.ix2 i j)
    lg1 := fun i => (m ((c.tc : Thread Cert.KernelIdeal.nD Cert.KernelIdeal.τ).loc Cert.KernelIdeal.main_arg4) : FVec Ideal (⟨1, ![256]⟩ : Shape) .f32) (ValueIdx.ix1 i)
    lb1 := fun i => (m ((c.tc : Thread Cert.KernelIdeal.nD Cert.KernelIdeal.τ).loc Cert.KernelIdeal.main_arg5) : FVec Ideal (⟨1, ![256]⟩ : Shape) .f32) (ValueIdx.ix1 i)
    lw2 := fun i j => (m ((c.tc : Thread Cert.KernelIdeal.nD Cert.KernelIdeal.τ).loc Cert.KernelIdeal.main_arg6) : FVec Ideal (⟨2, ![256, 128]⟩ : Shape) .f32) (ValueIdx.ix2 i j)
    lg2 := fun i => (m ((c.tc : Thread Cert.KernelIdeal.nD Cert.KernelIdeal.τ).loc Cert.KernelIdeal.main_arg7) : FVec Ideal (⟨1, ![128]⟩ : Shape) .f32) (ValueIdx.ix1 i)
    lb2 := fun i => (m ((c.tc : Thread Cert.KernelIdeal.nD Cert.KernelIdeal.τ).loc Cert.KernelIdeal.main_arg8) : FVec Ideal (⟨1, ![128]⟩ : Shape) .f32) (ValueIdx.ix1 i)
    v1w := fun i j => (m ((c.tc : Thread Cert.KernelIdeal.nD Cert.KernelIdeal.τ).loc Cert.KernelIdeal.main_arg9) : FVec Ideal (⟨2, ![384, 128]⟩ : Shape) .f32) (ValueIdx.ix2 i j)
    v1g := fun i => (m ((c.tc : Thread Cert.KernelIdeal.nD Cert.KernelIdeal.τ).loc Cert.KernelIdeal.main_arg10) : FVec Ideal (⟨1, ![128]⟩ : Shape) .f32) (ValueIdx.ix1 i)
    v1b := fun i => (m ((c.tc : Thread Cert.KernelIdeal.nD Cert.KernelIdeal.τ).loc Cert.KernelIdeal.main_arg11) : FVec Ideal (⟨1, ![128]⟩ : Shape) .f32) (ValueIdx.ix1 i)
    v2w1 := fun i j => (m ((c.tc : Thread Cert.KernelIdeal.nD Cert.KernelIdeal.τ).loc Cert.KernelIdeal.main_arg12) : FVec Ideal (⟨2, ![128, 256]⟩ : Shape) .f32) (ValueIdx.ix2 i j)
    v2g1 := fun i => (m ((c.tc : Thread Cert.KernelIdeal.nD Cert.KernelIdeal.τ).loc Cert.KernelIdeal.main_arg13) : FVec Ideal (⟨1, ![256]⟩ : Shape) .f32) (ValueIdx.ix1 i)
    v2b1 := fun i => (m ((c.tc : Thread Cert.KernelIdeal.nD Cert.KernelIdeal.τ).loc Cert.KernelIdeal.main_arg14) : FVec Ideal (⟨1, ![256]⟩ : Shape) .f32) (ValueIdx.ix1 i)
    v2w2 := fun i j => (m ((c.tc : Thread Cert.KernelIdeal.nD Cert.KernelIdeal.τ).loc Cert.KernelIdeal.main_arg15) : FVec Ideal (⟨2, ![256, 128]⟩ : Shape) .f32) (ValueIdx.ix2 i j)
    v2g2 := fun i => (m ((c.tc : Thread Cert.KernelIdeal.nD Cert.KernelIdeal.τ).loc Cert.KernelIdeal.main_arg16) : FVec Ideal (⟨1, ![128]⟩ : Shape) .f32) (ValueIdx.ix1 i)
    v2b2 := fun i => (m ((c.tc : Thread Cert.KernelIdeal.nD Cert.KernelIdeal.τ).loc Cert.KernelIdeal.main_arg17) : FVec Ideal (⟨1, ![128]⟩ : Shape) .f32) (ValueIdx.ix1 i)
    e11 := (m ((c.tc : Thread Cert.KernelIdeal.nD Cert.KernelIdeal.τ).loc Cert.KernelIdeal.main_arg18) : FVec Ideal (⟨0, ![]⟩ : Shape) .f32) ValueIdx.ix0
    e12 := (m ((c.tc : Thread Cert.KernelIdeal.nD Cert.KernelIdeal.τ).loc Cert.KernelIdeal.main_arg19) : FVec Ideal (⟨0, ![]⟩ : Shape) .f32) ValueIdx.ix0
    e2 := (m ((c.tc : Thread Cert.KernelIdeal.nD Cert.KernelIdeal.τ).loc Cert.KernelIdeal.main_arg20) : FVec Ideal (⟨0, ![]⟩ : Shape) .f32) ValueIdx.ix0 }

/-- The same, as `argsOf` of the twenty-one arrays. -/
theorem kerArgs_eq_argsOf (m : (ℓ : Loc Cert.KernelIdeal.nD Cert.KernelIdeal.τ Cert.KernelIdeal.sig) → Buf (Elt Ideal) ℓ) (c : Dev Cert.KernelIdeal.nD) :
    kerArgs m c = EdgeNodeLayer.argsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) := rfl

/-- Under the precondition every float entry of the kernel's arguments is a real number. -/
theorem kerArgs_finite [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) : (kerArgs m c).Finite := by
  rw [kerArgs_eq_argsOf]
  exact EdgeNodeLayer.argsOf_finite _ _ _ _ _ _ _ _ _ _ _ _ _ _ _ _ _ _ _ _ _ (hpre c)

end Cert.KernelIdeal.ArgsOf

namespace Cert.ReferenceIdeal.RefValue

open Cert.KernelIdeal.ArgsOf

/-- The reference program's argument arrays on device `c`, entry by entry. -/
noncomputable def refArgs (m' : (ℓ : Loc Cert.ReferenceIdeal.nD Cert.ReferenceIdeal.τ Cert.ReferenceIdeal.sig) → Buf (Elt Ideal) ℓ) (c : Dev Cert.ReferenceIdeal.nD) : EdgeNodeLayer.Args :=
  {
    nr := fun i j => (m' ((c.tc : Thread Cert.ReferenceIdeal.nD Cert.ReferenceIdeal.τ).loc Cert.ReferenceIdeal.main_arg0) : FVec Ideal (⟨2, ![20000, 128]⟩ : Shape) .f32) (ValueIdx.ix2 i j)
    er := fun i j => (m' ((c.tc : Thread Cert.ReferenceIdeal.nD Cert.ReferenceIdeal.τ).loc Cert.ReferenceIdeal.main_arg1) : FVec Ideal (⟨2, ![320000, 128]⟩ : Shape) .f32) (ValueIdx.ix2 i j)
    ei := fun i j => (m' ((c.tc : Thread Cert.ReferenceIdeal.nD Cert.ReferenceIdeal.τ).loc Cert.ReferenceIdeal.main_arg2) : IVec (⟨2, ![2, 160000]⟩ : Shape) 32) (ValueIdx.ix2 i j)
    lw1 := fun i j => (m' ((c.tc : Thread Cert.ReferenceIdeal.nD Cert.ReferenceIdeal.τ).loc Cert.ReferenceIdeal.main_arg3) : FVec Ideal (⟨2, ![256, 256]⟩ : Shape) .f32) (ValueIdx.ix2 i j)
    lg1 := fun i => (m' ((c.tc : Thread Cert.ReferenceIdeal.nD Cert.ReferenceIdeal.τ).loc Cert.ReferenceIdeal.main_arg4) : FVec Ideal (⟨1, ![256]⟩ : Shape) .f32) (ValueIdx.ix1 i)
    lb1 := fun i => (m' ((c.tc : Thread Cert.ReferenceIdeal.nD Cert.ReferenceIdeal.τ).loc Cert.ReferenceIdeal.main_arg5) : FVec Ideal (⟨1, ![256]⟩ : Shape) .f32) (ValueIdx.ix1 i)
    lw2 := fun i j => (m' ((c.tc : Thread Cert.ReferenceIdeal.nD Cert.ReferenceIdeal.τ).loc Cert.ReferenceIdeal.main_arg6) : FVec Ideal (⟨2, ![256, 128]⟩ : Shape) .f32) (ValueIdx.ix2 i j)
    lg2 := fun i => (m' ((c.tc : Thread Cert.ReferenceIdeal.nD Cert.ReferenceIdeal.τ).loc Cert.ReferenceIdeal.main_arg7) : FVec Ideal (⟨1, ![128]⟩ : Shape) .f32) (ValueIdx.ix1 i)
    lb2 := fun i => (m' ((c.tc : Thread Cert.ReferenceIdeal.nD Cert.ReferenceIdeal.τ).loc Cert.ReferenceIdeal.main_arg8) : FVec Ideal (⟨1, ![128]⟩ : Shape) .f32) (ValueIdx.ix1 i)
    v1w := fun i j => (m' ((c.tc : Thread Cert.ReferenceIdeal.nD Cert.ReferenceIdeal.τ).loc Cert.ReferenceIdeal.main_arg9) : FVec Ideal (⟨2, ![384, 128]⟩ : Shape) .f32) (ValueIdx.ix2 i j)
    v1g := fun i => (m' ((c.tc : Thread Cert.ReferenceIdeal.nD Cert.ReferenceIdeal.τ).loc Cert.ReferenceIdeal.main_arg10) : FVec Ideal (⟨1, ![128]⟩ : Shape) .f32) (ValueIdx.ix1 i)
    v1b := fun i => (m' ((c.tc : Thread Cert.ReferenceIdeal.nD Cert.ReferenceIdeal.τ).loc Cert.ReferenceIdeal.main_arg11) : FVec Ideal (⟨1, ![128]⟩ : Shape) .f32) (ValueIdx.ix1 i)
    v2w1 := fun i j => (m' ((c.tc : Thread Cert.ReferenceIdeal.nD Cert.ReferenceIdeal.τ).loc Cert.ReferenceIdeal.main_arg12) : FVec Ideal (⟨2, ![128, 256]⟩ : Shape) .f32) (ValueIdx.ix2 i j)
    v2g1 := fun i => (m' ((c.tc : Thread Cert.ReferenceIdeal.nD Cert.ReferenceIdeal.τ).loc Cert.ReferenceIdeal.main_arg13) : FVec Ideal (⟨1, ![256]⟩ : Shape) .f32) (ValueIdx.ix1 i)
    v2b1 := fun i => (m' ((c.tc : Thread Cert.ReferenceIdeal.nD Cert.ReferenceIdeal.τ).loc Cert.ReferenceIdeal.main_arg14) : FVec Ideal (⟨1, ![256]⟩ : Shape) .f32) (ValueIdx.ix1 i)
    v2w2 := fun i j => (m' ((c.tc : Thread Cert.ReferenceIdeal.nD Cert.ReferenceIdeal.τ).loc Cert.ReferenceIdeal.main_arg15) : FVec Ideal (⟨2, ![256, 128]⟩ : Shape) .f32) (ValueIdx.ix2 i j)
    v2g2 := fun i => (m' ((c.tc : Thread Cert.ReferenceIdeal.nD Cert.ReferenceIdeal.τ).loc Cert.ReferenceIdeal.main_arg16) : FVec Ideal (⟨1, ![128]⟩ : Shape) .f32) (ValueIdx.ix1 i)
    v2b2 := fun i => (m' ((c.tc : Thread Cert.ReferenceIdeal.nD Cert.ReferenceIdeal.τ).loc Cert.ReferenceIdeal.main_arg17) : FVec Ideal (⟨1, ![128]⟩ : Shape) .f32) (ValueIdx.ix1 i)
    e11 := (m' ((c.tc : Thread Cert.ReferenceIdeal.nD Cert.ReferenceIdeal.τ).loc Cert.ReferenceIdeal.main_arg18) : FVec Ideal (⟨0, ![]⟩ : Shape) .f32) ValueIdx.ix0
    e12 := (m' ((c.tc : Thread Cert.ReferenceIdeal.nD Cert.ReferenceIdeal.τ).loc Cert.ReferenceIdeal.main_arg19) : FVec Ideal (⟨0, ![]⟩ : Shape) .f32) ValueIdx.ix0
    e2 := (m' ((c.tc : Thread Cert.ReferenceIdeal.nD Cert.ReferenceIdeal.τ).loc Cert.ReferenceIdeal.main_arg20) : FVec Ideal (⟨0, ![]⟩ : Shape) .f32) ValueIdx.ix0 }

/-- The same, as `argsOf` of the twenty-one arrays. -/
theorem refArgs_eq_argsOf (m' : (ℓ : Loc Cert.ReferenceIdeal.nD Cert.ReferenceIdeal.τ Cert.ReferenceIdeal.sig) → Buf (Elt Ideal) ℓ) (c : Dev Cert.ReferenceIdeal.nD) :
    refArgs m' c = EdgeNodeLayer.argsOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20)) := rfl

/-- Memories that agree on the twenty-one argument arrays give the same arguments.  Each equation is stated at the
    array type of its argument (a reference's array and the kernel's have that type in common). -/
theorem refArgs_eq_kerArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      @Eq (FVec Ideal (⟨2, ![20000, 128]⟩ : Shape) .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq (FVec Ideal (⟨2, ![320000, 128]⟩ : Shape) .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq (IVec (⟨2, ![2, 160000]⟩ : Shape) 32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq (FVec Ideal (⟨2, ![256, 256]⟩ : Shape) .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq (FVec Ideal (⟨1, ![256]⟩ : Shape) .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq (FVec Ideal (⟨1, ![256]⟩ : Shape) .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq (FVec Ideal (⟨2, ![256, 128]⟩ : Shape) .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
      ∧ @Eq (FVec Ideal (⟨1, ![128]⟩ : Shape) .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
      ∧ @Eq (FVec Ideal (⟨1, ![128]⟩ : Shape) .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
      ∧ @Eq (FVec Ideal (⟨2, ![384, 128]⟩ : Shape) .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
      ∧ @Eq (FVec Ideal (⟨1, ![128]⟩ : Shape) .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
      ∧ @Eq (FVec Ideal (⟨1, ![128]⟩ : Shape) .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
      ∧ @Eq (FVec Ideal (⟨2, ![128, 256]⟩ : Shape) .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
      ∧ @Eq (FVec Ideal (⟨1, ![256]⟩ : Shape) .f32) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
      ∧ @Eq (FVec Ideal (⟨1, ![256]⟩ : Shape) .f32) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
      ∧ @Eq (FVec Ideal (⟨2, ![256, 128]⟩ : Shape) .f32) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
      ∧ @Eq (FVec Ideal (⟨1, ![128]⟩ : Shape) .f32) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
      ∧ @Eq (FVec Ideal (⟨1, ![128]⟩ : Shape) .f32) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
      ∧ @Eq (FVec Ideal (⟨0, ![]⟩ : Shape) .f32) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
      ∧ @Eq (FVec Ideal (⟨0, ![]⟩ : Shape) .f32) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
      ∧ @Eq (FVec Ideal (⟨0, ![]⟩ : Shape) .f32) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))) :
    refArgs m' c = kerArgs m c := by
  obtain ⟨h0, h1, h2, h3, h4, h5, h6, h7, h8, h9, h10, h11, h12, h13, h14, h15, h16, h17, h18, h19, h20⟩ := hagree
  rw [refArgs_eq_argsOf, kerArgs_eq_argsOf]
  exact EdgeNodeLayer.argsOf_congr h0 h1 h2 h3 h4 h5 h6 h7 h8 h9 h10 h11 h12 h13 h14 h15 h16 h17 h18 h19 h20

end Cert.ReferenceIdeal.RefValue
-- ==== Proof.KerRun.lean ====
/-
  The idealized kernel program's run with its two result arrays named.

  Every weakly fair execution of the program (eight kernel regions among nine stretches of host operations) terminates
  without a fault; the final memory holds, at every buffer that is not scoped to a region, the contents `W17` obtained by
  folding the nine stretches and the eight regions' write-backs over the launch memory.  Read at the two result buffers
  this names the results; read at the arguments it gives them back unchanged.
-/
import proofs.«131702_j10462540333326_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two result buffers at the folded contents `W17` and the arguments as launched. -/
theorem run_values : θ_run defs (onTc (τ := τ) (main (F := F))) ⟨m, fun _ => 0, ρ⟩ (fun r => ∀ c : Dev nD,
      r.2.mem ((c.tc : Thread nD τ).loc main_v107) = W17 m ρ c (Proc.devRef .tc main_v107)
      ∧ r.2.mem ((c.tc : Thread nD τ).loc main_v164) = W17 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v107 (by decide)),
       h c _ (mem_uc main_v164 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c)⟩)

end Cert.KernelIdeal.RunValue

end
-- ==== Proof.HostArgs.lean ====
/-
  The argument arrays of the program, entry by entry, as the record the layer's definition takes.

  A valuation `W` gives every buffer of the program its contents. The twenty-one arguments of the program are read
  off `W` at their own buffers: a matrix at `(i, j)`, a vector at `i`, a scalar at the empty index; the integer
  argument (the two rows of edge endpoints) as 32-bit words.
-/
import proofs.«131702_j10462540333326_2_alg».proof.Proof.Gen.KernelIdeal.Launch
import proofs.«131702_j10462540333326_2_alg».proof.Proof.Spec
import Idealize.ShloMosaic.Lib.ValueIdx

noncomputable section

namespace Cert.KernelIdeal.HostValue

open Cert.KernelIdeal Cert.KernelIdeal.Gen Idealize.ShloMosaic ValueIdx EdgeNodeLayer

/-! ## An array read at an entry

The contents of a buffer under a valuation have the buffer's own type, which reduces to a function from the indices of
the buffer's shape to the extended reals (or to 32-bit words) only by unfolding the program's signature. The readers
below take such contents at the function type and return the entry at the given coordinates; they are reducible, and
`rdN x i …` is `x (ixN i …)` by definition. -/

/-- A scalar array's one entry. -/
abbrev rd0 (x : (⟨0, ![]⟩ : Shape).Idx → EReal) : EReal := x ix0
/-- Entry `i` of a vector. -/
abbrev rd1 {n : ℕ} (x : (⟨1, ![n]⟩ : Shape).Idx → EReal) (i : Fin n) : EReal := x (ix1 i)
/-- Entry `(i, j)` of a matrix. -/
abbrev rd2 {a b : ℕ} (x : (⟨2, ![a, b]⟩ : Shape).Idx → EReal) (i : Fin a) (j : Fin b) : EReal := x (ix2 i j)
/-- Entry `i` of a vector of 32-bit words. -/
abbrev rdw1 {n : ℕ} (x : (⟨1, ![n]⟩ : Shape).Idx → BitVec 32) (i : Fin n) : BitVec 32 := x (ix1 i)

/-! ## The arguments -/

/-- The arguments of the program under the valuation `W`, entry by entry. -/
def argsOf (W : Valuation τ sig (Elt Ideal)) : EdgeNodeLayer.Args where
  nr := fun n q => (W (Proc.devRef .tc main_arg0) : S20000x128.Idx → EReal) (ix2 n q)
  er := fun r q => (W (Proc.devRef .tc main_arg1) : S320000x128.Idx → EReal) (ix2 r q)
  ei := fun h e => (W (Proc.devRef .tc main_arg2) : S2x160000.Idx → BitVec 32) (ix2 h e)
  lw1 := fun i j => (W (Proc.devRef .tc main_arg3) : S256x256.Idx → EReal) (ix2 i j)
  lg1 := fun i => (W (Proc.devRef .tc main_arg4) : S256.Idx → EReal) (ix1 i)
  lb1 := fun i => (W (Proc.devRef .tc main_arg5) : S256.Idx → EReal) (ix1 i)
  lw2 := fun i j => (W (Proc.devRef .tc main_arg6) : S256x128.Idx → EReal) (ix2 i j)
  lg2 := fun i => (W (Proc.devRef .tc main_arg7) : S128.Idx → EReal) (ix1 i)
  lb2 := fun i => (W (Proc.devRef .tc main_arg8) : S128.Idx → EReal) (ix1 i)
  v1w := fun i j => (W (Proc.devRef .tc main_arg9) : S384x128.Idx → EReal) (ix2 i j)
  v1g := fun i => (W (Proc.devRef .tc main_arg10) : S128.Idx → EReal) (ix1 i)
  v1b := fun i => (W (Proc.devRef .tc main_arg11) : S128.Idx → EReal) (ix1 i)
  v2w1 := fun i j => (W (Proc.devRef .tc main_arg12) : S128x256.Idx → EReal) (ix2 i j)
  v2g1 := fun i => (W (Proc.devRef .tc main_arg13) : S256.Idx → EReal) (ix1 i)
  v2b1 := fun i => (W (Proc.devRef .tc main_arg14) : S256.Idx → EReal) (ix1 i)
  v2w2 := fun i j => (W (Proc.devRef .tc main_arg15) : S256x128.Idx → EReal) (ix2 i j)
  v2g2 := fun i => (W (Proc.devRef .tc main_arg16) : S128.Idx → EReal) (ix1 i)
  v2b2 := fun i => (W (Proc.devRef .tc main_arg17) : S128.Idx → EReal) (ix1 i)
  e11 := (W (Proc.devRef .tc main_arg18) : S_.Idx → EReal) ix0
  e12 := (W (Proc.devRef .tc main_arg19) : S_.Idx → EReal) ix0
  e2 := (W (Proc.devRef .tc main_arg20) : S_.Idx → EReal) ix0

end Cert.KernelIdeal.HostValue

end
-- ==== Proof.LibBlockSums.lean ====
/-
  Sums over an index range cut into blocks, and the two layouts of a doubled row range.

  All statements are about a function into an additive commutative monoid (the extended reals are one).

  * `sum_fin_split`: a sum over `n = a + b` indices is the sum over the first `a` plus the sum over the last `b`, the
    latter indexed by `j ↦ j + a`; `sum_fin256_blocks`, `sum_fin384_blocks` are the cases of two and three blocks of 128.
  * `interleave`, `halves`: the 320000 = 2 · 160000 rows as pairs `(e, h)`, laid out as row `2 e + h` (the two rows of an
    edge adjacent) or as row `160000 h + e` (all first rows, then all second rows); a sum over the rows is the sum over
    the pairs either way (`sum_interleave`, `sum_halves`, and the iterated forms).
  * `sum_fin_mul_blocks`: a sum over `n · b` rows is the sum over `n` blocks of the sum over the `b` rows `b t + i` of block
    `t`; literal cases 320000 = 80 · 4000 and 20000 = 10 · 2000.
  * `sum_pair_segment`: among the 320000 rows, those with `r / 2 = e` are the two rows `2 e` and `2 e + 1`.
-/
import Mathlib.Algebra.BigOperators.Fin
import Mathlib.Algebra.BigOperators.Group.Finset.Piecewise
import Mathlib.Logic.Equiv.Fin.Basic

open scoped BigOperators

namespace BlockSums

variable {M : Type*} [AddCommMonoid M]

/-! ## A range cut in two or three -/

/-- A sum over `a + b` consecutive indices is the sum over the first `a` plus the sum over the remaining `b`
    (Mathlib's `Fin.sum_univ_add`, restated). -/
theorem sum_fin_add (a b : ℕ) (f : Fin (a + b) → M) :
    ∑ k, f k = ∑ j : Fin a, f (Fin.castAdd b j) + ∑ j : Fin b, f (Fin.natAdd a j) :=
  Fin.sum_univ_add f

/-- The same with the indices spelt by their values: for `n = a + b`, the sum over `Fin n` is the sum of `f j` over
    `j < a` plus the sum of `f (j + a)` over `j < b`. -/
theorem sum_fin_split (a b n : ℕ) (h : n = a + b) (f : Fin n → M) :
    ∑ k, f k = (∑ j : Fin a, f ⟨j.val, by omega⟩) + ∑ j : Fin b, f ⟨j.val + a, by omega⟩ := by
  subst h
  rw [Fin.sum_univ_add]
  congr 1
  refine Finset.sum_congr rfl fun j _ => congrArg f (Fin.ext ?_)
  show a + j.val = j.val + a
  omega

/-- 256 indices are two blocks of 128. -/
theorem sum_fin256_blocks (f : Fin 256 → M) :
    ∑ k, f k = (∑ j : Fin 128, f ⟨j.val, by omega⟩) + (∑ j : Fin 128, f ⟨j.val + 128, by omega⟩) :=
  sum_fin_split 128 128 256 rfl f

/-- 384 indices are three blocks of 128: split off the last block, then cut the first 256 in two. -/
theorem sum_fin384_blocks (f : Fin 384 → M) :
    ∑ k, f k = (∑ j : Fin 128, f ⟨j.val, by omega⟩) + (∑ j : Fin 128, f ⟨j.val + 128, by omega⟩)
      + (∑ j : Fin 128, f ⟨j.val + 256, by omega⟩) := by
  rw [sum_fin_split 256 128 384 rfl f, sum_fin256_blocks (fun k : Fin 256 => f ⟨k.val, by omega⟩)]

/-! ## The two layouts of 320000 = 2 · 160000 rows -/

/-- Pair `(e, h)` at row `2 e + h`: the two rows of `e` are adjacent. Inverse: `r ↦ (r / 2, r % 2)`. -/
def interleave : Fin 160000 × Fin 2 ≃ Fin 320000 where
  toFun p := ⟨2 * p.1.val + p.2.val, by omega⟩
  invFun r := (⟨r.val / 2, by omega⟩, ⟨r.val % 2, by omega⟩)
  left_inv p := Prod.ext (Fin.ext (by show (2 * p.1.val + p.2.val) / 2 = p.1.val; omega))
    (Fin.ext (by show (2 * p.1.val + p.2.val) % 2 = p.2.val; omega))
  right_inv r := Fin.ext (by show 2 * (r.val / 2) + r.val % 2 = r.val; omega)

/-- The row of pair `(e, h)` in the interleaved layout is `2 e + h`. -/
@[simp] theorem interleave_val (e : Fin 160000) (h : Fin 2) : (interleave (e, h)).val = 2 * e.val + h.val := rfl

/-- The pair at row `r` of the interleaved layout is `(r / 2, r % 2)`. -/
@[simp] theorem interleave_symm_fst_val (r : Fin 320000) : (interleave.symm r).1.val = r.val / 2 := rfl
@[simp] theorem interleave_symm_snd_val (r : Fin 320000) : (interleave.symm r).2.val = r.val % 2 := rfl

/-- Pair `(e, h)` at row `160000 h + e`: all rows with `h = 0` first, then all rows with `h = 1`. Inverse:
    `r ↦ (r % 160000, r / 160000)`. -/
def halves : Fin 160000 × Fin 2 ≃ Fin 320000 where
  toFun p := ⟨160000 * p.2.val + p.1.val, by omega⟩
  invFun r := (⟨r.val % 160000, by omega⟩, ⟨r.val / 160000, by omega⟩)
  left_inv p := Prod.ext (Fin.ext (by show (160000 * p.2.val + p.1.val) % 160000 = p.1.val; omega))
    (Fin.ext (by show (160000 * p.2.val + p.1.val) / 160000 = p.2.val; omega))
  right_inv r := Fin.ext (by show 160000 * (r.val / 160000) + r.val % 160000 = r.val; omega)

/-- The row of pair `(e, h)` in the two-halves layout is `160000 h + e`. -/
@[simp] theorem halves_val (e : Fin 160000) (h : Fin 2) : (halves (e, h)).val = 160000 * h.val + e.val := rfl

/-- The pair at row `r` of the two-halves layout is `(r % 160000, r / 160000)`. -/
@[simp] theorem halves_symm_fst_val (r : Fin 320000) : (halves.symm r).1.val = r.val % 160000 := rfl
@[simp] theorem halves_symm_snd_val (r : Fin 320000) : (halves.symm r).2.val = r.val / 160000 := rfl

/-- A sum over the 320000 rows is the sum over the pairs, each read at its interleaved row. -/
theorem sum_interleave (f : Fin 320000 → M) : ∑ r, f r = ∑ p : Fin 160000 × Fin 2, f (interleave p) :=
  (Equiv.sum_comp interleave f).symm

/-- A sum over the 320000 rows is the sum over the pairs, each read at its row in the two-halves layout. -/
theorem sum_halves (f : Fin 320000 → M) : ∑ r, f r = ∑ p : Fin 160000 × Fin 2, f (halves p) :=
  (Equiv.sum_comp halves f).symm

/-- The interleaved layout, as an iterated sum: over `e`, the two rows `2 e` and `2 e + 1`. -/
theorem sum_interleave_pairs (f : Fin 320000 → M) :
    ∑ r, f r = ∑ e : Fin 160000, (f ⟨2 * e.val, by omega⟩ + f ⟨2 * e.val + 1, by omega⟩) := by
  rw [sum_interleave, Fintype.sum_prod_type]
  refine Finset.sum_congr rfl fun e _ => ?_
  rw [Fin.sum_univ_two]
  rfl

/-- The two-halves layout, as an iterated sum: over `e`, the rows `e` and `160000 + e`. -/
theorem sum_halves_pairs (f : Fin 320000 → M) :
    ∑ r, f r = ∑ e : Fin 160000, (f ⟨e.val, by omega⟩ + f ⟨160000 + e.val, by omega⟩) := by
  rw [sum_halves, Fintype.sum_prod_type]
  refine Finset.sum_congr rfl fun e _ => ?_
  rw [Fin.sum_univ_two]
  congr 1 <;> exact congrArg f (Fin.ext (by simp))

/-! ## A range cut into equal blocks -/

/-- Row `i` of block `t`, among `n` blocks of `b` rows, is a row of the whole range: `b t + i < n b`. -/
theorem block_row_lt {n b t i : ℕ} (ht : t < n) (hi : i < b) : b * t + i < n * b :=
  calc b * t + i < b * t + b := by omega
    _ = b * (t + 1) := (Nat.mul_succ b t).symm
    _ ≤ b * n := Nat.mul_le_mul_left _ ht
    _ = n * b := Nat.mul_comm _ _

/-- A sum over `n · b` rows is the sum over the `n` blocks `t` of the sum over the `b` rows `b t + i` of the block
    (every row is `b t + i` for exactly one pair: `t` its quotient and `i` its remainder by `b`). -/
theorem sum_fin_mul_blocks (n b : ℕ) (f : Fin (n * b) → M) :
    ∑ r, f r = ∑ t : Fin n, ∑ i : Fin b, f ⟨b * t.val + i.val, block_row_lt t.isLt i.isLt⟩ := by
  rw [← Equiv.sum_comp finProdFinEquiv f, Fintype.sum_prod_type]
  refine Finset.sum_congr rfl fun t _ => Finset.sum_congr rfl fun i _ => congrArg f (Fin.ext ?_)
  show i.val + b * t.val = b * t.val + i.val
  omega

/-- 320000 rows are 80 blocks of 4000. -/
theorem sum_fin320000_blocks (f : Fin 320000 → M) :
    ∑ r, f r = ∑ t : Fin 80, ∑ i : Fin 4000, f ⟨4000 * t.val + i.val, by omega⟩ :=
  sum_fin_mul_blocks 80 4000 f

/-- 20000 rows are 10 blocks of 2000. -/
theorem sum_fin20000_blocks (f : Fin 20000 → M) :
    ∑ r, f r = ∑ t : Fin 10, ∑ i : Fin 2000, f ⟨2000 * t.val + i.val, by omega⟩ :=
  sum_fin_mul_blocks 10 2000 f

/-! ## The two rows of one pair -/

/-- Among the 320000 rows, exactly rows `2 e` and `2 e + 1` have `r / 2 = e`: the sum of `g` over the rows with that
    quotient is `g (2 e) + g (2 e + 1)`. -/
theorem sum_pair_segment (g : Fin 320000 → M) (e : Fin 160000) :
    ∑ r : Fin 320000, (if r.val / 2 = e.val then g r else 0)
      = g ⟨2 * e.val, by omega⟩ + g ⟨2 * e.val + 1, by omega⟩ := by
  rw [sum_interleave_pairs]
  have hcond : ∀ e' : Fin 160000,
      ((if (2 * e'.val) / 2 = e.val then g ⟨2 * e'.val, by omega⟩ else 0)
        + (if (2 * e'.val + 1) / 2 = e.val then g ⟨2 * e'.val + 1, by omega⟩ else 0))
      = if e' = e then (g ⟨2 * e'.val, by omega⟩ + g ⟨2 * e'.val + 1, by omega⟩) else 0 := by
    intro e'
    have h0 : (2 * e'.val) / 2 = e'.val := by omega
    have h1 : (2 * e'.val + 1) / 2 = e'.val := by omega
    rw [h0, h1]
    by_cases he : e' = e
    · rw [if_pos (congrArg Fin.val he), if_pos (congrArg Fin.val he), if_pos he]
    · have hv : ¬ e'.val = e.val := fun h => he (Fin.ext h)
      rw [if_neg hv, if_neg hv, if_neg he, add_zero]
  rw [Finset.sum_congr rfl fun e' _ => hcond e', Finset.sum_ite_eq' Finset.univ e]
  simp

end BlockSums
-- ==== Proof.KerChainFacts.lean ====
/-
  What each stretch of host operations and each kernel region of the program is known to compute, as records of
  entrywise equations. The chain of boundary values is proved from these records; the records themselves are
  filled in from the per-stretch and per-region value lemmas.

  A valuation `W` gives every buffer its contents; `StableHlo.after hostOpsK W` is the valuation after stretch `K`. A
  region `K` reads its arrays `V c (Pipeline.arrRef specK w)` and leaves `(datK V c).arrAt w cfgK.N` in array `w`.
  `a = argsOf W` are the program's arguments read off `W`.
-/
import proofs.«131702_j10462540333326_2_alg».proof.Proof.Gen.KernelIdeal.Frame
import proofs.«131702_j10462540333326_2_alg».proof.Proof.HostArgs
import proofs.«131702_j10462540333326_2_alg».proof.Proof.LibBlockSums
import proofs.«131702_j10462540333326_2_alg».proof.Proof.Spec

noncomputable section

open scoped BigOperators

namespace Cert.KernelIdeal.Chain

open Cert.KernelIdeal Cert.KernelIdeal.Gen Cert.KernelIdeal.HostValue Idealize.ShloMosaic Idealize.ShloMosaic.TcCoe
open Idealize.SL.Sem ValueIdx EdgeNodeLayer BlockSums

/-! ## Host stretches -/

/-- Stretch 0: the endpoint vectors, the gathered and summed node features, the edge features, and the three blocks of
    the first weight matrix, in terms of the arguments. -/
structure Host0Facts (W : Valuation τ sig (Elt Ideal)) : Prop where
  v1 : ∀ e : Fin 160000, (StableHlo.after (hostOps0 (F := Ideal)) W (Proc.devRef .tc main_v1) : S160000.Idx → BitVec 32) (ix1 e) = (argsOf W).ei 0 e
  v3 : ∀ e : Fin 160000, (StableHlo.after (hostOps0 (F := Ideal)) W (Proc.devRef .tc main_v3) : S160000.Idx → BitVec 32) (ix1 e) = (argsOf W).ei 1 e
  v18 : ∀ (e : Fin 160000) (j : Fin 128), (StableHlo.after (hostOps0 (F := Ideal)) W (Proc.devRef .tc main_v18) : S160000x128.Idx → EReal) (ix2 e j) = dom (argsOf W) e j
  v19 : ∀ (p : Fin 160000 × Fin 2) (j : Fin 128), (StableHlo.after (hostOps0 (F := Ideal)) W (Proc.devRef .tc main_v19) : S320000x128.Idx → EReal) (ix2 (halves p) j) = dom (argsOf W) p.1 j
  v20 : ∀ (p : Fin 160000 × Fin 2) (j : Fin 128), (StableHlo.after (hostOps0 (F := Ideal)) W (Proc.devRef .tc main_v20) : S320000x128.Idx → EReal) (ix2 (halves p) j) = gat (argsOf W) p.1 p.2 j
  v23 : ∀ (e : Fin 160000) (j : Fin 128), (StableHlo.after (hostOps0 (F := Ideal)) W (Proc.devRef .tc main_v23) : S160000x128.Idx → EReal) (ix2 e j) = erp (argsOf W) e 0 j
  v25 : ∀ (e : Fin 160000) (j : Fin 128), (StableHlo.after (hostOps0 (F := Ideal)) W (Proc.devRef .tc main_v25) : S160000x128.Idx → EReal) (ix2 e j) = erp (argsOf W) e 1 j
  v26 : ∀ (p : Fin 160000 × Fin 2) (j : Fin 128), (StableHlo.after (hostOps0 (F := Ideal)) W (Proc.devRef .tc main_v26) : S320000x128.Idx → EReal) (ix2 (halves p) j) = erp (argsOf W) p.1 p.2 j
  v27 : ∀ (j q : Fin 128), (StableHlo.after (hostOps0 (F := Ideal)) W (Proc.devRef .tc main_v27) : S128x128.Idx → EReal) (ix2 j q) = (argsOf W).v1w (⟨j.val, by omega⟩ : Fin 384) q
  v28 : ∀ (j q : Fin 128), (StableHlo.after (hostOps0 (F := Ideal)) W (Proc.devRef .tc main_v28) : S128x128.Idx → EReal) (ix2 j q) = (argsOf W).v1w (⟨j.val + 128, by omega⟩ : Fin 384) q
  v29 : ∀ (j q : Fin 128), (StableHlo.after (hostOps0 (F := Ideal)) W (Proc.devRef .tc main_v29) : S128x128.Idx → EReal) (ix2 j q) = (argsOf W).v1w (⟨j.val + 256, by omega⟩ : Fin 384) q

/-- Stretch 1: the per-column scale and shift of the batch normalisation from the two column-sum rows. -/
structure Host1Facts (W : Valuation τ sig (Elt Ideal)) : Prop where
  scale : ∀ q : Fin 128, (StableHlo.after (hostOps1 (F := Ideal)) W (Proc.devRef .tc main_v43) : S1x128.Idx → EReal) (ix2 (0 : Fin 1) q)
      = rd1 (W (Proc.devRef .tc main_arg10)) q * Ideal.rsqrt ((Ideal.div (rd2 (W (Proc.devRef .tc main_v30_2)) 0 q) cRowsE - Ideal.div (rd2 (W (Proc.devRef .tc main_v30_1)) 0 q) cRowsE * Ideal.div (rd2 (W (Proc.devRef .tc main_v30_1)) 0 q) cRowsE) + cEps)
  shift : ∀ q : Fin 128, (StableHlo.after (hostOps1 (F := Ideal)) W (Proc.devRef .tc main_v47) : S1x128.Idx → EReal) (ix2 (0 : Fin 1) q)
      = rd1 (W (Proc.devRef .tc main_arg11)) q - Ideal.div (rd2 (W (Proc.devRef .tc main_v30_1)) 0 q) cRowsE * (rd1 (W (Proc.devRef .tc main_arg10)) q * Ideal.rsqrt ((Ideal.div (rd2 (W (Proc.devRef .tc main_v30_2)) 0 q) cRowsE - Ideal.div (rd2 (W (Proc.devRef .tc main_v30_1)) 0 q) cRowsE * Ideal.div (rd2 (W (Proc.devRef .tc main_v30_1)) 0 q) cRowsE) + cEps))

/-- Stretch 3: the per-column scale and shift of the batch normalisation from the two column-sum rows. -/
structure Host3Facts (W : Valuation τ sig (Elt Ideal)) : Prop where
  scale : ∀ q : Fin 256, (StableHlo.after (hostOps3 (F := Ideal)) W (Proc.devRef .tc main_v84) : S1x256.Idx → EReal) (ix2 (0 : Fin 1) q)
      = rd1 (W (Proc.devRef .tc main_arg13)) q * Ideal.rsqrt ((Ideal.div (rd2 (W (Proc.devRef .tc main_v71_2)) 0 q) cRowsN - Ideal.div (rd2 (W (Proc.devRef .tc main_v71_1)) 0 q) cRowsN * Ideal.div (rd2 (W (Proc.devRef .tc main_v71_1)) 0 q) cRowsN) + cEps)
  shift : ∀ q : Fin 256, (StableHlo.after (hostOps3 (F := Ideal)) W (Proc.devRef .tc main_v88) : S1x256.Idx → EReal) (ix2 (0 : Fin 1) q)
      = rd1 (W (Proc.devRef .tc main_arg14)) q - Ideal.div (rd2 (W (Proc.devRef .tc main_v71_1)) 0 q) cRowsN * (rd1 (W (Proc.devRef .tc main_arg13)) q * Ideal.rsqrt ((Ideal.div (rd2 (W (Proc.devRef .tc main_v71_2)) 0 q) cRowsN - Ideal.div (rd2 (W (Proc.devRef .tc main_v71_1)) 0 q) cRowsN * Ideal.div (rd2 (W (Proc.devRef .tc main_v71_1)) 0 q) cRowsN) + cEps))

/-- Stretch 4: the per-column scale and shift of the batch normalisation from the two column-sum rows. -/
structure Host4Facts (W : Valuation τ sig (Elt Ideal)) : Prop where
  scale : ∀ q : Fin 128, (StableHlo.after (hostOps4 (F := Ideal)) W (Proc.devRef .tc main_v102) : S1x128.Idx → EReal) (ix2 (0 : Fin 1) q)
      = rd1 (W (Proc.devRef .tc main_arg16)) q * Ideal.rsqrt ((Ideal.div (rd2 (W (Proc.devRef .tc main_v89_2)) 0 q) cRowsN - Ideal.div (rd2 (W (Proc.devRef .tc main_v89_1)) 0 q) cRowsN * Ideal.div (rd2 (W (Proc.devRef .tc main_v89_1)) 0 q) cRowsN) + cEps)
  shift : ∀ q : Fin 128, (StableHlo.after (hostOps4 (F := Ideal)) W (Proc.devRef .tc main_v106) : S1x128.Idx → EReal) (ix2 (0 : Fin 1) q)
      = rd1 (W (Proc.devRef .tc main_arg17)) q - Ideal.div (rd2 (W (Proc.devRef .tc main_v89_1)) 0 q) cRowsN * (rd1 (W (Proc.devRef .tc main_arg16)) q * Ideal.rsqrt ((Ideal.div (rd2 (W (Proc.devRef .tc main_v89_2)) 0 q) cRowsN - Ideal.div (rd2 (W (Proc.devRef .tc main_v89_1)) 0 q) cRowsN * Ideal.div (rd2 (W (Proc.devRef .tc main_v89_1)) 0 q) cRowsN) + cEps))

/-- Stretch 6: the per-column scale and shift of the batch normalisation from the two column-sum rows. -/
structure Host6Facts (W : Valuation τ sig (Elt Ideal)) : Prop where
  scale : ∀ q : Fin 256, (StableHlo.after (hostOps6 (F := Ideal)) W (Proc.devRef .tc main_v135) : S1x256.Idx → EReal) (ix2 (0 : Fin 1) q)
      = rd1 (W (Proc.devRef .tc main_arg4)) q * Ideal.rsqrt ((Ideal.div (rd2 (W (Proc.devRef .tc main_v122_2)) 0 q) cRowsE - Ideal.div (rd2 (W (Proc.devRef .tc main_v122_1)) 0 q) cRowsE * Ideal.div (rd2 (W (Proc.devRef .tc main_v122_1)) 0 q) cRowsE) + cEps)
  shift : ∀ q : Fin 256, (StableHlo.after (hostOps6 (F := Ideal)) W (Proc.devRef .tc main_v139) : S1x256.Idx → EReal) (ix2 (0 : Fin 1) q)
      = rd1 (W (Proc.devRef .tc main_arg5)) q - Ideal.div (rd2 (W (Proc.devRef .tc main_v122_1)) 0 q) cRowsE * (rd1 (W (Proc.devRef .tc main_arg4)) q * Ideal.rsqrt ((Ideal.div (rd2 (W (Proc.devRef .tc main_v122_2)) 0 q) cRowsE - Ideal.div (rd2 (W (Proc.devRef .tc main_v122_1)) 0 q) cRowsE * Ideal.div (rd2 (W (Proc.devRef .tc main_v122_1)) 0 q) cRowsE) + cEps))

/-- Stretch 7: the per-column scale and shift of the batch normalisation from the two column-sum rows. -/
structure Host7Facts (W : Valuation τ sig (Elt Ideal)) : Prop where
  scale : ∀ q : Fin 128, (StableHlo.after (hostOps7 (F := Ideal)) W (Proc.devRef .tc main_v153) : S1x128.Idx → EReal) (ix2 (0 : Fin 1) q)
      = rd1 (W (Proc.devRef .tc main_arg7)) q * Ideal.rsqrt ((Ideal.div (rd2 (W (Proc.devRef .tc main_v140_2)) 0 q) cRowsE - Ideal.div (rd2 (W (Proc.devRef .tc main_v140_1)) 0 q) cRowsE * Ideal.div (rd2 (W (Proc.devRef .tc main_v140_1)) 0 q) cRowsE) + cEps)
  shift : ∀ q : Fin 128, (StableHlo.after (hostOps7 (F := Ideal)) W (Proc.devRef .tc main_v157) : S1x128.Idx → EReal) (ix2 (0 : Fin 1) q)
      = rd1 (W (Proc.devRef .tc main_arg8)) q - Ideal.div (rd2 (W (Proc.devRef .tc main_v140_1)) 0 q) cRowsE * (rd1 (W (Proc.devRef .tc main_arg7)) q * Ideal.rsqrt ((Ideal.div (rd2 (W (Proc.devRef .tc main_v140_2)) 0 q) cRowsE - Ideal.div (rd2 (W (Proc.devRef .tc main_v140_1)) 0 q) cRowsE * Ideal.div (rd2 (W (Proc.devRef .tc main_v140_1)) 0 q) cRowsE) + cEps))

/-- Stretch 2: the node input, from the node features, the rows scattered by the concatenated endpoint vector, and the
    per-edge sums scattered by each endpoint vector. -/
structure Host2Facts (W : Valuation τ sig (Elt Ideal)) : Prop where
  v70 : ∀ (n : Fin 20000) (q : Fin 128), (StableHlo.after (hostOps2 (F := Ideal)) W (Proc.devRef .tc main_v70) : S20000x128.Idx → EReal) (ix2 n q)
      = (cOne + rd0 (W (Proc.devRef .tc main_arg18))) * rd2 (W (Proc.devRef .tc main_arg0)) n q
        + (cOne + rd0 (W (Proc.devRef .tc main_arg19)))
          * (cZero + ∑ r : Fin 320000,
              if (if hr : r.val < 160000 then rdw1 (W (Proc.devRef .tc main_v1)) ⟨r.val, hr⟩
                  else rdw1 (W (Proc.devRef .tc main_v3)) ⟨r.val - 160000, by omega⟩).toInt = (n.val : ℤ)
              then rd2 (W (Proc.devRef .tc main_v48)) r q else 0)
        + ((cZero + ∑ e : Fin 160000, if (rdw1 (W (Proc.devRef .tc main_v1)) e).toInt = (n.val : ℤ)
              then rd2 (W (Proc.devRef .tc main_v48)) ⟨e.val, by omega⟩ q + rd2 (W (Proc.devRef .tc main_v48)) ⟨e.val + 160000, by omega⟩ q else 0)
          + (cZero + ∑ e : Fin 160000, if (rdw1 (W (Proc.devRef .tc main_v3)) e).toInt = (n.val : ℤ)
              then rd2 (W (Proc.devRef .tc main_v48)) ⟨e.val, by omega⟩ q + rd2 (W (Proc.devRef .tc main_v48)) ⟨e.val + 160000, by omega⟩ q else 0))

/-- Stretch 5: the two blocks of edge-side inputs and the two blocks of the edge weight matrix. -/
structure Host5Facts (W : Valuation τ sig (Elt Ideal)) : Prop where
  v115 : ∀ (p : Fin 160000 × Fin 2) (j : Fin 128), (StableHlo.after (hostOps5 (F := Ideal)) W (Proc.devRef .tc main_v115) : S320000x128.Idx → EReal) (ix2 (halves p) j)
      = (cOne + rd0 (W (Proc.devRef .tc main_arg20))) * ((rd2 (W (Proc.devRef .tc main_v23)) p.1 j + rd2 (W (Proc.devRef .tc main_v25)) p.1 j) * cHalf)
        + rd2 (W (Proc.devRef .tc main_v18)) p.1 j
  v119 : ∀ (r : Fin 320000) (j : Fin 128), (StableHlo.after (hostOps5 (F := Ideal)) W (Proc.devRef .tc main_v119) : S320000x128.Idx → EReal) (ix2 r j)
      = (cOne + rd0 (W (Proc.devRef .tc main_arg20))) * rd2 (W (Proc.devRef .tc main_v26)) r j + rd2 (W (Proc.devRef .tc main_v20)) r j
  v120 : ∀ (j : Fin 128) (q : Fin 256), (StableHlo.after (hostOps5 (F := Ideal)) W (Proc.devRef .tc main_v120) : S128x256.Idx → EReal) (ix2 j q)
      = rd2 (W (Proc.devRef .tc main_arg3)) (⟨j.val, by omega⟩ : Fin 256) q
  v121 : ∀ (j : Fin 128) (q : Fin 256), (StableHlo.after (hostOps5 (F := Ideal)) W (Proc.devRef .tc main_v121) : S128x256.Idx → EReal) (ix2 j q)
      = rd2 (W (Proc.devRef .tc main_arg3)) (⟨j.val + 128, by omega⟩ : Fin 256) q

/-- Stretch 8: the result rows moved from the two-halves order to the adjacent-pairs order. -/
structure Host8Facts (W : Valuation τ sig (Elt Ideal)) : Prop where
  v164 : ∀ (p : Fin 160000 × Fin 2) (q : Fin 128), (StableHlo.after (hostOps8 (F := Ideal)) W (Proc.devRef .tc main_v164) : S320000x128.Idx → EReal)
        (ix2 (⟨2 * p.1.val + p.2.val, by omega⟩ : Fin 320000) q)
      = rd2 (W (Proc.devRef .tc main_v158)) (halves p) q

/-! ## Kernel regions -/

variable (V : (c : Dev nD) → (b : Ref sig .tc) → Buf (Elt Ideal) ((c : Thread nD τ).loc b)) (c : Dev nD)

/-- Region 0's product at row `r`, column `q`: three blocks of 128 columns of the left matrix against three weight blocks. -/
def Y0 (r : Fin 320000) (q : Fin 128) : EReal :=
  (∑ j : Fin 128, rd2 (V c (Pipeline.arrRef spec0 0)) r j * rd2 (V c (Pipeline.arrRef spec0 3)) j q)
    + (∑ j : Fin 128, rd2 (V c (Pipeline.arrRef spec0 1)) r j * rd2 (V c (Pipeline.arrRef spec0 4)) j q)
    + (∑ j : Fin 128, rd2 (V c (Pipeline.arrRef spec0 2)) r j * rd2 (V c (Pipeline.arrRef spec0 5)) j q)

/-- Region 0 leaves the product, its column sums and the column sums of its squares. -/
structure Region0Facts : Prop where
  out : ∀ (r : Fin 320000) (q : Fin 128), ((dat0 V c).arrAt 6 cfg0.N : S320000x128.Idx → EReal) (ix2 r q) = Y0 V c r q
  sum : ∀ q : Fin 128, ((dat0 V c).arrAt 7 cfg0.N : S1x128.Idx → EReal) (ix2 (0 : Fin 1) q) = ∑ r : Fin 320000, Y0 V c r q
  sumsq : ∀ q : Fin 128, ((dat0 V c).arrAt 8 cfg0.N : S1x128.Idx → EReal) (ix2 (0 : Fin 1) q) = ∑ r : Fin 320000, Y0 V c r q * Y0 V c r q

/-- Region 2's product at row `r`, column `q`: the product of the two matrices. -/
def Y2 (r : Fin 20000) (q : Fin 256) : EReal :=
  ∑ j : Fin 128, rd2 (V c (Pipeline.arrRef spec2 0)) r j * rd2 (V c (Pipeline.arrRef spec2 1)) j q

/-- Region 2 leaves the product, its column sums and the column sums of its squares. -/
structure Region2Facts : Prop where
  out : ∀ (r : Fin 20000) (q : Fin 256), ((dat2 V c).arrAt 2 cfg2.N : S20000x256.Idx → EReal) (ix2 r q) = Y2 V c r q
  sum : ∀ q : Fin 256, ((dat2 V c).arrAt 3 cfg2.N : S1x256.Idx → EReal) (ix2 (0 : Fin 1) q) = ∑ r : Fin 20000, Y2 V c r q
  sumsq : ∀ q : Fin 256, ((dat2 V c).arrAt 4 cfg2.N : S1x256.Idx → EReal) (ix2 (0 : Fin 1) q) = ∑ r : Fin 20000, Y2 V c r q * Y2 V c r q

/-- Region 3's product at row `r`, column `q`: the rectified affine image of the left matrix times the weight matrix. -/
def Y3 (r : Fin 20000) (q : Fin 128) : EReal :=
  ∑ j : Fin 256, max (rd2 (V c (Pipeline.arrRef spec3 0)) r j * rd2 (V c (Pipeline.arrRef spec3 1)) 0 j + rd2 (V c (Pipeline.arrRef spec3 2)) 0 j) cZero * rd2 (V c (Pipeline.arrRef spec3 3)) j q

/-- Region 3 leaves the product, its column sums and the column sums of its squares. -/
structure Region3Facts : Prop where
  out : ∀ (r : Fin 20000) (q : Fin 128), ((dat3 V c).arrAt 4 cfg3.N : S20000x128.Idx → EReal) (ix2 r q) = Y3 V c r q
  sum : ∀ q : Fin 128, ((dat3 V c).arrAt 5 cfg3.N : S1x128.Idx → EReal) (ix2 (0 : Fin 1) q) = ∑ r : Fin 20000, Y3 V c r q
  sumsq : ∀ q : Fin 128, ((dat3 V c).arrAt 6 cfg3.N : S1x128.Idx → EReal) (ix2 (0 : Fin 1) q) = ∑ r : Fin 20000, Y3 V c r q * Y3 V c r q

/-- Region 5's product at row `r`, column `q`: two blocks of 128 columns against two weight blocks. -/
def Y5 (r : Fin 320000) (q : Fin 256) : EReal :=
  (∑ j : Fin 128, rd2 (V c (Pipeline.arrRef spec5 0)) r j * rd2 (V c (Pipeline.arrRef spec5 2)) j q)
    + (∑ j : Fin 128, rd2 (V c (Pipeline.arrRef spec5 1)) r j * rd2 (V c (Pipeline.arrRef spec5 3)) j q)

/-- Region 5 leaves the product, its column sums and the column sums of its squares. -/
structure Region5Facts : Prop where
  out : ∀ (r : Fin 320000) (q : Fin 256), ((dat5 V c).arrAt 4 cfg5.N : S320000x256.Idx → EReal) (ix2 r q) = Y5 V c r q
  sum : ∀ q : Fin 256, ((dat5 V c).arrAt 5 cfg5.N : S1x256.Idx → EReal) (ix2 (0 : Fin 1) q) = ∑ r : Fin 320000, Y5 V c r q
  sumsq : ∀ q : Fin 256, ((dat5 V c).arrAt 6 cfg5.N : S1x256.Idx → EReal) (ix2 (0 : Fin 1) q) = ∑ r : Fin 320000, Y5 V c r q * Y5 V c r q

/-- Region 6's product at row `r`, column `q`: the rectified affine image of the left matrix times the weight matrix. -/
def Y6 (r : Fin 320000) (q : Fin 128) : EReal :=
  ∑ j : Fin 256, max (rd2 (V c (Pipeline.arrRef spec6 0)) r j * rd2 (V c (Pipeline.arrRef spec6 1)) 0 j + rd2 (V c (Pipeline.arrRef spec6 2)) 0 j) cZero * rd2 (V c (Pipeline.arrRef spec6 3)) j q

/-- Region 6 leaves the product, its column sums and the column sums of its squares. -/
structure Region6Facts : Prop where
  out : ∀ (r : Fin 320000) (q : Fin 128), ((dat6 V c).arrAt 4 cfg6.N : S320000x128.Idx → EReal) (ix2 r q) = Y6 V c r q
  sum : ∀ q : Fin 128, ((dat6 V c).arrAt 5 cfg6.N : S1x128.Idx → EReal) (ix2 (0 : Fin 1) q) = ∑ r : Fin 320000, Y6 V c r q
  sumsq : ∀ q : Fin 128, ((dat6 V c).arrAt 6 cfg6.N : S1x128.Idx → EReal) (ix2 (0 : Fin 1) q) = ∑ r : Fin 320000, Y6 V c r q * Y6 V c r q

/-- Region 1 leaves the rectified affine image of its input: `max (x · scale + shift) 0`, column by column. -/
structure Region1Facts : Prop where
  out : ∀ (r : Fin 320000) (q : Fin 128), ((dat1 V c).arrAt 3 cfg1.N : S320000x128.Idx → EReal) (ix2 r q)
      = max (rd2 (V c (Pipeline.arrRef spec1 0)) r q * rd2 (V c (Pipeline.arrRef spec1 1)) 0 q + rd2 (V c (Pipeline.arrRef spec1 2)) 0 q) cZero

/-- Region 4 leaves the rectified affine image of its input: `max (x · scale + shift) 0`, column by column. -/
structure Region4Facts : Prop where
  out : ∀ (r : Fin 20000) (q : Fin 128), ((dat4 V c).arrAt 3 cfg4.N : S20000x128.Idx → EReal) (ix2 r q)
      = max (rd2 (V c (Pipeline.arrRef spec4 0)) r q * rd2 (V c (Pipeline.arrRef spec4 1)) 0 q + rd2 (V c (Pipeline.arrRef spec4 2)) 0 q) cZero

/-- Region 7 leaves the rectified affine image of its input: `max (x · scale + shift) 0`, column by column. -/
structure Region7Facts : Prop where
  out : ∀ (r : Fin 320000) (q : Fin 128), ((dat7 V c).arrAt 3 cfg7.N : S320000x128.Idx → EReal) (ix2 r q)
      = max (rd2 (V c (Pipeline.arrRef spec7 0)) r q * rd2 (V c (Pipeline.arrRef spec7 1)) 0 q + rd2 (V c (Pipeline.arrRef spec7 2)) 0 q) cZero

end Cert.KernelIdeal.Chain

end
-- ==== Proof.KerKept.lean ====
/-
  Buffers that keep their contents between two boundaries of the program's run: a stretch of host operations leaves every
  buffer it does not write as it was, and a kernel region leaves every buffer that is not one of its arrays as it was.
  One statement per buffer and pair of boundaries the value proof reads across.
-/
import proofs.«131702_j10462540333326_2_alg».proof.Proof.Gen.KernelIdeal.Frame

set_option maxRecDepth 16384

noncomputable section

namespace Cert.KernelIdeal.Kept

open Cert.KernelIdeal Cert.KernelIdeal.Gen Idealize.ShloMosaic Idealize.SL.Sem

variable {F : FTy → Type} [FloatOps F]
variable (m : (ℓ : Loc nD τ sig) → Buf (Elt F) ℓ) (ρ : Dev nD → PrngReg)

/-- `main_v1` holds at boundary 4 what it held at boundary 1. -/
theorem main_v1_1_4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- `main_v3` holds at boundary 4 what it held at boundary 1. -/
theorem main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v18` holds at boundary 10 what it held at boundary 1. -/
theorem main_v18_1_10 (c : Dev nD) : W10 m ρ c (Proc.devRef .tc main_v18) = W1 m ρ c (Proc.devRef .tc main_v18) :=
  calc W10 m ρ c (Proc.devRef .tc main_v18)
    _ = W9 m ρ c (Proc.devRef .tc main_v18) := W10_of_ne m ρ c main_v18 (by decide)
    _ = W8 m ρ c (Proc.devRef .tc main_v18) := StableHlo.after_of_forall_not_mem (b := Proc.devRef .tc main_v18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v18) := W8_of_ne m ρ c main_v18 (by decide)
    _ = W6 m ρ c (Proc.devRef .tc main_v18) := StableHlo.after_of_forall_not_mem (b := Proc.devRef .tc main_v18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v18) := W6_of_ne m ρ c main_v18 (by decide)
    _ = W4 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18) := W4_of_ne m ρ c main_v18 (by decide)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v18) := W2_of_ne m ρ c main_v18 (by decide)

/-- `main_v20` holds at boundary 10 what it held at boundary 1. -/
theorem main_v20_1_10 (c : Dev nD) : W10 m ρ c (Proc.devRef .tc main_v20) = W1 m ρ c (Proc.devRef .tc main_v20) :=
  calc W10 m ρ c (Proc.devRef .tc main_v20)
    _ = W9 m ρ c (Proc.devRef .tc main_v20) := W10_of_ne m ρ c main_v20 (by decide)
    _ = W8 m ρ c (Proc.devRef .tc main_v20) := StableHlo.after_of_forall_not_mem (b := Proc.devRef .tc main_v20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v20) := W8_of_ne m ρ c main_v20 (by decide)
    _ = W6 m ρ c (Proc.devRef .tc main_v20) := StableHlo.after_of_forall_not_mem (b := Proc.devRef .tc main_v20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v20) := W6_of_ne m ρ c main_v20 (by decide)
    _ = W4 m ρ c (Proc.devRef .tc main_v20) := StableHlo.after_of_forall_not_mem (b := Proc.devRef .tc main_v20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v20) := W4_of_ne m ρ c main_v20 (by decide)
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v20) := (W2_arr m ρ c 1).trans (((dat0 (V1 m ρ) c).arrAt_in 1 rfl cfg0.N).trans (A_eq0 (V1 m ρ) c 1))

/-- `main_v23` holds at boundary 10 what it held at boundary 1. -/
theorem main_v23_1_10 (c : Dev nD) : W10 m ρ c (Proc.devRef .tc main_v23) = W1 m ρ c (Proc.devRef .tc main_v23) :=
  calc W10 m ρ c (Proc.devRef .tc main_v23)
    _ = W9 m ρ c (Proc.devRef .tc main_v23) := W10_of_ne m ρ c main_v23 (by decide)
    _ = W8 m ρ c (Proc.devRef .tc main_v23) := StableHlo.after_of_forall_not_mem (b := Proc.devRef .tc main_v23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v23) := W8_of_ne m ρ c main_v23 (by decide)
    _ = W6 m ρ c (Proc.devRef .tc main_v23) := StableHlo.after_of_forall_not_mem (b := Proc.devRef .tc main_v23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v23) := W6_of_ne m ρ c main_v23 (by decide)
    _ = W4 m ρ c (Proc.devRef .tc main_v23) := StableHlo.after_of_forall_not_mem (b := Proc.devRef .tc main_v23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v23) := W4_of_ne m ρ c main_v23 (by decide)
    _ = W2 m ρ c (Proc.devRef .tc main_v23) := StableHlo.after_of_forall_not_mem (b := Proc.devRef .tc main_v23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v23) := W2_of_ne m ρ c main_v23 (by decide)

/-- `main_v25` holds at boundary 10 what it held at boundary 1. -/
theorem main_v25_1_10 (c : Dev nD) : W10 m ρ c (Proc.devRef .tc main_v25) = W1 m ρ c (Proc.devRef .tc main_v25) :=
  calc W10 m ρ c (Proc.devRef .tc main_v25)
    _ = W9 m ρ c (Proc.devRef .tc main_v25) := W10_of_ne m ρ c main_v25 (by decide)
    _ = W8 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v25) := W8_of_ne m ρ c main_v25 (by decide)
    _ = W6 m ρ c (Proc.devRef .tc main_v25) := StableHlo.after_of_forall_not_mem (b := Proc.devRef .tc main_v25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v25) := W6_of_ne m ρ c main_v25 (by decide)
    _ = W4 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v25) := W4_of_ne m ρ c main_v25 (by decide)
    _ = W2 m ρ c (Proc.devRef .tc main_v25) := StableHlo.after_of_forall_not_mem (b := Proc.devRef .tc main_v25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v25) := W2_of_ne m ρ c main_v25 (by decide)

/-- `main_v26` holds at boundary 10 what it held at boundary 1. -/
theorem main_v26_1_10 (c : Dev nD) : W10 m ρ c (Proc.devRef .tc main_v26) = W1 m ρ c (Proc.devRef .tc main_v26) :=
  calc W10 m ρ c (Proc.devRef .tc main_v26)
    _ = W9 m ρ c (Proc.devRef .tc main_v26) := W10_of_ne m ρ c main_v26 (by decide)
    _ = W8 m ρ c (Proc.devRef .tc main_v26) := StableHlo.after_of_forall_not_mem (b := Proc.devRef .tc main_v26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v26) := W8_of_ne m ρ c main_v26 (by decide)
    _ = W6 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := (W2_arr m ρ c 2).trans (((dat0 (V1 m ρ) c).arrAt_in 2 rfl cfg0.N).trans (A_eq0 (V1 m ρ) c 2))

/-- `main_v30_0` holds at boundary 3 what it held at boundary 2. -/
theorem main_v30_0_2_3 (c : Dev nD) : W3 m ρ c (Proc.devRef .tc main_v30_0) = W2 m ρ c (Proc.devRef .tc main_v30_0) :=
  calc W3 m ρ c (Proc.devRef .tc main_v30_0)
    _ = W2 m ρ c (Proc.devRef .tc main_v30_0) := StableHlo.after_of_forall_not_mem (b := Proc.devRef .tc main_v30_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v71_0` holds at boundary 7 what it held at boundary 6. -/
theorem main_v71_0_6_7 (c : Dev nD) : W7 m ρ c (Proc.devRef .tc main_v71_0) = W6 m ρ c (Proc.devRef .tc main_v71_0) :=
  calc W7 m ρ c (Proc.devRef .tc main_v71_0)
    _ = W6 m ρ c (Proc.devRef .tc main_v71_0) := StableHlo.after_of_forall_not_mem (b := Proc.devRef .tc main_v71_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v89_0` holds at boundary 9 what it held at boundary 8. -/
theorem main_v89_0_8_9 (c : Dev nD) : W9 m ρ c (Proc.devRef .tc main_v89_0) = W8 m ρ c (Proc.devRef .tc main_v89_0) :=
  calc W9 m ρ c (Proc.devRef .tc main_v89_0)
    _ = W8 m ρ c (Proc.devRef .tc main_v89_0) := StableHlo.after_of_forall_not_mem (b := Proc.devRef .tc main_v89_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v107` holds at boundary 17 what it held at boundary 10. -/
theorem main_v107_10_17 (c : Dev nD) : W17 m ρ c (Proc.devRef .tc main_v107) = W10 m ρ c (Proc.devRef .tc main_v107) :=
  calc W17 m ρ c (Proc.devRef .tc main_v107)
    _ = W16 m ρ c (Proc.devRef .tc main_v107) := StableHlo.after_of_forall_not_mem (b := Proc.devRef .tc main_v107) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v107) := W16_of_ne m ρ c main_v107 (by decide)
    _ = W14 m ρ c (Proc.devRef .tc main_v107) := StableHlo.after_of_forall_not_mem (b := Proc.devRef .tc main_v107) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v107) := W14_of_ne m ρ c main_v107 (by decide)
    _ = W12 m ρ c (Proc.devRef .tc main_v107) := StableHlo.after_of_forall_not_mem (b := Proc.devRef .tc main_v107) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v107) := W12_of_ne m ρ c main_v107 (by decide)
    _ = W10 m ρ c (Proc.devRef .tc main_v107) := StableHlo.after_of_forall_not_mem (b := Proc.devRef .tc main_v107) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v122_0` holds at boundary 13 what it held at boundary 12. -/
theorem main_v122_0_12_13 (c : Dev nD) : W13 m ρ c (Proc.devRef .tc main_v122_0) = W12 m ρ c (Proc.devRef .tc main_v122_0) :=
  calc W13 m ρ c (Proc.devRef .tc main_v122_0)
    _ = W12 m ρ c (Proc.devRef .tc main_v122_0) := StableHlo.after_of_forall_not_mem (b := Proc.devRef .tc main_v122_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v140_0` holds at boundary 15 what it held at boundary 14. -/
theorem main_v140_0_14_15 (c : Dev nD) : W15 m ρ c (Proc.devRef .tc main_v140_0) = W14 m ρ c (Proc.devRef .tc main_v140_0) :=
  calc W15 m ρ c (Proc.devRef .tc main_v140_0)
    _ = W14 m ρ c (Proc.devRef .tc main_v140_0) := StableHlo.after_of_forall_not_mem (b := Proc.devRef .tc main_v140_0) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg10` holds at boundary 2 what it held at boundary 0. -/
theorem main_arg10_0_2 (c : Dev nD) : W2 m ρ c (Proc.devRef .tc main_arg10) = W0 m ρ c (Proc.devRef .tc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg11` holds at boundary 2 what it held at boundary 0. -/
theorem main_arg11_0_2 (c : Dev nD) : W2 m ρ c (Proc.devRef .tc main_arg11) = W0 m ρ c (Proc.devRef .tc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg0` holds at boundary 4 what it held at boundary 0. -/
theorem main_arg0_0_4 (c : Dev nD) : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg18` holds at boundary 4 what it held at boundary 0. -/
theorem main_arg18_0_4 (c : Dev nD) : W4 m ρ c (Proc.devRef .tc main_arg18) = W0 m ρ c (Proc.devRef .tc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg19` holds at boundary 4 what it held at boundary 0. -/
theorem main_arg19_0_4 (c : Dev nD) : W4 m ρ c (Proc.devRef .tc main_arg19) = W0 m ρ c (Proc.devRef .tc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg12` holds at boundary 5 what it held at boundary 0. -/
theorem main_arg12_0_5 (c : Dev nD) : W5 m ρ c (Proc.devRef .tc main_arg12) = W0 m ρ c (Proc.devRef .tc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg13` holds at boundary 6 what it held at boundary 0. -/
theorem main_arg13_0_6 (c : Dev nD) : W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg14` holds at boundary 6 what it held at boundary 0. -/
theorem main_arg14_0_6 (c : Dev nD) : W6 m ρ c (Proc.devRef .tc main_arg14) = W0 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg15` holds at boundary 7 what it held at boundary 0. -/
theorem main_arg15_0_7 (c : Dev nD) : W7 m ρ c (Proc.devRef .tc main_arg15) = W0 m ρ c (Proc.devRef .tc main_arg15) :=
  calc W7 m ρ c (Proc.devRef .tc main_arg15)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg16` holds at boundary 8 what it held at boundary 0. -/
theorem main_arg16_0_8 (c : Dev nD) : W8 m ρ c (Proc.devRef .tc main_arg16) = W0 m ρ c (Proc.devRef .tc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg17` holds at boundary 8 what it held at boundary 0. -/
theorem main_arg17_0_8 (c : Dev nD) : W8 m ρ c (Proc.devRef .tc main_arg17) = W0 m ρ c (Proc.devRef .tc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg20` holds at boundary 10 what it held at boundary 0. -/
theorem main_arg20_0_10 (c : Dev nD) : W10 m ρ c (Proc.devRef .tc main_arg20) = W0 m ρ c (Proc.devRef .tc main_arg20) :=
  calc W10 m ρ c (Proc.devRef .tc main_arg20)
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg3` holds at boundary 10 what it held at boundary 0. -/
theorem main_arg3_0_10 (c : Dev nD) : W10 m ρ c (Proc.devRef .tc main_arg3) = W0 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg4` holds at boundary 12 what it held at boundary 0. -/
theorem main_arg4_0_12 (c : Dev nD) : W12 m ρ c (Proc.devRef .tc main_arg4) = W0 m ρ c (Proc.devRef .tc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg5` holds at boundary 12 what it held at boundary 0. -/
theorem main_arg5_0_12 (c : Dev nD) : W12 m ρ c (Proc.devRef .tc main_arg5) = W0 m ρ c (Proc.devRef .tc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg6` holds at boundary 13 what it held at boundary 0. -/
theorem main_arg6_0_13 (c : Dev nD) : W13 m ρ c (Proc.devRef .tc main_arg6) = W0 m ρ c (Proc.devRef .tc main_arg6) :=
  calc W13 m ρ c (Proc.devRef .tc main_arg6)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg7` holds at boundary 14 what it held at boundary 0. -/
theorem main_arg7_0_14 (c : Dev nD) : W14 m ρ c (Proc.devRef .tc main_arg7) = W0 m ρ c (Proc.devRef .tc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg8` holds at boundary 14 what it held at boundary 0. -/
theorem main_arg8_0_14 (c : Dev nD) : W14 m ρ c (Proc.devRef .tc main_arg8) = W0 m ρ c (Proc.devRef .tc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibPairSums.lean ====
/-
  Sums over the 320000 = 2 · 160000 rows, selected by a condition on the pair a row belongs to.

  A row `r` is the row of a pair `(e, h)` in one of two layouts (`BlockSums.halves`: row `160000 h + e`; `BlockSums.interleave`:
  row `2 e + h`). A sum over rows of terms selected by a condition on the row's pair is the sum over pairs of the terms
  selected by the condition on the pair. The conditions of interest compare a 32-bit index word attached to the pair,
  `ei h e`, read as a signed integer, with a fixed integer `n` (the rows that a scatter sends to row `n`).

  * `sum_equiv_ite`, `sum_halves_ite`, `sum_interleave_ite`: the re-indexing of a selected sum through a bijection.
  * `halves_symm_of_lt`, `halves_symm_of_ge`, `concat_words_eq`: the concatenation of the two index vectors `ei 0`, `ei 1` has, at
    row `r` of the two-halves layout, the word of `r`'s pair.
  * `sum_concat_words_ite`: the selected sum over the rows of the concatenated index vector, as a sum over pairs.
  * `sum_two_vectors_ite`: the selected sums over the two index vectors separately add up to the sum over pairs.
  * `sum_interleaved_words_ite`: the same for an index vector laid out interleaved.
  * `halves_zero`, `halves_one`, `interleave_eq` and their `val` forms: the rows of a pair, as literals.
-/
import Mathlib.Algebra.BigOperators.Fin
import Mathlib.Algebra.BigOperators.Group.Finset.Piecewise
import proofs.«131702_j10462540333326_2_alg».proof.Proof.LibBlockSums

open scoped BigOperators

namespace PairSums

open BlockSums

variable {M : Type*} [AddCommMonoid M]

/-! ## The rows of a pair, as literals -/

/-- In the two-halves layout, member `0` of pair `e` is row `e`. -/
theorem halves_zero_val (e : Fin 160000) : (halves (e, 0)).val = e.val := by
  show 160000 * 0 + e.val = e.val
  omega

/-- In the two-halves layout, member `1` of pair `e` is row `e + 160000`. -/
theorem halves_one_val (e : Fin 160000) : (halves (e, 1)).val = e.val + 160000 := by
  show 160000 * 1 + e.val = e.val + 160000
  omega

/-- In the two-halves layout, member `0` of pair `e` is row `e`. -/
theorem halves_zero (e : Fin 160000) : halves (e, 0) = (⟨e.val, by omega⟩ : Fin 320000) :=
  Fin.ext (halves_zero_val e)

/-- In the two-halves layout, member `1` of pair `e` is row `e + 160000`. -/
theorem halves_one (e : Fin 160000) : halves (e, 1) = (⟨e.val + 160000, by omega⟩ : Fin 320000) :=
  Fin.ext (halves_one_val e)

/-- In the interleaved layout, member `h` of pair `e` is row `2 e + h`. -/
theorem interleave_eq (e : Fin 160000) (h : Fin 2) :
    interleave (e, h) = (⟨2 * e.val + h.val, by omega⟩ : Fin 320000) := rfl

/-- In the interleaved layout, member `0` of pair `e` is row `2 e`. -/
theorem interleave_zero (e : Fin 160000) : interleave (e, 0) = (⟨2 * e.val, by omega⟩ : Fin 320000) :=
  Fin.ext (by show 2 * e.val + 0 = 2 * e.val; omega)

/-- In the interleaved layout, member `1` of pair `e` is row `2 e + 1`. -/
theorem interleave_one (e : Fin 160000) : interleave (e, 1) = (⟨2 * e.val + 1, by omega⟩ : Fin 320000) := rfl

/-- A row below 160000 is, in the two-halves layout, member `0` of the pair with its own number. -/
theorem halves_symm_of_lt (r : Fin 320000) (hr : r.val < 160000) : halves.symm r = (⟨r.val, hr⟩, 0) :=
  (Equiv.symm_apply_eq halves).mpr (Fin.ext (by show r.val = 160000 * 0 + r.val; omega))

/-- A row from 160000 on is, in the two-halves layout, member `1` of the pair numbered 160000 less. -/
theorem halves_symm_of_ge (r : Fin 320000) (hr : ¬ r.val < 160000) :
    halves.symm r = (⟨r.val - 160000, by omega⟩, 1) :=
  (Equiv.symm_apply_eq halves).mpr (Fin.ext (by show r.val = 160000 * 1 + (r.val - 160000); omega))

/-! ## Selected sums re-indexed through a bijection -/

/-- A sum over `κ` of the terms selected by a condition on the preimage under a bijection `σ : ι ≃ κ` is the sum over `ι`
    of the terms at the images, selected by the condition itself. -/
theorem sum_equiv_ite {ι κ : Type*} [Fintype ι] [Fintype κ] (σ : ι ≃ κ) (P : ι → Prop) [DecidablePred P] (f : κ → M) :
    ∑ r, (if P (σ.symm r) then f r else 0) = ∑ p, if P p then f (σ p) else 0 := by
  rw [← Equiv.sum_comp σ]
  simp only [Equiv.symm_apply_apply]

/-- The rows selected by a condition on their pair (two-halves layout), summed: the sum over the selected pairs. -/
theorem sum_halves_ite (P : Fin 160000 × Fin 2 → Prop) [DecidablePred P] (f : Fin 320000 → M) :
    ∑ r : Fin 320000, (if P (halves.symm r) then f r else 0)
      = ∑ p : Fin 160000 × Fin 2, if P p then f (halves p) else 0 :=
  sum_equiv_ite halves P f

/-- The rows selected by a condition on their pair (interleaved layout), summed: the sum over the selected pairs. -/
theorem sum_interleave_ite (P : Fin 160000 × Fin 2 → Prop) [DecidablePred P] (f : Fin 320000 → M) :
    ∑ r : Fin 320000, (if P (interleave.symm r) then f r else 0)
      = ∑ p : Fin 160000 × Fin 2, if P p then f (interleave p) else 0 :=
  sum_equiv_ite interleave P f

/-! ## Index words attached to the pairs -/

/-- The concatenation `uv` of the index vectors `u = ei 0` and `v = ei 1` has, at row `r`, the word of `r`'s pair in the
    two-halves layout. -/
theorem concat_words_eq (u v : Fin 160000 → BitVec 32) (uv : Fin 320000 → BitVec 32)
    (huv : ∀ r : Fin 320000, uv r = if hr : r.val < 160000 then u ⟨r.val, hr⟩ else v ⟨r.val - 160000, by omega⟩)
    (ei : Fin 2 → Fin 160000 → BitVec 32) (h0 : ei 0 = u) (h1 : ei 1 = v) (r : Fin 320000) :
    uv r = ei (halves.symm r).2 (halves.symm r).1 := by
  rw [huv r]
  by_cases hr : r.val < 160000
  · rw [dif_pos hr, halves_symm_of_lt r hr, h0]
  · rw [dif_neg hr, halves_symm_of_ge r hr, h1]

/-- The rows at which the concatenated index vector reads `n`, summed: the sum over the pairs whose word reads `n`,
    each term at the pair's row in the two-halves layout. -/
theorem sum_concat_words_ite (u v : Fin 160000 → BitVec 32) (uv : Fin 320000 → BitVec 32)
    (huv : ∀ r : Fin 320000, uv r = if hr : r.val < 160000 then u ⟨r.val, hr⟩ else v ⟨r.val - 160000, by omega⟩)
    (ei : Fin 2 → Fin 160000 → BitVec 32) (h0 : ei 0 = u) (h1 : ei 1 = v) (f : Fin 320000 → M) (n : ℤ) :
    ∑ r : Fin 320000, (if (uv r).toInt = n then f r else 0)
      = ∑ p : Fin 160000 × Fin 2, if (ei p.2 p.1).toInt = n then f (halves p) else 0 := by
  rw [← sum_halves_ite (fun p => (ei p.2 p.1).toInt = n) f]
  refine Finset.sum_congr rfl fun r _ => ?_
  rw [concat_words_eq u v uv huv ei h0 h1 r]

/-- The selected sums over the two index vectors separately, of a term that depends on the pair's number only, add up
    to the selected sum over the pairs. -/
theorem sum_two_vectors_ite (u v : Fin 160000 → BitVec 32) (ei : Fin 2 → Fin 160000 → BitVec 32)
    (h0 : ei 0 = u) (h1 : ei 1 = v) (D : Fin 160000 → M) (n : ℤ) :
    (∑ e : Fin 160000, if (u e).toInt = n then D e else 0) + (∑ e : Fin 160000, if (v e).toInt = n then D e else 0)
      = ∑ p : Fin 160000 × Fin 2, if (ei p.2 p.1).toInt = n then D p.1 else 0 := by
  subst h0 h1
  rw [Fintype.sum_prod_type, ← Finset.sum_add_distrib]
  refine Finset.sum_congr rfl fun e _ => ?_
  rw [Fin.sum_univ_two]

/-- An index vector laid out interleaved (row `r` carries the word of member `r % 2` of pair `r / 2`): the rows at which it
    reads `n`, summed, are the sum over the pairs whose word reads `n`, each term at the pair's interleaved row. -/
theorem sum_interleaved_words_ite (atoms : Fin 320000 → BitVec 32) (ei : Fin 2 → Fin 160000 → BitVec 32)
    (hat : ∀ r : Fin 320000, atoms r = ei ⟨r.val % 2, by omega⟩ ⟨r.val / 2, by omega⟩) (f : Fin 320000 → M) (n : ℤ) :
    ∑ r : Fin 320000, (if (atoms r).toInt = n then f r else 0)
      = ∑ p : Fin 160000 × Fin 2, if (ei p.2 p.1).toInt = n then f (interleave p) else 0 := by
  rw [← sum_interleave_ite (fun p => (ei p.2 p.1).toInt = n) f]
  refine Finset.sum_congr rfl fun r _ => ?_
  rw [hat r]
  rfl

end PairSums
-- ==== Proof.KerChainPure.lean ====
/-
  The layer's definitions recognised in the values a program computes row by row.

  A program that lays the pair `p = (e, h)` at row `halves p = 160000 h + e` computes, stage by stage: a linear map of
  the rows, the two column sums (of the entries and of their squares) over all rows, a per-column scale and shift
  from those sums, and the rectified affine image `max (y · scale + shift) 0`. Each lemma here takes what such a stage
  is known to compute, as hypotheses over plain functions of row and column, and concludes that it is the
  corresponding term of the specification (with the folded form of the batch normalisation, `bn true = bnOnePass`).

  * `sum_halves_of`: a sum over the 320000 rows of values known at the rows `halves p` is the sum over the pairs.
  * `bn_true_of`: the rectified affine image with scale and shift built from the column sums IS the folded batch
    normalisation; `bn_true_halves_of`: the same when the rows are the pairs laid at `halves p`.
  * `y1_of`, `yC_of`: the three-block (two-block) linear maps at row `halves p`.
  * `lvlLocal_of`, `lvlDom_of`, `nodeIn_of`: the scatter sums over rows, re-indexed over pairs.
  * `emean_of`, `p0_of`, `p1_of`: the edge-side inputs.
-/
import proofs.«131702_j10462540333326_2_alg».proof.Proof.Spec
import proofs.«131702_j10462540333326_2_alg».proof.Proof.BnConsts
import proofs.«131702_j10462540333326_2_alg».proof.Proof.LibBlockSums
import proofs.«131702_j10462540333326_2_alg».proof.Proof.LibPairSums

noncomputable section

open scoped BigOperators

namespace Cert.KernelIdeal.Chain

open Idealize.ShloMosaic EdgeNodeLayer BlockSums

/-! ## Sums over rows laid out in two halves -/

/-- A sum over the 320000 rows of values known at the rows `halves p` is the sum over the pairs. -/
theorem sum_halves_of {M : Type*} [AddCommMonoid M] (y : Fin 320000 → M) (Y : Fin 160000 × Fin 2 → M)
    (h : ∀ p, y (halves p) = Y p) : ∑ r, y r = ∑ p, Y p := by
  rw [sum_halves]
  exact Finset.sum_congr rfl fun p _ => h p

/-! ## The folded batch normalisation -/

/-- THE FOLDED FORM RECOGNISED: if `sum` and `sumsq` are the column sums of `X` and of its squares, `scale` is
    `g · rsqrt ((sumsq / cnt - (sum / cnt)²) + ε)` and `shift` is `b - (sum / cnt) · scale`, then `max (X · scale + shift) 0` is
    the folded batch normalisation of `X`. -/
theorem bn_true_of {ι κ : Type} [Fintype ι] (cnt : EReal) (X : ι → κ → EReal) (g b : κ → EReal)
    (sum sumsq scale shift : κ → EReal)
    (hsum : ∀ q, sum q = ∑ s, X s q) (hsq : ∀ q, sumsq q = ∑ s, X s q * X s q)
    (hscale : ∀ q, scale q = g q * Ideal.rsqrt ((Ideal.div (sumsq q) cnt
        - Ideal.div (sum q) cnt * Ideal.div (sum q) cnt) + cEps))
    (hshift : ∀ q, shift q = b q - Ideal.div (sum q) cnt * scale q) (r : ι) (q : κ) :
    max (X r q * scale q + shift q) cZero = bn true cnt X g b r q := by
  rw [hshift q, hscale q, hsq q, hsum q]
  rfl

/-- The same for rows that are the pairs laid at `halves p`: the column sums run over the 320000 rows. -/
theorem bn_true_halves_of {κ : Type} (cnt : EReal) (X : Fin 160000 × Fin 2 → κ → EReal) (g b : κ → EReal)
    (y : Fin 320000 → κ → EReal) (hy : ∀ p q, y (halves p) q = X p q)
    (sum sumsq scale shift : κ → EReal)
    (hsum : ∀ q, sum q = ∑ r : Fin 320000, y r q) (hsq : ∀ q, sumsq q = ∑ r : Fin 320000, y r q * y r q)
    (hscale : ∀ q, scale q = g q * Ideal.rsqrt ((Ideal.div (sumsq q) cnt
        - Ideal.div (sum q) cnt * Ideal.div (sum q) cnt) + cEps))
    (hshift : ∀ q, shift q = b q - Ideal.div (sum q) cnt * scale q) (p : Fin 160000 × Fin 2) (q : κ) :
    max (y (halves p) q * scale q + shift q) cZero = bn true cnt X g b p q := by
  rw [hy p q]
  refine bn_true_of cnt X g b sum sumsq scale shift (fun q => ?_) (fun q => ?_) hscale hshift p q
  · rw [hsum q]; exact sum_halves_of _ _ fun p => hy p q
  · rw [hsq q]; exact sum_halves_of _ _ fun p => by rw [hy p q]

variable (a : Args)

/-! ## The linear maps at row `halves p` -/

/-- The first linear map: three blocks of 128 features (`dom`, `gat`, `erp`) against the three blocks of weight rows. -/
theorem y1_of (A0 A1 A2 : Fin 320000 → Fin 128 → EReal) (A3 A4 A5 : Fin 128 → Fin 128 → EReal)
    (h0 : ∀ p j, A0 (halves p) j = dom a p.1 j) (h1' : ∀ p j, A1 (halves p) j = gat a p.1 p.2 j)
    (h2 : ∀ p j, A2 (halves p) j = erp a p.1 p.2 j)
    (h3 : ∀ (j : Fin 128) q, A3 j q = a.v1w ⟨j.val, by omega⟩ q)
    (h4 : ∀ (j : Fin 128) q, A4 j q = a.v1w ⟨j.val + 128, by omega⟩ q)
    (h5 : ∀ (j : Fin 128) q, A5 j q = a.v1w ⟨j.val + 256, by omega⟩ q)
    (p : Fin 160000 × Fin 2) (q : Fin 128) :
    (∑ j : Fin 128, A0 (halves p) j * A3 j q) + (∑ j : Fin 128, A1 (halves p) j * A4 j q)
      + (∑ j : Fin 128, A2 (halves p) j * A5 j q) = y1 a p q := by
  unfold y1
  congr 1
  · congr 1
    · exact Finset.sum_congr rfl fun j _ => by rw [h0, h3]
    · exact Finset.sum_congr rfl fun j _ => by rw [h1', h4]
  · exact Finset.sum_congr rfl fun j _ => by rw [h2, h5]

/-- The first edge map: two blocks of 128 features (`p0`, `p1`) against the two blocks of weight rows. -/
theorem yC_of (A0 A1 : Fin 320000 → Fin 128 → EReal) (A2 A3 : Fin 128 → Fin 256 → EReal)
    (h0 : ∀ p j, A0 (halves p) j = p0 a p.1 j) (h1' : ∀ p j, A1 (halves p) j = p1 a p.1 p.2 j)
    (h2 : ∀ (j : Fin 128) q, A2 j q = a.lw1 ⟨j.val, by omega⟩ q)
    (h3 : ∀ (j : Fin 128) q, A3 j q = a.lw1 ⟨j.val + 128, by omega⟩ q)
    (p : Fin 160000 × Fin 2) (q : Fin 256) :
    (∑ j : Fin 128, A0 (halves p) j * A2 j q) + (∑ j : Fin 128, A1 (halves p) j * A3 j q) = yC a p q := by
  unfold yC
  congr 1
  · exact Finset.sum_congr rfl fun j _ => by rw [h0, h2]
  · exact Finset.sum_congr rfl fun j _ => by rw [h1', h3]

/-! ## The scatter sums -/

variable (k : Bool)

/-- The rows sent to node `n` by the concatenated endpoint vector, summed: `lvlLocal`. -/
theorem lvlLocal_of (u v : Fin 160000 → BitVec 32) (uv : Fin 320000 → BitVec 32)
    (huv : ∀ r : Fin 320000, uv r = if hr : r.val < 160000 then u ⟨r.val, hr⟩ else v ⟨r.val - 160000, by omega⟩)
    (hu : a.ei 0 = u) (hv : a.ei 1 = v)
    (hh : Fin 320000 → Fin 128 → EReal) (hhh : ∀ p q, hh (halves p) q = h1 a k p q) (n : Fin 20000) (q : Fin 128) :
    cZero + ∑ r : Fin 320000, (if (uv r).toInt = (n.val : ℤ) then hh r q else 0) = lvlLocal a k n q := by
  rw [cZero_eq, zero_add, PairSums.sum_concat_words_ite u v uv huv a.ei hu hv (fun r => hh r q) (n.val : ℤ)]
  unfold lvlLocal
  exact Finset.sum_congr rfl fun p _ => by rw [hhh]

/-- The per-edge sums `ds` sent to node `n` by each of the two endpoint vectors, added: `lvlDom`. -/
theorem lvlDom_of (u v : Fin 160000 → BitVec 32) (hu : a.ei 0 = u) (hv : a.ei 1 = v)
    (hh : Fin 320000 → Fin 128 → EReal) (hhh : ∀ p q, hh (halves p) q = h1 a k p q)
    (dsum : Fin 160000 → Fin 128 → EReal)
    (hds : ∀ (e : Fin 160000) q, dsum e q = hh ⟨e.val, by omega⟩ q + hh ⟨e.val + 160000, by omega⟩ q)
    (n : Fin 20000) (q : Fin 128) :
    (cZero + ∑ e : Fin 160000, if (u e).toInt = (n.val : ℤ) then dsum e q else 0)
      + (cZero + ∑ e : Fin 160000, if (v e).toInt = (n.val : ℤ) then dsum e q else 0) = lvlDom a k n q := by
  rw [cZero_eq, zero_add, zero_add, PairSums.sum_two_vectors_ite u v a.ei hu hv (fun e => dsum e q) (n.val : ℤ)]
  unfold lvlDom ds
  refine Finset.sum_congr rfl fun p _ => ?_
  rw [hds, ← PairSums.halves_zero p.1, ← PairSums.halves_one p.1, hhh, hhh]

/-- The node input from its three parts. -/
theorem nodeIn_of (e11 e12 : EReal) (he11 : e11 = a.e11) (he12 : e12 = a.e12)
    (nr L D : EReal) (n : Fin 20000) (q : Fin 128) (hnr : nr = a.nr n q) (hL : L = lvlLocal a k n q)
    (hD : D = lvlDom a k n q) :
    (cOne + e11) * nr + (cOne + e12) * L + D = nodeIn a k n q := by
  rw [he11, he12, hnr, hL, hD]
  rfl

/-! ## The edge-side inputs -/

/-- `p0`: the edge mean scaled, plus the summed gathered features. -/
theorem p0_of (e2 : EReal) (he2 : e2 = a.e2) (x0 x1 d : EReal) (e : Fin 160000) (q : Fin 128)
    (h0 : x0 = erp a e 0 q) (h1' : x1 = erp a e 1 q) (hd : d = dom a e q) :
    (cOne + e2) * ((x0 + x1) * cHalf) + d = p0 a e q := by
  rw [he2, h0, h1', hd]
  rfl

/-- `p1`: the edge feature scaled, plus the gathered feature. -/
theorem p1_of (e2 : EReal) (he2 : e2 = a.e2) (x g : EReal) (e : Fin 160000) (h : Fin 2) (q : Fin 128)
    (hx : x = erp a e h q) (hg : g = gat a e h q) :
    (cOne + e2) * x + g = p1 a e h q := by
  rw [he2, hx, hg]
  rfl

end Cert.KernelIdeal.Chain

end
-- ==== Proof.KerChain01.lean ====
/-
  The program's run, boundaries 1 to 4: the first linear map `y1` at the rows `halves p`, its column sums, the scale and
  shift, and the first rectified batch normalisation `h1`.

  `ka m ρ c` are the program's arguments read off the launch memory. All facts are for every launch memory `m`, seed
  `ρ` and device `c`, from the records of what the stretches and regions compute (`AllFacts`).
-/
import proofs.«131702_j10462540333326_2_alg».proof.Proof.Gen.KernelIdeal.Frame
import proofs.«131702_j10462540333326_2_alg».proof.Proof.KerKept
import proofs.«131702_j10462540333326_2_alg».proof.Proof.HostArgs
import proofs.«131702_j10462540333326_2_alg».proof.Proof.KerChainFacts
import proofs.«131702_j10462540333326_2_alg».proof.Proof.KerChainPure

set_option maxRecDepth 16384

noncomputable section

open scoped BigOperators

namespace Cert.KernelIdeal.Chain

open Cert.KernelIdeal Cert.KernelIdeal.Gen Cert.KernelIdeal.HostValue Idealize.ShloMosaic Idealize.ShloMosaic.TcCoe
open Idealize.SL.Sem ValueIdx EdgeNodeLayer BlockSums

/-- Everything the chain takes from the per-stretch and per-region value lemmas. -/
structure AllFacts : Prop where
  H0 : ∀ W, Host0Facts W
  H1 : ∀ W, Host1Facts W
  H2 : ∀ W, Host2Facts W
  H3 : ∀ W, Host3Facts W
  H4 : ∀ W, Host4Facts W
  H5 : ∀ W, Host5Facts W
  H6 : ∀ W, Host6Facts W
  H7 : ∀ W, Host7Facts W
  H8 : ∀ W, Host8Facts W
  R0 : ∀ V c, Region0Facts V c
  R1 : ∀ V c, Region1Facts V c
  R2 : ∀ V c, Region2Facts V c
  R3 : ∀ V c, Region3Facts V c
  R4 : ∀ V c, Region4Facts V c
  R5 : ∀ V c, Region5Facts V c
  R6 : ∀ V c, Region6Facts V c
  R7 : ∀ V c, Region7Facts V c

variable (m : (ℓ : Loc nD τ sig) → Buf (Elt Ideal) ℓ) (ρ : Dev nD → PrngReg) (c : Dev nD)

/-- The program's arguments on device `c`, read off the launch memory. -/
abbrev ka : Args := argsOf (W0 m ρ c)

variable (F : AllFacts)
include F

/-! ## Boundary 2: after region 0 -/

/-- Region 0's product at row `halves p` is the first linear map of pair `p`. -/
theorem b2_Y0 (p : Fin 160000 × Fin 2) (q : Fin 128) : Y0 (V1 m ρ) c (halves p) q = y1 (ka m ρ c) p q := by
  unfold Y0
  exact y1_of (ka m ρ c)
    (fun r j => rd2 (W1 m ρ c (Proc.devRef .tc main_v19)) r j) (fun r j => rd2 (W1 m ρ c (Proc.devRef .tc main_v20)) r j)
    (fun r j => rd2 (W1 m ρ c (Proc.devRef .tc main_v26)) r j) (fun j q => rd2 (W1 m ρ c (Proc.devRef .tc main_v27)) j q)
    (fun j q => rd2 (W1 m ρ c (Proc.devRef .tc main_v28)) j q) (fun j q => rd2 (W1 m ρ c (Proc.devRef .tc main_v29)) j q)
    (fun p j => (F.H0 (W0 m ρ c)).v19 p j) (fun p j => (F.H0 (W0 m ρ c)).v20 p j)
    (fun p j => (F.H0 (W0 m ρ c)).v26 p j) (fun j q => (F.H0 (W0 m ρ c)).v27 j q)
    (fun j q => (F.H0 (W0 m ρ c)).v28 j q) (fun j q => (F.H0 (W0 m ρ c)).v29 j q) p q

/-- After region 0 the product array holds region 0's product. -/
theorem b2_out (r : Fin 320000) (q : Fin 128) : rd2 (W2 m ρ c (Proc.devRef .tc main_v30_0)) r q = Y0 (V1 m ρ) c r q := by
  have h : ((W2 m ρ c (Proc.devRef .tc main_v30_0)) : S320000x128.Idx → EReal)
      = ((dat0 (V1 m ρ) c).arrAt 6 cfg0.N : S320000x128.Idx → EReal) := W2_arr m ρ c 6
  show ((W2 m ρ c (Proc.devRef .tc main_v30_0)) : S320000x128.Idx → EReal) (ix2 r q) = _
  rw [h]
  exact (F.R0 (V1 m ρ) c).out r q

/-- After region 0 the column-sum row holds the column sums of the product. -/
theorem b2_sum (q : Fin 128) : rd2 (W2 m ρ c (Proc.devRef .tc main_v30_1)) 0 q = ∑ r : Fin 320000, Y0 (V1 m ρ) c r q := by
  have h : ((W2 m ρ c (Proc.devRef .tc main_v30_1)) : S1x128.Idx → EReal)
      = ((dat0 (V1 m ρ) c).arrAt 7 cfg0.N : S1x128.Idx → EReal) := W2_arr m ρ c 7
  show ((W2 m ρ c (Proc.devRef .tc main_v30_1)) : S1x128.Idx → EReal) (ix2 (0 : Fin 1) q) = _
  rw [h]
  exact (F.R0 (V1 m ρ) c).sum q

/-- After region 0 the sum-of-squares row holds the column sums of the product's squares. -/
theorem b2_sumsq (q : Fin 128) :
    rd2 (W2 m ρ c (Proc.devRef .tc main_v30_2)) 0 q = ∑ r : Fin 320000, Y0 (V1 m ρ) c r q * Y0 (V1 m ρ) c r q := by
  have h : ((W2 m ρ c (Proc.devRef .tc main_v30_2)) : S1x128.Idx → EReal)
      = ((dat0 (V1 m ρ) c).arrAt 8 cfg0.N : S1x128.Idx → EReal) := W2_arr m ρ c 8
  show ((W2 m ρ c (Proc.devRef .tc main_v30_2)) : S1x128.Idx → EReal) (ix2 (0 : Fin 1) q) = _
  rw [h]
  exact (F.R0 (V1 m ρ) c).sumsq q

/-! ## Boundary 3: after stretch 1 -/

/-- The scale after stretch 1, with the argument `v1g` in place of its buffer. -/
theorem b3_scale (q : Fin 128) : rd2 (W3 m ρ c (Proc.devRef .tc main_v43)) 0 q
    = (ka m ρ c).v1g q * Ideal.rsqrt ((Ideal.div (rd2 (W2 m ρ c (Proc.devRef .tc main_v30_2)) 0 q) cRowsE
        - Ideal.div (rd2 (W2 m ρ c (Proc.devRef .tc main_v30_1)) 0 q) cRowsE * Ideal.div (rd2 (W2 m ρ c (Proc.devRef .tc main_v30_1)) 0 q) cRowsE) + cEps) := by
  have kg : ((W2 m ρ c (Proc.devRef .tc main_arg10)) : S128.Idx → EReal) = (W0 m ρ c (Proc.devRef .tc main_arg10)) := Kept.main_arg10_0_2 m ρ c
  refine ((F.H1 (W2 m ρ c)).scale q).trans ?_
  rw [kg]
  rfl

/-- The shift after stretch 1, with the arguments `v1g`, `v1b` in place of their buffers. -/
theorem b3_shift (q : Fin 128) : rd2 (W3 m ρ c (Proc.devRef .tc main_v47)) 0 q
    = (ka m ρ c).v1b q - Ideal.div (rd2 (W2 m ρ c (Proc.devRef .tc main_v30_1)) 0 q) cRowsE * rd2 (W3 m ρ c (Proc.devRef .tc main_v43)) 0 q := by
  have kb : ((W2 m ρ c (Proc.devRef .tc main_arg11)) : S128.Idx → EReal) = (W0 m ρ c (Proc.devRef .tc main_arg11)) := Kept.main_arg11_0_2 m ρ c
  rw [b3_scale m ρ c F q]
  have kg : ((W2 m ρ c (Proc.devRef .tc main_arg10)) : S128.Idx → EReal) = (W0 m ρ c (Proc.devRef .tc main_arg10)) := Kept.main_arg10_0_2 m ρ c
  refine ((F.H1 (W2 m ρ c)).shift q).trans ?_
  rw [kg, kb]
  rfl

/-! ## Boundary 4: after region 1 -/

/-- After region 1 row `halves p` of its result is the first rectified batch normalisation of pair `p`. -/
theorem b4_v48 (p : Fin 160000 × Fin 2) (q : Fin 128) :
    rd2 (W4 m ρ c (Proc.devRef .tc main_v48)) (halves p) q = h1 (ka m ρ c) true p q := by
  have hout : rd2 (W4 m ρ c (Proc.devRef .tc main_v48)) (halves p) q
      = max (rd2 (W3 m ρ c (Proc.devRef .tc main_v30_0)) (halves p) q * rd2 (W3 m ρ c (Proc.devRef .tc main_v43)) 0 q
          + rd2 (W3 m ρ c (Proc.devRef .tc main_v47)) 0 q) cZero := by
    have h : ((W4 m ρ c (Proc.devRef .tc main_v48)) : S320000x128.Idx → EReal)
        = ((dat1 (V3 m ρ) c).arrAt 3 cfg1.N : S320000x128.Idx → EReal) := W4_arr m ρ c 3
    show ((W4 m ρ c (Proc.devRef .tc main_v48)) : S320000x128.Idx → EReal) (ix2 (halves p) q) = _
    rw [h]
    exact (F.R1 (V3 m ρ) c).out (halves p) q
  have hk : rd2 (W3 m ρ c (Proc.devRef .tc main_v30_0)) (halves p) q = Y0 (V1 m ρ) c (halves p) q := by
    have k : ((W3 m ρ c (Proc.devRef .tc main_v30_0)) : S320000x128.Idx → EReal) = (W2 m ρ c (Proc.devRef .tc main_v30_0)) :=
      Kept.main_v30_0_2_3 m ρ c
    show ((W3 m ρ c (Proc.devRef .tc main_v30_0)) : S320000x128.Idx → EReal) (ix2 (halves p) q) = _
    rw [k]
    exact b2_out m ρ c F (halves p) q
  rw [hout, hk]
  exact bn_true_halves_of cRowsE (y1 (ka m ρ c)) (ka m ρ c).v1g (ka m ρ c).v1b
    (fun r q => Y0 (V1 m ρ) c r q) (fun p q => b2_Y0 m ρ c F p q)
    (fun q => rd2 (W2 m ρ c (Proc.devRef .tc main_v30_1)) 0 q) (fun q => rd2 (W2 m ρ c (Proc.devRef .tc main_v30_2)) 0 q)
    (fun q => rd2 (W3 m ρ c (Proc.devRef .tc main_v43)) 0 q) (fun q => rd2 (W3 m ρ c (Proc.devRef .tc main_v47)) 0 q)
    (fun q => b2_sum m ρ c F q) (fun q => b2_sumsq m ρ c F q)
    (fun q => b3_scale m ρ c F q) (fun q => b3_shift m ρ c F q) p q

end Cert.KernelIdeal.Chain

end
-- ==== Proof.KerChain02.lean ====
/-
  The program's run, boundaries 5 to 10: the node input, the two node-side maps with their batch normalisations, and the
  node result.
-/
import proofs.«131702_j10462540333326_2_alg».proof.Proof.Gen.KernelIdeal.Frame
import proofs.«131702_j10462540333326_2_alg».proof.Proof.KerKept
import proofs.«131702_j10462540333326_2_alg».proof.Proof.HostArgs
import proofs.«131702_j10462540333326_2_alg».proof.Proof.KerChainFacts
import proofs.«131702_j10462540333326_2_alg».proof.Proof.KerChainPure
import proofs.«131702_j10462540333326_2_alg».proof.Proof.KerChain01

set_option maxRecDepth 16384

noncomputable section

open scoped BigOperators

namespace Cert.KernelIdeal.Chain

open Cert.KernelIdeal Cert.KernelIdeal.Gen Cert.KernelIdeal.HostValue Idealize.ShloMosaic Idealize.ShloMosaic.TcCoe
open Idealize.SL.Sem ValueIdx EdgeNodeLayer BlockSums

variable (m : (ℓ : Loc nD τ sig) → Buf (Elt Ideal) ℓ) (ρ : Dev nD → PrngReg) (c : Dev nD) (F : AllFacts)
include F

/-! ## Boundary 5: after stretch 2 -/

/-- The first endpoint vector, still in place before stretch 2, is the first row of the endpoint argument. -/
theorem b4_v1 : (ka m ρ c).ei 0 = fun e => rdw1 (W4 m ρ c (Proc.devRef .tc main_v1)) e := by
  funext e
  have k : ((W4 m ρ c (Proc.devRef .tc main_v1)) : S160000.Idx → BitVec 32) = (W1 m ρ c (Proc.devRef .tc main_v1)) := Kept.main_v1_1_4 m ρ c
  show _ = ((W4 m ρ c (Proc.devRef .tc main_v1)) : S160000.Idx → BitVec 32) (ix1 e)
  rw [k]
  exact ((F.H0 (W0 m ρ c)).v1 e).symm

/-- The second endpoint vector, still in place before stretch 2, is the second row of the endpoint argument. -/
theorem b4_v3 : (ka m ρ c).ei 1 = fun e => rdw1 (W4 m ρ c (Proc.devRef .tc main_v3)) e := by
  funext e
  have k : ((W4 m ρ c (Proc.devRef .tc main_v3)) : S160000.Idx → BitVec 32) = (W1 m ρ c (Proc.devRef .tc main_v3)) := Kept.main_v3_1_4 m ρ c
  show _ = ((W4 m ρ c (Proc.devRef .tc main_v3)) : S160000.Idx → BitVec 32) (ix1 e)
  rw [k]
  exact ((F.H0 (W0 m ρ c)).v3 e).symm

/-- After stretch 2 the node-input array holds the node input. -/
theorem b5_v70 (n : Fin 20000) (q : Fin 128) : rd2 (W5 m ρ c (Proc.devRef .tc main_v70)) n q = nodeIn (ka m ρ c) true n q := by
  have k18 : ((W4 m ρ c (Proc.devRef .tc main_arg18)) : S_.Idx → EReal) = (W0 m ρ c (Proc.devRef .tc main_arg18)) := Kept.main_arg18_0_4 m ρ c
  have k19 : ((W4 m ρ c (Proc.devRef .tc main_arg19)) : S_.Idx → EReal) = (W0 m ρ c (Proc.devRef .tc main_arg19)) := Kept.main_arg19_0_4 m ρ c
  have k0 : ((W4 m ρ c (Proc.devRef .tc main_arg0)) : S20000x128.Idx → EReal) = (W0 m ρ c (Proc.devRef .tc main_arg0)) := Kept.main_arg0_0_4 m ρ c
  refine ((F.H2 (W4 m ρ c)).v70 n q).trans
    (nodeIn_of (ka m ρ c) true _ _ ?_ ?_ _ _ _ n q ?_ ?_ ?_)
  · show ((W4 m ρ c (Proc.devRef .tc main_arg18)) : S_.Idx → EReal) ix0 = _
    rw [k18]; rfl
  · show ((W4 m ρ c (Proc.devRef .tc main_arg19)) : S_.Idx → EReal) ix0 = _
    rw [k19]; rfl
  · show ((W4 m ρ c (Proc.devRef .tc main_arg0)) : S20000x128.Idx → EReal) (ix2 n q) = _
    rw [k0]; rfl
  · exact lvlLocal_of (ka m ρ c) true (fun e => rdw1 (W4 m ρ c (Proc.devRef .tc main_v1)) e) (fun e => rdw1 (W4 m ρ c (Proc.devRef .tc main_v3)) e)
      (fun r => if hr : r.val < 160000 then rdw1 (W4 m ρ c (Proc.devRef .tc main_v1)) ⟨r.val, hr⟩
        else rdw1 (W4 m ρ c (Proc.devRef .tc main_v3)) ⟨r.val - 160000, by omega⟩)
      (fun _ => rfl) (b4_v1 m ρ c F) (b4_v3 m ρ c F)
      (fun r q => rd2 (W4 m ρ c (Proc.devRef .tc main_v48)) r q) (fun p q => b4_v48 m ρ c F p q) n q
  · exact lvlDom_of (ka m ρ c) true (fun e => rdw1 (W4 m ρ c (Proc.devRef .tc main_v1)) e) (fun e => rdw1 (W4 m ρ c (Proc.devRef .tc main_v3)) e)
      (b4_v1 m ρ c F) (b4_v3 m ρ c F)
      (fun r q => rd2 (W4 m ρ c (Proc.devRef .tc main_v48)) r q) (fun p q => b4_v48 m ρ c F p q)
      (fun e q => rd2 (W4 m ρ c (Proc.devRef .tc main_v48)) ⟨e.val, by omega⟩ q + rd2 (W4 m ρ c (Proc.devRef .tc main_v48)) ⟨e.val + 160000, by omega⟩ q)
      (fun _ _ => rfl) n q

/-! ## Boundary 6: after region 2 -/

/-- Region 2's product is the first node-side linear map. -/
theorem b6_Y2 (n : Fin 20000) (q : Fin 256) : Y2 (V5 m ρ) c n q = yA (ka m ρ c) true n q := by
  have kw : ((W5 m ρ c (Proc.devRef .tc main_arg12)) : S128x256.Idx → EReal) = (W0 m ρ c (Proc.devRef .tc main_arg12)) := Kept.main_arg12_0_5 m ρ c
  unfold Y2 yA
  refine Finset.sum_congr rfl fun j _ => ?_
  have e1 : rd2 (W5 m ρ c (Proc.devRef .tc main_v70)) n j = nodeIn (ka m ρ c) true n j := b5_v70 m ρ c F n j
  have e2 : rd2 (W5 m ρ c (Proc.devRef .tc main_arg12)) j q = (ka m ρ c).v2w1 j q := by
    show ((W5 m ρ c (Proc.devRef .tc main_arg12)) : S128x256.Idx → EReal) (ix2 j q) = _
    rw [kw]; rfl
  exact congrArg₂ (· * ·) e1 e2

theorem b6_out (n : Fin 20000) (q : Fin 256) : rd2 (W6 m ρ c (Proc.devRef .tc main_v71_0)) n q = yA (ka m ρ c) true n q := by
  refine Eq.trans ?_ (b6_Y2 m ρ c F n q)
  have h : ((W6 m ρ c (Proc.devRef .tc main_v71_0)) : S20000x256.Idx → EReal)
      = ((dat2 (V5 m ρ) c).arrAt 2 cfg2.N : S20000x256.Idx → EReal) := W6_arr m ρ c 2
  show ((W6 m ρ c (Proc.devRef .tc main_v71_0)) : S20000x256.Idx → EReal) (ix2 n q) = _
  rw [h]
  exact (F.R2 (V5 m ρ) c).out n q

theorem b6_sum (q : Fin 256) : rd2 (W6 m ρ c (Proc.devRef .tc main_v71_1)) 0 q = ∑ n : Fin 20000, yA (ka m ρ c) true n q := by
  refine Eq.trans ?_ (Finset.sum_congr rfl fun n _ => b6_Y2 m ρ c F n q)
  have h : ((W6 m ρ c (Proc.devRef .tc main_v71_1)) : S1x256.Idx → EReal)
      = ((dat2 (V5 m ρ) c).arrAt 3 cfg2.N : S1x256.Idx → EReal) := W6_arr m ρ c 3
  show ((W6 m ρ c (Proc.devRef .tc main_v71_1)) : S1x256.Idx → EReal) (ix2 (0 : Fin 1) q) = _
  rw [h]
  exact (F.R2 (V5 m ρ) c).sum q

theorem b6_sumsq (q : Fin 256) :
    rd2 (W6 m ρ c (Proc.devRef .tc main_v71_2)) 0 q = ∑ n : Fin 20000, yA (ka m ρ c) true n q * yA (ka m ρ c) true n q := by
  refine Eq.trans ?_ (Finset.sum_congr rfl fun n _ => congrArg₂ (· * ·) (b6_Y2 m ρ c F n q) (b6_Y2 m ρ c F n q))
  have h : ((W6 m ρ c (Proc.devRef .tc main_v71_2)) : S1x256.Idx → EReal)
      = ((dat2 (V5 m ρ) c).arrAt 4 cfg2.N : S1x256.Idx → EReal) := W6_arr m ρ c 4
  show ((W6 m ρ c (Proc.devRef .tc main_v71_2)) : S1x256.Idx → EReal) (ix2 (0 : Fin 1) q) = _
  rw [h]
  exact (F.R2 (V5 m ρ) c).sumsq q

/-! ## Boundary 7: after stretch 3 -/

theorem b7_scale (q : Fin 256) : rd2 (W7 m ρ c (Proc.devRef .tc main_v84)) 0 q
    = (ka m ρ c).v2g1 q * Ideal.rsqrt ((Ideal.div (rd2 (W6 m ρ c (Proc.devRef .tc main_v71_2)) 0 q) cRowsN
        - Ideal.div (rd2 (W6 m ρ c (Proc.devRef .tc main_v71_1)) 0 q) cRowsN * Ideal.div (rd2 (W6 m ρ c (Proc.devRef .tc main_v71_1)) 0 q) cRowsN) + cEps) := by
  have kg : ((W6 m ρ c (Proc.devRef .tc main_arg13)) : S256.Idx → EReal) = (W0 m ρ c (Proc.devRef .tc main_arg13)) := Kept.main_arg13_0_6 m ρ c
  refine ((F.H3 (W6 m ρ c)).scale q).trans ?_
  rw [kg]
  rfl

theorem b7_shift (q : Fin 256) : rd2 (W7 m ρ c (Proc.devRef .tc main_v88)) 0 q
    = (ka m ρ c).v2b1 q - Ideal.div (rd2 (W6 m ρ c (Proc.devRef .tc main_v71_1)) 0 q) cRowsN * rd2 (W7 m ρ c (Proc.devRef .tc main_v84)) 0 q := by
  have kg : ((W6 m ρ c (Proc.devRef .tc main_arg13)) : S256.Idx → EReal) = (W0 m ρ c (Proc.devRef .tc main_arg13)) := Kept.main_arg13_0_6 m ρ c
  have kb : ((W6 m ρ c (Proc.devRef .tc main_arg14)) : S256.Idx → EReal) = (W0 m ρ c (Proc.devRef .tc main_arg14)) := Kept.main_arg14_0_6 m ρ c
  rw [b7_scale m ρ c F q]
  refine ((F.H3 (W6 m ρ c)).shift q).trans ?_
  rw [kg, kb]
  rfl

/-- Before region 3, the rectified affine image of the first node-side map is its batch normalisation. -/
theorem b7_hA (n : Fin 20000) (j : Fin 256) :
    max (rd2 (W7 m ρ c (Proc.devRef .tc main_v71_0)) n j * rd2 (W7 m ρ c (Proc.devRef .tc main_v84)) 0 j + rd2 (W7 m ρ c (Proc.devRef .tc main_v88)) 0 j) cZero
      = hA (ka m ρ c) true n j := by
  have hk : rd2 (W7 m ρ c (Proc.devRef .tc main_v71_0)) n j = yA (ka m ρ c) true n j := by
    have k : ((W7 m ρ c (Proc.devRef .tc main_v71_0)) : S20000x256.Idx → EReal) = (W6 m ρ c (Proc.devRef .tc main_v71_0)) := Kept.main_v71_0_6_7 m ρ c
    show ((W7 m ρ c (Proc.devRef .tc main_v71_0)) : S20000x256.Idx → EReal) (ix2 n j) = _
    rw [k]
    exact b6_out m ρ c F n j
  rw [hk]
  exact bn_true_of cRowsN (yA (ka m ρ c) true) (ka m ρ c).v2g1 (ka m ρ c).v2b1
    (fun q => rd2 (W6 m ρ c (Proc.devRef .tc main_v71_1)) 0 q) (fun q => rd2 (W6 m ρ c (Proc.devRef .tc main_v71_2)) 0 q)
    (fun q => rd2 (W7 m ρ c (Proc.devRef .tc main_v84)) 0 q) (fun q => rd2 (W7 m ρ c (Proc.devRef .tc main_v88)) 0 q)
    (fun q => b6_sum m ρ c F q) (fun q => b6_sumsq m ρ c F q)
    (fun q => b7_scale m ρ c F q) (fun q => b7_shift m ρ c F q) n j

/-! ## Boundary 8: after region 3 -/

/-- Region 3's product is the second node-side linear map. -/
theorem b8_Y3 (n : Fin 20000) (q : Fin 128) : Y3 (V7 m ρ) c n q = yB (ka m ρ c) true n q := by
  have kw : ((W7 m ρ c (Proc.devRef .tc main_arg15)) : S256x128.Idx → EReal) = (W0 m ρ c (Proc.devRef .tc main_arg15)) := Kept.main_arg15_0_7 m ρ c
  unfold Y3 yB
  refine Finset.sum_congr rfl fun j _ => ?_
  have e1 := b7_hA m ρ c F n j
  have e2 : rd2 (W7 m ρ c (Proc.devRef .tc main_arg15)) j q = (ka m ρ c).v2w2 j q := by
    show ((W7 m ρ c (Proc.devRef .tc main_arg15)) : S256x128.Idx → EReal) (ix2 j q) = _
    rw [kw]; rfl
  exact congrArg₂ (· * ·) e1 e2

theorem b8_out (n : Fin 20000) (q : Fin 128) : rd2 (W8 m ρ c (Proc.devRef .tc main_v89_0)) n q = yB (ka m ρ c) true n q := by
  refine Eq.trans ?_ (b8_Y3 m ρ c F n q)
  have h : ((W8 m ρ c (Proc.devRef .tc main_v89_0)) : S20000x128.Idx → EReal)
      = ((dat3 (V7 m ρ) c).arrAt 4 cfg3.N : S20000x128.Idx → EReal) := W8_arr m ρ c 4
  show ((W8 m ρ c (Proc.devRef .tc main_v89_0)) : S20000x128.Idx → EReal) (ix2 n q) = _
  rw [h]
  exact (F.R3 (V7 m ρ) c).out n q

theorem b8_sum (q : Fin 128) : rd2 (W8 m ρ c (Proc.devRef .tc main_v89_1)) 0 q = ∑ n : Fin 20000, yB (ka m ρ c) true n q := by
  refine Eq.trans ?_ (Finset.sum_congr rfl fun n _ => b8_Y3 m ρ c F n q)
  have h : ((W8 m ρ c (Proc.devRef .tc main_v89_1)) : S1x128.Idx → EReal)
      = ((dat3 (V7 m ρ) c).arrAt 5 cfg3.N : S1x128.Idx → EReal) := W8_arr m ρ c 5
  show ((W8 m ρ c (Proc.devRef .tc main_v89_1)) : S1x128.Idx → EReal) (ix2 (0 : Fin 1) q) = _
  rw [h]
  exact (F.R3 (V7 m ρ) c).sum q

theorem b8_sumsq (q : Fin 128) :
    rd2 (W8 m ρ c (Proc.devRef .tc main_v89_2)) 0 q = ∑ n : Fin 20000, yB (ka m ρ c) true n q * yB (ka m ρ c) true n q := by
  refine Eq.trans ?_ (Finset.sum_congr rfl fun n _ => congrArg₂ (· * ·) (b8_Y3 m ρ c F n q) (b8_Y3 m ρ c F n q))
  have h : ((W8 m ρ c (Proc.devRef .tc main_v89_2)) : S1x128.Idx → EReal)
      = ((dat3 (V7 m ρ) c).arrAt 6 cfg3.N : S1x128.Idx → EReal) := W8_arr m ρ c 6
  show ((W8 m ρ c (Proc.devRef .tc main_v89_2)) : S1x128.Idx → EReal) (ix2 (0 : Fin 1) q) = _
  rw [h]
  exact (F.R3 (V7 m ρ) c).sumsq q

/-! ## Boundary 9: after stretch 4 -/

theorem b9_scale (q : Fin 128) : rd2 (W9 m ρ c (Proc.devRef .tc main_v102)) 0 q
    = (ka m ρ c).v2g2 q * Ideal.rsqrt ((Ideal.div (rd2 (W8 m ρ c (Proc.devRef .tc main_v89_2)) 0 q) cRowsN
        - Ideal.div (rd2 (W8 m ρ c (Proc.devRef .tc main_v89_1)) 0 q) cRowsN * Ideal.div (rd2 (W8 m ρ c (Proc.devRef .tc main_v89_1)) 0 q) cRowsN) + cEps) := by
  have kg : ((W8 m ρ c (Proc.devRef .tc main_arg16)) : S128.Idx → EReal) = (W0 m ρ c (Proc.devRef .tc main_arg16)) := Kept.main_arg16_0_8 m ρ c
  refine ((F.H4 (W8 m ρ c)).scale q).trans ?_
  rw [kg]
  rfl

theorem b9_shift (q : Fin 128) : rd2 (W9 m ρ c (Proc.devRef .tc main_v106)) 0 q
    = (ka m ρ c).v2b2 q - Ideal.div (rd2 (W8 m ρ c (Proc.devRef .tc main_v89_1)) 0 q) cRowsN * rd2 (W9 m ρ c (Proc.devRef .tc main_v102)) 0 q := by
  have kg : ((W8 m ρ c (Proc.devRef .tc main_arg16)) : S128.Idx → EReal) = (W0 m ρ c (Proc.devRef .tc main_arg16)) := Kept.main_arg16_0_8 m ρ c
  have kb : ((W8 m ρ c (Proc.devRef .tc main_arg17)) : S128.Idx → EReal) = (W0 m ρ c (Proc.devRef .tc main_arg17)) := Kept.main_arg17_0_8 m ρ c
  rw [b9_scale m ρ c F q]
  refine ((F.H4 (W8 m ρ c)).shift q).trans ?_
  rw [kg, kb]
  rfl

/-! ## Boundary 10: after region 4, and the node result at the end of the run -/

/-- After region 4 the node-result array holds the node result. -/
theorem b10_v107 (n : Fin 20000) (q : Fin 128) : rd2 (W10 m ρ c (Proc.devRef .tc main_v107)) n q = nodeOut (ka m ρ c) true n q := by
  have hout : rd2 (W10 m ρ c (Proc.devRef .tc main_v107)) n q
      = max (rd2 (W9 m ρ c (Proc.devRef .tc main_v89_0)) n q * rd2 (W9 m ρ c (Proc.devRef .tc main_v102)) 0 q + rd2 (W9 m ρ c (Proc.devRef .tc main_v106)) 0 q) cZero := by
    have h : ((W10 m ρ c (Proc.devRef .tc main_v107)) : S20000x128.Idx → EReal)
        = ((dat4 (V9 m ρ) c).arrAt 3 cfg4.N : S20000x128.Idx → EReal) := W10_arr m ρ c 3
    show ((W10 m ρ c (Proc.devRef .tc main_v107)) : S20000x128.Idx → EReal) (ix2 n q) = _
    rw [h]
    exact (F.R4 (V9 m ρ) c).out n q
  have hk : rd2 (W9 m ρ c (Proc.devRef .tc main_v89_0)) n q = yB (ka m ρ c) true n q := by
    have k : ((W9 m ρ c (Proc.devRef .tc main_v89_0)) : S20000x128.Idx → EReal) = (W8 m ρ c (Proc.devRef .tc main_v89_0)) := Kept.main_v89_0_8_9 m ρ c
    show ((W9 m ρ c (Proc.devRef .tc main_v89_0)) : S20000x128.Idx → EReal) (ix2 n q) = _
    rw [k]
    exact b8_out m ρ c F n q
  rw [hout, hk]
  exact bn_true_of cRowsN (yB (ka m ρ c) true) (ka m ρ c).v2g2 (ka m ρ c).v2b2
    (fun q => rd2 (W8 m ρ c (Proc.devRef .tc main_v89_1)) 0 q) (fun q => rd2 (W8 m ρ c (Proc.devRef .tc main_v89_2)) 0 q)
    (fun q => rd2 (W9 m ρ c (Proc.devRef .tc main_v102)) 0 q) (fun q => rd2 (W9 m ρ c (Proc.devRef .tc main_v106)) 0 q)
    (fun q => b8_sum m ρ c F q) (fun q => b8_sumsq m ρ c F q)
    (fun q => b9_scale m ρ c F q) (fun q => b9_shift m ρ c F q) n q

/-- THE NODE RESULT at the end of the run. -/
theorem node_value_of (n : Fin 20000) (q : Fin 128) :
    ((W17 m ρ c (Proc.devRef .tc main_v107)) : S20000x128.Idx → EReal) (ix2 n q) = nodeOut (ka m ρ c) true n q := by
  have k : ((W17 m ρ c (Proc.devRef .tc main_v107)) : S20000x128.Idx → EReal) = (W10 m ρ c (Proc.devRef .tc main_v107)) := Kept.main_v107_10_17 m ρ c
  rw [k]
  exact b10_v107 m ρ c F n q

end Cert.KernelIdeal.Chain

end
-- ==== Proof.KerChain03.lean ====
/-
  The program's run, boundaries 11 to 17: the edge-side inputs, the two edge-side maps with their batch normalisations, and
  the edge result moved to the adjacent-pairs order.
-/
import proofs.«131702_j10462540333326_2_alg».proof.Proof.Gen.KernelIdeal.Frame
import proofs.«131702_j10462540333326_2_alg».proof.Proof.KerKept
import proofs.«131702_j10462540333326_2_alg».proof.Proof.HostArgs
import proofs.«131702_j10462540333326_2_alg».proof.Proof.KerChainFacts
import proofs.«131702_j10462540333326_2_alg».proof.Proof.KerChainPure
import proofs.«131702_j10462540333326_2_alg».proof.Proof.KerChain01

set_option maxRecDepth 16384

noncomputable section

open scoped BigOperators

namespace Cert.KernelIdeal.Chain

open Cert.KernelIdeal Cert.KernelIdeal.Gen Cert.KernelIdeal.HostValue Idealize.ShloMosaic Idealize.ShloMosaic.TcCoe
open Idealize.SL.Sem ValueIdx EdgeNodeLayer BlockSums

variable (m : (ℓ : Loc nD τ sig) → Buf (Elt Ideal) ℓ) (ρ : Dev nD → PrngReg) (c : Dev nD) (F : AllFacts)
include F

/-! ## Boundary 11: after stretch 5 -/

theorem b10_e2 : rd0 (W10 m ρ c (Proc.devRef .tc main_arg20)) = (ka m ρ c).e2 := by
  have k : ((W10 m ρ c (Proc.devRef .tc main_arg20)) : S_.Idx → EReal) = (W0 m ρ c (Proc.devRef .tc main_arg20)) := Kept.main_arg20_0_10 m ρ c
  show ((W10 m ρ c (Proc.devRef .tc main_arg20)) : S_.Idx → EReal) ix0 = _
  rw [k]; rfl

/-- After stretch 5, row `halves p` of the first input block is `p0` of the pair's edge. -/
theorem b11_v115 (p : Fin 160000 × Fin 2) (j : Fin 128) : rd2 (W11 m ρ c (Proc.devRef .tc main_v115)) (halves p) j = p0 (ka m ρ c) p.1 j := by
  have k23 : ((W10 m ρ c (Proc.devRef .tc main_v23)) : S160000x128.Idx → EReal) = (W1 m ρ c (Proc.devRef .tc main_v23)) := Kept.main_v23_1_10 m ρ c
  have k25 : ((W10 m ρ c (Proc.devRef .tc main_v25)) : S160000x128.Idx → EReal) = (W1 m ρ c (Proc.devRef .tc main_v25)) := Kept.main_v25_1_10 m ρ c
  have k18 : ((W10 m ρ c (Proc.devRef .tc main_v18)) : S160000x128.Idx → EReal) = (W1 m ρ c (Proc.devRef .tc main_v18)) := Kept.main_v18_1_10 m ρ c
  refine ((F.H5 (W10 m ρ c)).v115 p j).trans
    (p0_of (ka m ρ c) _ (b10_e2 m ρ c F) _ _ _ p.1 j ?_ ?_ ?_)
  · show ((W10 m ρ c (Proc.devRef .tc main_v23)) : S160000x128.Idx → EReal) (ix2 p.1 j) = _
    rw [k23]; exact (F.H0 (W0 m ρ c)).v23 p.1 j
  · show ((W10 m ρ c (Proc.devRef .tc main_v25)) : S160000x128.Idx → EReal) (ix2 p.1 j) = _
    rw [k25]; exact (F.H0 (W0 m ρ c)).v25 p.1 j
  · show ((W10 m ρ c (Proc.devRef .tc main_v18)) : S160000x128.Idx → EReal) (ix2 p.1 j) = _
    rw [k18]; exact (F.H0 (W0 m ρ c)).v18 p.1 j

/-- After stretch 5, row `halves p` of the second input block is `p1` of the pair. -/
theorem b11_v119 (p : Fin 160000 × Fin 2) (j : Fin 128) :
    rd2 (W11 m ρ c (Proc.devRef .tc main_v119)) (halves p) j = p1 (ka m ρ c) p.1 p.2 j := by
  have k26 : ((W10 m ρ c (Proc.devRef .tc main_v26)) : S320000x128.Idx → EReal) = (W1 m ρ c (Proc.devRef .tc main_v26)) := Kept.main_v26_1_10 m ρ c
  have k20 : ((W10 m ρ c (Proc.devRef .tc main_v20)) : S320000x128.Idx → EReal) = (W1 m ρ c (Proc.devRef .tc main_v20)) := Kept.main_v20_1_10 m ρ c
  refine ((F.H5 (W10 m ρ c)).v119 (halves p) j).trans
    (p1_of (ka m ρ c) _ (b10_e2 m ρ c F) _ _ p.1 p.2 j ?_ ?_)
  · show ((W10 m ρ c (Proc.devRef .tc main_v26)) : S320000x128.Idx → EReal) (ix2 (halves p) j) = _
    rw [k26]; exact (F.H0 (W0 m ρ c)).v26 p j
  · show ((W10 m ρ c (Proc.devRef .tc main_v20)) : S320000x128.Idx → EReal) (ix2 (halves p) j) = _
    rw [k20]; exact (F.H0 (W0 m ρ c)).v20 p j

theorem b11_v120 (j : Fin 128) (q : Fin 256) :
    rd2 (W11 m ρ c (Proc.devRef .tc main_v120)) j q = (ka m ρ c).lw1 (⟨j.val, by omega⟩ : Fin 256) q := by
  have k : ((W10 m ρ c (Proc.devRef .tc main_arg3)) : S256x256.Idx → EReal) = (W0 m ρ c (Proc.devRef .tc main_arg3)) := Kept.main_arg3_0_10 m ρ c
  refine ((F.H5 (W10 m ρ c)).v120 j q).trans ?_
  show ((W10 m ρ c (Proc.devRef .tc main_arg3)) : S256x256.Idx → EReal) (ix2 (⟨j.val, by omega⟩ : Fin 256) q) = _
  rw [k]; rfl

theorem b11_v121 (j : Fin 128) (q : Fin 256) :
    rd2 (W11 m ρ c (Proc.devRef .tc main_v121)) j q = (ka m ρ c).lw1 (⟨j.val + 128, by omega⟩ : Fin 256) q := by
  have k : ((W10 m ρ c (Proc.devRef .tc main_arg3)) : S256x256.Idx → EReal) = (W0 m ρ c (Proc.devRef .tc main_arg3)) := Kept.main_arg3_0_10 m ρ c
  refine ((F.H5 (W10 m ρ c)).v121 j q).trans ?_
  show ((W10 m ρ c (Proc.devRef .tc main_arg3)) : S256x256.Idx → EReal) (ix2 (⟨j.val + 128, by omega⟩ : Fin 256) q) = _
  rw [k]; rfl

/-! ## Boundary 12: after region 5 -/

/-- Region 5's product at row `halves p` is the first edge map of pair `p`. -/
theorem b12_Y5 (p : Fin 160000 × Fin 2) (q : Fin 256) : Y5 (V11 m ρ) c (halves p) q = yC (ka m ρ c) p q := by
  unfold Y5
  exact yC_of (ka m ρ c)
    (fun r j => rd2 (W11 m ρ c (Proc.devRef .tc main_v115)) r j) (fun r j => rd2 (W11 m ρ c (Proc.devRef .tc main_v119)) r j)
    (fun j q => rd2 (W11 m ρ c (Proc.devRef .tc main_v120)) j q) (fun j q => rd2 (W11 m ρ c (Proc.devRef .tc main_v121)) j q)
    (fun p j => b11_v115 m ρ c F p j) (fun p j => b11_v119 m ρ c F p j)
    (fun j q => b11_v120 m ρ c F j q) (fun j q => b11_v121 m ρ c F j q) p q

theorem b12_out (r : Fin 320000) (q : Fin 256) : rd2 (W12 m ρ c (Proc.devRef .tc main_v122_0)) r q = Y5 (V11 m ρ) c r q := by
  have h : ((W12 m ρ c (Proc.devRef .tc main_v122_0)) : S320000x256.Idx → EReal)
      = ((dat5 (V11 m ρ) c).arrAt 4 cfg5.N : S320000x256.Idx → EReal) := W12_arr m ρ c 4
  show ((W12 m ρ c (Proc.devRef .tc main_v122_0)) : S320000x256.Idx → EReal) (ix2 r q) = _
  rw [h]
  exact (F.R5 (V11 m ρ) c).out r q

theorem b12_sum (q : Fin 256) : rd2 (W12 m ρ c (Proc.devRef .tc main_v122_1)) 0 q = ∑ r : Fin 320000, Y5 (V11 m ρ) c r q := by
  have h : ((W12 m ρ c (Proc.devRef .tc main_v122_1)) : S1x256.Idx → EReal)
      = ((dat5 (V11 m ρ) c).arrAt 5 cfg5.N : S1x256.Idx → EReal) := W12_arr m ρ c 5
  show ((W12 m ρ c (Proc.devRef .tc main_v122_1)) : S1x256.Idx → EReal) (ix2 (0 : Fin 1) q) = _
  rw [h]
  exact (F.R5 (V11 m ρ) c).sum q

theorem b12_sumsq (q : Fin 256) :
    rd2 (W12 m ρ c (Proc.devRef .tc main_v122_2)) 0 q = ∑ r : Fin 320000, Y5 (V11 m ρ) c r q * Y5 (V11 m ρ) c r q := by
  have h : ((W12 m ρ c (Proc.devRef .tc main_v122_2)) : S1x256.Idx → EReal)
      = ((dat5 (V11 m ρ) c).arrAt 6 cfg5.N : S1x256.Idx → EReal) := W12_arr m ρ c 6
  show ((W12 m ρ c (Proc.devRef .tc main_v122_2)) : S1x256.Idx → EReal) (ix2 (0 : Fin 1) q) = _
  rw [h]
  exact (F.R5 (V11 m ρ) c).sumsq q

/-! ## Boundary 13: after stretch 6 -/

theorem b13_scale (q : Fin 256) : rd2 (W13 m ρ c (Proc.devRef .tc main_v135)) 0 q
    = (ka m ρ c).lg1 q * Ideal.rsqrt ((Ideal.div (rd2 (W12 m ρ c (Proc.devRef .tc main_v122_2)) 0 q) cRowsE
        - Ideal.div (rd2 (W12 m ρ c (Proc.devRef .tc main_v122_1)) 0 q) cRowsE * Ideal.div (rd2 (W12 m ρ c (Proc.devRef .tc main_v122_1)) 0 q) cRowsE) + cEps) := by
  have kg : ((W12 m ρ c (Proc.devRef .tc main_arg4)) : S256.Idx → EReal) = (W0 m ρ c (Proc.devRef .tc main_arg4)) := Kept.main_arg4_0_12 m ρ c
  refine ((F.H6 (W12 m ρ c)).scale q).trans ?_
  rw [kg]
  rfl

theorem b13_shift (q : Fin 256) : rd2 (W13 m ρ c (Proc.devRef .tc main_v139)) 0 q
    = (ka m ρ c).lb1 q - Ideal.div (rd2 (W12 m ρ c (Proc.devRef .tc main_v122_1)) 0 q) cRowsE * rd2 (W13 m ρ c (Proc.devRef .tc main_v135)) 0 q := by
  have kg : ((W12 m ρ c (Proc.devRef .tc main_arg4)) : S256.Idx → EReal) = (W0 m ρ c (Proc.devRef .tc main_arg4)) := Kept.main_arg4_0_12 m ρ c
  have kb : ((W12 m ρ c (Proc.devRef .tc main_arg5)) : S256.Idx → EReal) = (W0 m ρ c (Proc.devRef .tc main_arg5)) := Kept.main_arg5_0_12 m ρ c
  rw [b13_scale m ρ c F q]
  refine ((F.H6 (W12 m ρ c)).shift q).trans ?_
  rw [kg, kb]
  rfl

/-- Before region 6, the rectified affine image of the first edge map at row `halves p` is its batch normalisation. -/
theorem b13_hC (p : Fin 160000 × Fin 2) (j : Fin 256) :
    max (rd2 (W13 m ρ c (Proc.devRef .tc main_v122_0)) (halves p) j * rd2 (W13 m ρ c (Proc.devRef .tc main_v135)) 0 j + rd2 (W13 m ρ c (Proc.devRef .tc main_v139)) 0 j) cZero
      = hC (ka m ρ c) true p j := by
  have hk : rd2 (W13 m ρ c (Proc.devRef .tc main_v122_0)) (halves p) j = Y5 (V11 m ρ) c (halves p) j := by
    have k : ((W13 m ρ c (Proc.devRef .tc main_v122_0)) : S320000x256.Idx → EReal) = (W12 m ρ c (Proc.devRef .tc main_v122_0)) := Kept.main_v122_0_12_13 m ρ c
    show ((W13 m ρ c (Proc.devRef .tc main_v122_0)) : S320000x256.Idx → EReal) (ix2 (halves p) j) = _
    rw [k]
    exact b12_out m ρ c F (halves p) j
  rw [hk]
  exact bn_true_halves_of cRowsE (yC (ka m ρ c)) (ka m ρ c).lg1 (ka m ρ c).lb1
    (fun r q => Y5 (V11 m ρ) c r q) (fun p q => b12_Y5 m ρ c F p q)
    (fun q => rd2 (W12 m ρ c (Proc.devRef .tc main_v122_1)) 0 q) (fun q => rd2 (W12 m ρ c (Proc.devRef .tc main_v122_2)) 0 q)
    (fun q => rd2 (W13 m ρ c (Proc.devRef .tc main_v135)) 0 q) (fun q => rd2 (W13 m ρ c (Proc.devRef .tc main_v139)) 0 q)
    (fun q => b12_sum m ρ c F q) (fun q => b12_sumsq m ρ c F q)
    (fun q => b13_scale m ρ c F q) (fun q => b13_shift m ρ c F q) p j

/-! ## Boundary 14: after region 6 -/

/-- Region 6's product at row `halves p` is the second edge map of pair `p`. -/
theorem b14_Y6 (p : Fin 160000 × Fin 2) (q : Fin 128) : Y6 (V13 m ρ) c (halves p) q = yD (ka m ρ c) true p q := by
  have kw : ((W13 m ρ c (Proc.devRef .tc main_arg6)) : S256x128.Idx → EReal) = (W0 m ρ c (Proc.devRef .tc main_arg6)) := Kept.main_arg6_0_13 m ρ c
  unfold Y6 yD
  refine Finset.sum_congr rfl fun j _ => ?_
  have e1 := b13_hC m ρ c F p j
  have e2 : rd2 (W13 m ρ c (Proc.devRef .tc main_arg6)) j q = (ka m ρ c).lw2 j q := by
    show ((W13 m ρ c (Proc.devRef .tc main_arg6)) : S256x128.Idx → EReal) (ix2 j q) = _
    rw [kw]; rfl
  exact congrArg₂ (· * ·) e1 e2

theorem b14_out (r : Fin 320000) (q : Fin 128) : rd2 (W14 m ρ c (Proc.devRef .tc main_v140_0)) r q = Y6 (V13 m ρ) c r q := by
  have h : ((W14 m ρ c (Proc.devRef .tc main_v140_0)) : S320000x128.Idx → EReal)
      = ((dat6 (V13 m ρ) c).arrAt 4 cfg6.N : S320000x128.Idx → EReal) := W14_arr m ρ c 4
  show ((W14 m ρ c (Proc.devRef .tc main_v140_0)) : S320000x128.Idx → EReal) (ix2 r q) = _
  rw [h]
  exact (F.R6 (V13 m ρ) c).out r q

theorem b14_sum (q : Fin 128) : rd2 (W14 m ρ c (Proc.devRef .tc main_v140_1)) 0 q = ∑ r : Fin 320000, Y6 (V13 m ρ) c r q := by
  have h : ((W14 m ρ c (Proc.devRef .tc main_v140_1)) : S1x128.Idx → EReal)
      = ((dat6 (V13 m ρ) c).arrAt 5 cfg6.N : S1x128.Idx → EReal) := W14_arr m ρ c 5
  show ((W14 m ρ c (Proc.devRef .tc main_v140_1)) : S1x128.Idx → EReal) (ix2 (0 : Fin 1) q) = _
  rw [h]
  exact (F.R6 (V13 m ρ) c).sum q

theorem b14_sumsq (q : Fin 128) :
    rd2 (W14 m ρ c (Proc.devRef .tc main_v140_2)) 0 q = ∑ r : Fin 320000, Y6 (V13 m ρ) c r q * Y6 (V13 m ρ) c r q := by
  have h : ((W14 m ρ c (Proc.devRef .tc main_v140_2)) : S1x128.Idx → EReal)
      = ((dat6 (V13 m ρ) c).arrAt 6 cfg6.N : S1x128.Idx → EReal) := W14_arr m ρ c 6
  show ((W14 m ρ c (Proc.devRef .tc main_v140_2)) : S1x128.Idx → EReal) (ix2 (0 : Fin 1) q) = _
  rw [h]
  exact (F.R6 (V13 m ρ) c).sumsq q

/-! ## Boundary 15: after stretch 7 -/

theorem b15_scale (q : Fin 128) : rd2 (W15 m ρ c (Proc.devRef .tc main_v153)) 0 q
    = (ka m ρ c).lg2 q * Ideal.rsqrt ((Ideal.div (rd2 (W14 m ρ c (Proc.devRef .tc main_v140_2)) 0 q) cRowsE
        - Ideal.div (rd2 (W14 m ρ c (Proc.devRef .tc main_v140_1)) 0 q) cRowsE * Ideal.div (rd2 (W14 m ρ c (Proc.devRef .tc main_v140_1)) 0 q) cRowsE) + cEps) := by
  have kg : ((W14 m ρ c (Proc.devRef .tc main_arg7)) : S128.Idx → EReal) = (W0 m ρ c (Proc.devRef .tc main_arg7)) := Kept.main_arg7_0_14 m ρ c
  refine ((F.H7 (W14 m ρ c)).scale q).trans ?_
  rw [kg]
  rfl

theorem b15_shift (q : Fin 128) : rd2 (W15 m ρ c (Proc.devRef .tc main_v157)) 0 q
    = (ka m ρ c).lb2 q - Ideal.div (rd2 (W14 m ρ c (Proc.devRef .tc main_v140_1)) 0 q) cRowsE * rd2 (W15 m ρ c (Proc.devRef .tc main_v153)) 0 q := by
  have kg : ((W14 m ρ c (Proc.devRef .tc main_arg7)) : S128.Idx → EReal) = (W0 m ρ c (Proc.devRef .tc main_arg7)) := Kept.main_arg7_0_14 m ρ c
  have kb : ((W14 m ρ c (Proc.devRef .tc main_arg8)) : S128.Idx → EReal) = (W0 m ρ c (Proc.devRef .tc main_arg8)) := Kept.main_arg8_0_14 m ρ c
  rw [b15_scale m ρ c F q]
  refine ((F.H7 (W14 m ρ c)).shift q).trans ?_
  rw [kg, kb]
  rfl

/-! ## Boundary 16: after region 7, and the edge result at the end of the run -/

/-- After region 7 row `halves p` of its result is the edge result of pair `p`. -/
theorem b16_v158 (p : Fin 160000 × Fin 2) (q : Fin 128) :
    rd2 (W16 m ρ c (Proc.devRef .tc main_v158)) (halves p) q = edgeOut (ka m ρ c) true p q := by
  have hout : rd2 (W16 m ρ c (Proc.devRef .tc main_v158)) (halves p) q
      = max (rd2 (W15 m ρ c (Proc.devRef .tc main_v140_0)) (halves p) q * rd2 (W15 m ρ c (Proc.devRef .tc main_v153)) 0 q
          + rd2 (W15 m ρ c (Proc.devRef .tc main_v157)) 0 q) cZero := by
    have h : ((W16 m ρ c (Proc.devRef .tc main_v158)) : S320000x128.Idx → EReal)
        = ((dat7 (V15 m ρ) c).arrAt 3 cfg7.N : S320000x128.Idx → EReal) := W16_arr m ρ c 3
    show ((W16 m ρ c (Proc.devRef .tc main_v158)) : S320000x128.Idx → EReal) (ix2 (halves p) q) = _
    rw [h]
    exact (F.R7 (V15 m ρ) c).out (halves p) q
  have hk : rd2 (W15 m ρ c (Proc.devRef .tc main_v140_0)) (halves p) q = Y6 (V13 m ρ) c (halves p) q := by
    have k : ((W15 m ρ c (Proc.devRef .tc main_v140_0)) : S320000x128.Idx → EReal) = (W14 m ρ c (Proc.devRef .tc main_v140_0)) := Kept.main_v140_0_14_15 m ρ c
    show ((W15 m ρ c (Proc.devRef .tc main_v140_0)) : S320000x128.Idx → EReal) (ix2 (halves p) q) = _
    rw [k]
    exact b14_out m ρ c F (halves p) q
  rw [hout, hk]
  exact bn_true_halves_of cRowsE (yD (ka m ρ c) true) (ka m ρ c).lg2 (ka m ρ c).lb2
    (fun r q => Y6 (V13 m ρ) c r q) (fun p q => b14_Y6 m ρ c F p q)
    (fun q => rd2 (W14 m ρ c (Proc.devRef .tc main_v140_1)) 0 q) (fun q => rd2 (W14 m ρ c (Proc.devRef .tc main_v140_2)) 0 q)
    (fun q => rd2 (W15 m ρ c (Proc.devRef .tc main_v153)) 0 q) (fun q => rd2 (W15 m ρ c (Proc.devRef .tc main_v157)) 0 q)
    (fun q => b14_sum m ρ c F q) (fun q => b14_sumsq m ρ c F q)
    (fun q => b15_scale m ρ c F q) (fun q => b15_shift m ρ c F q) p q

/-- THE EDGE RESULT at the end of the run: row `2 e + h` holds the edge result of pair `(e, h)`. -/
theorem edge_value_of (e : Fin 160000) (h : Fin 2) (q : Fin 128) :
    ((W17 m ρ c (Proc.devRef .tc main_v164)) : S320000x128.Idx → EReal) (ix2 (⟨2 * e.val + h.val, by omega⟩ : Fin 320000) q)
      = edgeOut (ka m ρ c) true (e, h) q :=
  ((F.H8 (W16 m ρ c)).v164 (e, h) q).trans (b16_v158 m ρ c F (e, h) q)

end Cert.KernelIdeal.Chain

end
-- ==== Proof.LibLay2.lean ====
/-
  Two layout operations on rank-2 arrays read at an entry: the transpose, and a unit-stride block cut out of an
  array with the block's offset added to the coordinates. Every extent generic.
-/
import Idealize.ShloMosaic.Lib.ValueIdx
import Idealize.ShloMosaic.Lib.Pipeline.Value

namespace Lay2

open Idealize.ShloMosaic Idealize.ShloMosaic.ValueIdx

/-- The transpose of an [a, b] array at entry (i, j) is the array at (j, i). -/
theorem transpose_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine Idealize.ShloMosaic.transpose_apply [1, 0] x h (ix2 i j) (ix2 j i) fun c => ?_
  match c with
  | ⟨0, _⟩ => rfl
  | ⟨1, _⟩ => rfl

/-- A unit-stride block of extents [c, d] cut out of an [a, b] array at offsets (o₀, o₁), at entry (i, j), is the
    array at (o₀ + i, o₁ + j). -/
theorem slice_apply {α : Type} {a b c d : ℕ} (o₀ o₁ : ℕ) (x : (⟨2, ![a, b]⟩ : Shape).Idx → α)
    (h : (⟨2, ![a, b]⟩ : Shape).Slices ![o₀, o₁] ⟨2, ![c, d]⟩) (i : Fin c) (j : Fin d)
    (hi : o₀ + i.val < a) (hj : o₁ + j.val < b) :
    extractStridedSlice ⟨2, ![c, d]⟩ ![o₀, o₁] x h (ix2 i j) = x (ix2 ⟨o₀ + i.val, hi⟩ ⟨o₁ + j.val, hj⟩) := by
  refine extractStridedSlice_apply ![o₀, o₁] x h (ix2 i j) (ix2 ⟨o₀ + i.val, hi⟩ ⟨o₁ + j.val, hj⟩) fun c => ?_
  match c with
  | ⟨0, _⟩ => rfl
  | ⟨1, _⟩ => rfl

end Lay2
-- ==== Proof.LibLayoutReads.lean ====
/-
  Layout operations read at an entry: reshapes between a doubled row range and its pairs, row blocks, concatenations,
  and the integer index vectors built from them.

  Throughout, an array of `R = 2 E` rows is read as `E` pairs of rows. Row-major reshapes between `[R, C]` and
  `[E, 2, C]` (or `[E, 2]` and `[R]`) put pair `e`'s two rows at `2 e` and `2 e + 1`; a concatenation of two `E`-row arrays along
  the row axis puts the first at rows `0 … E - 1` and the second at rows `E … 2 E - 1`. Every lemma rewrites a chain
  of layout operations at an index to the operand at an explicitly named index. The doubled extent is a separate
  variable `R` with a hypothesis `R = 2 * E` (or `R = E₁ + E₂`), so that literal shapes unify without arithmetic.

  * `bcast_rows_apply`: `[E] → [E, K]` (`dims = [0]`) at `(e, k)` is the vector at `e`.
  * `flatten_pairs_apply`: the reshape `[E, 2] → [R]` at `r` is the array at `(r / 2, r % 2)`.
  * `reshape_transpose_apply`: transpose `[2, E] → [E, 2]` then reshape to `[R]`, at `r`: the array at `(r % 2, r / 2)`.
  * `reshape_bcast_apply`, `reshape_bcast_iota_apply`: a vector (the iota) broadcast to `[E, 2]` and reshaped to `[R]`, at `r`:
    the vector at `r / 2` (the word `r / 2`); `toInt_ofNat_of_lt`, `slt_zero_ofNat_of_lt`, `wrap_ofNat_of_lt`: a word below
    `2^31` reads signed as itself, is not negative, and is left alone by the wrap of negative indices.
  * `row_of_apply`: row `o` of a `[K, E]` array as a vector (slice `[1, E]` at `(o, 0)`, reshape to `[E]`), at `e`.
  * `concat_rows_apply` (and `_left`, `_right`), `concat_vec_apply`: two arrays concatenated along the row axis, at a row.
  * `row_block_apply`: the block of `c` whole rows from row `o` of an `[a, b]` array, at `(i, j)`: the array at `(o + i, j)`.
  * `unflatten_pairs_apply`, `pair_row_apply`: the reshape `[R, C] → [E, 2, C]` at `(e, k, q)` is the array at `(2 e + k, q)`;
    followed by the slice of member `o` of every pair and the reshape to `[E, C]`, at `(e, q)`: the array at `(2 e + o, q)`.
  * `bcast_mid_apply`, `concat_mid_apply`, `flatten_pairs3_apply`, `interleave_rows_apply` (and `_pair`): two `[E, C]` arrays each
    given a middle unit axis, concatenated along it and reshaped to `[R, C]`: row `r` is row `r / 2` of the first array
    if `r` is even and of the second if `r` is odd.
-/
import Idealize.ShloMosaic.Lib.ValueIdx
import Idealize.ShloMosaic.Lib.Pipeline.Value
import proofs.«131702_j10462540333326_2_alg».proof.Proof.LibLay2

namespace LayoutReads

open Idealize.ShloMosaic Idealize.ShloMosaic.ValueIdx

variable {α : Type}

/-! ## Broadcasts that add an axis -/

/-- A vector of `E` entries broadcast along a new trailing axis (`dims = [0]`) reads, at `(e, k)`, its entry `e`. -/
theorem bcast_rows_apply {E K : ℕ}
    (h : (⟨1, ![E]⟩ : Shape).BroadcastsInDim ⟨2, ![E, K]⟩ (![0] : Fin 1 → Fin 2))
    (v : (⟨1, ![E]⟩ : Shape).Idx → α) (e : Fin E) (k : Fin K) :
    broadcastInDim ⟨2, ![E, K]⟩ (![0] : Fin 1 → Fin 2) h v (ix2 e k) = v (ix1 e) := by
  refine broadcastInDim_apply _ h v (ix2 e k) (ix1 e) fun a => ?_
  match a with
  | ⟨0, ha⟩ =>
    by_cases h1 : (⟨1, ![E]⟩ : Shape).size ⟨0, ha⟩ = 1
    · rw [if_pos h1]
      have hE : E = 1 := h1
      have := e.isLt
      show e.val = 0
      omega
    · rw [if_neg h1]
      rfl

/-- An `[E, C]` array given a middle unit axis (`dims = [0, 2]`) reads, at `(e, z, q)`, its entry `(e, q)`. -/
theorem bcast_mid_apply {E C : ℕ}
    (h : (⟨2, ![E, C]⟩ : Shape).BroadcastsInDim ⟨3, ![E, 1, C]⟩ (![0, 2] : Fin 2 → Fin 3))
    (v : (⟨2, ![E, C]⟩ : Shape).Idx → α) (e : Fin E) (z : Fin 1) (q : Fin C) :
    broadcastInDim ⟨3, ![E, 1, C]⟩ (![0, 2] : Fin 2 → Fin 3) h v (ix3 e z q) = v (ix2 e q) := by
  refine broadcastInDim_apply _ h v (ix3 e z q) (ix2 e q) fun a => ?_
  match a with
  | ⟨0, ha⟩ =>
    by_cases h1 : (⟨2, ![E, C]⟩ : Shape).size ⟨0, ha⟩ = 1
    · rw [if_pos h1]
      have hE : E = 1 := h1
      have := e.isLt
      show e.val = 0
      omega
    · rw [if_neg h1]
      rfl
  | ⟨1, ha⟩ =>
    by_cases h1 : (⟨2, ![E, C]⟩ : Shape).size ⟨1, ha⟩ = 1
    · rw [if_pos h1]
      have hC : C = 1 := h1
      have := q.isLt
      show q.val = 0
      omega
    · rw [if_neg h1]
      rfl

/-! ## The reshape between `[E, 2]` and `[R]`, and the index vectors built with it -/

/-- The row-major reshape `[E, 2] → [R]`, `R = 2 E`, at `r`: the array at `(r / 2, r % 2)`. -/
theorem flatten_pairs_apply {E R : ℕ} (hR : R = 2 * E) (y : (⟨2, ![E, 2]⟩ : Shape).Idx → α)
    (hc : (⟨2, ![E, 2]⟩ : Shape).ShapeCasts ⟨1, ![R]⟩) (r : Fin R) :
    shapeCast ⟨1, ![R]⟩ y hc (ix1 r)
      = y (ix2 (⟨r.val / 2, by omega⟩ : Fin E) (⟨r.val % 2, by omega⟩ : Fin 2)) := by
  refine shapeCast_apply y hc (ix1 r) _ ?_
  rw [Shape.rowMajor_val_two, Shape.rowMajor_val_one]
  show r.val / 2 * 2 + r.val % 2 = r.val
  omega

/-- The transpose `[2, E] → [E, 2]` followed by the reshape to `[R]`, `R = 2 E`, at `r`: the array at `(r % 2, r / 2)`. Row
    `h` of the `[2, E]` array lands on the positions `2 e + h`. -/
theorem reshape_transpose_apply {E R : ℕ} (hR : R = 2 * E) (x : (⟨2, ![2, E]⟩ : Shape).Idx → α)
    (ht : (⟨2, ![2, E]⟩ : Shape).Transposes [1, 0] ⟨2, ![E, 2]⟩)
    (hc : (⟨2, ![E, 2]⟩ : Shape).ShapeCasts ⟨1, ![R]⟩) (r : Fin R) :
    shapeCast ⟨1, ![R]⟩ (transpose ⟨2, ![E, 2]⟩ [1, 0] x ht) hc (ix1 r)
      = x (ix2 (⟨r.val % 2, by omega⟩ : Fin 2) (⟨r.val / 2, by omega⟩ : Fin E)) := by
  rw [flatten_pairs_apply hR]
  exact Lay2.transpose_apply x ht _ _

/-- A vector of `E` entries broadcast to `[E, 2]` and reshaped to `[R]`, `R = 2 E`, at `r`: the vector at `r / 2` (every entry
    twice, adjacent). -/
theorem reshape_bcast_apply {E R : ℕ} (hR : R = 2 * E) (v : (⟨1, ![E]⟩ : Shape).Idx → α)
    (hb : (⟨1, ![E]⟩ : Shape).BroadcastsInDim ⟨2, ![E, 2]⟩ (![0] : Fin 1 → Fin 2))
    (hc : (⟨2, ![E, 2]⟩ : Shape).ShapeCasts ⟨1, ![R]⟩) (r : Fin R) :
    shapeCast ⟨1, ![R]⟩ (broadcastInDim ⟨2, ![E, 2]⟩ (![0] : Fin 1 → Fin 2) hb v) hc (ix1 r)
      = v (ix1 (⟨r.val / 2, by omega⟩ : Fin E)) := by
  rw [flatten_pairs_apply hR, bcast_rows_apply]

/-- The iota `0, 1, …, E - 1` broadcast to `[E, 2]` and reshaped to `[R]`, at `r`: the word `r / 2`. -/
theorem reshape_bcast_iota_apply {E R w : ℕ} (hR : R = 2 * E)
    (hb : (⟨1, ![E]⟩ : Shape).BroadcastsInDim ⟨2, ![E, 2]⟩ (![0] : Fin 1 → Fin 2))
    (hc : (⟨2, ![E, 2]⟩ : Shape).ShapeCasts ⟨1, ![R]⟩) (r : Fin R) :
    shapeCast ⟨1, ![R]⟩ (broadcastInDim ⟨2, ![E, 2]⟩ (![0] : Fin 1 → Fin 2) hb (iotaInDim ⟨1, ![E]⟩ w 0)) hc (ix1 r)
      = BitVec.ofNat w (r.val / 2) := by
  rw [reshape_bcast_apply hR]
  rfl

/-- A 32-bit word below `2^31` read as a signed integer is itself. -/
theorem toInt_ofNat_of_lt {k : ℕ} (hk : k < 2 ^ 31) : (BitVec.ofNat 32 k).toInt = (k : ℤ) := by
  have hn : (BitVec.ofNat 32 k).toNat = k := by
    rw [BitVec.toNat_ofNat]; exact Nat.mod_eq_of_lt (by omega)
  rw [BitVec.toInt_eq_toNat_of_lt (by rw [hn]; omega), hn]

/-- A 32-bit word below `2^31` is not negative as a signed integer. -/
theorem slt_zero_ofNat_of_lt {k : ℕ} (hk : k < 2 ^ 31) : (BitVec.ofNat 32 k).slt 0#32 = false := by
  rw [BitVec.slt_eq_decide, toInt_ofNat_of_lt hk, BitVec.toInt_zero]
  exact decide_eq_false (by omega)

/-- The wrap of negative indices (`w + n` when `w < 0`) leaves a word below `2^31` alone. -/
theorem wrap_ofNat_of_lt {k : ℕ} (hk : k < 2 ^ 31) (n : ℕ) :
    (if (BitVec.ofNat 32 k).slt 0#32 then BitVec.ofNat 32 k + BitVec.ofNat 32 n else BitVec.ofNat 32 k)
      = BitVec.ofNat 32 k := by
  rw [slt_zero_ofNat_of_lt hk]
  rfl

/-! ## Rows and row blocks -/

/-- Row `o` of a `[K, E]` array as a vector (the `[1, E]` slice at `(o, 0)`, reshaped to `[E]`), at `e`: the array at `(o, e)`. -/
theorem row_of_apply {K E : ℕ} (o : ℕ) (ho : o < K) (x : (⟨2, ![K, E]⟩ : Shape).Idx → α)
    (hs : (⟨2, ![K, E]⟩ : Shape).Slices ![o, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 (⟨o, ho⟩ : Fin K) e) := by
  refine (shapeCast_apply _ hc (ix1 e) (ix2 (0 : Fin 1) e) ?_).trans ?_
  · rw [Shape.rowMajor_val_two, Shape.rowMajor_val_one]
    show 0 * E + e.val = e.val
    omega
  · refine extractStridedSlice_apply ![o, 0] x hs (ix2 (0 : Fin 1) e) (ix2 (⟨o, ho⟩ : Fin K) e) fun a => ?_
    match a with
    | ⟨0, _⟩ => rfl
    | ⟨1, _⟩ => show e.val = 0 + e.val; omega

/-- A block of whole rows fits: `o + i < a` for a row `i` of the block of `c` rows from row `o`. -/
theorem row_block_lt {a b c o : ℕ} (h : (⟨2, ![a, b]⟩ : Shape).Slices ![o, 0] ⟨2, ![c, b]⟩) (i : Fin c) :
    o + i.val < a := by
  have h0 : o + c ≤ a := h.2 (0 : Fin 2)
  have := i.isLt
  omega

/-- The block of `c` whole rows starting at row `o` of an `[a, b]` array, at `(i, j)`: the array at `(o + i, j)`. -/
theorem row_block_apply {a b c : ℕ} (o : ℕ) (x : (⟨2, ![a, b]⟩ : Shape).Idx → α)
    (h : (⟨2, ![a, b]⟩ : Shape).Slices ![o, 0] ⟨2, ![c, b]⟩) (i : Fin c) (j : Fin b) :
    extractStridedSlice ⟨2, ![c, b]⟩ ![o, 0] x h (ix2 i j) = x (ix2 (⟨o + i.val, row_block_lt h i⟩ : Fin a) j) := by
  refine extractStridedSlice_apply ![o, 0] x h (ix2 i j) _ fun d => ?_
  match d with
  | ⟨0, _⟩ => rfl
  | ⟨1, _⟩ => show j.val = 0 + j.val; omega

/-! ## Concatenation along the row axis -/

/-- Two arrays concatenated along the row axis, at a row of the first: the first array there. -/
theorem concat_rows_apply_left {E₁ E₂ R C : ℕ} (a : (⟨2, ![E₁, C]⟩ : Shape).Idx → α) (b : (⟨2, ![E₂, C]⟩ : Shape).Idx → α)
    (h : Shape.Concatenates [(⟨2, ![E₁, C]⟩ : Shape), ⟨2, ![E₂, C]⟩] ⟨2, ![R, C]⟩ (0 : Fin 2))
    (r : Fin R) (q : Fin C) (hr : r.val < E₁) :
    concatenate ⟨2, ![R, C]⟩ (0 : Fin 2) [⟨⟨2, ![E₁, C]⟩, a⟩, ⟨⟨2, ![E₂, C]⟩, b⟩] h (ix2 r q)
      = a (ix2 (⟨r.val, hr⟩ : Fin E₁) q) := by
  refine concatenate_pair_apply_left (0 : Fin 2) a b h (ix2 r q) rfl _ fun d => ?_
  match d with
  | ⟨0, _⟩ => rfl
  | ⟨1, _⟩ => rfl

/-- Two arrays concatenated along the row axis, at a row past the first: the second array, the first's rows less. -/
theorem concat_rows_apply_right {E₁ E₂ R C : ℕ} (a : (⟨2, ![E₁, C]⟩ : Shape).Idx → α) (b : (⟨2, ![E₂, C]⟩ : Shape).Idx → α)
    (h : Shape.Concatenates [(⟨2, ![E₁, C]⟩ : Shape), ⟨2, ![E₂, C]⟩] ⟨2, ![R, C]⟩ (0 : Fin 2))
    (r : Fin R) (q : Fin C) (hr : E₁ ≤ r.val) (hr' : r.val - E₁ < E₂) :
    concatenate ⟨2, ![R, C]⟩ (0 : Fin 2) [⟨⟨2, ![E₁, C]⟩, a⟩, ⟨⟨2, ![E₂, C]⟩, b⟩] h (ix2 r q)
      = b (ix2 (⟨r.val - E₁, hr'⟩ : Fin E₂) q) := by
  refine concatenate_pair_apply_right (0 : Fin 2) a b h (ix2 r q) rfl rfl _ (fun d hd => ?_) ?_
  · match d with
    | ⟨0, _⟩ => exact absurd rfl hd
    | ⟨1, _⟩ => rfl
  · show r.val - E₁ + E₁ = r.val
    omega

/-- Two arrays concatenated along the row axis (`R = E₁ + E₂` rows), at `(r, q)`: the first array at `(r, q)` if `r < E₁`,
    the second at `(r - E₁, q)` otherwise. -/
theorem concat_rows_apply {E₁ E₂ R C : ℕ} (hR : R = E₁ + E₂)
    (a : (⟨2, ![E₁, C]⟩ : Shape).Idx → α) (b : (⟨2, ![E₂, C]⟩ : Shape).Idx → α)
    (h : Shape.Concatenates [(⟨2, ![E₁, C]⟩ : Shape), ⟨2, ![E₂, C]⟩] ⟨2, ![R, C]⟩ (0 : Fin 2))
    (r : Fin R) (q : Fin C) :
    concatenate ⟨2, ![R, C]⟩ (0 : Fin 2) [⟨⟨2, ![E₁, C]⟩, a⟩, ⟨⟨2, ![E₂, C]⟩, b⟩] h (ix2 r q)
      = if hr : r.val < E₁ then a (ix2 (⟨r.val, hr⟩ : Fin E₁) q)
        else b (ix2 (⟨r.val - E₁, by omega⟩ : Fin E₂) q) := by
  by_cases hr : r.val < E₁
  · rw [dif_pos hr]; exact concat_rows_apply_left a b h r q hr
  · rw [dif_neg hr]; exact concat_rows_apply_right a b h r q (by omega) (by omega)

/-- Two vectors concatenated (`R = E₁ + E₂` entries), at `r`: the first at `r` if `r < E₁`, the second at `r - E₁` otherwise. -/
theorem concat_vec_apply {E₁ E₂ R : ℕ} (hR : R = E₁ + E₂)
    (a : (⟨1, ![E₁]⟩ : Shape).Idx → α) (b : (⟨1, ![E₂]⟩ : Shape).Idx → α)
    (h : Shape.Concatenates [(⟨1, ![E₁]⟩ : Shape), ⟨1, ![E₂]⟩] ⟨1, ![R]⟩ (0 : Fin 1)) (r : Fin R) :
    concatenate ⟨1, ![R]⟩ (0 : Fin 1) [⟨⟨1, ![E₁]⟩, a⟩, ⟨⟨1, ![E₂]⟩, b⟩] h (ix1 r)
      = if hr : r.val < E₁ then a (ix1 (⟨r.val, hr⟩ : Fin E₁)) else b (ix1 (⟨r.val - E₁, by omega⟩ : Fin E₂)) := by
  by_cases hr : r.val < E₁
  · rw [dif_pos hr]
    refine concatenate_pair_apply_left (0 : Fin 1) a b h (ix1 r) rfl _ fun d => ?_
    match d with
    | ⟨0, _⟩ => rfl
  · rw [dif_neg hr]
    refine concatenate_pair_apply_right (0 : Fin 1) a b h (ix1 r) rfl rfl _ (fun d hd => ?_) ?_
    · match d with
      | ⟨0, _⟩ => exact absurd rfl hd
    · show r.val - E₁ + E₁ = r.val
      omega

/-! ## The reshape between `[R, C]` and `[E, 2, C]` -/

/-- The row-major reshape `[R, C] → [E, 2, C]`, `R = 2 E`, at `(e, k, q)`: the array at `(2 e + k, q)`. -/
theorem unflatten_pairs_apply {E R C : ℕ} (hR : R = 2 * E) (x : (⟨2, ![R, C]⟩ : Shape).Idx → α)
    (hc : (⟨2, ![R, C]⟩ : Shape).ShapeCasts ⟨3, ![E, 2, C]⟩) (e : Fin E) (k : Fin 2) (q : Fin C) :
    shapeCast ⟨3, ![E, 2, C]⟩ x hc (ix3 e k q) = x (ix2 (⟨2 * e.val + k.val, by omega⟩ : Fin R) q) := by
  refine shapeCast_apply x hc (ix3 e k q) _ ?_
  rw [Shape.rowMajor_val_two, Shape.rowMajor_val_three]
  show (2 * e.val + k.val) * C + q.val = (e.val * 2 + k.val) * C + q.val
  rw [Nat.mul_comm 2 e.val]

/-- The row-major reshape `[E, 2, C] → [R, C]`, `R = 2 E`, at `(r, q)`: the array at `(r / 2, r % 2, q)`. -/
theorem flatten_pairs3_apply {E R C : ℕ} (hR : R = 2 * E) (y : (⟨3, ![E, 2, C]⟩ : Shape).Idx → α)
    (hc : (⟨3, ![E, 2, C]⟩ : Shape).ShapeCasts ⟨2, ![R, C]⟩) (r : Fin R) (q : Fin C) :
    shapeCast ⟨2, ![R, C]⟩ y hc (ix2 r q)
      = y (ix3 (⟨r.val / 2, by omega⟩ : Fin E) (⟨r.val % 2, by omega⟩ : Fin 2) q) := by
  refine shapeCast_apply y hc (ix2 r q) _ ?_
  rw [Shape.rowMajor_val_two, Shape.rowMajor_val_three]
  show (r.val / 2 * 2 + r.val % 2) * C + q.val = r.val * C + q.val
  rw [show r.val / 2 * 2 + r.val % 2 = r.val by omega]

/-- Member `o` of every pair of rows: the reshape `[R, C] → [E, 2, C]`, the slice `[E, 1, C]` at `(0, o, 0)` and the reshape to
    `[E, C]`, at `(e, q)`: the array at `(2 e + o, q)`. -/
theorem pair_row_apply {E R C : ℕ} (hR : R = 2 * E) (o : ℕ) (ho : o < 2) (x : (⟨2, ![R, C]⟩ : Shape).Idx → α)
    (hc₁ : (⟨2, ![R, C]⟩ : Shape).ShapeCasts ⟨3, ![E, 2, C]⟩)
    (hs : (⟨3, ![E, 2, C]⟩ : Shape).Slices ![0, o, 0] ⟨3, ![E, 1, C]⟩)
    (hc₂ : (⟨3, ![E, 1, C]⟩ : Shape).ShapeCasts ⟨2, ![E, C]⟩) (e : Fin E) (q : Fin C) :
    shapeCast ⟨2, ![E, C]⟩ (extractStridedSlice ⟨3, ![E, 1, C]⟩ ![0, o, 0] (shapeCast ⟨3, ![E, 2, C]⟩ x hc₁) hs) hc₂ (ix2 e q)
      = x (ix2 (⟨2 * e.val + o, by omega⟩ : Fin R) q) := by
  refine (shapeCast_apply _ hc₂ (ix2 e q) (ix3 e (0 : Fin 1) q) ?_).trans ?_
  · rw [Shape.rowMajor_val_two, Shape.rowMajor_val_three]
    show (e.val * 1 + 0) * C + q.val = e.val * C + q.val
    rw [Nat.mul_one, Nat.add_zero]
  refine (extractStridedSlice_apply ![0, o, 0] _ hs (ix3 e (0 : Fin 1) q) (ix3 e (⟨o, ho⟩ : Fin 2) q) fun a => ?_).trans ?_
  · match a with
    | ⟨0, _⟩ => show e.val = 0 + e.val; omega
    | ⟨1, _⟩ => rfl
    | ⟨2, _⟩ => show q.val = 0 + q.val; omega
  exact unflatten_pairs_apply hR x hc₁ e ⟨o, ho⟩ q

/-! ## Interleaving two arrays row by row -/

/-- Two `[E, 1, C]` arrays concatenated along the middle axis, at `(e, k, q)`: the first at `(e, 0, q)` if `k = 0`, the second
    otherwise. -/
theorem concat_mid_apply {E C : ℕ} (a b : (⟨3, ![E, 1, C]⟩ : Shape).Idx → α)
    (h : Shape.Concatenates [(⟨3, ![E, 1, C]⟩ : Shape), ⟨3, ![E, 1, C]⟩] ⟨3, ![E, 2, C]⟩ (1 : Fin 3))
    (e : Fin E) (k : Fin 2) (q : Fin C) :
    concatenate ⟨3, ![E, 2, C]⟩ (1 : Fin 3) [⟨⟨3, ![E, 1, C]⟩, a⟩, ⟨⟨3, ![E, 1, C]⟩, b⟩] h (ix3 e k q)
      = if k.val = 0 then a (ix3 e (0 : Fin 1) q) else b (ix3 e (0 : Fin 1) q) := by
  by_cases hk : k.val = 0
  · rw [if_pos hk]
    refine concatenate_pair_apply_left (1 : Fin 3) a b h (ix3 e k q) rfl _ fun d => ?_
    match d with
    | ⟨0, _⟩ => rfl
    | ⟨1, _⟩ => exact hk.symm
    | ⟨2, _⟩ => rfl
  · rw [if_neg hk]
    refine concatenate_pair_apply_right (1 : Fin 3) a b h (ix3 e k q) rfl rfl _ (fun d hd => ?_) ?_
    · match d with
      | ⟨0, _⟩ => rfl
      | ⟨1, _⟩ => exact absurd rfl hd
      | ⟨2, _⟩ => rfl
    · show 0 + 1 = k.val
      have := k.isLt
      omega

/-- TWO ARRAYS INTERLEAVED ROW BY ROW: each of two `[E, C]` arrays given a middle unit axis, the two concatenated along
    it and the result reshaped to `[R, C]`, `R = 2 E`; at `(r, q)` it is the first array at `(r / 2, q)` if `r` is even, the
    second at `(r / 2, q)` if `r` is odd. -/
theorem interleave_rows_apply {E R C : ℕ} (hR : R = 2 * E) (a b : (⟨2, ![E, C]⟩ : Shape).Idx → α)
    (hb : (⟨2, ![E, C]⟩ : Shape).BroadcastsInDim ⟨3, ![E, 1, C]⟩ (![0, 2] : Fin 2 → Fin 3))
    (hcat : Shape.Concatenates [(⟨3, ![E, 1, C]⟩ : Shape), ⟨3, ![E, 1, C]⟩] ⟨3, ![E, 2, C]⟩ (1 : Fin 3))
    (hc : (⟨3, ![E, 2, C]⟩ : Shape).ShapeCasts ⟨2, ![R, C]⟩) (r : Fin R) (q : Fin C) :
    shapeCast ⟨2, ![R, C]⟩
        (concatenate ⟨3, ![E, 2, C]⟩ (1 : Fin 3)
          [⟨⟨3, ![E, 1, C]⟩, broadcastInDim ⟨3, ![E, 1, C]⟩ (![0, 2] : Fin 2 → Fin 3) hb a⟩,
           ⟨⟨3, ![E, 1, C]⟩, broadcastInDim ⟨3, ![E, 1, C]⟩ (![0, 2] : Fin 2 → Fin 3) hb b⟩] hcat) hc (ix2 r q)
      = if r.val % 2 = 0 then a (ix2 (⟨r.val / 2, by omega⟩ : Fin E) q) else b (ix2 (⟨r.val / 2, by omega⟩ : Fin E) q) := by
  rw [flatten_pairs3_apply hR, concat_mid_apply, bcast_mid_apply, bcast_mid_apply]

/-- The same at row `2 e + k`: the first array's row `e` if `k = 0`, the second's if `k = 1`. -/
theorem interleave_rows_apply_pair {E R C : ℕ} (hR : R = 2 * E) (a b : (⟨2, ![E, C]⟩ : Shape).Idx → α)
    (hb : (⟨2, ![E, C]⟩ : Shape).BroadcastsInDim ⟨3, ![E, 1, C]⟩ (![0, 2] : Fin 2 → Fin 3))
    (hcat : Shape.Concatenates [(⟨3, ![E, 1, C]⟩ : Shape), ⟨3, ![E, 1, C]⟩] ⟨3, ![E, 2, C]⟩ (1 : Fin 3))
    (hc : (⟨3, ![E, 2, C]⟩ : Shape).ShapeCasts ⟨2, ![R, C]⟩) (e : Fin E) (k : Fin 2) (q : Fin C) :
    shapeCast ⟨2, ![R, C]⟩
        (concatenate ⟨3, ![E, 2, C]⟩ (1 : Fin 3)
          [⟨⟨3, ![E, 1, C]⟩, broadcastInDim ⟨3, ![E, 1, C]⟩ (![0, 2] : Fin 2 → Fin 3) hb a⟩,
           ⟨⟨3, ![E, 1, C]⟩, broadcastInDim ⟨3, ![E, 1, C]⟩ (![0, 2] : Fin 2 → Fin 3) hb b⟩] hcat) hc
        (ix2 (⟨2 * e.val + k.val, by omega⟩ : Fin R) q)
      = if k.val = 0 then a (ix2 e q) else b (ix2 e q) := by
  rw [interleave_rows_apply hR]
  have hk := k.isLt
  have h1 : (2 * e.val + k.val) % 2 = k.val := by omega
  have h2 : (⟨(2 * e.val + k.val) / 2, by omega⟩ : Fin E) = e := Fin.ext (by show (2 * e.val + k.val) / 2 = e.val; omega)
  simp only [h1, h2]

end LayoutReads
-- ==== Proof.HostLayout.lean ====
/-
  Two layout reads shared by the host stretches.

  * `bcast_scalar_apply`: a scalar array broadcast to any shape reads, at every index, the scalar's one entry.
  * `concat_halves_apply`: two `[160000, C]` arrays joined along the rows read, at the row of the pair `(e, h)` in the
    two-halves order (row `160000 h + e`), the first array's row `e` if `h = 0` and the second's row `e` if `h = 1`.
-/
import Idealize.ShloMosaic.Lib.ValueIdx
import Idealize.ShloMosaic.Lib.Pipeline.Value
import proofs.«131702_j10462540333326_2_alg».proof.Proof.LibLayoutReads
import proofs.«131702_j10462540333326_2_alg».proof.Proof.LibBlockSums

namespace Cert.KernelIdeal.HostValue

open Idealize.ShloMosaic ValueIdx

variable {α : Type}

/-- A scalar broadcast to shape `s` reads the scalar's entry at every index. -/
theorem bcast_scalar_apply {s : Shape} (h : (⟨0, ![]⟩ : Shape).BroadcastsInDim s (![] : Fin 0 → Fin s.rank))
    (x : (⟨0, ![]⟩ : Shape).Idx → α) (i : s.Idx) :
    broadcastInDim s (![] : Fin 0 → Fin s.rank) h x i = x ix0 :=
  broadcastInDim_apply _ h x i ix0 (fun a => a.elim0)

/-- The row of the pair `p` in the two-halves order is `160000 p.2 + p.1`. -/
theorem halves_val' (p : Fin 160000 × Fin 2) : (BlockSums.halves p).val = 160000 * p.2.val + p.1.val := rfl

/-- Two `[160000, C]` arrays joined along the rows, at the row of `(e, h)` in the two-halves order: the first array's row
    `e` if `h = 0`, the second's row `e` if `h = 1`. -/
theorem concat_halves_apply {C : ℕ} (a b : (⟨2, ![160000, C]⟩ : Shape).Idx → α)
    (h : Shape.Concatenates [(⟨2, ![160000, C]⟩ : Shape), ⟨2, ![160000, C]⟩] ⟨2, ![320000, C]⟩ (0 : Fin 2))
    (p : Fin 160000 × Fin 2) (q : Fin C) :
    concatenate ⟨2, ![320000, C]⟩ (0 : Fin 2) [⟨⟨2, ![160000, C]⟩, a⟩, ⟨⟨2, ![160000, C]⟩, b⟩] h (ix2 (BlockSums.halves p) q)
      = if p.2.val = 0 then a (ix2 p.1 q) else b (ix2 p.1 q) := by
  have h1 := p.1.isLt
  have h2 := p.2.isLt
  have hv := halves_val' p
  by_cases hk : p.2.val = 0
  · rw [if_pos hk]
    refine (LayoutReads.concat_rows_apply_left a b h (BlockSums.halves p) q (by omega)).trans ?_
    exact congrArg a (congrArg (fun r => ix2 r q) (Fin.ext (by show (BlockSums.halves p).val = p.1.val; omega)))
  · rw [if_neg hk]
    refine (LayoutReads.concat_rows_apply_right a b h (BlockSums.halves p) q (by omega) (by omega)).trans ?_
    exact congrArg b (congrArg (fun r => ix2 r q) (Fin.ext (by show (BlockSums.halves p).val - 160000 = p.1.val; omega)))

end Cert.KernelIdeal.HostValue
-- ==== Proof.LibRowGather.lean ====
/-
  The row gather of a rank-2 table, read at an entry.

  Let `x` be a table of `N` rows of `C` entries and `idx` a column of `R` start indices. The gather that takes whole
  rows (slices of sizes `[1, C]`, the row axis collapsed, the column axis the one offset axis, the start index naming
  the row axis, the start indices' second axis the index vector's) has `R` rows of `C` entries; its entry `(n, e)` is
  the table's entry `(r, e)`, where `r` is the `n`-th start index read as a signed integer and clamped into
  `[0, N - 1]`: a negative index reads row `0`, an index from `N` on reads the last row.
  The operand index of entry `(n, e)` is, axis by axis, a clamped start plus a batching coordinate plus an offset
  coordinate. On the row axis the start is the clamped index (the slice there has size `1`, so the bound is
  `N - 1`), there is no batching axis, and the axis is collapsed, so its offset is `0`. On the column axis the start
  index names nothing, so the start is `0`, and the offset is the result's column `e`. Every extent is generic.
-/
import Idealize.ShloMosaic.Lib.ValueIdx

namespace RowGather

open Idealize.ShloMosaic Idealize.ShloMosaic.ValueIdx

variable {α : Type}

/-- The dimension numbers of the row gather, for a table `[N, C]`, start indices `[R, 1]` and a result `[R, C]`:
    offset axes `[1]`, collapsed axes `[0]`, no batching axes, start index map `[0]`, the index vector on axis `1`,
    slices of sizes `[1, C]`. Their side conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather under the literal record, at entry `(n, e)`: the table at row "start index `n`, read signed and
    clamped into `[0, N - 1]`" and column `e`. -/
theorem rowDims_gather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (e : Fin C) :
    Host.gather (rowDims N R C wf) x idx (ix2 n e)
      = x (ix2 (⟨min (idx (ix2 n (0 : Fin 1))).toInt.toNat (N - 1), by omega⟩ : Fin N) e) := by
  unfold Host.gather
  congr 1
  funext a
  refine Fin.ext ?_
  match a with
  | ⟨0, _⟩ =>
    show (rowDims N R C wf).start (ix2 n e) idx 0 + (rowDims N R C wf).batchCoord (ix2 n e) 0
        + (rowDims N R C wf).offCoord (ix2 n e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 n e) ⟨List.idxOf (0 : Fin 2) (rowDims N R C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims N R C wf).start (ix2 n e) idx 1 + (rowDims N R C wf).batchCoord (ix2 n e) 1
        + (rowDims N R C wf).offCoord (ix2 n e) 1 = e.val
    have h10 : (1 : Fin 2) ∉ [(0 : Fin 2)] := by decide
    have h1 : (1 : Fin 2) ∉ (rowDims N R C wf).startIndexMap := h10
    have hk : (1 : Fin 2) ∈ (rowDims N R C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- A record with the row gather's seven fields is the literal record. -/
theorem eq_rowDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) :
    ∃ wf, d = rowDims N R C wf := by
  obtain ⟨od, cd, ob, sb, sm, iv, ss, wf⟩ := d
  simp only at h1 h2 h3 h4 h5 h6 h7
  subst h1 h2 h3 h4 h5 h6 h7
  exact ⟨wf, rfl⟩

/-- THE ROW GATHER READ AT `(n, e)`: under any record whose lists are the row gather's, entry `(n, e)` of the result
    is the table at row "start index `n`, read signed and clamped into `[0, N - 1]`" and column `e`. -/
theorem gather_apply {N R C w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (n : Fin R) (e : Fin C) :
    Host.gather d x idx (ix2 n e)
      = x (ix2 (⟨min (idx (ix2 n (0 : Fin 1))).toInt.toNat (N - 1), by omega⟩ : Fin N) e) := by
  obtain ⟨wf, rfl⟩ := eq_rowDims d h1 h2 h3 h4 h5 h6 h7
  exact rowDims_gather_apply hN wf x idx n e

end RowGather
-- ==== Proof.LibGatherWrap.lean ====
/-
  The integer side of a row gather whose indices may be negative: the wrapped index vector, read at an entry.

  A negative row index `w` into a table of `n` rows counts from the end: it means row `w + n`. A program does this on a whole index
  vector `v` before the gather: it compares `v` with the broadcast scalar `0` (signed less-than), adds the broadcast scalar
  `n` to `v`, and selects, entry by entry, the sum where the comparison holds and `v` where it does not. The wrapped
  vector is then given a trailing unit axis and handed to the gather as its column of start indices.

  * `broadcast_scalar_constantI_apply`: the broadcast of a scalar integer constant reads the constant everywhere.
  * `wrap_apply`: the selected vector at index `i` is `wrapIdx n (v i)`: `v i + n` if `v i` is negative as a signed integer,
    `v i` otherwise. (All the operations are entrywise; the comparison yields the bit `1` exactly when the signed
    less-than holds, and the select takes its first branch exactly on the bit `1`.)
  * `column_apply`: a vector of `R` entries given a trailing unit axis reads, at `(r, 0)`, its entry `r`.
  * `gather_wrap_apply`: the row gather of an `[N, C]` table at the column of wrapped indices, read at `(r, q)`, is the
    table at row `clampRow N (wrapIdx n (v r))` (the wrapped index read signed and clamped into `[0, N - 1]`) and column `q`.

  Every extent is generic.
-/
import Idealize.ShloMosaic.Lib.ValueIdx
import proofs.«131702_j10462540333326_2_alg».proof.Proof.LibRowGather
import proofs.«131702_j10462540333326_2_alg».proof.Proof.Spec

namespace GatherWrap

open Idealize.ShloMosaic Idealize.ShloMosaic.ValueIdx EdgeNodeLayer

/-- The broadcast of a scalar integer constant reads the constant at every index. -/
theorem broadcast_scalar_constantI_apply {s : Shape} {w : Nat}
    (h : (⟨0, ![]⟩ : Shape).BroadcastsInDim s (![] : Fin 0 → Fin s.rank)) (b : BitVec w) (i : s.Idx) :
    broadcastInDim s (![] : Fin 0 → Fin s.rank) h (constantI ⟨0, ![]⟩ w b) i = b := rfl

/-- A signed less-than comparison of two words is the bit `1` exactly when the less-than holds. -/
theorem cmpi_slt_eq_one_iff {w : Nat} (x y : BitVec w) :
    IntOp.cmpi .slt x y = (1 : BitVec 1) ↔ x.slt y = true := by
  show BitVec.ofBool (x.slt y) = (1 : BitVec 1) ↔ x.slt y = true
  cases x.slt y <;> decide

/-- A select on a signed less-than is the `if` on that less-than. -/
theorem select_cmpi_slt {α : Type} {w : Nat} (x y : BitVec w) (a b : α) :
    Scalar.select (IntOp.cmpi .slt x y) a b = if x.slt y then a else b := by
  unfold Scalar.select
  by_cases hxy : x.slt y = true
  · rw [if_pos ((cmpi_slt_eq_one_iff x y).mpr hxy), if_pos hxy]
  · rw [if_neg (fun h => hxy ((cmpi_slt_eq_one_iff x y).mp h)), if_neg hxy]

/-- THE WRAPPED INDEX VECTOR AT AN INDEX: selecting `v + n` where `v < 0` (signed) and `v` elsewhere gives, at index
    `i`, the reading `wrapIdx n (v i)` of the possibly negative index `v i` (counted from the end when negative). -/
theorem wrap_apply {s : Shape} (h : (⟨0, ![]⟩ : Shape).BroadcastsInDim s (![] : Fin 0 → Fin s.rank))
    (v : IVec s 32) (n : Nat) (i : s.Idx) :
    select (cmpi .slt v (broadcastInDim s (![] : Fin 0 → Fin s.rank) h (constantI ⟨0, ![]⟩ 32 0#32)))
        (addi v (broadcastInDim s (![] : Fin 0 → Fin s.rank) h (constantI ⟨0, ![]⟩ 32 (BitVec.ofNat 32 n)))) v i
      = wrapIdx n (v i) := by
  show Scalar.select (IntOp.cmpi .slt (v i) 0#32) (v i + BitVec.ofNat 32 n) (v i) = wrapIdx n (v i)
  rw [select_cmpi_slt]
  rfl

/-- The same, spelt out: the selected vector at `i` is `v i + n` if `v i` is negative, `v i` otherwise. -/
theorem wrap_apply' {s : Shape} (h : (⟨0, ![]⟩ : Shape).BroadcastsInDim s (![] : Fin 0 → Fin s.rank))
    (v : IVec s 32) (n : Nat) (i : s.Idx) :
    select (cmpi .slt v (broadcastInDim s (![] : Fin 0 → Fin s.rank) h (constantI ⟨0, ![]⟩ 32 0#32)))
        (addi v (broadcastInDim s (![] : Fin 0 → Fin s.rank) h (constantI ⟨0, ![]⟩ 32 (BitVec.ofNat 32 n)))) v i
      = if (v i).slt 0#32 then v i + BitVec.ofNat 32 n else v i :=
  wrap_apply h v n i

/-- A vector of `R` entries given a trailing unit axis (`broadcast_in_dim` with `dims = [0]`) reads its entry `r` at
    `(r, 0)`. -/
theorem column_apply {α : Type} {R : Nat}
    (h : (⟨1, ![R]⟩ : Shape).BroadcastsInDim ⟨2, ![R, 1]⟩ (![0] : Fin 1 → Fin 2))
    (v : (⟨1, ![R]⟩ : Shape).Idx → α) (r : Fin R) (z : Fin 1) :
    broadcastInDim ⟨2, ![R, 1]⟩ (![0] : Fin 1 → Fin 2) h v (ix2 r z) = v (ix1 r) := by
  unfold broadcastInDim
  refine congrArg v (funext fun a => Fin.ext ?_)
  match a with
  | ⟨0, ha⟩ =>
    by_cases h1 : (⟨1, ![R]⟩ : Shape).size ⟨0, ha⟩ = 1
    · rw [dif_pos h1]
      have hR : R = 1 := h1
      have := r.isLt
      show 0 = r.val
      omega
    · rw [dif_neg h1]
      rfl

/-- The row gather read at `(r, q)`, in terms of `clampRow`: if the start index of result row `r` is the word `w`, the
    entry is the table at row `clampRow N w` (`w` read signed and clamped into `[0, N - 1]`) and column `q`. -/
theorem gather_clampRow {α : Type} {N R C : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ 32) (r : Fin R) (q : Fin C) (w : BitVec 32)
    (hw : idx (ix2 r (0 : Fin 1)) = w) :
    Host.gather d x idx (ix2 r q) = x (ix2 (clampRow N hN w) q) := by
  subst hw
  rw [RowGather.gather_apply hN d h1 h2 h3 h4 h5 h6 h7]
  rfl

/-- THE ROW GATHER AT WRAPPED INDICES, READ AT `(r, q)`: the table at row "`wrapIdx n (v r)` read signed and clamped into
    `[0, N - 1]`" (`clampRow`) and column `q`. The start index of result row `r` is entry `(r, 0)` of the column, which is
    entry `r` of the wrapped vector. -/
theorem gather_wrap_apply {α : Type} {N R C : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (hs : (⟨0, ![]⟩ : Shape).BroadcastsInDim ⟨1, ![R]⟩ (![] : Fin 0 → Fin 1))
    (hc : (⟨1, ![R]⟩ : Shape).BroadcastsInDim ⟨2, ![R, 1]⟩ (![0] : Fin 1 → Fin 2))
    (x : (⟨2, ![N, C]⟩ : Shape).Idx → α) (v : IVec ⟨1, ![R]⟩ 32) (n : Nat) (r : Fin R) (q : Fin C) :
    Host.gather d x
        (broadcastInDim ⟨2, ![R, 1]⟩ (![0] : Fin 1 → Fin 2) hc
          (select (cmpi .slt v (broadcastInDim ⟨1, ![R]⟩ (![] : Fin 0 → Fin 1) hs (constantI ⟨0, ![]⟩ 32 0#32)))
            (addi v (broadcastInDim ⟨1, ![R]⟩ (![] : Fin 0 → Fin 1) hs (constantI ⟨0, ![]⟩ 32 (BitVec.ofNat 32 n)))) v))
        (ix2 r q)
      = x (ix2 (clampRow N hN (wrapIdx n (v (ix1 r)))) q) := by
  refine gather_clampRow hN d h1 h2 h3 h4 h5 h6 h7 x _ r q _ ?_
  rw [column_apply hc, wrap_apply hs]

end GatherWrap
-- ==== Proof.Host0.lean ====
/-
  The host operations before the program's first region, read at an entry.

  From the node features `x0` (`[20000, 128]`), the edge-row features `x1` (`[320000, 128]`, the two rows of an edge
  adjacent), the endpoints `x2` (`[2, 160000]` 32-bit words) and the first weight `x9` (`[384, 128]`) the program
  prepares the first region's inputs:
    * the two endpoint rows as vectors;
    * for each member `h`, the node features gathered at the endpoints (a negative index wrapped by 20000, then read
      signed and clamped by the gather), and their sum over the two members;
    * the sum written twice along the rows, and the two gathers one after the other along the rows: row
      `160000 h + e` belongs to member `h` of edge `e`;
    * member `h` of every pair of edge-feature rows (row `2 e + h`), and the two members one after the other;
    * the weight's three blocks of 128 rows.
  Each is read here at an entry in terms of the layer's definitions `gat`, `dom`, `erp` on the program's arguments.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostLayout
import proofs.«131702_j10462540333326_2_alg».proof.Proof.LibGatherWrap
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-! ## The operations' terms -/

/-- Row `0` of the endpoints, as a vector. -/
def ends0 (x2 : IVec S2x160000 32) : IVec S160000 32 :=
  shapeCast S160000 (extractStridedSlice S1x160000 ![0, 0] x2 slices_S2x160000_S1x160000_0_0) shapeCasts_S1x160000_S160000

/-- Row `1` of the endpoints, as a vector. -/
def ends1 (x2 : IVec S2x160000 32) : IVec S160000 32 :=
  shapeCast S160000 (extractStridedSlice S1x160000 ![1, 0] x2 slices_S2x160000_S1x160000_1_0) shapeCasts_S1x160000_S160000

/-- The node features gathered at the index vector `v`: negative indices wrapped by 20000, the vector made a column,
    the rows gathered. -/
def gatherRows (x0 : FVec Ideal S20000x128 .f32) (v : IVec S160000 32) : FVec Ideal S160000x128 .f32 :=
  Host.gather gather_S20000x128_S160000x1_S160000x128_1_0_n_n_0_1_1128 x0
    (broadcastInDim S160000x1 ![0] bcast_S160000_S160000x1_0
      (select (cmpi .slt v (broadcastInDim S160000 ![] bcast_S_S160000 (constantI S_ 32 0#32)))
        (addi v (broadcastInDim S160000 ![] bcast_S_S160000 (constantI S_ 32 20000#32))) v))

/-- Member `0` of every pair of edge-feature rows. -/
def pairRow0 (x1 : FVec Ideal S320000x128 .f32) : FVec Ideal S160000x128 .f32 :=
  shapeCast S160000x128
    (extractStridedSlice S160000x1x128 ![0, 0, 0] (shapeCast S160000x2x128 x1 shapeCasts_S320000x128_S160000x2x128)
      slices_S160000x2x128_S160000x1x128_0_0_0) shapeCasts_S160000x1x128_S160000x128

/-- Member `1` of every pair of edge-feature rows. -/
def pairRow1 (x1 : FVec Ideal S320000x128 .f32) : FVec Ideal S160000x128 .f32 :=
  shapeCast S160000x128
    (extractStridedSlice S160000x1x128 ![0, 1, 0] (shapeCast S160000x2x128 x1 shapeCasts_S320000x128_S160000x2x128)
      slices_S160000x2x128_S160000x1x128_0_1_0) shapeCasts_S160000x1x128_S160000x128

/-! ## The terms at an entry -/

theorem ends0_apply (x2 : IVec S2x160000 32) (e : Fin 160000) : ends0 x2 (ix1 e) = x2 (ix2 (0 : Fin 2) e) :=
  LayoutReads.row_of_apply 0 (by norm_num) x2 slices_S2x160000_S1x160000_0_0 shapeCasts_S1x160000_S160000 e

theorem ends1_apply (x2 : IVec S2x160000 32) (e : Fin 160000) : ends1 x2 (ix1 e) = x2 (ix2 (1 : Fin 2) e) :=
  LayoutReads.row_of_apply 1 (by norm_num) x2 slices_S2x160000_S1x160000_1_0 shapeCasts_S1x160000_S160000 e

theorem gatherRows_apply (x0 : FVec Ideal S20000x128 .f32) (v : IVec S160000 32) (e : Fin 160000) (q : Fin 128) :
    gatherRows x0 v (ix2 e q) = x0 (ix2 (clampRow 20000 (by norm_num) (wrapIdx 20000 (v (ix1 e)))) q) :=
  GatherWrap.gather_wrap_apply (by norm_num) gather_S20000x128_S160000x1_S160000x128_1_0_n_n_0_1_1128
    rfl rfl rfl rfl rfl rfl rfl bcast_S_S160000 bcast_S160000_S160000x1_0 x0 v 20000 e q

theorem pairRow0_apply (x1 : FVec Ideal S320000x128 .f32) (e : Fin 160000) (q : Fin 128) :
    pairRow0 x1 (ix2 e q) = x1 (ix2 (⟨2 * e.val + 0, by omega⟩ : Fin 320000) q) :=
  LayoutReads.pair_row_apply (by norm_num) 0 (by norm_num) x1 shapeCasts_S320000x128_S160000x2x128
    slices_S160000x2x128_S160000x1x128_0_0_0 shapeCasts_S160000x1x128_S160000x128 e q

theorem pairRow1_apply (x1 : FVec Ideal S320000x128 .f32) (e : Fin 160000) (q : Fin 128) :
    pairRow1 x1 (ix2 e q) = x1 (ix2 (⟨2 * e.val + 1, by omega⟩ : Fin 320000) q) :=
  LayoutReads.pair_row_apply (by norm_num) 1 (by norm_num) x1 shapeCasts_S320000x128_S160000x2x128
    slices_S160000x2x128_S160000x1x128_0_1_0 shapeCasts_S160000x1x128_S160000x128 e q

/-! ## What the buffers hold after the operations -/

theorem after0_v1_eq :
    (StableHlo.after (hostOps0 (F := Ideal)) W (Proc.devRef .tc main_v1) : S160000.Idx → BitVec 32)
      = ends0 (W (Proc.devRef .tc main_arg2)) := by
  dsimp only [hostOps0]
  after_results_simp
  rfl

theorem after0_v3_eq :
    (StableHlo.after (hostOps0 (F := Ideal)) W (Proc.devRef .tc main_v3) : S160000.Idx → BitVec 32)
      = ends1 (W (Proc.devRef .tc main_arg2)) := by
  dsimp only [hostOps0]
  after_results_simp
  rfl

theorem after0_v18_eq :
    (StableHlo.after (hostOps0 (F := Ideal)) W (Proc.devRef .tc main_v18) : S160000x128.Idx → EReal)
      = addf (gatherRows (W (Proc.devRef .tc main_arg0)) (ends0 (W (Proc.devRef .tc main_arg2))))
          (gatherRows (W (Proc.devRef .tc main_arg0)) (ends1 (W (Proc.devRef .tc main_arg2)))) := by
  dsimp only [hostOps0]
  after_results_simp
  rfl

theorem after0_v19_eq :
    (StableHlo.after (hostOps0 (F := Ideal)) W (Proc.devRef .tc main_v19) : S320000x128.Idx → EReal)
      = concatenate S320000x128 0
          [⟨S160000x128, addf (gatherRows (W (Proc.devRef .tc main_arg0)) (ends0 (W (Proc.devRef .tc main_arg2))))
              (gatherRows (W (Proc.devRef .tc main_arg0)) (ends1 (W (Proc.devRef .tc main_arg2))))⟩,
           ⟨S160000x128, addf (gatherRows (W (Proc.devRef .tc main_arg0)) (ends0 (W (Proc.devRef .tc main_arg2))))
              (gatherRows (W (Proc.devRef .tc main_arg0)) (ends1 (W (Proc.devRef .tc main_arg2))))⟩]
          concatenates_S160000x128_S160000x128_S320000x128_d0 := by
  dsimp only [hostOps0]
  after_results_simp
  rfl

theorem after0_v20_eq :
    (StableHlo.after (hostOps0 (F := Ideal)) W (Proc.devRef .tc main_v20) : S320000x128.Idx → EReal)
      = concatenate S320000x128 0
          [⟨S160000x128, gatherRows (W (Proc.devRef .tc main_arg0)) (ends0 (W (Proc.devRef .tc main_arg2)))⟩,
           ⟨S160000x128, gatherRows (W (Proc.devRef .tc main_arg0)) (ends1 (W (Proc.devRef .tc main_arg2)))⟩]
          concatenates_S160000x128_S160000x128_S320000x128_d0 := by
  dsimp only [hostOps0]
  after_results_simp
  rfl

theorem after0_v23_eq :
    (StableHlo.after (hostOps0 (F := Ideal)) W (Proc.devRef .tc main_v23) : S160000x128.Idx → EReal)
      = pairRow0 (W (Proc.devRef .tc main_arg1)) := by
  dsimp only [hostOps0]
  after_results_simp
  rfl

theorem after0_v25_eq :
    (StableHlo.after (hostOps0 (F := Ideal)) W (Proc.devRef .tc main_v25) : S160000x128.Idx → EReal)
      = pairRow1 (W (Proc.devRef .tc main_arg1)) := by
  dsimp only [hostOps0]
  after_results_simp
  rfl

theorem after0_v26_eq :
    (StableHlo.after (hostOps0 (F := Ideal)) W (Proc.devRef .tc main_v26) : S320000x128.Idx → EReal)
      = concatenate S320000x128 0
          [⟨S160000x128, pairRow0 (W (Proc.devRef .tc main_arg1))⟩, ⟨S160000x128, pairRow1 (W (Proc.devRef .tc main_arg1))⟩]
          concatenates_S160000x128_S160000x128_S320000x128_d0 := by
  dsimp only [hostOps0]
  after_results_simp
  rfl

theorem after0_v27_eq :
    (StableHlo.after (hostOps0 (F := Ideal)) W (Proc.devRef .tc main_v27) : S128x128.Idx → EReal)
      = extractStridedSlice S128x128 ![0, 0] (W (Proc.devRef .tc main_arg9)) slices_S384x128_S128x128_0_0 := by
  dsimp only [hostOps0]
  after_results_simp

theorem after0_v28_eq :
    (StableHlo.after (hostOps0 (F := Ideal)) W (Proc.devRef .tc main_v28) : S128x128.Idx → EReal)
      = extractStridedSlice S128x128 ![128, 0] (W (Proc.devRef .tc main_arg9)) slices_S384x128_S128x128_128_0 := by
  dsimp only [hostOps0]
  after_results_simp

theorem after0_v29_eq :
    (StableHlo.after (hostOps0 (F := Ideal)) W (Proc.devRef .tc main_v29) : S128x128.Idx → EReal)
      = extractStridedSlice S128x128 ![256, 0] (W (Proc.devRef .tc main_arg9)) slices_S384x128_S128x128_256_0 := by
  dsimp only [hostOps0]
  after_results_simp

/-! ## The buffers at an entry, in the layer's terms -/

/-- The gather at member `0`'s endpoints is `gat … 0`. -/
theorem gather0_apply (e : Fin 160000) (q : Fin 128) :
    gatherRows (W (Proc.devRef .tc main_arg0)) (ends0 (W (Proc.devRef .tc main_arg2))) (ix2 e q) = gat (argsOf W) e 0 q := by
  rw [gatherRows_apply, ends0_apply]
  rfl

/-- The gather at member `1`'s endpoints is `gat … 1`. -/
theorem gather1_apply (e : Fin 160000) (q : Fin 128) :
    gatherRows (W (Proc.devRef .tc main_arg0)) (ends1 (W (Proc.devRef .tc main_arg2))) (ix2 e q) = gat (argsOf W) e 1 q := by
  rw [gatherRows_apply, ends1_apply]
  rfl

theorem after0_v1_apply (e : Fin 160000) :
    (StableHlo.after (hostOps0 (F := Ideal)) W (Proc.devRef .tc main_v1) : S160000.Idx → BitVec 32) (ix1 e) = (argsOf W).ei 0 e := by
  rw [after0_v1_eq, ends0_apply]
  rfl

theorem after0_v3_apply (e : Fin 160000) :
    (StableHlo.after (hostOps0 (F := Ideal)) W (Proc.devRef .tc main_v3) : S160000.Idx → BitVec 32) (ix1 e) = (argsOf W).ei 1 e := by
  rw [after0_v3_eq, ends1_apply]
  rfl

/-- THE SUMMED GATHER AT `(e, j)`. -/
theorem after0_v18_apply (e : Fin 160000) (j : Fin 128) :
    (StableHlo.after (hostOps0 (F := Ideal)) W (Proc.devRef .tc main_v18) : S160000x128.Idx → EReal) (ix2 e j) = dom (argsOf W) e j := by
  rw [after0_v18_eq]
  show gatherRows (W (Proc.devRef .tc main_arg0)) (ends0 (W (Proc.devRef .tc main_arg2))) (ix2 e j)
      + gatherRows (W (Proc.devRef .tc main_arg0)) (ends1 (W (Proc.devRef .tc main_arg2))) (ix2 e j) = gat (argsOf W) e 0 j + gat (argsOf W) e 1 j
  rw [gather0_apply, gather1_apply]

/-- THE SUMMED GATHER WRITTEN TWICE, AT THE ROW OF `(e, h)` (two-halves order). -/
theorem after0_v19_apply (p : Fin 160000 × Fin 2) (j : Fin 128) :
    (StableHlo.after (hostOps0 (F := Ideal)) W (Proc.devRef .tc main_v19) : S320000x128.Idx → EReal) (ix2 (BlockSums.halves p) j)
      = dom (argsOf W) p.1 j := by
  rw [after0_v19_eq]
  refine (concat_halves_apply _ _ concatenates_S160000x128_S160000x128_S320000x128_d0 p j).trans ?_
  rw [ite_self]
  show gatherRows (W (Proc.devRef .tc main_arg0)) (ends0 (W (Proc.devRef .tc main_arg2))) (ix2 p.1 j)
      + gatherRows (W (Proc.devRef .tc main_arg0)) (ends1 (W (Proc.devRef .tc main_arg2))) (ix2 p.1 j) = gat (argsOf W) p.1 0 j + gat (argsOf W) p.1 1 j
  rw [gather0_apply, gather1_apply]

/-- THE TWO GATHERS ONE AFTER THE OTHER, AT THE ROW OF `(e, h)` (two-halves order). -/
theorem after0_v20_apply (p : Fin 160000 × Fin 2) (j : Fin 128) :
    (StableHlo.after (hostOps0 (F := Ideal)) W (Proc.devRef .tc main_v20) : S320000x128.Idx → EReal) (ix2 (BlockSums.halves p) j)
      = gat (argsOf W) p.1 p.2 j := by
  rw [after0_v20_eq]
  refine (concat_halves_apply _ _ concatenates_S160000x128_S160000x128_S320000x128_d0 p j).trans ?_
  obtain ⟨e, h⟩ := p
  have hh := h.isLt
  by_cases hk : h.val = 0
  · rw [if_pos hk, gather0_apply]
    exact congrArg (fun k => gat (argsOf W) e k j) (Fin.ext hk.symm)
  · rw [if_neg hk, gather1_apply]
    exact congrArg (fun k => gat (argsOf W) e k j) (Fin.ext (by show 1 = h.val; omega))

theorem after0_v23_apply (e : Fin 160000) (j : Fin 128) :
    (StableHlo.after (hostOps0 (F := Ideal)) W (Proc.devRef .tc main_v23) : S160000x128.Idx → EReal) (ix2 e j) = erp (argsOf W) e 0 j := by
  rw [after0_v23_eq, pairRow0_apply]
  rfl

theorem after0_v25_apply (e : Fin 160000) (j : Fin 128) :
    (StableHlo.after (hostOps0 (F := Ideal)) W (Proc.devRef .tc main_v25) : S160000x128.Idx → EReal) (ix2 e j) = erp (argsOf W) e 1 j := by
  rw [after0_v25_eq, pairRow1_apply]
  rfl

/-- THE TWO MEMBERS' EDGE FEATURES ONE AFTER THE OTHER, AT THE ROW OF `(e, h)` (two-halves order). -/
theorem after0_v26_apply (p : Fin 160000 × Fin 2) (j : Fin 128) :
    (StableHlo.after (hostOps0 (F := Ideal)) W (Proc.devRef .tc main_v26) : S320000x128.Idx → EReal) (ix2 (BlockSums.halves p) j)
      = erp (argsOf W) p.1 p.2 j := by
  rw [after0_v26_eq]
  refine (concat_halves_apply _ _ concatenates_S160000x128_S160000x128_S320000x128_d0 p j).trans ?_
  obtain ⟨e, h⟩ := p
  have hh := h.isLt
  by_cases hk : h.val = 0
  · rw [if_pos hk, pairRow0_apply]
    exact congrArg (fun r => (W (Proc.devRef .tc main_arg1) : S320000x128.Idx → EReal) (ix2 r j))
      (Fin.ext (by show 2 * e.val + 0 = 2 * e.val + h.val; omega))
  · rw [if_neg hk, pairRow1_apply]
    exact congrArg (fun r => (W (Proc.devRef .tc main_arg1) : S320000x128.Idx → EReal) (ix2 r j))
      (Fin.ext (by show 2 * e.val + 1 = 2 * e.val + h.val; omega))

/-- THE WEIGHT'S FIRST BLOCK AT `(j, q)`. -/
theorem after0_v27_apply (j q : Fin 128) :
    (StableHlo.after (hostOps0 (F := Ideal)) W (Proc.devRef .tc main_v27) : S128x128.Idx → EReal) (ix2 j q)
      = (argsOf W).v1w (⟨j.val, by omega⟩ : Fin 384) q := by
  rw [after0_v27_eq]
  refine (LayoutReads.row_block_apply 0 _ slices_S384x128_S128x128_0_0 j q).trans ?_
  exact congrArg (fun r => (W (Proc.devRef .tc main_arg9) : S384x128.Idx → EReal) (ix2 r q))
    (Fin.ext (by show 0 + j.val = j.val; omega))

/-- THE WEIGHT'S SECOND BLOCK AT `(j, q)`. -/
theorem after0_v28_apply (j q : Fin 128) :
    (StableHlo.after (hostOps0 (F := Ideal)) W (Proc.devRef .tc main_v28) : S128x128.Idx → EReal) (ix2 j q)
      = (argsOf W).v1w (⟨j.val + 128, by omega⟩ : Fin 384) q := by
  rw [after0_v28_eq]
  refine (LayoutReads.row_block_apply 128 _ slices_S384x128_S128x128_128_0 j q).trans ?_
  exact congrArg (fun r => (W (Proc.devRef .tc main_arg9) : S384x128.Idx → EReal) (ix2 r q))
    (Fin.ext (by show 128 + j.val = j.val + 128; omega))

/-- THE WEIGHT'S THIRD BLOCK AT `(j, q)`. -/
theorem after0_v29_apply (j q : Fin 128) :
    (StableHlo.after (hostOps0 (F := Ideal)) W (Proc.devRef .tc main_v29) : S128x128.Idx → EReal) (ix2 j q)
      = (argsOf W).v1w (⟨j.val + 256, by omega⟩ : Fin 384) q := by
  rw [after0_v29_eq]
  refine (LayoutReads.row_block_apply 256 _ slices_S384x128_S128x128_256_0 j q).trans ?_
  exact congrArg (fun r => (W (Proc.devRef .tc main_arg9) : S384x128.Idx → EReal) (ix2 r q))
    (Fin.ext (by show 256 + j.val = j.val + 256; omega))

end Cert.KernelIdeal.HostValue

end
-- ==== Proof.HostScaleShift.lean ====
/-
  The scale and the shift of a folded batch normalisation, computed on the host from a column sum and a column sum of
  squares, read at an entry.

  From the row `sum` (the sums of a matrix's columns), the row `sumsq` (the sums of the squares), a gain `g`, a bias
  `b` and the row count `n`, the program computes, column by column,
      mean  = sum / n,
      var   = sumsq / n - mean · mean,
      scale = g · rsqrt (var + ε),
      shift = b - mean · scale,
  with `sum`, `sumsq`, `scale` and `shift` kept as `[1, C]` rows and `g`, `b` and the arithmetic on `[C]` vectors; the
  row count and ε are scalar constants broadcast to `[C]`. Every operation is entrywise, and a `[1, C]` row recast to
  a `[C]` vector (or back) keeps entry `q` at `(0, q)`; so entry `(0, q)` of `scale` and of `shift` is the formula
  above on the entries `(0, q)` of `sum` and `sumsq` and the entries `q` of `g` and `b`. The extent `C` is generic.
-/
import Idealize.ShloMosaic.Lib.ValueIdx
import Idealize.ShloMosaic.Lib.ValueLayout
import Idealize.ShloMosaic.PureOps.Ideal.Laws

noncomputable section

namespace Cert.KernelIdeal.HostValue

open Idealize.ShloMosaic ValueIdx

variable {C : ℕ}

/-- The row `x` recast to a vector and divided, entry by entry, by the broadcast scalar constant of bits `nb`. -/
def meanTerm (h12 : (⟨2, ![1, C]⟩ : Shape).ShapeCasts ⟨1, ![C]⟩)
    (hb : (⟨0, ![]⟩ : Shape).BroadcastsInDim ⟨1, ![C]⟩ (![] : Fin 0 → Fin 1)) (nb : BitVec 32)
    (x : FVec Ideal ⟨2, ![1, C]⟩ .f32) : FVec Ideal ⟨1, ![C]⟩ .f32 :=
  Host.divf (shapeCast ⟨1, ![C]⟩ x h12) (broadcastInDim ⟨1, ![C]⟩ (![] : Fin 0 → Fin 1) hb (constant (F := Ideal) ⟨0, ![]⟩ .f32 nb))

/-- The scale as the program computes it: `g · rsqrt ((sumsq / n - (sum / n) · (sum / n)) + ε)`, recast to a row. -/
def scaleTerm (h12 : (⟨2, ![1, C]⟩ : Shape).ShapeCasts ⟨1, ![C]⟩) (h21 : (⟨1, ![C]⟩ : Shape).ShapeCasts ⟨2, ![1, C]⟩)
    (hb : (⟨0, ![]⟩ : Shape).BroadcastsInDim ⟨1, ![C]⟩ (![] : Fin 0 → Fin 1)) (nb eb : BitVec 32)
    (sum sumsq : FVec Ideal ⟨2, ![1, C]⟩ .f32) (g : FVec Ideal ⟨1, ![C]⟩ .f32) : FVec Ideal ⟨2, ![1, C]⟩ .f32 :=
  shapeCast ⟨2, ![1, C]⟩
    (mulf g (Host.rsqrt (addf
      (subf (meanTerm h12 hb nb sumsq) (mulf (meanTerm h12 hb nb sum) (meanTerm h12 hb nb sum)))
      (broadcastInDim ⟨1, ![C]⟩ (![] : Fin 0 → Fin 1) hb (constant (F := Ideal) ⟨0, ![]⟩ .f32 eb))))) h21

/-- The shift as the program computes it: `b - (sum / n) · scale`, the scale recast from its row, the result recast
    to a row. -/
def shiftTerm (h12 : (⟨2, ![1, C]⟩ : Shape).ShapeCasts ⟨1, ![C]⟩) (h21 : (⟨1, ![C]⟩ : Shape).ShapeCasts ⟨2, ![1, C]⟩)
    (hb : (⟨0, ![]⟩ : Shape).BroadcastsInDim ⟨1, ![C]⟩ (![] : Fin 0 → Fin 1)) (nb eb : BitVec 32)
    (sum sumsq : FVec Ideal ⟨2, ![1, C]⟩ .f32) (g b : FVec Ideal ⟨1, ![C]⟩ .f32) : FVec Ideal ⟨2, ![1, C]⟩ .f32 :=
  shapeCast ⟨2, ![1, C]⟩
    (subf b (mulf (meanTerm h12 hb nb sum)
      (shapeCast ⟨1, ![C]⟩ (scaleTerm h12 h21 hb nb eb sum sumsq g) h12))) h21

/-- Entry `q` of the mean vector is entry `(0, q)` of the row divided by the constant. -/
theorem meanTerm_apply (h12 : (⟨2, ![1, C]⟩ : Shape).ShapeCasts ⟨1, ![C]⟩)
    (hb : (⟨0, ![]⟩ : Shape).BroadcastsInDim ⟨1, ![C]⟩ (![] : Fin 0 → Fin 1)) (nb : BitVec 32)
    (x : FVec Ideal ⟨2, ![1, C]⟩ .f32) (q : Fin C) :
    meanTerm h12 hb nb x (ix1 q) = Ideal.div (x (ix2 (0 : Fin 1) q)) (Ideal.ofBits .f32 nb) := by
  show Ideal.div (shapeCast ⟨1, ![C]⟩ x h12 (ix1 q)) (Ideal.ofBits .f32 nb) = _
  rw [shapeCast_1a_a_apply x h12 q]

/-- THE SCALE AT `(0, q)`: `g q · rsqrt ((sumsq (0, q) / n - sum (0, q) / n · sum (0, q) / n) + ε)`. -/
theorem scaleTerm_apply (h12 : (⟨2, ![1, C]⟩ : Shape).ShapeCasts ⟨1, ![C]⟩) (h21 : (⟨1, ![C]⟩ : Shape).ShapeCasts ⟨2, ![1, C]⟩)
    (hb : (⟨0, ![]⟩ : Shape).BroadcastsInDim ⟨1, ![C]⟩ (![] : Fin 0 → Fin 1)) (nb eb : BitVec 32)
    (sum sumsq : FVec Ideal ⟨2, ![1, C]⟩ .f32) (g : FVec Ideal ⟨1, ![C]⟩ .f32) (q : Fin C) :
    scaleTerm h12 h21 hb nb eb sum sumsq g (ix2 (0 : Fin 1) q)
      = g (ix1 q) * Ideal.rsqrt ((Ideal.div (sumsq (ix2 (0 : Fin 1) q)) (Ideal.ofBits .f32 nb)
          - Ideal.div (sum (ix2 (0 : Fin 1) q)) (Ideal.ofBits .f32 nb) * Ideal.div (sum (ix2 (0 : Fin 1) q)) (Ideal.ofBits .f32 nb))
          + Ideal.ofBits .f32 eb) := by
  unfold scaleTerm
  refine (shapeCast_a_1a_apply _ h21 (0 : Fin 1) q).trans ?_
  show g (ix1 q) * Ideal.rsqrt ((meanTerm h12 hb nb sumsq (ix1 q)
      - meanTerm h12 hb nb sum (ix1 q) * meanTerm h12 hb nb sum (ix1 q)) + Ideal.ofBits .f32 eb) = _
  rw [meanTerm_apply, meanTerm_apply]

/-- THE SHIFT AT `(0, q)`: `b q - sum (0, q) / n · scale (0, q)`. -/
theorem shiftTerm_apply (h12 : (⟨2, ![1, C]⟩ : Shape).ShapeCasts ⟨1, ![C]⟩) (h21 : (⟨1, ![C]⟩ : Shape).ShapeCasts ⟨2, ![1, C]⟩)
    (hb : (⟨0, ![]⟩ : Shape).BroadcastsInDim ⟨1, ![C]⟩ (![] : Fin 0 → Fin 1)) (nb eb : BitVec 32)
    (sum sumsq : FVec Ideal ⟨2, ![1, C]⟩ .f32) (g b : FVec Ideal ⟨1, ![C]⟩ .f32) (q : Fin C) :
    shiftTerm h12 h21 hb nb eb sum sumsq g b (ix2 (0 : Fin 1) q)
      = b (ix1 q) - Ideal.div (sum (ix2 (0 : Fin 1) q)) (Ideal.ofBits .f32 nb)
          * (g (ix1 q) * Ideal.rsqrt ((Ideal.div (sumsq (ix2 (0 : Fin 1) q)) (Ideal.ofBits .f32 nb)
            - Ideal.div (sum (ix2 (0 : Fin 1) q)) (Ideal.ofBits .f32 nb) * Ideal.div (sum (ix2 (0 : Fin 1) q)) (Ideal.ofBits .f32 nb))
            + Ideal.ofBits .f32 eb)) := by
  unfold shiftTerm
  refine (shapeCast_a_1a_apply _ h21 (0 : Fin 1) q).trans ?_
  show b (ix1 q) - meanTerm h12 hb nb sum (ix1 q)
      * shapeCast ⟨1, ![C]⟩ (scaleTerm h12 h21 hb nb eb sum sumsq g) h12 (ix1 q) = _
  rw [meanTerm_apply, shapeCast_1a_a_apply _ h12 q, scaleTerm_apply]

end Cert.KernelIdeal.HostValue

end
-- ==== Proof.Host1.lean ====
/-
  The host operations between two of the program's regions that turn a column sum and a column sum of squares into
  the scale and the shift of a folded batch normalisation over 320000 rows of 128 columns, read at an entry.

  The operations are listed in order by the program; run from any contents `W` of the buffers, the scale's buffer and
  the shift's buffer hold the general scale and shift terms on `W`'s sum, sum of squares, gain and bias, and their entry
  `(0, q)` is the closed form.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostScaleShift
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- After the operations the scale's buffer holds the scale term. -/
theorem after1_scale_eq :
    (StableHlo.after (hostOps1 (F := Ideal)) W (Proc.devRef .tc main_v43) : S1x128.Idx → EReal)
      = scaleTerm shapeCasts_S1x128_S128 shapeCasts_S128_S1x128 bcast_S_S128 0x489C4000#32 0x3727C5AC#32
          (W (Proc.devRef .tc main_v30_1)) (W (Proc.devRef .tc main_v30_2)) (W (Proc.devRef .tc main_arg10)) := by
  dsimp only [hostOps1]
  after_results_simp
  rfl

/-- After the operations the shift's buffer holds the shift term. -/
theorem after1_shift_eq :
    (StableHlo.after (hostOps1 (F := Ideal)) W (Proc.devRef .tc main_v47) : S1x128.Idx → EReal)
      = shiftTerm shapeCasts_S1x128_S128 shapeCasts_S128_S1x128 bcast_S_S128 0x489C4000#32 0x3727C5AC#32
          (W (Proc.devRef .tc main_v30_1)) (W (Proc.devRef .tc main_v30_2)) (W (Proc.devRef .tc main_arg10)) (W (Proc.devRef .tc main_arg11)) := by
  dsimp only [hostOps1]
  after_results_simp
  rfl

/-- THE SCALE AT `(0, q)`: the gain times the reciprocal root of the variance (mean of squares minus squared mean) plus ε. -/
theorem after1_scale_apply (q : Fin 128) :
    (StableHlo.after (hostOps1 (F := Ideal)) W (Proc.devRef .tc main_v43) : S1x128.Idx → EReal) (ix2 (0 : Fin 1) q)
      = rd1 (W (Proc.devRef .tc main_arg10)) q
          * Ideal.rsqrt ((Ideal.div (rd2 (W (Proc.devRef .tc main_v30_2)) 0 q) cRowsE
            - Ideal.div (rd2 (W (Proc.devRef .tc main_v30_1)) 0 q) cRowsE
              * Ideal.div (rd2 (W (Proc.devRef .tc main_v30_1)) 0 q) cRowsE) + cEps) := by
  rw [after1_scale_eq]
  exact scaleTerm_apply _ _ _ _ _ _ _ _ q

/-- THE SHIFT AT `(0, q)`: the bias minus the mean times the scale. -/
theorem after1_shift_apply (q : Fin 128) :
    (StableHlo.after (hostOps1 (F := Ideal)) W (Proc.devRef .tc main_v47) : S1x128.Idx → EReal) (ix2 (0 : Fin 1) q)
      = rd1 (W (Proc.devRef .tc main_arg11)) q
          - Ideal.div (rd2 (W (Proc.devRef .tc main_v30_1)) 0 q) cRowsE
            * (rd1 (W (Proc.devRef .tc main_arg10)) q
              * Ideal.rsqrt ((Ideal.div (rd2 (W (Proc.devRef .tc main_v30_2)) 0 q) cRowsE
                - Ideal.div (rd2 (W (Proc.devRef .tc main_v30_1)) 0 q) cRowsE
                  * Ideal.div (rd2 (W (Proc.devRef .tc main_v30_1)) 0 q) cRowsE) + cEps)) := by
  rw [after1_shift_eq]
  exact shiftTerm_apply _ _ _ _ _ _ _ _ _ q

end Cert.KernelIdeal.HostValue

end
-- ==== Proof.LibScatterAddLaw.lean ====
/-
  The one algebraic law of the segment sums, and where a row update of a scatter-add lands.

  A row scatter-add takes a table of `N` rows of `C` entries, a column of `E` start indices and `E` update rows of
  `C` entries; update row `e` is added into the table's row "start index `e`" (read as a signed integer; an update
  whose row falls outside the table is dropped). At the extended reals entry `(p, q)` of the result is the table's
  entry plus the exact sum of the update entries that land there.

  * `rowScatter_lands`: update `(e, q)` lands on table row `p` only if start index `e`, read signed, is `p`.
    The landing row is, on the row axis, the start plus a window coordinate; the row axis is an inserted window axis, so
    the window coordinate is `0`, and the start is the start index read off the index column at row `e`.
  * `sum_mul_of_nonneg_of_ne_top`: `(Σ_j f j) · c = Σ_j f j · c` on the extended reals when `0 ≤ c` and `c ≠ ⊤`
    (for such `c` the product distributes over a sum of two terms whatever their signs and infinities; induct on the
    finite index set).
  * `seg_law`: scattering into the zero table and then scaling row `p` by `c p` (nonnegative, not `⊤`) equals
    scattering updates that were each scaled beforehand by the factor of the row they land on:
        (Σ_{e lands on p} u(e, q)) · c(p) = Σ_{e lands on p} (u(e, q) · c(p)).
    This is the symmetric normalisation of a graph convolution computed two ways: the destination-side factor applied
    once to the aggregated row, or to every message before aggregation.

  Every extent is generic.
-/
import Idealize.ShloMosaic.PureOps.Ideal.Laws
import Idealize.ShloMosaic.Lib.ValueIdx

noncomputable section

open scoped BigOperators

namespace Hetero

open Idealize.ShloMosaic Idealize.ShloMosaic.ValueIdx

/-- The dimension numbers of the row scatter, for an operand `[N, C]`, scatter indices `[E, 1]` and updates `[E, C]`:
    window axes `[1]`, inserted axes `[0]`, the start index naming operand axis `0`, the index vector on axis `1`.
    Their side conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Under the literal record, the window of update `(e, q)` starts, on the row axis, at start index `e` read signed:
    the start index names the row axis, and it is read off the index column at the update's row. -/
theorem rowScatterDims_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Under the literal record, the window coordinate on the row axis is `0`: the row axis is an inserted one. -/
theorem rowScatterDims_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  have h0 : (0 : Fin 2) ∉ (rowScatterDims N E C wf).sKept := fun h =>
    (of_decide_eq_true (List.mem_filter.mp h).2) (List.mem_singleton.mpr rfl)
  rw [dif_neg h0]

/-- A record with the row scatter's four fields is the literal record. -/
theorem eq_rowScatterDims {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) : ∃ wf, D = rowScatterDims N E C wf := by
  obtain ⟨uw, iw, sd, iv, wf⟩ := D
  simp only at h1 h2 h3 h4
  subst h1 h2 h3 h4
  exact ⟨wf, rfl⟩

/-- WHERE A ROW UPDATE LANDS: under any record whose lists are the row scatter's, update `(e, q)` lands on operand row
    `p` only if start index `e`, read as a signed integer, is `p`. The landing row is the start plus the window
    coordinate `0`, and an update lands only where that is inside the operand, in particular not negative. -/
theorem rowScatter_lands {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (idx : IVec ⟨2, ![E, 1]⟩ 32) (e : Fin E) (q : Fin C) (p : Fin N) (q' : Fin C)
    (h : D.resultIdx? (ix2 e q) idx = some (ix2 p q')) : (idx (ix2 e (0 : Fin 1))).toInt = (p.val : ℤ) := by
  obtain ⟨wf, rfl⟩ := eq_rowScatterDims D h1 h2 h3 h4
  unfold ScatterDims.resultIdx? at h
  split at h
  · rename_i hb
    have h0 := congrFun (Option.some.inj h) (0 : Fin 2)
    have hv : ((rowScatterDims N E C wf).start (ix2 e q) idx 0
        + ((rowScatterDims N E C wf).window (ix2 e q) 0 : ℕ)).toNat = p.val := congrArg Fin.val h0
    have hb0 := (hb 0).1
    rw [rowScatterDims_start0, rowScatterDims_window0] at hb0 hv
    omega
  · exact absurd h (by simp)

/-- On the extended reals, multiplication by a factor `c` with `0 ≤ c` and `c ≠ ⊤` distributes over a finite sum. -/
theorem sum_mul_of_nonneg_of_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE SEGMENT-SUM LAW: a row scatter-add into the zero array, then row `p` scaled by a factor `c p` that is
    nonnegative and not `⊤`, is the row scatter-add of the updates each scaled by the factor of the row it lands on.
    Entry `(p, q)` of the left side is `(Σ_{j landing on (p, q)} updK j) · c p`; the factor goes inside the finite sum,
    and every update `j = (e, q₂)` of that sum has start index `p`, where the two update arrays are related by hypothesis. -/
theorem seg_law {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (idx : IVec ⟨2, ![E, 1]⟩ 32) (Z : FVec Ideal ⟨2, ![N, C]⟩ .f32) (hZ : ∀ i, Z i = 0)
    (updK updR : FVec Ideal ⟨2, ![E, C]⟩ .f32) (c : Fin N → EReal) (hc : ∀ p, 0 ≤ c p ∧ c p ≠ ⊤)
    (hupd : ∀ (e : Fin E) (q : Fin C) (p : Fin N), (idx (ix2 e (0 : Fin 1))).toInt = (p.val : ℤ) →
      updK (ix2 e q) * c p = updR (ix2 e q))
    (p : Fin N) (q : Fin C) :
    Host.scatterAdd (F := Ideal) D Z idx updK (ix2 p q) * c p = Host.scatterAdd (F := Ideal) D Z idx updR (ix2 p q) := by
  show Ideal.hostScatterAdd D Z idx updK (ix2 p q) * c p = Ideal.hostScatterAdd D Z idx updR (ix2 p q)
  unfold Ideal.hostScatterAdd
  rw [hZ (ix2 p q), zero_add, zero_add, sum_mul_of_nonneg_of_ne_top _ _ (hc p).1 (hc p).2]
  refine Finset.sum_congr rfl fun j hj => ?_
  have hj' := (Finset.mem_filter.mp hj).2
  obtain ⟨e, q₂, rfl⟩ : ∃ (e : Fin E) (q₂ : Fin C), j = ix2 e q₂ := ⟨j 0, j 1, eq_ix2 j⟩
  exact hupd e q₂ p (rowScatter_lands D h1 h2 h3 h4 idx e q₂ p q hj')

end Hetero

end
-- ==== Proof.LibScatterAddRead.lean ====
/-
  The accumulating row scatter read at an entry, on the extended reals.

  A row scatter-add takes a table of `N` rows of `C` entries, a column of `E` start indices and `E` update rows of
  `C` entries; update row `e` is added into the table's row "start index `e`" (read as a signed integer; an update
  whose row falls outside the table is dropped). Entry `(p, q)` of the result is the table's entry plus the exact sum
  of the update entries that land there.

  * `rowScatter_resultIdx_iff`: update `(e, q')` lands on table entry `(p, q)` IF AND ONLY IF start index `e`, read
    signed, is `p` and `q' = q`. On the row axis the landing coordinate is the start index plus the window coordinate
    `0` (the row axis is an inserted window axis); on the column axis the start is `0` (no start index names that
    axis) and the window coordinate is the update's column.
  * `rowScatterAdd_apply`: the closed form
        result (p, q) = table (p, q) + Σ_e (if start index e = p then update (e, q) else 0).

  Every extent is generic.
-/
import Idealize.ShloMosaic.PureOps.Ideal.Laws
import Idealize.ShloMosaic.Lib.ValueIdx
import proofs.«131702_j10462540333326_2_alg».proof.Proof.LibScatterAddLaw

noncomputable section

open scoped BigOperators

namespace ScatterRead

open Idealize.ShloMosaic Idealize.ShloMosaic.ValueIdx Hetero

/-- Under the literal record, the window of update `(e, q)` starts, on the column axis, at `0`: no start index names
    the column axis. -/
theorem rowScatterDims_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  have h1 : (1 : Fin 2) ∉ (rowScatterDims N E C wf).scatterDimsToOperandDims := fun h =>
    absurd (List.mem_singleton.mp h) (show ¬ (1 : Fin 2) = 0 by decide)
  rw [dif_neg h1]

/-- Under the literal record, the window coordinate of update `(e, q)` on the column axis is `q`: the column axis is
    the operand's one kept axis, and the updates' one window axis (their column axis) goes to it. -/
theorem rowScatterDims_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  have h1 : (1 : Fin 2) ∈ (rowScatterDims N E C wf).sKept :=
    List.mem_filter.mpr ⟨List.mem_finRange _, decide_eq_true fun h =>
      absurd (List.mem_singleton.mp h) (show ¬ (1 : Fin 2) = 0 by decide)⟩
  rw [dif_pos h1]
  rfl

/-- WHERE A ROW UPDATE LANDS, both directions: under any record whose lists are the row scatter's, update `(e, q')`
    lands on operand entry `(p, q)` if and only if start index `e`, read as a signed integer, is `p` and `q' = q`.
    The landing index is (start index + 0, 0 + q'), defined exactly when it is inside the operand. -/
theorem rowScatter_resultIdx_iff {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (idx : IVec ⟨2, ![E, 1]⟩ 32) (e : Fin E) (q' : Fin C) (p : Fin N) (q : Fin C) :
    D.resultIdx? (ix2 e q') idx = some (ix2 p q) ↔ ((idx (ix2 e (0 : Fin 1))).toInt = (p.val : ℤ) ∧ q' = q) := by
  obtain ⟨wf, rfl⟩ := eq_rowScatterDims D h1 h2 h3 h4
  have hs0 := rowScatterDims_start0 wf idx e q'
  have hw0 := rowScatterDims_window0 wf e q'
  have hs1 := rowScatterDims_start1 wf idx e q'
  have hw1 := rowScatterDims_window1 wf e q'
  unfold ScatterDims.resultIdx?
  split
  · rename_i hb
    constructor
    · intro h
      have h0 := congrArg Fin.val (congrFun (Option.some.inj h) (0 : Fin 2))
      have h1' := congrArg Fin.val (congrFun (Option.some.inj h) (1 : Fin 2))
      have hv0 : ((rowScatterDims N E C wf).start (ix2 e q') idx 0
          + ((rowScatterDims N E C wf).window (ix2 e q') 0 : ℕ)).toNat = p.val := h0
      have hv1 : ((rowScatterDims N E C wf).start (ix2 e q') idx 1
          + ((rowScatterDims N E C wf).window (ix2 e q') 1 : ℕ)).toNat = q.val := h1'
      have hb0 := (hb 0).1
      rw [hs0, hw0] at hb0 hv0
      rw [hs1, hw1] at hv1
      refine ⟨by omega, Fin.ext (by omega)⟩
    · rintro ⟨ht, rfl⟩
      congr 1
      funext a
      refine Fin.ext ?_
      match a with
      | ⟨0, _⟩ =>
        show ((rowScatterDims N E C wf).start (ix2 e q') idx 0
          + ((rowScatterDims N E C wf).window (ix2 e q') 0 : ℕ)).toNat = p.val
        rw [hs0, hw0]; omega
      | ⟨1, _⟩ =>
        show ((rowScatterDims N E C wf).start (ix2 e q') idx 1
          + ((rowScatterDims N E C wf).window (ix2 e q') 1 : ℕ)).toNat = q'.val
        rw [hs1, hw1]; omega
  · rename_i hb
    constructor
    · intro h; exact absurd h (by simp)
    · rintro ⟨ht, rfl⟩
      exfalso
      apply hb
      intro a
      match a with
      | ⟨0, _⟩ =>
        show 0 ≤ (rowScatterDims N E C wf).start (ix2 e q') idx 0
            + ((rowScatterDims N E C wf).window (ix2 e q') 0 : ℕ)
          ∧ (rowScatterDims N E C wf).start (ix2 e q') idx 0
            + ((rowScatterDims N E C wf).window (ix2 e q') 0 : ℕ) < (N : ℤ)
        rw [hs0, hw0]; have := p.isLt; omega
      | ⟨1, _⟩ =>
        show 0 ≤ (rowScatterDims N E C wf).start (ix2 e q') idx 1
            + ((rowScatterDims N E C wf).window (ix2 e q') 1 : ℕ)
          ∧ (rowScatterDims N E C wf).start (ix2 e q') idx 1
            + ((rowScatterDims N E C wf).window (ix2 e q') 1 : ℕ) < (C : ℤ)
        rw [hs1, hw1]; have := q'.isLt; omega

/-- THE ROW SCATTER-ADD READ AT AN ENTRY: entry `(p, q)` of the accumulating row scatter is the operand's entry plus the
    sum, over the update rows `e` whose start index read signed is `p`, of update entry `(e, q)`. The updates that
    land on `(p, q)` are exactly the `(e, q)` with start index `p`; the sum over update indices is the double sum over
    rows and columns, and in each row only column `q` survives. -/
theorem rowScatterAdd_apply {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (x : FVec Ideal ⟨2, ![N, C]⟩ .f32) (idx : IVec ⟨2, ![E, 1]⟩ 32) (upd : FVec Ideal ⟨2, ![E, C]⟩ .f32)
    (p : Fin N) (q : Fin C) :
    Host.scatterAdd (F := Ideal) D x idx upd (ix2 p q)
      = x (ix2 p q) + ∑ e : Fin E,
          if (idx (ix2 e (0 : Fin 1))).toInt = (p.val : ℤ) then upd (ix2 e q) else 0 := by
  show Ideal.hostScatterAdd D x idx upd (ix2 p q) = _
  unfold Ideal.hostScatterAdd
  congr 1
  rw [Finset.sum_filter, sum_idx2]
  refine Finset.sum_congr rfl fun e _ => ?_
  simp only [rowScatter_resultIdx_iff D h1 h2 h3 h4]
  by_cases ht : (idx (ix2 e (0 : Fin 1))).toInt = (p.val : ℤ)
  · simp only [ht, true_and, if_true]
    rw [Finset.sum_ite_eq' Finset.univ q (fun b => upd (ix2 e b))]
    simp
  · simp only [ht, false_and, if_false]
    exact Finset.sum_const_zero

end ScatterRead

end
-- ==== Proof.Host2.lean ====
/-
  The host operations before the node map's first region, read at an entry.

  From the first region's normalised rows `x48` (`[320000, 128]`, two-halves order: row `160000 h + e` is member `h` of
  edge `e`), the two endpoint vectors `v1`, `v3`, the node features `x0` and the scalars `e11`, `e12`, the program
  computes the node map's input
      (1 + e11) · x0 + (1 + e12) · local + (dom₁ + dom₃),
  where `local` is `x48` scattered to the nodes by the endpoints of all 320000 rows (`v1` followed by `v3`), and
  `dom₁`, `dom₃` are the per-edge sums of `x48`'s two halves scattered by `v1` and by `v3`. Each scatter starts from
  zeros and adds row `r` into the node that the row's endpoint, read as a signed integer, names; entry `(n, q)` of a
  scatter is therefore zero plus the sum of the entries `(r, q)` over the rows `r` whose endpoint is `n`.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostLayout
import proofs.«131702_j10462540333326_2_alg».proof.Proof.LibGatherWrap
import proofs.«131702_j10462540333326_2_alg».proof.Proof.LibScatterAddRead
import Idealize.ShloMosaic.Lib.StableHlo.Run

noncomputable section

open scoped BigOperators

namespace Cert.KernelIdeal.HostValue

open Cert.KernelIdeal Cert.KernelIdeal.Gen Idealize.ShloMosaic ValueIdx EdgeNodeLayer
open Idealize.ShloMosaic.StableHlo

variable (W : Valuation τ sig (Elt Ideal))

/-! ## The quantities at an entry -/

/-- The endpoint of row `r` of the two-halves order: `v1` at `r` for the first 160000 rows, `v3` at `r - 160000` after. -/
def hostUV (v1 v3 : IVec S160000 32) (r : Fin 320000) : BitVec 32 :=
  if h : r.val < 160000 then v1 (ix1 (⟨r.val, h⟩ : Fin 160000)) else v3 (ix1 (⟨r.val - 160000, by omega⟩ : Fin 160000))

/-- The sum of edge `e`'s two rows of `x` (rows `e` and `e + 160000`), at column `q`. -/
def hostDsum (x : FVec Ideal S320000x128 .f32) (e : Fin 160000) (q : Fin 128) : EReal :=
  x (ix2 (⟨e.val, by omega⟩ : Fin 320000) q) + x (ix2 (⟨e.val + 160000, by omega⟩ : Fin 320000) q)

/-! ## The operations' terms -/

/-- The zeros a scatter starts from. -/
def zerosN : FVec Ideal S20000x128 .f32 :=
  broadcastInDim S20000x128 ![] bcast_S_S20000x128 (constant (F := Ideal) S_ .f32 0x00000000#32)

/-- `v1` followed by `v3`. -/
def uvTerm (v1 v3 : IVec S160000 32) : IVec S320000 32 :=
  concatenate S320000 0 [⟨S160000, v1⟩, ⟨S160000, v3⟩] concatenates_S160000_S160000_S320000_d0

/-- The first half of `x`'s rows plus the second half. -/
def dsumTerm (x : FVec Ideal S320000x128 .f32) : FVec Ideal S160000x128 .f32 :=
  addf (extractStridedSlice S160000x128 ![0, 0] x slices_S320000x128_S160000x128_0_0)
    (extractStridedSlice S160000x128 ![160000, 0] x slices_S320000x128_S160000x128_160000_0)

/-- `x` scattered to the nodes by the endpoints of all rows. -/
def localTerm (v1 v3 : IVec S160000 32) (x : FVec Ideal S320000x128 .f32) : FVec Ideal S20000x128 .f32 :=
  Host.scatterAdd (F := Ideal) scatter_S20000x128_S320000x1_S320000x128_1_0_0_1 zerosN
    (broadcastInDim S320000x1 ![0] bcast_S320000_S320000x1_0 (uvTerm v1 v3)) x

/-- The per-edge sums of `x` scattered to the nodes by the endpoint vector `v`. -/
def domTerm (v : IVec S160000 32) (x : FVec Ideal S320000x128 .f32) : FVec Ideal S20000x128 .f32 :=
  Host.scatterAdd (F := Ideal) scatter_S20000x128_S160000x1_S160000x128_1_0_0_1 zerosN
    (broadcastInDim S160000x1 ![0] bcast_S160000_S160000x1_0 v) (dsumTerm x)

/-- The node map's input as the program computes it. -/
def nodeInTerm (e11 e12 : FVec Ideal S_ .f32) (x0 : FVec Ideal S20000x128 .f32) (v1 v3 : IVec S160000 32)
    (x : FVec Ideal S320000x128 .f32) : FVec Ideal S20000x128 .f32 :=
  addf
    (addf
      (mulf (broadcastInDim S20000x128 ![] bcast_S_S20000x128 (addf (constant (F := Ideal) S_ .f32 0x3F800000#32) e11)) x0)
      (mulf (broadcastInDim S20000x128 ![] bcast_S_S20000x128 (addf (constant (F := Ideal) S_ .f32 0x3F800000#32) e12))
        (localTerm v1 v3 x)))
    (addf (domTerm v1 x) (domTerm v3 x))

/-! ## The terms at an entry -/

theorem uvTerm_apply (v1 v3 : IVec S160000 32) (r : Fin 320000) : uvTerm v1 v3 (ix1 r) = hostUV v1 v3 r :=
  LayoutReads.concat_vec_apply (by norm_num) v1 v3 concatenates_S160000_S160000_S320000_d0 r

theorem dsumTerm_apply (x : FVec Ideal S320000x128 .f32) (e : Fin 160000) (q : Fin 128) :
    dsumTerm x (ix2 e q) = hostDsum x e q := by
  show extractStridedSlice S160000x128 ![0, 0] x slices_S320000x128_S160000x128_0_0 (ix2 e q)
      + extractStridedSlice S160000x128 ![160000, 0] x slices_S320000x128_S160000x128_160000_0 (ix2 e q) = _
  rw [LayoutReads.row_block_apply 0 x slices_S320000x128_S160000x128_0_0 e q,
    LayoutReads.row_block_apply 160000 x slices_S320000x128_S160000x128_160000_0 e q]
  exact congrArg₂ (· + ·)
    (congrArg x (congrArg (fun r => ix2 r q) (Fin.ext (by show 0 + e.val = e.val; omega))))
    (congrArg x (congrArg (fun r => ix2 r q) (Fin.ext (by show 160000 + e.val = e.val + 160000; omega))))

/-- THE SCATTER BY ALL ROWS' ENDPOINTS AT `(n, q)`: zero plus the rows whose endpoint is `n`. -/
theorem localTerm_apply (v1 v3 : IVec S160000 32) (x : FVec Ideal S320000x128 .f32) (n : Fin 20000) (q : Fin 128) :
    localTerm v1 v3 x (ix2 n q)
      = cZero + ∑ r : Fin 320000, if (hostUV v1 v3 r).toInt = (n.val : ℤ) then x (ix2 r q) else 0 := by
  unfold localTerm
  rw [ScatterRead.rowScatterAdd_apply scatter_S20000x128_S320000x1_S320000x128_1_0_0_1 rfl rfl rfl rfl]
  refine congrArg₂ (· + ·) rfl (Finset.sum_congr rfl fun r _ => ?_)
  rw [GatherWrap.column_apply, uvTerm_apply]

/-- THE SCATTER OF THE PER-EDGE SUMS BY `v` AT `(n, q)`: zero plus the sums of the edges whose endpoint is `n`. -/
theorem domTerm_apply (v : IVec S160000 32) (x : FVec Ideal S320000x128 .f32) (n : Fin 20000) (q : Fin 128) :
    domTerm v x (ix2 n q)
      = cZero + ∑ e : Fin 160000, if (v (ix1 e)).toInt = (n.val : ℤ) then hostDsum x e q else 0 := by
  unfold domTerm
  rw [ScatterRead.rowScatterAdd_apply scatter_S20000x128_S160000x1_S160000x128_1_0_0_1 rfl rfl rfl rfl]
  refine congrArg₂ (· + ·) rfl (Finset.sum_congr rfl fun e _ => ?_)
  rw [GatherWrap.column_apply, dsumTerm_apply]

theorem nodeInTerm_apply (e11 e12 : FVec Ideal S_ .f32) (x0 : FVec Ideal S20000x128 .f32) (v1 v3 : IVec S160000 32)
    (x : FVec Ideal S320000x128 .f32) (n : Fin 20000) (q : Fin 128) :
    nodeInTerm e11 e12 x0 v1 v3 x (ix2 n q)
      = (cOne + e11 ix0) * x0 (ix2 n q)
        + (cOne + e12 ix0) * (cZero + ∑ r : Fin 320000, if (hostUV v1 v3 r).toInt = (n.val : ℤ) then x (ix2 r q) else 0)
        + ((cZero + ∑ e : Fin 160000, if (v1 (ix1 e)).toInt = (n.val : ℤ) then hostDsum x e q else 0)
          + (cZero + ∑ e : Fin 160000, if (v3 (ix1 e)).toInt = (n.val : ℤ) then hostDsum x e q else 0)) := by
  show broadcastInDim S20000x128 ![] bcast_S_S20000x128 (addf (constant (F := Ideal) S_ .f32 0x3F800000#32) e11) (ix2 n q) * x0 (ix2 n q)
      + broadcastInDim S20000x128 ![] bcast_S_S20000x128 (addf (constant (F := Ideal) S_ .f32 0x3F800000#32) e12) (ix2 n q)
        * localTerm v1 v3 x (ix2 n q)
      + (domTerm v1 x (ix2 n q) + domTerm v3 x (ix2 n q)) = _
  rw [bcast_scalar_apply, bcast_scalar_apply, localTerm_apply, domTerm_apply, domTerm_apply]
  rfl

/-! ## What the buffer holds after the operations, and its entries -/

theorem after2_v70_eq :
    (StableHlo.after (hostOps2 (F := Ideal)) W (Proc.devRef .tc main_v70) : S20000x128.Idx → EReal)
      = nodeInTerm (W (Proc.devRef .tc main_arg18)) (W (Proc.devRef .tc main_arg19)) (W (Proc.devRef .tc main_arg0))
          (W (Proc.devRef .tc main_v1)) (W (Proc.devRef .tc main_v3)) (W (Proc.devRef .tc main_v48)) := by
  dsimp only [hostOps2]
  after_results_simp
  rfl

/-- THE NODE MAP'S INPUT AT `(n, q)`. -/
theorem after2_v70_apply (n : Fin 20000) (q : Fin 128) :
    (StableHlo.after (hostOps2 (F := Ideal)) W (Proc.devRef .tc main_v70) : S20000x128.Idx → EReal) (ix2 n q)
      = (cOne + rd0 (W (Proc.devRef .tc main_arg18))) * rd2 (W (Proc.devRef .tc main_arg0)) n q
        + (cOne + rd0 (W (Proc.devRef .tc main_arg19)))
          * (cZero + ∑ r : Fin 320000,
              if (hostUV (W (Proc.devRef .tc main_v1)) (W (Proc.devRef .tc main_v3)) r).toInt = (n.val : ℤ)
              then rd2 (W (Proc.devRef .tc main_v48)) r q else 0)
        + ((cZero + ∑ e : Fin 160000,
              if (rdw1 (W (Proc.devRef .tc main_v1)) e).toInt = (n.val : ℤ) then hostDsum (W (Proc.devRef .tc main_v48)) e q else 0)
          + (cZero + ∑ e : Fin 160000,
              if (rdw1 (W (Proc.devRef .tc main_v3)) e).toInt = (n.val : ℤ) then hostDsum (W (Proc.devRef .tc main_v48)) e q else 0)) := by
  rw [after2_v70_eq]
  exact nodeInTerm_apply _ _ _ _ _ _ n q

end Cert.KernelIdeal.HostValue

end
-- ==== Proof.Host3.lean ====
/-
  The host operations between two of the program's regions that turn a column sum and a column sum of squares into
  the scale and the shift of a folded batch normalisation over 20000 rows of 256 columns, read at an entry.

  The operations are listed in order by the program; run from any contents `W` of the buffers, the scale's buffer and
  the shift's buffer hold the general scale and shift terms on `W`'s sum, sum of squares, gain and bias, and their entry
  `(0, q)` is the closed form.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostScaleShift
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- After the operations the scale's buffer holds the scale term. -/
theorem after3_scale_eq :
    (StableHlo.after (hostOps3 (F := Ideal)) W (Proc.devRef .tc main_v84) : S1x256.Idx → EReal)
      = scaleTerm shapeCasts_S1x256_S256 shapeCasts_S256_S1x256 bcast_S_S256 0x469C4000#32 0x3727C5AC#32
          (W (Proc.devRef .tc main_v71_1)) (W (Proc.devRef .tc main_v71_2)) (W (Proc.devRef .tc main_arg13)) := by
  dsimp only [hostOps3]
  after_results_simp
  rfl

/-- After the operations the shift's buffer holds the shift term. -/
theorem after3_shift_eq :
    (StableHlo.after (hostOps3 (F := Ideal)) W (Proc.devRef .tc main_v88) : S1x256.Idx → EReal)
      = shiftTerm shapeCasts_S1x256_S256 shapeCasts_S256_S1x256 bcast_S_S256 0x469C4000#32 0x3727C5AC#32
          (W (Proc.devRef .tc main_v71_1)) (W (Proc.devRef .tc main_v71_2)) (W (Proc.devRef .tc main_arg13)) (W (Proc.devRef .tc main_arg14)) := by
  dsimp only [hostOps3]
  after_results_simp
  rfl

/-- THE SCALE AT `(0, q)`: the gain times the reciprocal root of the variance (mean of squares minus squared mean) plus ε. -/
theorem after3_scale_apply (q : Fin 256) :
    (StableHlo.after (hostOps3 (F := Ideal)) W (Proc.devRef .tc main_v84) : S1x256.Idx → EReal) (ix2 (0 : Fin 1) q)
      = rd1 (W (Proc.devRef .tc main_arg13)) q
          * Ideal.rsqrt ((Ideal.div (rd2 (W (Proc.devRef .tc main_v71_2)) 0 q) cRowsN
            - Ideal.div (rd2 (W (Proc.devRef .tc main_v71_1)) 0 q) cRowsN
              * Ideal.div (rd2 (W (Proc.devRef .tc main_v71_1)) 0 q) cRowsN) + cEps) := by
  rw [after3_scale_eq]
  exact scaleTerm_apply _ _ _ _ _ _ _ _ q

/-- THE SHIFT AT `(0, q)`: the bias minus the mean times the scale. -/
theorem after3_shift_apply (q : Fin 256) :
    (StableHlo.after (hostOps3 (F := Ideal)) W (Proc.devRef .tc main_v88) : S1x256.Idx → EReal) (ix2 (0 : Fin 1) q)
      = rd1 (W (Proc.devRef .tc main_arg14)) q
          - Ideal.div (rd2 (W (Proc.devRef .tc main_v71_1)) 0 q) cRowsN
            * (rd1 (W (Proc.devRef .tc main_arg13)) q
              * Ideal.rsqrt ((Ideal.div (rd2 (W (Proc.devRef .tc main_v71_2)) 0 q) cRowsN
                - Ideal.div (rd2 (W (Proc.devRef .tc main_v71_1)) 0 q) cRowsN
                  * Ideal.div (rd2 (W (Proc.devRef .tc main_v71_1)) 0 q) cRowsN) + cEps)) := by
  rw [after3_shift_eq]
  exact shiftTerm_apply _ _ _ _ _ _ _ _ _ q

end Cert.KernelIdeal.HostValue

end
-- ==== Proof.Host4.lean ====
/-
  The host operations between two of the program's regions that turn a column sum and a column sum of squares into
  the scale and the shift of a folded batch normalisation over 20000 rows of 128 columns, read at an entry.

  The operations are listed in order by the program; run from any contents `W` of the buffers, the scale's buffer and
  the shift's buffer hold the general scale and shift terms on `W`'s sum, sum of squares, gain and bias, and their entry
  `(0, q)` is the closed form.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostScaleShift
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- After the operations the scale's buffer holds the scale term. -/
theorem after4_scale_eq :
    (StableHlo.after (hostOps4 (F := Ideal)) W (Proc.devRef .tc main_v102) : S1x128.Idx → EReal)
      = scaleTerm shapeCasts_S1x128_S128 shapeCasts_S128_S1x128 bcast_S_S128 0x469C4000#32 0x3727C5AC#32
          (W (Proc.devRef .tc main_v89_1)) (W (Proc.devRef .tc main_v89_2)) (W (Proc.devRef .tc main_arg16)) := by
  dsimp only [hostOps4]
  after_results_simp
  rfl

/-- After the operations the shift's buffer holds the shift term. -/
theorem after4_shift_eq :
    (StableHlo.after (hostOps4 (F := Ideal)) W (Proc.devRef .tc main_v106) : S1x128.Idx → EReal)
      = shiftTerm shapeCasts_S1x128_S128 shapeCasts_S128_S1x128 bcast_S_S128 0x469C4000#32 0x3727C5AC#32
          (W (Proc.devRef .tc main_v89_1)) (W (Proc.devRef .tc main_v89_2)) (W (Proc.devRef .tc main_arg16)) (W (Proc.devRef .tc main_arg17)) := by
  dsimp only [hostOps4]
  after_results_simp
  rfl

/-- THE SCALE AT `(0, q)`: the gain times the reciprocal root of the variance (mean of squares minus squared mean) plus ε. -/
theorem after4_scale_apply (q : Fin 128) :
    (StableHlo.after (hostOps4 (F := Ideal)) W (Proc.devRef .tc main_v102) : S1x128.Idx → EReal) (ix2 (0 : Fin 1) q)
      = rd1 (W (Proc.devRef .tc main_arg16)) q
          * Ideal.rsqrt ((Ideal.div (rd2 (W (Proc.devRef .tc main_v89_2)) 0 q) cRowsN
            - Ideal.div (rd2 (W (Proc.devRef .tc main_v89_1)) 0 q) cRowsN
              * Ideal.div (rd2 (W (Proc.devRef .tc main_v89_1)) 0 q) cRowsN) + cEps) := by
  rw [after4_scale_eq]
  exact scaleTerm_apply _ _ _ _ _ _ _ _ q

/-- THE SHIFT AT `(0, q)`: the bias minus the mean times the scale. -/
theorem after4_shift_apply (q : Fin 128) :
    (StableHlo.after (hostOps4 (F := Ideal)) W (Proc.devRef .tc main_v106) : S1x128.Idx → EReal) (ix2 (0 : Fin 1) q)
      = rd1 (W (Proc.devRef .tc main_arg17)) q
          - Ideal.div (rd2 (W (Proc.devRef .tc main_v89_1)) 0 q) cRowsN
            * (rd1 (W (Proc.devRef .tc main_arg16)) q
              * Ideal.rsqrt ((Ideal.div (rd2 (W (Proc.devRef .tc main_v89_2)) 0 q) cRowsN
                - Ideal.div (rd2 (W (Proc.devRef .tc main_v89_1)) 0 q) cRowsN
                  * Ideal.div (rd2 (W (Proc.devRef .tc main_v89_1)) 0 q) cRowsN) + cEps)) := by
  rw [after4_shift_eq]
  exact shiftTerm_apply _ _ _ _ _ _ _ _ _ q

end Cert.KernelIdeal.HostValue

end
-- ==== Proof.Host5.lean ====
/-
  The host operations before the first edge map's region, read at an entry.

  From the two members' edge features `x23`, `x25` (`[160000, 128]` each), the gathered features summed per edge
  `x18`, the edge features in the two-halves row order `x26`, the gathered features in that order `x20` (`[320000, 128]`
  each), the scalar `e2` and the first edge weight `[256, 256]`, the program computes
      p0  = (1 + e2) · ((x23 + x25) · ½) + x18          (per edge; written twice, one copy per half of the rows),
      p1  = (1 + e2) · x26 + x20                        (per row),
  and cuts the weight into its two blocks of 128 rows. The scalars are broadcast; everything else is entrywise.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostLayout
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- `(1 + e2) · ((x23 + x25) · ½) + x18`, the scalars broadcast to `[160000, 128]`. -/
def p0Term (e2 : FVec Ideal S_ .f32) (x23 x25 x18 : FVec Ideal S160000x128 .f32) : FVec Ideal S160000x128 .f32 :=
  addf (mulf (broadcastInDim S160000x128 ![] bcast_S_S160000x128 (addf (constant (F := Ideal) S_ .f32 0x3F800000#32) e2))
    (mulf (addf x23 x25) (broadcastInDim S160000x128 ![] bcast_S_S160000x128 (constant (F := Ideal) S_ .f32 0x3F000000#32)))) x18

/-- `(1 + e2) · x26 + x20`, the scalar broadcast to `[320000, 128]`. -/
def p1Term (e2 : FVec Ideal S_ .f32) (x26 x20 : FVec Ideal S320000x128 .f32) : FVec Ideal S320000x128 .f32 :=
  addf (mulf (broadcastInDim S320000x128 ![] bcast_S_S320000x128 (addf (constant (F := Ideal) S_ .f32 0x3F800000#32) e2)) x26) x20

theorem p0Term_apply (e2 : FVec Ideal S_ .f32) (x23 x25 x18 : FVec Ideal S160000x128 .f32) (e : Fin 160000) (j : Fin 128) :
    p0Term e2 x23 x25 x18 (ix2 e j)
      = (cOne + e2 ix0) * ((x23 (ix2 e j) + x25 (ix2 e j)) * cHalf) + x18 (ix2 e j) := by
  show broadcastInDim S160000x128 ![] bcast_S_S160000x128 (addf (constant (F := Ideal) S_ .f32 0x3F800000#32) e2) (ix2 e j)
      * ((x23 (ix2 e j) + x25 (ix2 e j)) * cHalf) + x18 (ix2 e j) = _
  rw [bcast_scalar_apply]
  rfl

theorem p1Term_apply (e2 : FVec Ideal S_ .f32) (x26 x20 : FVec Ideal S320000x128 .f32) (r : Fin 320000) (j : Fin 128) :
    p1Term e2 x26 x20 (ix2 r j) = (cOne + e2 ix0) * x26 (ix2 r j) + x20 (ix2 r j) := by
  show broadcastInDim S320000x128 ![] bcast_S_S320000x128 (addf (constant (F := Ideal) S_ .f32 0x3F800000#32) e2) (ix2 r j)
      * x26 (ix2 r j) + x20 (ix2 r j) = _
  rw [bcast_scalar_apply]
  rfl

/-- After the operations: the first input of the edge map's region is `p0` written twice along the rows. -/
theorem after5_v115_eq :
    (StableHlo.after (hostOps5 (F := Ideal)) W (Proc.devRef .tc main_v115) : S320000x128.Idx → EReal)
      = concatenate S320000x128 0
          [⟨S160000x128, p0Term (W (Proc.devRef .tc main_arg20)) (W (Proc.devRef .tc main_v23)) (W (Proc.devRef .tc main_v25)) (W (Proc.devRef .tc main_v18))⟩,
           ⟨S160000x128, p0Term (W (Proc.devRef .tc main_arg20)) (W (Proc.devRef .tc main_v23)) (W (Proc.devRef .tc main_v25)) (W (Proc.devRef .tc main_v18))⟩]
          concatenates_S160000x128_S160000x128_S320000x128_d0 := by
  dsimp only [hostOps5]
  after_results_simp
  rfl

/-- After the operations: the second input of the edge map's region is `p1`. -/
theorem after5_v119_eq :
    (StableHlo.after (hostOps5 (F := Ideal)) W (Proc.devRef .tc main_v119) : S320000x128.Idx → EReal)
      = p1Term (W (Proc.devRef .tc main_arg20)) (W (Proc.devRef .tc main_v26)) (W (Proc.devRef .tc main_v20)) := by
  dsimp only [hostOps5]
  after_results_simp
  rfl

theorem after5_v120_eq :
    (StableHlo.after (hostOps5 (F := Ideal)) W (Proc.devRef .tc main_v120) : S128x256.Idx → EReal)
      = extractStridedSlice S128x256 ![0, 0] (W (Proc.devRef .tc main_arg3)) slices_S256x256_S128x256_0_0 := by
  dsimp only [hostOps5]
  after_results_simp

theorem after5_v121_eq :
    (StableHlo.after (hostOps5 (F := Ideal)) W (Proc.devRef .tc main_v121) : S128x256.Idx → EReal)
      = extractStridedSlice S128x256 ![128, 0] (W (Proc.devRef .tc main_arg3)) slices_S256x256_S128x256_128_0 := by
  dsimp only [hostOps5]
  after_results_simp

/-- THE FIRST INPUT AT THE ROW OF `(e, h)` (two-halves order): `(1 + e2) · ((x23 e + x25 e) · ½) + x18 e`, whichever `h`. -/
theorem after5_v115_apply (p : Fin 160000 × Fin 2) (j : Fin 128) :
    (StableHlo.after (hostOps5 (F := Ideal)) W (Proc.devRef .tc main_v115) : S320000x128.Idx → EReal) (ix2 (BlockSums.halves p) j)
      = (cOne + rd0 (W (Proc.devRef .tc main_arg20)))
          * ((rd2 (W (Proc.devRef .tc main_v23)) p.1 j + rd2 (W (Proc.devRef .tc main_v25)) p.1 j) * cHalf)
        + rd2 (W (Proc.devRef .tc main_v18)) p.1 j := by
  rw [after5_v115_eq]
  refine (concat_halves_apply _ _ concatenates_S160000x128_S160000x128_S320000x128_d0 p j).trans ?_
  rw [ite_self]
  exact p0Term_apply _ _ _ _ p.1 j

/-- THE SECOND INPUT AT ROW `r`: `(1 + e2) · x26 r + x20 r`. -/
theorem after5_v119_apply (r : Fin 320000) (j : Fin 128) :
    (StableHlo.after (hostOps5 (F := Ideal)) W (Proc.devRef .tc main_v119) : S320000x128.Idx → EReal) (ix2 r j)
      = (cOne + rd0 (W (Proc.devRef .tc main_arg20))) * rd2 (W (Proc.devRef .tc main_v26)) r j
        + rd2 (W (Proc.devRef .tc main_v20)) r j := by
  rw [after5_v119_eq]
  exact p1Term_apply _ _ _ r j

/-- THE FIRST WEIGHT BLOCK AT `(j, q)`: the weight at row `j`. -/
theorem after5_v120_apply (j : Fin 128) (q : Fin 256) :
    (StableHlo.after (hostOps5 (F := Ideal)) W (Proc.devRef .tc main_v120) : S128x256.Idx → EReal) (ix2 j q)
      = rd2 (W (Proc.devRef .tc main_arg3)) (⟨j.val, by omega⟩ : Fin 256) q := by
  rw [after5_v120_eq]
  refine (LayoutReads.row_block_apply 0 _ slices_S256x256_S128x256_0_0 j q).trans ?_
  exact congrArg (W (Proc.devRef .tc main_arg3) : S256x256.Idx → EReal)
    (congrArg (fun r => ix2 r q) (Fin.ext (by show 0 + j.val = j.val; omega)))

/-- THE SECOND WEIGHT BLOCK AT `(j, q)`: the weight at row `j + 128`. -/
theorem after5_v121_apply (j : Fin 128) (q : Fin 256) :
    (StableHlo.after (hostOps5 (F := Ideal)) W (Proc.devRef .tc main_v121) : S128x256.Idx → EReal) (ix2 j q)
      = rd2 (W (Proc.devRef .tc main_arg3)) (⟨j.val + 128, by omega⟩ : Fin 256) q := by
  rw [after5_v121_eq]
  refine (LayoutReads.row_block_apply 128 _ slices_S256x256_S128x256_128_0 j q).trans ?_
  exact congrArg (W (Proc.devRef .tc main_arg3) : S256x256.Idx → EReal)
    (congrArg (fun r => ix2 r q) (Fin.ext (by show 128 + j.val = j.val + 128; omega)))

end Cert.KernelIdeal.HostValue

end
-- ==== Proof.Host6.lean ====
/-
  The host operations between two of the program's regions that turn a column sum and a column sum of squares into
  the scale and the shift of a folded batch normalisation over 320000 rows of 256 columns, read at an entry.

  The operations are listed in order by the program; run from any contents `W` of the buffers, the scale's buffer and
  the shift's buffer hold the general scale and shift terms on `W`'s sum, sum of squares, gain and bias, and their entry
  `(0, q)` is the closed form.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostScaleShift
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- After the operations the scale's buffer holds the scale term. -/
theorem after6_scale_eq :
    (StableHlo.after (hostOps6 (F := Ideal)) W (Proc.devRef .tc main_v135) : S1x256.Idx → EReal)
      = scaleTerm shapeCasts_S1x256_S256 shapeCasts_S256_S1x256 bcast_S_S256 0x489C4000#32 0x3727C5AC#32
          (W (Proc.devRef .tc main_v122_1)) (W (Proc.devRef .tc main_v122_2)) (W (Proc.devRef .tc main_arg4)) := by
  dsimp only [hostOps6]
  after_results_simp
  rfl

/-- After the operations the shift's buffer holds the shift term. -/
theorem after6_shift_eq :
    (StableHlo.after (hostOps6 (F := Ideal)) W (Proc.devRef .tc main_v139) : S1x256.Idx → EReal)
      = shiftTerm shapeCasts_S1x256_S256 shapeCasts_S256_S1x256 bcast_S_S256 0x489C4000#32 0x3727C5AC#32
          (W (Proc.devRef .tc main_v122_1)) (W (Proc.devRef .tc main_v122_2)) (W (Proc.devRef .tc main_arg4)) (W (Proc.devRef .tc main_arg5)) := by
  dsimp only [hostOps6]
  after_results_simp
  rfl

/-- THE SCALE AT `(0, q)`: the gain times the reciprocal root of the variance (mean of squares minus squared mean) plus ε. -/
theorem after6_scale_apply (q : Fin 256) :
    (StableHlo.after (hostOps6 (F := Ideal)) W (Proc.devRef .tc main_v135) : S1x256.Idx → EReal) (ix2 (0 : Fin 1) q)
      = rd1 (W (Proc.devRef .tc main_arg4)) q
          * Ideal.rsqrt ((Ideal.div (rd2 (W (Proc.devRef .tc main_v122_2)) 0 q) cRowsE
            - Ideal.div (rd2 (W (Proc.devRef .tc main_v122_1)) 0 q) cRowsE
              * Ideal.div (rd2 (W (Proc.devRef .tc main_v122_1)) 0 q) cRowsE) + cEps) := by
  rw [after6_scale_eq]
  exact scaleTerm_apply _ _ _ _ _ _ _ _ q

/-- THE SHIFT AT `(0, q)`: the bias minus the mean times the scale. -/
theorem after6_shift_apply (q : Fin 256) :
    (StableHlo.after (hostOps6 (F := Ideal)) W (Proc.devRef .tc main_v139) : S1x256.Idx → EReal) (ix2 (0 : Fin 1) q)
      = rd1 (W (Proc.devRef .tc main_arg5)) q
          - Ideal.div (rd2 (W (Proc.devRef .tc main_v122_1)) 0 q) cRowsE
            * (rd1 (W (Proc.devRef .tc main_arg4)) q
              * Ideal.rsqrt ((Ideal.div (rd2 (W (Proc.devRef .tc main_v122_2)) 0 q) cRowsE
                - Ideal.div (rd2 (W (Proc.devRef .tc main_v122_1)) 0 q) cRowsE
                  * Ideal.div (rd2 (W (Proc.devRef .tc main_v122_1)) 0 q) cRowsE) + cEps)) := by
  rw [after6_shift_eq]
  exact shiftTerm_apply _ _ _ _ _ _ _ _ _ q

end Cert.KernelIdeal.HostValue

end
-- ==== Proof.Host7.lean ====
/-
  The host operations between two of the program's regions that turn a column sum and a column sum of squares into
  the scale and the shift of a folded batch normalisation over 320000 rows of 128 columns, read at an entry.

  The operations are listed in order by the program; run from any contents `W` of the buffers, the scale's buffer and
  the shift's buffer hold the general scale and shift terms on `W`'s sum, sum of squares, gain and bias, and their entry
  `(0, q)` is the closed form.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.HostScaleShift
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- After the operations the scale's buffer holds the scale term. -/
theorem after7_scale_eq :
    (StableHlo.after (hostOps7 (F := Ideal)) W (Proc.devRef .tc main_v153) : S1x128.Idx → EReal)
      = scaleTerm shapeCasts_S1x128_S128 shapeCasts_S128_S1x128 bcast_S_S128 0x489C4000#32 0x3727C5AC#32
          (W (Proc.devRef .tc main_v140_1)) (W (Proc.devRef .tc main_v140_2)) (W (Proc.devRef .tc main_arg7)) := by
  dsimp only [hostOps7]
  after_results_simp
  rfl

/-- After the operations the shift's buffer holds the shift term. -/
theorem after7_shift_eq :
    (StableHlo.after (hostOps7 (F := Ideal)) W (Proc.devRef .tc main_v157) : S1x128.Idx → EReal)
      = shiftTerm shapeCasts_S1x128_S128 shapeCasts_S128_S1x128 bcast_S_S128 0x489C4000#32 0x3727C5AC#32
          (W (Proc.devRef .tc main_v140_1)) (W (Proc.devRef .tc main_v140_2)) (W (Proc.devRef .tc main_arg7)) (W (Proc.devRef .tc main_arg8)) := by
  dsimp only [hostOps7]
  after_results_simp
  rfl

/-- THE SCALE AT `(0, q)`: the gain times the reciprocal root of the variance (mean of squares minus squared mean) plus ε. -/
theorem after7_scale_apply (q : Fin 128) :
    (StableHlo.after (hostOps7 (F := Ideal)) W (Proc.devRef .tc main_v153) : S1x128.Idx → EReal) (ix2 (0 : Fin 1) q)
      = rd1 (W (Proc.devRef .tc main_arg7)) q
          * Ideal.rsqrt ((Ideal.div (rd2 (W (Proc.devRef .tc main_v140_2)) 0 q) cRowsE
            - Ideal.div (rd2 (W (Proc.devRef .tc main_v140_1)) 0 q) cRowsE
              * Ideal.div (rd2 (W (Proc.devRef .tc main_v140_1)) 0 q) cRowsE) + cEps) := by
  rw [after7_scale_eq]
  exact scaleTerm_apply _ _ _ _ _ _ _ _ q

/-- THE SHIFT AT `(0, q)`: the bias minus the mean times the scale. -/
theorem after7_shift_apply (q : Fin 128) :
    (StableHlo.after (hostOps7 (F := Ideal)) W (Proc.devRef .tc main_v157) : S1x128.Idx → EReal) (ix2 (0 : Fin 1) q)
      = rd1 (W (Proc.devRef .tc main_arg8)) q
          - Ideal.div (rd2 (W (Proc.devRef .tc main_v140_1)) 0 q) cRowsE
            * (rd1 (W (Proc.devRef .tc main_arg7)) q
              * Ideal.rsqrt ((Ideal.div (rd2 (W (Proc.devRef .tc main_v140_2)) 0 q) cRowsE
                - Ideal.div (rd2 (W (Proc.devRef .tc main_v140_1)) 0 q) cRowsE
                  * Ideal.div (rd2 (W (Proc.devRef .tc main_v140_1)) 0 q) cRowsE) + cEps)) := by
  rw [after7_shift_eq]
  exact shiftTerm_apply _ _ _ _ _ _ _ _ _ q

end Cert.KernelIdeal.HostValue

end
-- ==== Proof.Host8.lean ====
/-
  The last host operations of the program: the edge result re-laid from the two-halves row order to the adjacent-pairs
  row order, read at an entry.

  The last region leaves the 320000 rows of the edge result with all first rows of the edges first and all second
  rows after them (row `160000 h + e` for member `h` of edge `e`). The host operations cut that array into its two
  halves, give each a unit middle axis, join the two on it (so `[160000, 2, 128]`, the pair of an edge adjacent) and
  recast to `[320000, 128]`: row `2 e + h` of the result is row `160000 h + e` of what the region left.
-/
import proofs.«131702_j10462540333326_2_alg».proof.Proof.Gen.KernelIdeal.Launch
import proofs.«131702_j10462540333326_2_alg».proof.Proof.Spec
import proofs.«131702_j10462540333326_2_alg».proof.Proof.HostArgs
import proofs.«131702_j10462540333326_2_alg».proof.Proof.LibLayoutReads
import proofs.«131702_j10462540333326_2_alg».proof.Proof.LibBlockSums
import Idealize.ShloMosaic.Lib.StableHlo.Run

noncomputable section

namespace Cert.KernelIdeal.HostValue

open Cert.KernelIdeal Cert.KernelIdeal.Gen Idealize.ShloMosaic ValueIdx EdgeNodeLayer
open Idealize.ShloMosaic.StableHlo

variable (W : Valuation τ sig (Elt Ideal))

/-- The two halves of `x`'s rows, each given a unit middle axis, joined on it and recast to rows. -/
def adjacentPairs (x : FVec Ideal S320000x128 .f32) : FVec Ideal S320000x128 .f32 :=
  shapeCast S320000x128
    (concatenate S160000x2x128 1
      [⟨S160000x1x128, broadcastInDim S160000x1x128 ![0, 2] bcast_S160000x128_S160000x1x128_0_2
          (extractStridedSlice S160000x128 ![0, 0] x slices_S320000x128_S160000x128_0_0)⟩,
       ⟨S160000x1x128, broadcastInDim S160000x1x128 ![0, 2] bcast_S160000x128_S160000x1x128_0_2
          (extractStridedSlice S160000x128 ![160000, 0] x slices_S320000x128_S160000x128_160000_0)⟩]
      concatenates_S160000x1x128_S160000x1x128_S160000x2x128_d1)
    shapeCasts_S160000x2x128_S320000x128

/-- Row `2 e + h` of the re-laid array is row `160000 h + e` of the array. -/
theorem adjacentPairs_apply (x : FVec Ideal S320000x128 .f32) (e : Fin 160000) (h : Fin 2) (q : Fin 128) :
    adjacentPairs x (ix2 (⟨2 * e.val + h.val, by omega⟩ : Fin 320000) q)
      = x (ix2 (⟨160000 * h.val + e.val, by omega⟩ : Fin 320000) q) := by
  unfold adjacentPairs
  refine (LayoutReads.interleave_rows_apply_pair (by norm_num) _ _ bcast_S160000x128_S160000x1x128_0_2
    concatenates_S160000x1x128_S160000x1x128_S160000x2x128_d1 shapeCasts_S160000x2x128_S320000x128 e h q).trans ?_
  have hh := h.isLt
  by_cases hk : h.val = 0
  · rw [if_pos hk, LayoutReads.row_block_apply]
    exact congrArg x (congrArg (fun r => ix2 r q) (Fin.ext (by show 0 + e.val = 160000 * h.val + e.val; omega)))
  · rw [if_neg hk, LayoutReads.row_block_apply]
    exact congrArg x (congrArg (fun r => ix2 r q) (Fin.ext (by show 160000 + e.val = 160000 * h.val + e.val; omega)))

/-- After the operations the result buffer holds the re-laid contents of the last region's output buffer. -/
theorem after8_out_eq :
    (StableHlo.after (hostOps8 (F := Ideal)) W (Proc.devRef .tc main_v164) : S320000x128.Idx → EReal)
      = adjacentPairs (W (Proc.devRef .tc main_v158)) := by
  dsimp only [hostOps8]
  after_results
  rfl

/-- THE EDGE RESULT AT ROW `2 e + h`: the last region's output at the row of `(e, h)` in the two-halves order. -/
theorem after8_out_apply (p : Fin 160000 × Fin 2) (q : Fin 128) :
    (StableHlo.after (hostOps8 (F := Ideal)) W (Proc.devRef .tc main_v164) : S320000x128.Idx → EReal)
        (ix2 (⟨2 * p.1.val + p.2.val, by omega⟩ : Fin 320000) q)
      = rd2 (W (Proc.devRef .tc main_v158)) (BlockSums.halves p) q := by
  rw [after8_out_eq]
  exact adjacentPairs_apply _ p.1 p.2 q

end Cert.KernelIdeal.HostValue

end
-- ==== Proof.Region0Cases.lean ====
/-
  What each control case of the three-operand product kernel leaves in its three output blocks.

  The body has two cases. At the first grid point it stores zeros into the two statistics rows, then runs the common
  part; at later points it runs the common part on the rows as the point before left them. The common part stores
  the product block, adds its column sums to the first row and the column sums of its square to the second. This
  module reads the stores each case was found to make back as values: in both cases the product window holds the
  product block; the rows hold "previous + column sums", where "previous" is the zero row in the first case.
-/
import proofs.«131702_j10462540333326_2_alg».proof.Proof.Gen.KernelIdeal.Frame
import Idealize.ShloMosaic.Lib.Pipeline.Value
import Idealize.ShloMosaic.Lib.Tactic

noncomputable section

namespace Cert.KernelIdeal.RegionValue

open Cert.KernelIdeal Cert.KernelIdeal.Gen Idealize.ShloMosaic Idealize.ShloMosaic.Tactic

variable {F : FTy → Type} [FloatOps F]

theorem r0_hz : (![0, 0] : Fin 2 → Nat) = fun _ => 0 := funext fun a => by fin_cases a <;> rfl

/-- First point, product window: the one covering store's value, its loads reading the six input blocks whole. -/
theorem out0_A_6_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S4000x128 .f32) (x1 : Vec F S4000x128 .f32) (x2 : Vec F S4000x128 .f32) (x3 : Vec F S128x128 .f32) (x4 : Vec F S128x128 .f32) (x5 : Vec F S128x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S4000x128) r0_hz]
  simp only [View.readAt_eq_ld, harg1.read_unread, harg2.read_unread, harg3.read_unread, harg4.read_unread, harg5.read_unread, harg6.read_unread, View.ld_unit_zero (S := S4000x128) r0_hz, View.ld_unit_zero (S := S128x128) r0_hz]

/-- First point, column-sum row: the last store wins; the row it adds to is the zero row stored just before. -/
theorem out0_A_7_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S4000x128 .f32) (x1 : Vec F S4000x128 .f32) (x2 : Vec F S4000x128 .f32) (x3 : Vec F S128x128 .f32) (x4 : Vec F S128x128 .f32) (x5 : Vec F S128x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) r0_hz, View.readCov_unit_zero (S := S1x128) _ r0_hz]
  simp only [View.readAt_eq_ld, harg1.read_unread, harg2.read_unread, harg3.read_unread, harg4.read_unread, harg5.read_unread, harg6.read_unread, View.ld_unit_zero (S := S4000x128) r0_hz, View.ld_unit_zero (S := S128x128) r0_hz]

/-- First point, sum-of-squares row: likewise, over the zero row stored just before. -/
theorem out0_A_8_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S4000x128 .f32) (x1 : Vec F S4000x128 .f32) (x2 : Vec F S4000x128 .f32) (x3 : Vec F S128x128 .f32) (x4 : Vec F S128x128 .f32) (x5 : Vec F S128x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) r0_hz, View.readCov_unit_zero (S := S1x128) _ r0_hz]
  simp only [View.readAt_eq_ld, harg1.read_unread, harg2.read_unread, harg3.read_unread, harg4.read_unread, harg5.read_unread, harg6.read_unread, View.ld_unit_zero (S := S4000x128) r0_hz, View.ld_unit_zero (S := S128x128) r0_hz]

/-- Later points, product window. -/
theorem out0_B_6_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S4000x128 .f32) (x1 : Vec F S4000x128 .f32) (x2 : Vec F S4000x128 .f32) (x3 : Vec F S128x128 .f32) (x4 : Vec F S128x128 .f32) (x5 : Vec F S128x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S4000x128) r0_hz]
  simp only [View.readAt_eq_ld, harg1.read_unread, harg2.read_unread, harg3.read_unread, harg4.read_unread, harg5.read_unread, harg6.read_unread, harg8.read_unread, harg9.read_unread, View.ld_unit_zero (S := S4000x128) r0_hz, View.ld_unit_zero (S := S128x128) r0_hz, View.ld_unit_zero (S := S1x128) r0_hz]

/-- Later points, column-sum row: what the point before left, plus this block's column sums. -/
theorem out0_B_7_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S4000x128 .f32) (x1 : Vec F S4000x128 .f32) (x2 : Vec F S4000x128 .f32) (x3 : Vec F S128x128 .f32) (x4 : Vec F S128x128 .f32) (x5 : Vec F S128x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x128) r0_hz]
  simp only [View.readAt_eq_ld, harg1.read_unread, harg2.read_unread, harg3.read_unread, harg4.read_unread, harg5.read_unread, harg6.read_unread, harg8.read_unread, harg9.read_unread, View.ld_unit_zero (S := S4000x128) r0_hz, View.ld_unit_zero (S := S128x128) r0_hz, View.ld_unit_zero (S := S1x128) r0_hz]

/-- Later points, sum-of-squares row. -/
theorem out0_B_8_eq (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S4000x128 .f32) (x1 : Vec F S4000x128 .f32) (x2 : Vec F S4000x128 .f32) (x3 : Vec F S128x128 .f32) (x4 : Vec F S128x128 .f32) (x5 : Vec F S128x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x128) r0_hz]
  simp only [View.readAt_eq_ld, harg1.read_unread, harg2.read_unread, harg3.read_unread, harg4.read_unread, harg5.read_unread, harg6.read_unread, harg8.read_unread, harg9.read_unread, View.ld_unit_zero (S := S4000x128) r0_hz, View.ld_unit_zero (S := S128x128) r0_hz, View.ld_unit_zero (S := S1x128) r0_hz]

end Cert.KernelIdeal.RegionValue

end
-- ==== Proof.Region0Def.lean ====
/-
  What the three-operand product region computes, as functions of the arrays it finds.

  The region reads three [320000,128] row arrays (windows 0, 1, 2) and three [128,128] weight matrices (windows 3, 4,
  5). Row r of its product is the sum of the three row-by-matrix products; its two [1,128] statistics are the column
  sums of the product and of its square over all 320000 rows.
-/
import proofs.«131702_j10462540333326_2_alg».proof.Proof.Gen.KernelIdeal
import proofs.«131702_j10462540333326_2_alg».proof.Proof.HostArgs
import Idealize.ShloMosaic.Lib.ValueIdx
import Idealize.ShloMosaic.Lib.Pipeline.Launch

noncomputable section

namespace Cert.KernelIdeal.RegionValue

open Cert.KernelIdeal Cert.KernelIdeal.HostValue Idealize.ShloMosaic Idealize.ShloMosaic.TcCoe ValueIdx

variable (V : (c : Dev nD) → (b : Ref sig .tc) → Buf (Elt Ideal) ((c : Thread nD τ).loc b)) (c : Dev nD)

/-- Entry (r, q) of the product: three contractions over the 128 shared coordinates, added left to right. -/
def y0 (r : Fin 320000) (q : Fin 128) : EReal :=
  (∑ j : Fin 128, rd2 (V c (Pipeline.arrRef spec0 0)) r j * rd2 (V c (Pipeline.arrRef spec0 3)) j q)
    + (∑ j : Fin 128, rd2 (V c (Pipeline.arrRef spec0 1)) r j * rd2 (V c (Pipeline.arrRef spec0 4)) j q)
    + (∑ j : Fin 128, rd2 (V c (Pipeline.arrRef spec0 2)) r j * rd2 (V c (Pipeline.arrRef spec0 5)) j q)

/-- The column sum of the product over the 4000 rows of block s (zero past the 80 blocks). -/
def blockSum0 (s : ℕ) (q : Fin 128) : EReal :=
  if h : s < 80 then ∑ p : Fin 4000, y0 V c ⟨4000 * s + p.val, by omega⟩ q else 0

/-- The column sum of the product's square over the 4000 rows of block s (zero past the 80 blocks). -/
def blockSq0 (s : ℕ) (q : Fin 128) : EReal :=
  if h : s < 80 then ∑ p : Fin 4000, y0 V c ⟨4000 * s + p.val, by omega⟩ q * y0 V c ⟨4000 * s + p.val, by omega⟩ q else 0

end Cert.KernelIdeal.RegionValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«131702_j10462540333326_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.Region0Pay.lean ====
/-
  One grid point of the three-operand product kernel, entry by entry on the extended reals.

  At a grid point the body holds three [4000,128] row blocks x0, x1, x2 and three [128,128] weight matrices
  x3, x4, x5. It forms the product block  y = x0·x3 + x1·x4 + x2·x5  (each factor narrowed to bf16 first, which on
  the extended reals changes nothing; each product accumulated into the zero block), adds the block's column
  sums to a running [1,128] row, and the column sums of the squares y·y to a second running row. This module
  reads each of those values at one entry: the product block at (p, q) is the sum of three contractions over
  the 128 shared coordinates; a running row at column q grows by the sum over the block's 4000 rows.
-/
import proofs.«131702_j10462540333326_2_alg».proof.Proof.Gen.KernelIdeal.Skeleton
import proofs.«131702_j10462540333326_2_alg».proof.Proof.LibDotRecord
import proofs.«131702_j10462540333326_2_alg».proof.Proof.LibColumnSum
import Idealize.ShloMosaic.Lib.Pipeline.Value
import Idealize.ShloMosaic.Lib.ValueIdx

noncomputable section

namespace Cert.KernelIdeal.RegionValue

open Cert.KernelIdeal Cert.KernelIdeal.Gen Idealize.ShloMosaic ValueIdx

/-- A length-b vector cast to the row [1, b] reads, at (u, q), the vector's entry q. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- One of the three products of the body: a [4000,128] block by a [128,128] matrix, both narrowed to bf16, accumulated
    into the zero block; at entry (p, q) it is the contraction over the 128 shared coordinates. -/
theorem k0_product_apply (a : Vec Ideal S4000x128 .f32) (b : Vec Ideal S128x128 .f32) (p : Fin 4000) (q : Fin 128) :
    matmul (F := Ideal) dot_S4000x128_S128x128_S4000x128_1_0_0_1_n_n none
        (truncf .bf16 (shapeCast S4000x128 a shapeCasts_S4000x128_S4000x128) bitsLt_bf16_f32)
        (truncf .bf16 (shapeCast S128x128 b shapeCasts_S128x128_S128x128) bitsLt_bf16_f32)
        (constant (F := Ideal) S4000x128 .f32 0x00000000#32) (ix2 p q)
      = ∑ j : Fin 128, a (ix2 p j) * b (ix2 j q) := by
  refine (DotRecord.matmul_zero_apply dot_S4000x128_S128x128_S4000x128_1_0_0_1_n_n rfl rfl rfl rfl rfl rfl _ _ none p q).trans ?_
  refine Finset.sum_congr rfl fun j _ => ?_
  rw [truncf_apply, truncf_apply, shapeCast_self, shapeCast_self]

/-- The product block at entry (p, q): the three contractions added in the body's order. -/
theorem k0_pay4_apply (x0 x1 x2 : Vec Ideal S4000x128 .f32) (x3 x4 x5 : Vec Ideal S128x128 .f32)
    (p : Fin 4000) (q : Fin 128) :
    k0_pay4 x0 x1 x2 x3 x4 x5 (ix2 p q)
      = (∑ j : Fin 128, x0 (ix2 p j) * x3 (ix2 j q)) + (∑ j : Fin 128, x1 (ix2 p j) * x4 (ix2 j q))
        + (∑ j : Fin 128, x2 (ix2 p j) * x5 (ix2 j q)) := by
  unfold k0_pay4
  refine (addf_apply _ _ _).trans ?_
  refine congrArg₂ (· + ·) ((addf_apply _ _ _).trans (congrArg₂ (· + ·) ?_ ?_)) ?_
  · exact k0_product_apply x0 x3 p q
  · exact k0_product_apply x1 x4 p q
  · exact k0_product_apply x2 x5 p q

/-- The running column-sum row after the point: what it held, plus the product block's column sum. -/
theorem k0_pay5_apply (x0 x1 x2 : Vec Ideal S4000x128 .f32) (x3 x4 x5 : Vec Ideal S128x128 .f32)
    (v27 : Vec Ideal S1x128 .f32) (q : Fin 128) :
    k0_pay5 x0 x1 x2 x3 x4 x5 v27 (ix2 (0 : Fin 1) q)
      = v27 (ix2 (0 : Fin 1) q) + ∑ p : Fin 4000, k0_pay4 x0 x1 x2 x3 x4 x5 (ix2 p q) := by
  unfold k0_pay5
  refine (addf_apply _ _ _).trans ?_
  refine congrArg₂ (· + ·) (congrFun (shapeCast_self _ _) _) ?_
  refine (shapeCast_b_1b_apply _ _ (0 : Fin 1) q).trans ?_
  exact ColumnSum.colSum_apply _ _ _ _ q

/-- The running sum-of-squares row after the point: what it held, plus the column sum of the block's squares. -/
theorem k0_pay1_apply (v25 : FVec Ideal S4000x128 .f32) (v33 : Vec Ideal S1x128 .f32) (q : Fin 128) :
    k0_pay1 v25 v33 (ix2 (0 : Fin 1) q)
      = v33 (ix2 (0 : Fin 1) q) + ∑ p : Fin 4000, v25 (ix2 p q) * v25 (ix2 p q) := by
  unfold k0_pay1
  refine (addf_apply _ _ _).trans ?_
  refine congrArg₂ (· + ·) (congrFun (shapeCast_self _ _) _) ?_
  refine (shapeCast_b_1b_apply _ _ (0 : Fin 1) q).trans ?_
  refine (ColumnSum.colSum_apply _ _ _ _ q).trans ?_
  rfl

/-- The row the first point stores before accumulating: zero at every column. -/
theorem k0_pay2_apply (j : S1x128.Idx) : k0_pay2 (F := Ideal) j = 0 := Ideal.ofBits_zero_f32

theorem k0_pay3_apply (j : S1x128.Idx) : k0_pay3 (F := Ideal) j = 0 := Ideal.ofBits_zero_f32

end Cert.KernelIdeal.RegionValue

end
-- ==== Proof.Region0Blocks.lean ====
/-
  Where the windows of the three-operand product region sit at each grid point.

  The grid has 80 points. At point t the three row windows and the product window hold rows 4000 t … 4000 t + 3999
  of their arrays; the three weight windows and the two statistics windows hold their whole arrays at every point.
  So a block entry is an array entry at a shifted row, and the product block's entry (p, q) is the product's entry
  (4000 t + p, q).
-/
import proofs.«131702_j10462540333326_2_alg».proof.Proof.Gen.KernelIdeal.Frame
import proofs.«131702_j10462540333326_2_alg».proof.Proof.Region0Def
import proofs.«131702_j10462540333326_2_alg».proof.Proof.Region0Pay
import Idealize.ShloMosaic.Lib.Pipeline.Value

noncomputable section

namespace Cert.KernelIdeal.RegionValue

open Cert.KernelIdeal Cert.KernelIdeal.Gen Cert.KernelIdeal.HostValue Idealize.ShloMosaic Idealize.ShloMosaic.TcCoe ValueIdx

/-- The block indices of the nine windows at a point: the row windows (0, 1, 2) and the product window (6) move with
    the point; the others stay at their only block. -/
structure R0Idx (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = t.val ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0
  w7 : win0_7.index t (0 : Fin 2) = 0 ∧ win0_7.index t (1 : Fin 2) = 0
  w8 : win0_8.index t (0 : Fin 2) = 0 ∧ win0_8.index t (1 : Fin 2) = 0

/-- Decided over the grid. -/
theorem r0_idx_all : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem r0_idx (t : Fin cfg0.N) : R0Idx t := by
  obtain ⟨h0, h1, h2, h3, h4, h5, h6, h7, h8⟩ := r0_idx_all t
  exact ⟨h0, h1, h2, h3, h4, h5, h6, h7, h8⟩

variable (V : (c : Dev nD) → (b : Ref sig .tc) → Buf (Elt Ideal) ((c : Thread nD τ).loc b)) (c : Dev nD)

/-- Entry (p, j) of window 0's block at point t is entry (4000 t + p, j) of its array. -/
theorem r0_blk0 (t : Fin cfg0.N) (p : Fin 4000) (j : Fin 128) (r : Fin 320000) (hr : r.val = 4000 * t.val + p.val) :
    iblk0 V c 0 t (ix2 p j) = rd2 (V c (Pipeline.arrRef spec0 0)) r j := by
  have e0 : win0_0.index t (0 : Fin 2) = t.val := (r0_idx t).w0.1
  have e1 : win0_0.index t (1 : Fin 2) = 0 := (r0_idx t).w0.2
  unfold iblk0
  rw [View.read_apply]
  show V c (Pipeline.arrRef spec0 0) (((cfg0.win 0).blk t).view.emb (ix2 p j)) = _
  refine congrArg (V c (Pipeline.arrRef spec0 0)) (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * j.val = j.val; rw [e1]; omega

/-- Entry (p, j) of window 1's block at point t is entry (4000 t + p, j) of its array. -/
theorem r0_blk1 (t : Fin cfg0.N) (p : Fin 4000) (j : Fin 128) (r : Fin 320000) (hr : r.val = 4000 * t.val + p.val) :
    iblk0 V c 1 t (ix2 p j) = rd2 (V c (Pipeline.arrRef spec0 1)) r j := by
  have e0 : win0_1.index t (0 : Fin 2) = t.val := (r0_idx t).w1.1
  have e1 : win0_1.index t (1 : Fin 2) = 0 := (r0_idx t).w1.2
  unfold iblk0
  rw [View.read_apply]
  show V c (Pipeline.arrRef spec0 1) (((cfg0.win 1).blk t).view.emb (ix2 p j)) = _
  refine congrArg (V c (Pipeline.arrRef spec0 1)) (funext fun a => Fin.ext ?_)
  match a with
  | ⟨0, _⟩ => show win0_1.index t (0 : Fin 2) * 4000 + 1 * p.val = r.val; rw [e0, hr]; omega
  | ⟨1, _⟩ => show win0_1.index t (1 : Fin 2) * 128 + 1 * j.val = j.val; rw [e1]; omega

/-- Entry (p, j) of window 2's block at point t is entry (4000 t + p, j) of its array. -/
theorem r0_blk2 (t : Fin cfg0.N) (p : Fin 4000) (j : Fin 128) (r : Fin 320000) (hr : r.val = 4000 * t.val + p.val) :
    iblk0 V c 2 t (ix2 p j) = rd2 (V c (Pipeline.arrRef spec0 2)) r j := by
  have e0 : win0_2.index t (0 : Fin 2) = t.val := (r0_idx t).w2.1
  have e1 : win0_2.index t (1 : Fin 2) = 0 := (r0_idx t).w2.2
  unfold iblk0
  rw [View.read_apply]
  show V c (Pipeline.arrRef spec0 2) (((cfg0.win 2).blk t).view.emb (ix2 p j)) = _
  refine congrArg (V c (Pipeline.arrRef spec0 2)) (funext fun a => Fin.ext ?_)
  match a with
  | ⟨0, _⟩ => show win0_2.index t (0 : Fin 2) * 4000 + 1 * p.val = r.val; rw [e0, hr]; omega
  | ⟨1, _⟩ => show win0_2.index t (1 : Fin 2) * 128 + 1 * j.val = j.val; rw [e1]; omega

/-- Window 3's block at any point is its whole array. -/
theorem r0_blk3 (t : Fin cfg0.N) (j : Fin 128) (q : Fin 128) :
    iblk0 V c 3 t (ix2 j q) = rd2 (V c (Pipeline.arrRef spec0 3)) j q := by
  have e0 : win0_3.index t (0 : Fin 2) = 0 := (r0_idx t).w3.1
  have e1 : win0_3.index t (1 : Fin 2) = 0 := (r0_idx t).w3.2
  unfold iblk0
  rw [View.read_apply]
  show V c (Pipeline.arrRef spec0 3) (((cfg0.win 3).blk t).view.emb (ix2 j q)) = _
  refine congrArg (V c (Pipeline.arrRef spec0 3)) (funext fun a => Fin.ext ?_)
  match a with
  | ⟨0, _⟩ => show win0_3.index t (0 : Fin 2) * 128 + 1 * j.val = j.val; rw [e0]; omega
  | ⟨1, _⟩ => show win0_3.index t (1 : Fin 2) * 128 + 1 * q.val = q.val; rw [e1]; omega

/-- Window 4's block at any point is its whole array. -/
theorem r0_blk4 (t : Fin cfg0.N) (j : Fin 128) (q : Fin 128) :
    iblk0 V c 4 t (ix2 j q) = rd2 (V c (Pipeline.arrRef spec0 4)) j q := by
  have e0 : win0_4.index t (0 : Fin 2) = 0 := (r0_idx t).w4.1
  have e1 : win0_4.index t (1 : Fin 2) = 0 := (r0_idx t).w4.2
  unfold iblk0
  rw [View.read_apply]
  show V c (Pipeline.arrRef spec0 4) (((cfg0.win 4).blk t).view.emb (ix2 j q)) = _
  refine congrArg (V c (Pipeline.arrRef spec0 4)) (funext fun a => Fin.ext ?_)
  match a with
  | ⟨0, _⟩ => show win0_4.index t (0 : Fin 2) * 128 + 1 * j.val = j.val; rw [e0]; omega
  | ⟨1, _⟩ => show win0_4.index t (1 : Fin 2) * 128 + 1 * q.val = q.val; rw [e1]; omega

/-- Window 5's block at any point is its whole array. -/
theorem r0_blk5 (t : Fin cfg0.N) (j : Fin 128) (q : Fin 128) :
    iblk0 V c 5 t (ix2 j q) = rd2 (V c (Pipeline.arrRef spec0 5)) j q := by
  have e0 : win0_5.index t (0 : Fin 2) = 0 := (r0_idx t).w5.1
  have e1 : win0_5.index t (1 : Fin 2) = 0 := (r0_idx t).w5.2
  unfold iblk0
  rw [View.read_apply]
  show V c (Pipeline.arrRef spec0 5) (((cfg0.win 5).blk t).view.emb (ix2 j q)) = _
  refine congrArg (V c (Pipeline.arrRef spec0 5)) (funext fun a => Fin.ext ?_)
  match a with
  | ⟨0, _⟩ => show win0_5.index t (0 : Fin 2) * 128 + 1 * j.val = j.val; rw [e0]; omega
  | ⟨1, _⟩ => show win0_5.index t (1 : Fin 2) * 128 + 1 * q.val = q.val; rw [e1]; omega

/-- The product block of point t at entry (p, q) is the product at row 4000 t + p. -/
theorem r0_pay4_blk (t : Fin cfg0.N) (p : Fin 4000) (q : Fin 128) (r : Fin 320000) (hr : r.val = 4000 * t.val + p.val) :
    k0_pay4 (iblk0 V c 0 t) (iblk0 V c 1 t) (iblk0 V c 2 t) (iblk0 V c 3 t) (iblk0 V c 4 t) (iblk0 V c 5 t) (ix2 p q)
      = y0 V c r q := by
  refine (k0_pay4_apply (iblk0 V c 0 t) (iblk0 V c 1 t) (iblk0 V c 2 t) (iblk0 V c 3 t) (iblk0 V c 4 t) (iblk0 V c 5 t) p q).trans ?_
  unfold y0
  refine congrArg₂ (· + ·) (congrArg₂ (· + ·) ?_ ?_) ?_
  · exact Finset.sum_congr rfl fun j _ => congrArg₂ (· * ·) (r0_blk0 V c t p j r hr) (r0_blk3 V c t j q)
  · exact Finset.sum_congr rfl fun j _ => congrArg₂ (· * ·) (r0_blk1 V c t p j r hr) (r0_blk4 V c t j q)
  · exact Finset.sum_congr rfl fun j _ => congrArg₂ (· * ·) (r0_blk2 V c t p j r hr) (r0_blk5 V c t j q)

end Cert.KernelIdeal.RegionValue

end
-- ==== Proof.Region0Acc.lean ====
/-
  The two running statistics rows of the three-operand product region, after each grid point.

  At the first point the body zeroes both rows and then adds the first block's column sums; at every later point it
  adds that point's block to what the point before left. So after point n the first row holds, at column q, the sum
  of the product over the rows of blocks 0 … n, and the second the sum of its square. The proof is an induction on
  the point over the two cases of the body; the product block itself is the same in both cases.
-/
import proofs.«131702_j10462540333326_2_alg».proof.Proof.Region0Cases
import proofs.«131702_j10462540333326_2_alg».proof.Proof.Region0Blocks
import proofs.«131702_j10462540333326_2_alg».proof.Proof.LibBlockSums

noncomputable section

namespace Cert.KernelIdeal.RegionValue

open Cert.KernelIdeal Cert.KernelIdeal.Gen Idealize.ShloMosaic Idealize.ShloMosaic.TcCoe ValueIdx

variable (V : (c : Dev nD) → (b : Ref sig .tc) → Buf (Elt Ideal) ((c : Thread nD τ).loc b)) (c : Dev nD)

/-- At the first point: the product block, and the two rows at zero plus the block's sums. -/
theorem r0_first (t : Fin cfg0.N) (h0 : t.val % 80 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (k0_pay2 (F := Ideal))
    ∧ (outsAt0 V c t.val t.isLt).2.2 = k0_pay1 (k0_pay4 (iblk0 V c 0 t) (iblk0 V c 1 t) (iblk0 V c 2 t) (iblk0 V c 3 t) (iblk0 V c 4 t) (iblk0 V c 5 t)) (k0_pay3 (F := Ideal)) := by
  rw [outsAt0_A V c t h0]
  dsimp only
  exact ⟨out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)⟩

/-- At a later point: the product block, and the two rows at what the point before left plus the block's sums. -/
theorem r0_later (t : Fin cfg0.N) (h0 : ¬t.val % 80 = 0) :
    (outsAt0 V c t.val t.isLt).1 = k0_pay4 (iblk0 V c 0 t) (iblk0 V c 1 t) (iblk0 V c 2 t) (iblk0 V c 3 t) (iblk0 V c 4 t) (iblk0 V c 5 t)
    ∧ (outsAt0 V c t.val t.isLt).2.1 = k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1
    ∧ (outsAt0 V c t.val t.isLt).2.2 = k0_pay1 (k0_pay4 (iblk0 V c 0 t) (iblk0 V c 1 t) (iblk0 V c 2 t) (iblk0 V c 3 t) (iblk0 V c 4 t) (iblk0 V c 5 t)) (outsAt0 V c (t.val - 1) (Nat.lt_of_le_of_lt (Nat.sub_le _ _) t.isLt)).2.2 := by
  rw [outsAt0_B V c t h0]
  dsimp only
  exact ⟨out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2⟩

/-- At every point the product window's buffer holds the product block. -/
theorem r0_prod (t : Fin cfg0.N) : (outsAt0 V c t.val t.isLt).1 = k0_pay4 (iblk0 V c 0 t) (iblk0 V c 1 t) (iblk0 V c 2 t) (iblk0 V c 3 t) (iblk0 V c 4 t) (iblk0 V c 5 t) := by
  by_cases h0 : t.val % 80 = 0
  · exact (r0_first V c t h0).1
  · exact (r0_later V c t h0).1

/-- The column sum of the product block of point t is the block sum of block t. -/
theorem r0_blockSum (t : Fin cfg0.N) (q : Fin 128) :
    ∑ p : Fin 4000, k0_pay4 (iblk0 V c 0 t) (iblk0 V c 1 t) (iblk0 V c 2 t) (iblk0 V c 3 t) (iblk0 V c 4 t) (iblk0 V c 5 t) (ix2 p q) = blockSum0 V c t.val q := by
  have hN : t.val < 80 := lt_of_lt_of_eq t.isLt (show cfg0.N = 80 from N_0)
  unfold blockSum0
  rw [dif_pos hN]
  exact Finset.sum_congr rfl fun p _ => r0_pay4_blk V c t p q ⟨4000 * t.val + p.val, by omega⟩ rfl

/-- The column sum of the squared product block of point t is the square sum of block t. -/
theorem r0_blockSq (t : Fin cfg0.N) (q : Fin 128) :
    ∑ p : Fin 4000, k0_pay4 (iblk0 V c 0 t) (iblk0 V c 1 t) (iblk0 V c 2 t) (iblk0 V c 3 t) (iblk0 V c 4 t) (iblk0 V c 5 t) (ix2 p q) * k0_pay4 (iblk0 V c 0 t) (iblk0 V c 1 t) (iblk0 V c 2 t) (iblk0 V c 3 t) (iblk0 V c 4 t) (iblk0 V c 5 t) (ix2 p q) = blockSq0 V c t.val q := by
  have hN : t.val < 80 := lt_of_lt_of_eq t.isLt (show cfg0.N = 80 from N_0)
  unfold blockSq0
  rw [dif_pos hN]
  refine Finset.sum_congr rfl fun p _ => ?_
  rw [r0_pay4_blk V c t p q ⟨4000 * t.val + p.val, by omega⟩ rfl]

/-- THE INVARIANT: after point n the rows hold the sums over blocks 0 … n. -/
theorem r0_inv : ∀ (n : ℕ) (h : n < cfg0.N) (q : Fin 128),
    (outsAt0 V c n h).2.1 (ix2 (0 : Fin 1) q) = ∑ s ∈ Finset.range (n + 1), blockSum0 V c s q
    ∧ (outsAt0 V c n h).2.2 (ix2 (0 : Fin 1) q) = ∑ s ∈ Finset.range (n + 1), blockSq0 V c s q
  | 0, h, q => by
    obtain ⟨-, e7, e8⟩ := r0_first V c ⟨0, h⟩ rfl
    have e7' : (outsAt0 V c 0 h).2.1 = _ := e7
    have e8' : (outsAt0 V c 0 h).2.2 = _ := e8
    constructor
    · rw [e7', k0_pay5_apply, k0_pay2_apply, zero_add, Finset.sum_range_one]
      exact r0_blockSum V c ⟨0, h⟩ q
    · rw [e8', k0_pay1_apply, k0_pay3_apply, zero_add, Finset.sum_range_one]
      exact r0_blockSq V c ⟨0, h⟩ q
  | n + 1, h, q => by
    have hN : cfg0.N = 80 := N_0
    have hB : ¬(⟨n + 1, h⟩ : Fin cfg0.N).val % 80 = 0 := by dsimp only; omega
    obtain ⟨-, e7, e8⟩ := r0_later V c ⟨n + 1, h⟩ hB
    have e7' : (outsAt0 V c (n + 1) h).2.1 = k0_pay5 (iblk0 V c 0 ⟨n + 1, h⟩) (iblk0 V c 1 ⟨n + 1, h⟩) (iblk0 V c 2 ⟨n + 1, h⟩)
        (iblk0 V c 3 ⟨n + 1, h⟩) (iblk0 V c 4 ⟨n + 1, h⟩) (iblk0 V c 5 ⟨n + 1, h⟩) (outsAt0 V c n (Nat.lt_of_succ_lt h)).2.1 := e7
    have e8' : (outsAt0 V c (n + 1) h).2.2 = k0_pay1 (k0_pay4 (iblk0 V c 0 ⟨n + 1, h⟩) (iblk0 V c 1 ⟨n + 1, h⟩) (iblk0 V c 2 ⟨n + 1, h⟩)
        (iblk0 V c 3 ⟨n + 1, h⟩) (iblk0 V c 4 ⟨n + 1, h⟩) (iblk0 V c 5 ⟨n + 1, h⟩)) (outsAt0 V c n (Nat.lt_of_succ_lt h)).2.2 := e8
    obtain ⟨ih7, ih8⟩ := r0_inv n (Nat.lt_of_succ_lt h) q
    constructor
    · rw [e7', k0_pay5_apply, ih7, Finset.sum_range_succ _ (n + 1)]
      exact congrArg _ (r0_blockSum V c ⟨n + 1, h⟩ q)
    · rw [e8', k0_pay1_apply, ih8, Finset.sum_range_succ _ (n + 1)]
      exact congrArg _ (r0_blockSq V c ⟨n + 1, h⟩ q)

/-- The 80 block sums add up to the sum over all rows. -/
theorem r0_total (q : Fin 128) : ∑ s ∈ Finset.range 80, blockSum0 V c s q = ∑ r : Fin 320000, y0 V c r q := by
  rw [BlockSums.sum_fin320000_blocks (fun r => y0 V c r q), ← Fin.sum_univ_eq_sum_range (fun s => blockSum0 V c s q) 80]
  refine Finset.sum_congr rfl fun t _ => ?_
  unfold blockSum0
  rw [dif_pos t.isLt]

theorem r0_totalSq (q : Fin 128) :
    ∑ s ∈ Finset.range 80, blockSq0 V c s q = ∑ r : Fin 320000, y0 V c r q * y0 V c r q := by
  rw [BlockSums.sum_fin320000_blocks (fun r => y0 V c r q * y0 V c r q), ← Fin.sum_univ_eq_sum_range (fun s => blockSq0 V c s q) 80]
  refine Finset.sum_congr rfl fun t _ => ?_
  unfold blockSq0
  rw [dif_pos t.isLt]

end Cert.KernelIdeal.RegionValue

end
-- ==== Proof.Region0.lean ====
/-
  The three arrays the three-operand product region leaves, entry by entry.

  The product window is written back at every grid point, block t of the array at point t, and the 80 blocks tile the
  320000 rows: the array ends holding the product at every entry. The two statistics windows are one [1,128] block,
  written back once, after the last point, when they hold the sums over all 80 blocks: the column sums of the product
  and of its square over all 320000 rows.
-/
import proofs.«131702_j10462540333326_2_alg».proof.Proof.Region0Acc

noncomputable section

namespace Cert.KernelIdeal.RegionValue

open Cert.KernelIdeal Cert.KernelIdeal.Gen Idealize.ShloMosaic Idealize.ShloMosaic.TcCoe ValueIdx
open Idealize.ShloMosaic.Pipeline (Dat)

variable (V : (c : Dev nD) → (b : Ref sig .tc) → Buf (Elt Ideal) ((c : Thread nD τ).loc b)) (c : Dev nD)

/-! ## The product array -/

/-- The product as one function of the array index. -/
def prodArr0 : S320000x128.Idx → EReal := fun i => y0 V c (i 0) (i 1)

/-- What point t writes back is block t of the product. -/
theorem r0_flushed6 (t : Fin cfg0.N) :
    (dat0 V c).flushed 6 t = ((cfg0.win 6).blk t).view.read (Elt Ideal) (prodArr0 V c) := by
  have hN : t.val < 80 := lt_of_lt_of_eq t.isLt (show cfg0.N = 80 from N_0)
  have e0 : win0_6.index t (0 : Fin 2) = t.val := (r0_idx t).w6.1
  have e1 : win0_6.index t (1 : Fin 2) = 0 := (r0_idx t).w6.2
  show (cfg0.win 6).cut (grid0.coords t) ((dat0 V c).after 6 t) = _
  rw [after0_6, r0_prod V c t]
  funext j
  obtain ⟨p, q, rfl⟩ : ∃ (p : Fin 4000) (q : Fin 128), j = ix2 p q := ⟨j 0, j 1, eq_ix2 j⟩
  show k0_pay4 (iblk0 V c 0 t) (iblk0 V c 1 t) (iblk0 V c 2 t) (iblk0 V c 3 t) (iblk0 V c 4 t) (iblk0 V c 5 t) (ix2 p q) = prodArr0 V c (((cfg0.win 6).blk t).view.emb (ix2 p q))
  have hemb : ((cfg0.win 6).blk t).view.emb (ix2 p q) = (ix2 (⟨4000 * t.val + p.val, by omega⟩ : Fin 320000) q : S320000x128.Idx) := by
    funext a; apply Fin.ext
    match a with
    | ⟨0, _⟩ => show win0_6.index t (0 : Fin 2) * 4000 + 1 * p.val = 4000 * t.val + p.val; rw [e0]; omega
    | ⟨1, _⟩ => show win0_6.index t (1 : Fin 2) * 128 + 1 * q.val = q.val; rw [e1]; omega
  rw [hemb]
  exact r0_pay4_blk V c t p q ⟨4000 * t.val + p.val, by omega⟩ rfl

/-- An index of the product array is in point t's block iff each coordinate is in the block's range on its axis. -/
theorem r0_mem_blk6 (t : Fin cfg0.N) (i : S320000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v30_0).slice (win0_6.rect t)).set ↔ _
  rw [View.set_slice_whole, Rect.mem_set_unit]
  exact Iff.rfl

/-- Row r lies in the block of point r / 4000. -/
theorem r0_cover6 (i : S320000x128.Idx) :
    ∃ t : Fin cfg0.N, (cfg0.win 6).flush t = true ∧ i ∈ ((cfg0.win 6).blk t).view.set := by
  have hi0 : (i 0).val < 320000 := (i 0).isLt
  have hi1 : (i 1).val < 128 := (i 1).isLt
  have hN : cfg0.N = 80 := N_0
  have e0 := (r0_idx ⟨(i 0).val / 4000, by rw [hN]; omega⟩).w6.1
  have e1 := (r0_idx ⟨(i 0).val / 4000, by rw [hN]; omega⟩).w6.2
  refine ⟨⟨(i 0).val / 4000, by rw [hN]; omega⟩, flush0_6 _, ?_⟩
  rw [r0_mem_blk6]
  intro a
  match a with
  | ⟨0, _⟩ =>
    show win0_6.index _ (0 : Fin 2) * 4000 ≤ (i 0).val ∧ (i 0).val < win0_6.index _ (0 : Fin 2) * 4000 + 4000
    rw [e0]; dsimp only; omega
  | ⟨1, _⟩ =>
    show win0_6.index _ (1 : Fin 2) * 128 ≤ (i 1).val ∧ (i 1).val < win0_6.index _ (1 : Fin 2) * 128 + 128
    rw [e1]; omega

/-- The product array after the region. -/
theorem region0_out6 (r : Fin 320000) (q : Fin 128) :
    ((dat0 V c).arrAt 6 cfg0.N : S320000x128.Idx → EReal) (ix2 r q) = y0 V c r q :=
  congrFun ((dat0 V c).arrAt_eq_of_cover 6 (prodArr0 V c) (fun t _ => r0_flushed6 V c t) (r0_cover6)) (ix2 r q)

/-! ## The two statistics rows -/

/-- The column sums of the product, and of its square, as functions of the [1,128] index. -/
def sumArr0 : S1x128.Idx → EReal := fun i => ∑ r : Fin 320000, y0 V c r (i 1)
def sqArr0 : S1x128.Idx → EReal := fun i => ∑ r : Fin 320000, y0 V c r (i 1) * y0 V c r (i 1)

/-- The one write-back of window 7, after the last point, writes the sums over all rows: the block is the whole row. -/
theorem r0_flushed7 (t : Fin cfg0.N) (hf : (cfg0.win 7).flush t = true) :
    (dat0 V c).flushed 7 t = ((cfg0.win 7).blk t).view.read (Elt Ideal) (sumArr0 V c) := by
  have hN : cfg0.N = 80 := N_0
  have h79 : t.val = 79 := by have := (flush0_7 t).mp hf; have := t.isLt; omega
  have e0 : win0_7.index t (0 : Fin 2) = 0 := (r0_idx t).w7.1
  have e1 : win0_7.index t (1 : Fin 2) = 0 := (r0_idx t).w7.2
  have hX : (outsAt0 V c t.val t.isLt).2.1 = sumArr0 V c := by
    funext j
    obtain ⟨u, q, rfl⟩ : ∃ (u : Fin 1) (q : Fin 128), j = ix2 u q := ⟨j 0, j 1, eq_ix2 j⟩
    have hu : u = 0 := Subsingleton.elim _ _
    subst hu
    refine ((r0_inv V c t.val t.isLt q).1).trans ?_
    rw [h79]
    exact r0_total V c q
  show (cfg0.win 7).cut (grid0.coords t) ((dat0 V c).after 7 t) = _
  rw [after0_7, hX]
  have hz' : (fun a => win0_7.index t a * main_v30_1.ty.shape.size a) = fun _ => 0 := funext fun a => by
    match a with
    | ⟨0, _⟩ => show win0_7.index t (0 : Fin 2) * 1 = 0; rw [e0]
    | ⟨1, _⟩ => show win0_7.index t (1 : Fin 2) * 128 = 0; rw [e1]
  exact (Memref.read_access_unit_zero (Elt Ideal) main_v30_1 hz' (fun a => by rw [congrFun hz' a]; simp) (sumArr0 V c)).symm

/-- An index of window 7's row is in point t's block iff each coordinate is in the block's range on its axis. -/
theorem r0_mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v30_1).slice (win0_7.rect t)).set ↔ _
  rw [View.set_slice_whole, Rect.mem_set_unit]
  exact Iff.rfl

/-- Every index of window 7's row is in the last point's block. -/
theorem r0_cover7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 80 := N_0
  have e0 := (r0_idx ⟨79, by rw [hN]; omega⟩).w7.1
  have e1 := (r0_idx ⟨79, by rw [hN]; omega⟩).w7.2
  refine ⟨⟨79, by rw [hN]; omega⟩, (flush0_7 _).mpr rfl, ?_⟩
  rw [r0_mem_blk7]
  intro a
  match a with
  | ⟨0, _⟩ =>
    show win0_7.index _ (0 : Fin 2) * 1 ≤ (i 0).val ∧ (i 0).val < win0_7.index _ (0 : Fin 2) * 1 + 1
    rw [e0]; omega
  | ⟨1, _⟩ =>
    show win0_7.index _ (1 : Fin 2) * 128 ≤ (i 1).val ∧ (i 1).val < win0_7.index _ (1 : Fin 2) * 128 + 128
    rw [e1]; omega

/-- The one write-back of window 8, after the last point, writes the sums over all rows: the block is the whole row. -/
theorem r0_flushed8 (t : Fin cfg0.N) (hf : (cfg0.win 8).flush t = true) :
    (dat0 V c).flushed 8 t = ((cfg0.win 8).blk t).view.read (Elt Ideal) (sqArr0 V c) := by
  have hN : cfg0.N = 80 := N_0
  have h79 : t.val = 79 := by have := (flush0_8 t).mp hf; have := t.isLt; omega
  have e0 : win0_8.index t (0 : Fin 2) = 0 := (r0_idx t).w8.1
  have e1 : win0_8.index t (1 : Fin 2) = 0 := (r0_idx t).w8.2
  have hX : (outsAt0 V c t.val t.isLt).2.2 = sqArr0 V c := by
    funext j
    obtain ⟨u, q, rfl⟩ : ∃ (u : Fin 1) (q : Fin 128), j = ix2 u q := ⟨j 0, j 1, eq_ix2 j⟩
    have hu : u = 0 := Subsingleton.elim _ _
    subst hu
    refine ((r0_inv V c t.val t.isLt q).2).trans ?_
    rw [h79]
    exact r0_totalSq V c q
  show (cfg0.win 8).cut (grid0.coords t) ((dat0 V c).after 8 t) = _
  rw [after0_8, hX]
  have hz' : (fun a => win0_8.index t a * main_v30_2.ty.shape.size a) = fun _ => 0 := funext fun a => by
    match a with
    | ⟨0, _⟩ => show win0_8.index t (0 : Fin 2) * 1 = 0; rw [e0]
    | ⟨1, _⟩ => show win0_8.index t (1 : Fin 2) * 128 = 0; rw [e1]
  exact (Memref.read_access_unit_zero (Elt Ideal) main_v30_2 hz' (fun a => by rw [congrFun hz' a]; simp) (sqArr0 V c)).symm

/-- An index of window 8's row is in point t's block iff each coordinate is in the block's range on its axis. -/
theorem r0_mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v30_2).slice (win0_8.rect t)).set ↔ _
  rw [View.set_slice_whole, Rect.mem_set_unit]
  exact Iff.rfl

/-- Every index of window 8's row is in the last point's block. -/
theorem r0_cover8 (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 80 := N_0
  have e0 := (r0_idx ⟨79, by rw [hN]; omega⟩).w8.1
  have e1 := (r0_idx ⟨79, by rw [hN]; omega⟩).w8.2
  refine ⟨⟨79, by rw [hN]; omega⟩, (flush0_8 _).mpr rfl, ?_⟩
  rw [r0_mem_blk8]
  intro a
  match a with
  | ⟨0, _⟩ =>
    show win0_8.index _ (0 : Fin 2) * 1 ≤ (i 0).val ∧ (i 0).val < win0_8.index _ (0 : Fin 2) * 1 + 1
    rw [e0]; omega
  | ⟨1, _⟩ =>
    show win0_8.index _ (1 : Fin 2) * 128 ≤ (i 1).val ∧ (i 1).val < win0_8.index _ (1 : Fin 2) * 128 + 128
    rw [e1]; omega

/-- The column-sum row after the region. -/
theorem region0_out7 (q : Fin 128) :
    ((dat0 V c).arrAt 7 cfg0.N : S1x128.Idx → EReal) (ix2 (0 : Fin 1) q) = ∑ r : Fin 320000, y0 V c r q :=
  congrFun ((dat0 V c).arrAt_eq_of_cover 7 (sumArr0 V c) (r0_flushed7 V c) (r0_cover7)) (ix2 (0 : Fin 1) q)

/-- The sum-of-squares row after the region. -/
theorem region0_out8 (q : Fin 128) :
    ((dat0 V c).arrAt 8 cfg0.N : S1x128.Idx → EReal) (ix2 (0 : Fin 1) q) = ∑ r : Fin 320000, y0 V c r q * y0 V c r q :=
  congrFun ((dat0 V c).arrAt_eq_of_cover 8 (sqArr0 V c) (r0_flushed8 V c) (r0_cover8)) (ix2 (0 : Fin 1) q)

end Cert.KernelIdeal.RegionValue

end
-- ==== Proof.Region1.lean ====
/-
  The scale-shift-and-rectify kernel of region 1, read entry by entry on the extended reals.

  The kernel walks the 320000 rows of a [320000,128] array in 80 blocks of 4000 rows. At each block it multiplies every
  entry by the scale of its column, adds the column's shift (both are [1,128] rows, read whole at every block)
  and takes the maximum with zero. Each block of the result depends only on the same block of the input, the
  blocks tile the array, so the result array holds that expression at every entry (r, q).
-/
import proofs.«131702_j10462540333326_2_alg».proof.Proof.Gen.KernelIdeal.Frame
import proofs.«131702_j10462540333326_2_alg».proof.Proof.LibDotRecord
import proofs.«131702_j10462540333326_2_alg».proof.Proof.Spec
import proofs.«131702_j10462540333326_2_alg».proof.Proof.HostArgs
import Idealize.ShloMosaic.Lib.Pipeline.Value
import Idealize.ShloMosaic.Lib.Tactic

noncomputable section

namespace Cert.KernelIdeal.RegionValue

open Cert.KernelIdeal Cert.KernelIdeal.Gen Cert.KernelIdeal.HostValue Idealize.ShloMosaic Idealize.ShloMosaic.TcCoe ValueIdx
open Idealize.ShloMosaic.Pipeline (Dat)

/-! ## One block -/

theorem r1_hz : (![0, 0] : Fin 2 → Nat) = fun _ => 0 := funext fun a => by fin_cases a <;> rfl

/-- The body's one store, at entry (p, q) of the block: the input entry times the column's scale plus the column's
    shift, or zero if that is negative. -/
theorem k1_pay1_apply (x0 : Vec Ideal S4000x128 .f32) (x1 x2 : Vec Ideal S1x128 .f32) (p : Fin 4000) (q : Fin 128) :
    k1_pay1 x0 x1 x2 (ix2 p q)
      = max (x0 (ix2 p q) * x1 (ix2 (0 : Fin 1) q) + x2 (ix2 (0 : Fin 1) q)) EdgeNodeLayer.cZero := by
  unfold k1_pay1
  refine (maximumf_apply _ _ _).trans ?_
  refine congrArg₂ max ?_ rfl
  refine (addf_apply _ _ _).trans ?_
  refine congrArg₂ (· + ·) ((mulf_apply _ _ _).trans (congrArg₂ (· * ·) ?_ ?_)) ?_
  · exact congrFun (shapeCast_self _ _) _
  · exact (DotRecord.broadcastTo_1b_ab_apply _ _ p q).trans (congrFun (shapeCast_self _ _) _)
  · exact (DotRecord.broadcastTo_1b_ab_apply _ _ p q).trans (congrFun (shapeCast_self _ _) _)

/-- What the body leaves in the output's block is that store's value: the store covers the block and its loads read
    the three input blocks whole. -/
theorem out1_3_eq {F : FTy → Type} [FloatOps F] (x0 : Vec F S4000x128 .f32) (x1 x2 : Vec F S1x128 .f32) :
    out1_3 x0 x1 x2 = k1_pay1 x0 x1 x2 := by
  unfold out1_3
  rw [View.canon_unit_zero r1_hz]
  simp only [View.ld_unit_zero (S := S4000x128) r1_hz, View.ld_unit_zero (S := S1x128) r1_hz]

/-! ## From blocks to the array -/

variable (V : (c : Dev nD) → (b : Ref sig .tc) → Buf (Elt Ideal) ((c : Thread nD τ).loc b)) (c : Dev nD)

/-- The value at entry (r, q) of the result: entry (r, q) of the input array times the scale of column q plus its
    shift, or zero if that is negative. -/
def bnRelu1 (r : Fin 320000) (q : Fin 128) : EReal :=
  max (rd2 (V c (Pipeline.arrRef spec1 0)) r q * rd2 (V c (Pipeline.arrRef spec1 1)) (0 : Fin 1) q
    + rd2 (V c (Pipeline.arrRef spec1 2)) (0 : Fin 1) q) EdgeNodeLayer.cZero

/-- The same as one function of the array index. -/
def bnReluArr1 : S320000x128.Idx → EReal := fun i => bnRelu1 V c (i 0) (i 1)

/-- Where the windows' blocks sit at point t: the row blocks of the input and of the result at block t, the scale and
    shift rows at their only block. Decided over the grid. -/
theorem r1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the input's block at point t is entry (4000 t + p, q) of the input array. -/
theorem r1_blk0 (t : Fin cfg1.N) (p : Fin 4000) (q : Fin 128) (r : Fin 320000) (hr : r.val = 4000 * t.val + p.val) :
    iblk1 V c 0 t (ix2 p q) = rd2 (V c (Pipeline.arrRef spec1 0)) r q := by
  obtain ⟨e0, e1, -⟩ := r1_idx t
  unfold iblk1
  rw [View.read_apply]
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * q.val = q.val; rw [e1]; omega

/-- The scale row's block at any point is the scale row. -/
theorem r1_blk1 (t : Fin cfg1.N) (q : Fin 128) :
    iblk1 V c 1 t (ix2 (0 : Fin 1) q) = rd2 (V c (Pipeline.arrRef spec1 1)) (0 : Fin 1) q := by
  obtain ⟨-, -, e2, e3, -⟩ := r1_idx t
  unfold iblk1
  rw [View.read_apply]
  show V c (Pipeline.arrRef spec1 1) (((cfg1.win 1).blk t).view.emb (ix2 (0 : Fin 1) q)) = _
  refine congrArg (V c (Pipeline.arrRef spec1 1)) (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- The shift row's block at any point is the shift row. -/
theorem r1_blk2 (t : Fin cfg1.N) (q : Fin 128) :
    iblk1 V c 2 t (ix2 (0 : Fin 1) q) = rd2 (V c (Pipeline.arrRef spec1 2)) (0 : Fin 1) q := by
  obtain ⟨-, -, -, -, e4, e5, -⟩ := r1_idx t
  unfold iblk1
  rw [View.read_apply]
  show V c (Pipeline.arrRef spec1 2) (((cfg1.win 2).blk t).view.emb (ix2 (0 : Fin 1) q)) = _
  refine congrArg (V c (Pipeline.arrRef spec1 2)) (funext fun a => Fin.ext ?_)
  match a with
  | ⟨0, _⟩ => show win1_2.index t (0 : Fin 2) * 1 + 1 * 0 = 0; rw [e4]
  | ⟨1, _⟩ => show win1_2.index t (1 : Fin 2) * 128 + 1 * q.val = q.val; rw [e5]; omega

/-- What point t writes back is block t of the whole-array function. -/
theorem r1_flushed (t : Fin cfg1.N) :
    (dat1 V c).flushed 3 t = ((cfg1.win 3).blk t).view.read (Elt Ideal) (bnReluArr1 V c) := by
  have hN : t.val < 80 := lt_of_lt_of_eq t.isLt (show cfg1.N = 80 from N_1)
  obtain ⟨-, -, -, -, -, -, e6, e7⟩ := r1_idx t
  show (cfg1.win 3).cut (grid1.coords t) ((dat1 V c).after 3 t) = _
  rw [after1_3, out1_3_eq]
  funext j
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (ix2 p q)
    = bnReluArr1 V c (((cfg1.win 3).blk t).view.emb (ix2 p q))
  have hemb : ((cfg1.win 3).blk t).view.emb (ix2 p q) = (ix2 (⟨4000 * t.val + p.val, by omega⟩ : Fin 320000) q : S320000x128.Idx) := by
    funext a; apply Fin.ext
    match a with
    | ⟨0, _⟩ => show win1_3.index t (0 : Fin 2) * 4000 + 1 * p.val = 4000 * t.val + p.val; rw [e6]; omega
    | ⟨1, _⟩ => show win1_3.index t (1 : Fin 2) * 128 + 1 * q.val = q.val; rw [e7]; omega
  rw [hemb]
  refine (k1_pay1_apply (iblk1 V c 0 t) (iblk1 V c 1 t) (iblk1 V c 2 t) p q).trans ?_
  rw [r1_blk0 V c t p q ⟨4000 * t.val + p.val, by omega⟩ rfl, r1_blk1 V c t q, r1_blk2 V c t q]
  rfl

/-- An index of the result array is in point t's block iff each coordinate is in the block's range on its axis. -/
theorem r1_mem_blk (t : Fin cfg1.N) (i : S320000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v48).slice (win1_3.rect t)).set ↔ _
  rw [View.set_slice_whole, Rect.mem_set_unit]
  exact Iff.rfl

/-- Row r lies in the block of point r / 4000: the blocks tile the array. -/
theorem r1_cover (i : S320000x128.Idx) :
    ∃ t : Fin cfg1.N, (cfg1.win 3).flush t = true ∧ i ∈ ((cfg1.win 3).blk t).view.set := by
  have hi0 : (i 0).val < 320000 := (i 0).isLt
  have hi1 : (i 1).val < 128 := (i 1).isLt
  have hN : cfg1.N = 80 := N_1
  refine ⟨⟨(i 0).val / 4000, by rw [hN]; omega⟩, flush1_3 _, ?_⟩
  obtain ⟨-, -, -, -, -, -, e6, e7⟩ := r1_idx ⟨(i 0).val / 4000, by rw [hN]; omega⟩
  rw [r1_mem_blk]
  intro a
  match a with
  | ⟨0, _⟩ =>
    show win1_3.index _ (0 : Fin 2) * 4000 ≤ (i 0).val ∧ (i 0).val < win1_3.index _ (0 : Fin 2) * 4000 + 4000
    rw [e6]; dsimp only; omega
  | ⟨1, _⟩ =>
    show win1_3.index _ (1 : Fin 2) * 128 ≤ (i 1).val ∧ (i 1).val < win1_3.index _ (1 : Fin 2) * 128 + 128
    rw [e7]; omega

/-- The result array after the region, entry by entry. -/
theorem region1_out3 (r : Fin 320000) (q : Fin 128) :
    ((dat1 V c).arrAt 3 cfg1.N : S320000x128.Idx → EReal) (ix2 r q)
      = max (rd2 (V c (Pipeline.arrRef spec1 0)) r q * rd2 (V c (Pipeline.arrRef spec1 1)) (0 : Fin 1) q
    + rd2 (V c (Pipeline.arrRef spec1 2)) (0 : Fin 1) q) EdgeNodeLayer.cZero :=
  congrFun ((dat1 V c).arrAt_eq_of_cover 3 (bnReluArr1 V c) (fun t _ => r1_flushed V c t) (r1_cover)) (ix2 r q)

end Cert.KernelIdeal.RegionValue

end
-- ==== Proof.Region2Math.lean ====
/-
  The arithmetic of one row block of a matrix product with running column statistics, on the extended reals.

  A block of n rows of the left matrix is multiplied with the whole right matrix; the product block is kept, and two
  rows of statistics are carried from block to block: the column sums of the product and the column sums of its
  squares. Here: the product block read at an entry as the sum over the contracted coordinate; a column sum of a
  block, kept as a one-row matrix, read at a column; the zero row; and the sum over all rows of the full matrix cut
  into the consecutive blocks of a run.
-/
import proofs.«131702_j10462540333326_2_alg».proof.Proof.LibDotRecord
import proofs.«131702_j10462540333326_2_alg».proof.Proof.LibColumnSum
import proofs.«131702_j10462540333326_2_alg».proof.Proof.LibBlockSums
import Idealize.ShloMosaic.Lib.ValueLayout

open scoped BigOperators

namespace Cert.KernelIdeal.RegionValue.R2

open Idealize.ShloMosaic Idealize.ShloMosaic.ValueIdx

variable {n K N : ℕ}

/-- The product of a block with the right matrix, both narrowed to the matrix unit's input format and accumulated into
    zero: at entry (p, q) the sum over the contracted coordinate (a change of format is the identity on the extended
    reals, and so is a cast to the same shape). -/
theorem prod_apply (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![n, K]⟩ .f32) (w : FVec Ideal ⟨2, ![K, N]⟩ .f32)
    (hc : (⟨2, ![n, K]⟩ : Shape).ShapeCasts ⟨2, ![n, K]⟩) (hb : FTy.bits .bf16 < FTy.bits .f32)
    (p : Fin n) (q : Fin N) :
    matmul d none (truncf .bf16 (shapeCast ⟨2, ![n, K]⟩ x hc) hb) (truncf .bf16 w hb)
        (constant ⟨2, ![n, N]⟩ .f32 0x00000000#32) (ix2 p q)
      = ∑ k : Fin K, x (ix2 p k) * w (ix2 k q) := by
  refine (DotRecord.matmul_zero_apply d h1 h2 h3 h4 h5 h6 _ _ none p q).trans ?_
  refine Finset.sum_congr rfl fun k _ => ?_
  rw [shapeCast_self]
  rfl

/-- The column sums of a block, kept as a one-row matrix: at column q the sum of the block's n entries of that column. -/
theorem colRow_apply (v : FVec Ideal ⟨2, ![n, N]⟩ .f32) (h : Shape.Reduces ⟨2, ![n, N]⟩ [0] ⟨1, ![N]⟩)
    (hφ : FKind.Formats .f32) (hacc : (0x00000000#32 : BitVec 32) = FKind.add.neutral .f32 hφ)
    (hc : (⟨1, ![N]⟩ : Shape).ShapeCasts ⟨2, ![1, N]⟩) (u : Fin 1) (q : Fin N) :
    shapeCast ⟨2, ![1, N]⟩ (multiReduction .add [0] ⟨1, ![N]⟩ v 0x00000000#32 h hφ hacc) hc (ix2 u q)
      = ∑ j : Fin n, v (ix2 j q) :=
  (shapeCast_a_1a_apply _ hc u q).trans (ColumnSum.colSum_apply v h hφ hacc q)

/-- The row of zeros a run starts from. -/
theorem zeroRow_apply (i : (⟨2, ![1, N]⟩ : Shape).Idx) :
    (broadcast ⟨2, ![1, N]⟩ (Scalar.ofBits (F := Ideal) .f32 0x00000000#32) : FVec Ideal ⟨2, ![1, N]⟩ .f32) i = 0 :=
  Ideal.ofBits_zero_f32

/-- The blocks of a run, one after the other: the sum over the first `m` blocks, as a function of `m`, where block `s` of
    `b` rows contributes the sum of `f` over its rows `b s + i`. -/
noncomputable def blockTerm {M : Type*} [AddCommMonoid M] (nb b : ℕ) (f : Fin (nb * b) → M) (s : ℕ) : M :=
  if h : s < nb then ∑ i : Fin b, f ⟨b * s + i.val, BlockSums.block_row_lt h i.isLt⟩ else 0

/-- All `nb` blocks together are the whole range of rows. -/
theorem sum_blockTerm {M : Type*} [AddCommMonoid M] (nb b : ℕ) (f : Fin (nb * b) → M) :
    ∑ s ∈ Finset.range nb, blockTerm nb b f s = ∑ r, f r := by
  rw [Finset.sum_range, BlockSums.sum_fin_mul_blocks nb b f]
  refine Finset.sum_congr rfl fun t _ => ?_
  unfold blockTerm
  rw [dif_pos t.isLt]

end Cert.KernelIdeal.RegionValue.R2
-- ==== Proof.Region2Pay.lean ====
/-
  What the body of the matrix-product-with-statistics kernel computes from the blocks it loads, on the extended reals.

  From a block x of 2000 rows of the left matrix and the right matrix w it forms the product block
  P (p, q) = ∑ k, x (p, k) * w (k, q); it stores P; to the running row of column sums it adds ∑ p, P (p, q); to the
  running row of column sums of squares it adds ∑ p, P (p, q) * P (p, q); a run starts both rows at zero.
-/
import proofs.«131702_j10462540333326_2_alg».proof.Proof.Gen.KernelIdeal.Skeleton
import proofs.«131702_j10462540333326_2_alg».proof.Proof.Region2Math

open scoped BigOperators

namespace Cert.KernelIdeal.RegionValue.R2

open Cert.KernelIdeal Cert.KernelIdeal.Gen Idealize.ShloMosaic Idealize.ShloMosaic.ValueIdx

/-- The product block at entry (p, q): the sum over the 128 contracted coordinates. -/
theorem pay3_apply (x : Vec Ideal S2000x128 .f32) (w : Vec Ideal S128x256 .f32) (p : Fin 2000) (q : Fin 256) :
    k2_pay3 (F := Ideal) x w (ix2 p q) = ∑ k : Fin 128, x (ix2 p k) * w (ix2 k q) := by
  unfold k2_pay3
  exact prod_apply dot_S2000x128_S128x256_S2000x256_1_0_0_1_n_n rfl rfl rfl rfl rfl rfl x w _ _ p q

/-- The stored block is the product block (narrowing the format changes no extended real). -/
theorem pay4_apply (x : Vec Ideal S2000x128 .f32) (w : Vec Ideal S128x256 .f32) (p : Fin 2000) (q : Fin 256) :
    k2_pay4 (F := Ideal) x w (ix2 p q) = ∑ k : Fin 128, x (ix2 p k) * w (ix2 k q) := by
  unfold k2_pay4
  exact pay3_apply x w p q

/-- The running row of column sums after a block: what it held plus the block's column sum. -/
theorem pay5_apply (x : Vec Ideal S2000x128 .f32) (w : Vec Ideal S128x256 .f32) (acc : Vec Ideal S1x256 .f32)
    (u : Fin 1) (q : Fin 256) :
    k2_pay5 (F := Ideal) x w acc (ix2 u q)
      = acc (ix2 u q) + ∑ p : Fin 2000, k2_pay3 (F := Ideal) x w (ix2 p q) := by
  unfold k2_pay5
  refine congrArg₂ (· + ·) ?_ ?_
  · exact congrFun (shapeCast_self acc _) (ix2 u q)
  · exact colRow_apply (k2_pay3 (F := Ideal) x w) _ _ _ _ u q

/-- The running row of column sums of squares after a block: what it held plus the block's column sum of squares. -/
theorem pay6_apply (x : Vec Ideal S2000x128 .f32) (w : Vec Ideal S128x256 .f32) (acc : Vec Ideal S1x256 .f32)
    (u : Fin 1) (q : Fin 256) :
    k2_pay6 (F := Ideal) x w acc (ix2 u q)
      = acc (ix2 u q) + ∑ p : Fin 2000, k2_pay3 (F := Ideal) x w (ix2 p q) * k2_pay3 (F := Ideal) x w (ix2 p q) := by
  unfold k2_pay6
  refine congrArg₂ (· + ·) ?_ ?_
  · exact congrFun (shapeCast_self acc _) (ix2 u q)
  · exact colRow_apply (mulf (k2_pay3 (F := Ideal) x w) (k2_pay3 (F := Ideal) x w)) _ _ _ _ u q

/-- The two rows a run starts from are zero. -/
theorem pay1_apply (i : S1x256.Idx) : k2_pay1 (F := Ideal) i = 0 := by
  unfold k2_pay1
  exact zeroRow_apply i

theorem pay2_apply (i : S1x256.Idx) : k2_pay2 (F := Ideal) i = 0 := by
  unfold k2_pay2
  exact zeroRow_apply i

end Cert.KernelIdeal.RegionValue.R2
-- ==== Proof.Region2Pieces.lean ====
/-
  What each case of the kernel body leaves in its three output buffers, as the body's arithmetic applied to the blocks
  it loaded.

  The body stores each output through the whole of its buffer, so what a buffer holds afterwards is the payload of the
  last store into it. At the first point of the run the two statistics rows are first set to zero and then read back,
  so the addition starts from the zero row; at a later point it starts from what the buffer held.
-/
import proofs.«131702_j10462540333326_2_alg».proof.Proof.Gen.KernelIdeal.Frame
import Idealize.ShloMosaic.Lib.Pipeline.Value
import Idealize.ShloMosaic.Lib.Tactic

noncomputable section

namespace Cert.KernelIdeal.RegionValue.R2

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point, product block: the stored block is the product of the loaded blocks. -/
theorem outA_2 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : cond2_0 i)
    (x0 : Vec F S2000x128 .f32) (x1 : Vec F S128x256 .f32) :
    out2_A_2 c i a1 h1 a2 h2 a3 h3 a4 h4 a5 h5 hc x0 x1 = k2_pay4 x0 x1 := by
  unfold out2_A_2
  rw [View.read_writes_eq_canon _ _ _ (cover2_A_2 c i a1 h1 a2 h2 a3 h3 a4 h4 a5 h5 hc x0 x1)]
  unfold kernelRun2_A
  dsimp only
  sl_unfold_words
  rw [View.canon_unit_zero hz]
  simp only [View.readAt_eq_ld, h1.read_unread, h2.read_unread, View.ld_unit_zero (S := S2000x128) hz,
    View.ld_unit_zero (S := S128x256) hz]

/-- First point, row of column sums: the zero row plus the block's column sums. -/
theorem outA_3 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : cond2_0 i)
    (x0 : Vec F S2000x128 .f32) (x1 : Vec F S128x256 .f32) :
    out2_A_3 c i a1 h1 a2 h2 a3 h3 a4 h4 a5 h5 hc x0 x1 = k2_pay5 x0 x1 (k2_pay1 (F := F)) := by
  unfold out2_A_3
  rw [View.read_writes_eq_canon _ _ _ (cover2_A_3 c i a1 h1 a2 h2 a3 h3 a4 h4 a5 h5 hc x0 x1)]
  unfold kernelRun2_A
  dsimp only
  sl_unfold_words
  rw [View.canon_cons_unit_zero (S := S1x256) hz, View.readCov_unit_zero (S := S1x256) _ hz]
  simp only [View.readAt_eq_ld, h1.read_unread, h2.read_unread, View.ld_unit_zero (S := S2000x128) hz,
    View.ld_unit_zero (S := S128x256) hz]

/-- First point, row of column sums of squares: the zero row plus the block's column sums of squares. -/
theorem outA_4 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : cond2_0 i)
    (x0 : Vec F S2000x128 .f32) (x1 : Vec F S128x256 .f32) :
    out2_A_4 c i a1 h1 a2 h2 a3 h3 a4 h4 a5 h5 hc x0 x1 = k2_pay6 x0 x1 (k2_pay2 (F := F)) := by
  unfold out2_A_4
  rw [View.read_writes_eq_canon _ _ _ (cover2_A_4 c i a1 h1 a2 h2 a3 h3 a4 h4 a5 h5 hc x0 x1)]
  unfold kernelRun2_A
  dsimp only
  sl_unfold_words
  rw [View.canon_cons_unit_zero (S := S1x256) hz, View.readCov_unit_zero (S := S1x256) _ hz]
  simp only [View.readAt_eq_ld, h1.read_unread, h2.read_unread, View.ld_unit_zero (S := S2000x128) hz,
    View.ld_unit_zero (S := S128x256) hz]

/-- Later point, product block. -/
theorem outB_2 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : ¬cond2_0 i)
    (x0 : Vec F S2000x128 .f32) (x1 : Vec F S128x256 .f32) (xo3 xo4 : Vec F S1x256 .f32) :
    out2_B_2 c i a1 h1 a2 h2 a3 h3 a4 h4 a5 h5 hc x0 x1 xo3 xo4 = k2_pay4 x0 x1 := by
  unfold out2_B_2
  rw [View.read_writes_eq_canon _ _ _ (cover2_B_2 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, View.ld_unit_zero (S := S2000x128) hz,
    View.ld_unit_zero (S := S128x256) hz]

/-- Later point, row of column sums: what the buffer held plus the block's column sums. -/
theorem outB_3 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : ¬cond2_0 i)
    (x0 : Vec F S2000x128 .f32) (x1 : Vec F S128x256 .f32) (xo3 xo4 : Vec F S1x256 .f32) :
    out2_B_3 c i a1 h1 a2 h2 a3 h3 a4 h4 a5 h5 hc x0 x1 xo3 xo4 = k2_pay5 x0 x1 xo3 := by
  unfold out2_B_3
  rw [View.read_writes_eq_canon _ _ _ (cover2_B_3 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h4.read_unread, View.ld_unit_zero (S := S2000x128) hz,
    View.ld_unit_zero (S := S128x256) hz, View.ld_unit_zero (S := S1x256) hz]

/-- Later point, row of column sums of squares: what the buffer held plus the block's column sums of squares. -/
theorem outB_4 (c : Dev nD) (i : grid2.Coords) (a1 : Memref sig .tc .vmem S2000x128 .f32) (h1 : a1.IsWhole) (a2 : Memref sig .tc .vmem S128x256 .f32) (h2 : a2.IsWhole) (a3 : Memref sig .tc .vmem S2000x256 .bf16) (h3 : a3.IsWhole) (a4 : Memref sig .tc .vmem S1x256 .f32) (h4 : a4.IsWhole) (a5 : Memref sig .tc .vmem S1x256 .f32) (h5 : a5.IsWhole) (hc : ¬cond2_0 i)
    (x0 : Vec F S2000x128 .f32) (x1 : Vec F S128x256 .f32) (xo3 xo4 : Vec F S1x256 .f32) :
    out2_B_4 c i a1 h1 a2 h2 a3 h3 a4 h4 a5 h5 hc x0 x1 xo3 xo4 = k2_pay6 x0 x1 xo4 := by
  unfold out2_B_4
  rw [View.read_writes_eq_canon _ _ _ (cover2_B_4 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h5.read_unread, View.ld_unit_zero (S := S2000x128) hz,
    View.ld_unit_zero (S := S128x256) hz, View.ld_unit_zero (S := S1x256) hz]

end Cert.KernelIdeal.RegionValue.R2

end
-- ==== Proof.Region2Value.lean ====
/-
  Region 2 (the matrix product with running statistics over 10 blocks of 2000 rows): what its three output arrays hold
  after the region, as functions of the arrays it finds.

  Write A 0 for the [20000, 128] left matrix and A 1 for the [128, 256] right matrix as the region finds them, and
  y (r, q) = ∑ j, A 0 (r, j) * A 1 (j, q). Point t of the grid loads rows 2000 t … 2000 t + 1999 of A 0 and all of A 1,
  so its product block is rows 2000 t … of y; it is written back at every point, and the blocks tile the output. The
  two statistics rows are carried from point to point and written back after the last: after point n they hold the
  column sums (of y, of y * y) over the rows below 2000 (n + 1), by induction on n; after point 9 that is every row.
-/
import proofs.«131702_j10462540333326_2_alg».proof.Proof.Gen.KernelIdeal.Frame
import proofs.«131702_j10462540333326_2_alg».proof.Proof.Region2Pay
import proofs.«131702_j10462540333326_2_alg».proof.Proof.Region2Pieces
import proofs.«131702_j10462540333326_2_alg».proof.Proof.HostArgs
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open Cert.KernelIdeal.HostValue (rd2)

variable (V : (c : Dev nD) → (b : Ref sig .tc) → Buf (Elt Ideal) ((c : Thread nD τ).loc b)) (c : Dev nD)

/-- The left matrix as the region finds it (the array of window 0). -/
abbrev A2_0 : S20000x128.Idx → EReal := V c (Pipeline.arrRef spec2 0)
/-- The right matrix as the region finds it (the array of window 1). -/
abbrev A2_1 : S128x256.Idx → EReal := V c (Pipeline.arrRef spec2 1)

/-- Entry (r, q) of the product of the two matrices the region finds. -/
def y2 (r : Fin 20000) (q : Fin 256) : EReal :=
  ∑ j : Fin 128, rd2 (V c (Pipeline.arrRef spec2 0)) r j * rd2 (V c (Pipeline.arrRef spec2 1)) j q

namespace R2

/-- Where each window's block sits at point t: the row blocks of windows 0 and 2 move with the point, every other
    block index is zero. Decided over the ten points. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row p of the left block at point t is row 2000 t + p of the left matrix. -/
theorem iblk0_apply (t : Fin cfg2.N) (p : Fin 2000) (k : Fin 128) (hr : 2000 * t.val + p.val < 20000) :
    (iblk2 V c 0 t : Vec Ideal S2000x128 .f32) (ix2 p k)
      = A2_0 V c (ix2 ⟨2000 * t.val + p.val, hr⟩ k) := by
  obtain ⟨e0, e1, -⟩ := idx_facts t
  unfold iblk2
  rw [View.read_apply]
  show V c (Pipeline.arrRef spec2 0) (((cfg2.win 0).blk t).view.emb (ix2 p k)) = _
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

/-- The right block at every point is the whole right matrix. -/
theorem iblk1_apply (t : Fin cfg2.N) (k : Fin 128) (q : Fin 256) :
    (iblk2 V c 1 t : Vec Ideal S128x256 .f32) (ix2 k q)
      = A2_1 V c (ix2 k q) := by
  obtain ⟨-, -, e0, e1, -⟩ := idx_facts t
  unfold iblk2
  rw [View.read_apply]
  show V c (Pipeline.arrRef spec2 1) (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 256 + 1 * q.val = q.val; omega

/-- The product block of point t at (p, q) is y at row 2000 t + p. -/
theorem prod_entry (t : Fin cfg2.N) (p : Fin 2000) (q : Fin 256) (hr : 2000 * t.val + p.val < 20000) :
    k2_pay3 (F := Ideal) (iblk2 V c 0 t) (iblk2 V c 1 t) (ix2 p q) = y2 V c ⟨2000 * t.val + p.val, hr⟩ q := by
  refine (pay3_apply (iblk2 V c 0 t) (iblk2 V c 1 t) p q).trans ?_
  unfold y2
  refine Finset.sum_congr rfl fun k _ => ?_
  rw [iblk0_apply V c t p k hr, iblk1_apply V c t k q]

/-- The column sum of point t's product block is the sum of y over the rows of block t. -/
theorem block_sum (t : Fin cfg2.N) (q : Fin 256) :
    ∑ p : Fin 2000, k2_pay3 (F := Ideal) (iblk2 V c 0 t) (iblk2 V c 1 t) (ix2 p q)
      = blockTerm 10 2000 (fun r : Fin 20000 => y2 V c r q) t.val := by
  have hN : t.val < 10 := lt_of_lt_of_eq t.isLt (show cfg2.N = 10 from N_2)
  unfold blockTerm
  rw [dif_pos hN]
  exact Finset.sum_congr rfl fun p _ => prod_entry V c t p q _

/-- The column sum of squares of point t's product block is the sum of y * y over the rows of block t. -/
theorem block_sumsq (t : Fin cfg2.N) (q : Fin 256) :
    ∑ p : Fin 2000, k2_pay3 (F := Ideal) (iblk2 V c 0 t) (iblk2 V c 1 t) (ix2 p q)
        * k2_pay3 (F := Ideal) (iblk2 V c 0 t) (iblk2 V c 1 t) (ix2 p q)
      = blockTerm 10 2000 (fun r : Fin 20000 => y2 V c r q * y2 V c r q) t.val := by
  have hN : t.val < 10 := lt_of_lt_of_eq t.isLt (show cfg2.N = 10 from N_2)
  unfold blockTerm
  rw [dif_pos hN]
  refine Finset.sum_congr rfl fun p _ => ?_
  rw [prod_entry V c t p q (BlockSums.block_row_lt hN p.isLt)]

/-- What the three output buffers hold after the first point, as the body's arithmetic of the blocks loaded there. -/
theorem at_first (t : Fin cfg2.N) (h0 : t.val % 10 = 0) :
    outsAt2 V c t.val t.isLt
      = (k2_pay4 (iblk2 V c 0 t) (iblk2 V c 1 t), k2_pay5 (iblk2 V c 0 t) (iblk2 V c 1 t) (k2_pay1 (F := Ideal)),
          k2_pay6 (iblk2 V c 0 t) (iblk2 V c 1 t) (k2_pay2 (F := Ideal))) := by
  refine (outsAt2_A V c t h0).trans ?_
  refine congrArg₂ Prod.mk ?_ (congrArg₂ Prod.mk ?_ ?_)
  · exact outA_2 (F := Ideal) c (grid2.coords t) (ms2_0 t) (hs2_0 t) (ms2_1 t) (hs2_1 t) (ms2_2 t) (hs2_2 t) (ms2_3 t) (hs2_3 t)
      (ms2_4 t) (hs2_4 t) ((hcond2_0 t).mpr h0) (iblk2 V c 0 t) (iblk2 V c 1 t)
  · exact outA_3 (F := Ideal) c (grid2.coords t) (ms2_0 t) (hs2_0 t) (ms2_1 t) (hs2_1 t) (ms2_2 t) (hs2_2 t) (ms2_3 t) (hs2_3 t)
      (ms2_4 t) (hs2_4 t) ((hcond2_0 t).mpr h0) (iblk2 V c 0 t) (iblk2 V c 1 t)
  · exact outA_4 (F := Ideal) c (grid2.coords t) (ms2_0 t) (hs2_0 t) (ms2_1 t) (hs2_1 t) (ms2_2 t) (hs2_2 t) (ms2_3 t) (hs2_3 t)
      (ms2_4 t) (hs2_4 t) ((hcond2_0 t).mpr h0) (iblk2 V c 0 t) (iblk2 V c 1 t)

/-- What they hold after a later point, over what the point before left in the two statistics rows. -/
theorem at_later (t : Fin cfg2.N) (h0 : ¬t.val % 10 = 0) :
    outsAt2 V c t.val t.isLt
      = (k2_pay4 (iblk2 V c 0 t) (iblk2 V c 1 t),
          k2_pay5 (iblk2 V c 0 t) (iblk2 V c 1 t) (outsAt2 V c (t.val - 1) (Nat.lt_of_le_of_lt (Nat.sub_le _ _) t.isLt)).2.1,
          k2_pay6 (iblk2 V c 0 t) (iblk2 V c 1 t) (outsAt2 V c (t.val - 1) (Nat.lt_of_le_of_lt (Nat.sub_le _ _) t.isLt)).2.2) := by
  refine (outsAt2_B V c t h0).trans ?_
  refine congrArg₂ Prod.mk ?_ (congrArg₂ Prod.mk ?_ ?_)
  · exact outB_2 (F := Ideal) c (grid2.coords t) (ms2_0 t) (hs2_0 t) (ms2_1 t) (hs2_1 t) (ms2_2 t) (hs2_2 t) (ms2_3 t) (hs2_3 t)
      (ms2_4 t) (hs2_4 t) (fun h => h0 ((hcond2_0 t).mp h)) (iblk2 V c 0 t) (iblk2 V c 1 t) _ _
  · exact outB_3 (F := Ideal) c (grid2.coords t) (ms2_0 t) (hs2_0 t) (ms2_1 t) (hs2_1 t) (ms2_2 t) (hs2_2 t) (ms2_3 t) (hs2_3 t)
      (ms2_4 t) (hs2_4 t) (fun h => h0 ((hcond2_0 t).mp h)) (iblk2 V c 0 t) (iblk2 V c 1 t) _ _
  · exact outB_4 (F := Ideal) c (grid2.coords t) (ms2_0 t) (hs2_0 t) (ms2_1 t) (hs2_1 t) (ms2_2 t) (hs2_2 t) (ms2_3 t) (hs2_3 t)
      (ms2_4 t) (hs2_4 t) (fun h => h0 ((hcond2_0 t).mp h)) (iblk2 V c 0 t) (iblk2 V c 1 t) _ _

/-- The product block a point leaves is the product of the blocks it loaded, whichever case the point is in. -/
theorem prod_block (t : Fin cfg2.N) :
    (outsAt2 V c t.val t.isLt).1 = k2_pay4 (iblk2 V c 0 t) (iblk2 V c 1 t) := by
  by_cases h0 : t.val % 10 = 0
  · rw [at_first V c t h0]
  · rw [at_later V c t h0]

/-- After point n the row of column sums holds the column sums of y over the rows of blocks 0 … n, and the row of
    column sums of squares those of y * y: by induction on the point. -/
theorem stats_inv : ∀ (n : ℕ) (h : n < cfg2.N) (u : Fin 1) (q : Fin 256),
    (outsAt2 V c n h).2.1 (ix2 u q)
        = ∑ s ∈ Finset.range (n + 1), blockTerm 10 2000 (fun r : Fin 20000 => y2 V c r q) s
      ∧ (outsAt2 V c n h).2.2 (ix2 u q)
        = ∑ s ∈ Finset.range (n + 1), blockTerm 10 2000 (fun r : Fin 20000 => y2 V c r q * y2 V c r q) s
  | 0, h, u, q => by
    have e := at_first V c ⟨0, h⟩ rfl
    constructor
    · refine (congrFun (congrArg (fun x => x.2.1) e) (ix2 u q)).trans ?_
      refine (pay5_apply (iblk2 V c 0 ⟨0, h⟩) (iblk2 V c 1 ⟨0, h⟩) (k2_pay1 (F := Ideal)) u q).trans ?_
      rw [pay1_apply, zero_add, Finset.sum_range_one]
      exact block_sum V c ⟨0, h⟩ q
    · refine (congrFun (congrArg (fun x => x.2.2) e) (ix2 u q)).trans ?_
      refine (pay6_apply (iblk2 V c 0 ⟨0, h⟩) (iblk2 V c 1 ⟨0, h⟩) (k2_pay2 (F := Ideal)) u q).trans ?_
      rw [pay2_apply, zero_add, Finset.sum_range_one]
      exact block_sumsq V c ⟨0, h⟩ q
  | n + 1, h, u, q => by
    have hN : cfg2.N = 10 := N_2
    have hB : ¬(⟨n + 1, h⟩ : Fin cfg2.N).val % 10 = 0 := by dsimp only; omega
    have e := at_later V c ⟨n + 1, h⟩ hB
    obtain ⟨ih1, ih2⟩ := stats_inv n (Nat.lt_of_succ_lt h) u q
    constructor
    · refine (congrFun (congrArg (fun x => x.2.1) e) (ix2 u q)).trans ?_
      refine (pay5_apply (iblk2 V c 0 ⟨n + 1, h⟩) (iblk2 V c 1 ⟨n + 1, h⟩) _ u q).trans ?_
      rw [Finset.sum_range_succ _ (n + 1)]
      exact congrArg₂ (· + ·) ih1 (block_sum V c ⟨n + 1, h⟩ q)
    · refine (congrFun (congrArg (fun x => x.2.2) e) (ix2 u q)).trans ?_
      refine (pay6_apply (iblk2 V c 0 ⟨n + 1, h⟩) (iblk2 V c 1 ⟨n + 1, h⟩) _ u q).trans ?_
      rw [Finset.sum_range_succ _ (n + 1)]
      exact congrArg₂ (· + ·) ih2 (block_sumsq V c ⟨n + 1, h⟩ q)

/-- Narrowing the stored block's format changes no extended real: the stored block is the product block. -/
theorem pay4_eq_pay3 (x : Vec Ideal S2000x128 .f32) (w : Vec Ideal S128x256 .f32) (i : S2000x256.Idx) :
    k2_pay4 (F := Ideal) x w i = k2_pay3 (F := Ideal) x w i := rfl

/-- The three arrays the region leaves: the product, its column sums, the column sums of its squares. -/
def G2 : S20000x256.Idx → EReal := fun i => y2 V c ⟨(i 0).val, idx2_lt0 i⟩ ⟨(i 1).val, idx2_lt1 i⟩
def G3 : S1x256.Idx → EReal := fun i => ∑ r : Fin 20000, y2 V c r ⟨(i 1).val, idx2_lt1 i⟩
def G4 : S1x256.Idx → EReal :=
  fun i => ∑ r : Fin 20000, y2 V c r ⟨(i 1).val, idx2_lt1 i⟩ * y2 V c r ⟨(i 1).val, idx2_lt1 i⟩

/-- Point t writes back rows 2000 t … 2000 t + 1999 of the product. -/
theorem flushed2_eq (t : Fin cfg2.N) :
    (dat2 V c).flushed 2 t = ((cfg2.win 2).blk t).view.read (Elt Ideal) (G2 V c) := by
  have hN : t.val < 10 := lt_of_lt_of_eq t.isLt (show cfg2.N = 10 from N_2)
  obtain ⟨-, -, -, -, e0, e1, -⟩ := idx_facts t
  show (cfg2.win 2).cut (grid2.coords t) ((dat2 V c).after 2 t) = _
  rw [after2_2, prod_block]
  funext j
  have hj0 : (j 0).val < 2000 := (j 0).isLt
  have hj1 : (j 1).val < 256 := (j 1).isLt
  have ex : (cfg2.win 2).xinj (grid2.coords t) j = ix2 (⟨(j 0).val, hj0⟩ : Fin 2000) (⟨(j 1).val, hj1⟩ : Fin 256) :=
    funext fun a => by match a with | ⟨0, _⟩ => rfl | ⟨1, _⟩ => rfl
  show k2_pay4 (F := Ideal) (iblk2 V c 0 t) (iblk2 V c 1 t) ((cfg2.win 2).xinj (grid2.coords t) j)
    = G2 V c (((cfg2.win 2).blk t).view.emb j)
  rw [ex]
  refine (pay4_eq_pay3 (iblk2 V c 0 t) (iblk2 V c 1 t) _).trans ?_
  refine (prod_entry V c t ⟨(j 0).val, hj0⟩ ⟨(j 1).val, hj1⟩ (by dsimp only; omega)).trans ?_
  unfold G2
  refine congrArg₂ (y2 V c) (Fin.ext ?_) (Fin.ext ?_)
  · show 2000 * t.val + (j 0).val = win2_2.index t (0 : Fin 2) * 2000 + 1 * (j 0).val
    omega
  · show (j 1).val = win2_2.index t (1 : Fin 2) * 256 + 1 * (j 1).val
    omega

/-- An entry of the product array is in point t's block iff each coordinate is in the block's range. -/
theorem mem_blk2 (t : Fin cfg2.N) (i : S20000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v71_0).slice (win2_2.rect t)).set ↔ _
  rw [View.set_slice_whole, Rect.mem_set_unit]
  exact Iff.rfl

/-- Every row is in the block of the point its quotient by 2000 names. -/
theorem cover2 (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  have hN : cfg2.N = 10 := N_2
  have ht : (i 0).val / 2000 < cfg2.N := by omega
  obtain ⟨-, -, -, -, e0, e1, -⟩ := idx_facts ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]; dsimp only; omega
  | ⟨1, _⟩ =>
    show win2_2.index ⟨(i 0).val / 2000, ht⟩ (1 : Fin 2) * 256 ≤ (i 1).val
      ∧ (i 1).val < win2_2.index ⟨(i 0).val / 2000, ht⟩ (1 : Fin 2) * 256 + 256
    rw [e1]; omega

/-- So the product array ends holding y. -/
theorem final2 : (dat2 V c).arrAt 2 cfg2.N = G2 V c :=
  (dat2 V c).arrAt_eq_of_cover 2 (G2 V c) (fun t _ => flushed2_eq V c t) (cover2)

/-- All ten blocks together are all 20000 rows. -/
theorem all_blocks {M : Type*} [AddCommMonoid M] (f : Fin 20000 → M) :
    ∑ s ∈ Finset.range (9 + 1), blockTerm 10 2000 f s = ∑ r : Fin 20000, f r :=
  sum_blockTerm 10 2000 f

/-- The last point writes back the row of column sums over all rows. -/
theorem flushed3_eq (t : Fin cfg2.N) (hf : (cfg2.win 3).flush t = true) :
    (dat2 V c).flushed 3 t = ((cfg2.win 3).blk t).view.read (Elt Ideal) (G3 V c) := by
  have hN : cfg2.N = 10 := N_2
  have h9 : t.val = 9 := by have := (flush2_3 t).mp hf; have := t.isLt; omega
  obtain ⟨-, -, -, -, -, -, e0, e1, -⟩ := idx_facts t
  have key : ∀ (u : Fin 1) (q : Fin 256),
      (outsAt2 V c t.val t.isLt).2.1 (ix2 u q) = ∑ r : Fin 20000, y2 V c r q := fun u q => by
    refine ((stats_inv V c t.val t.isLt u q).1).trans ?_
    rw [h9]
    exact all_blocks _
  show (cfg2.win 3).cut (grid2.coords t) ((dat2 V c).after 3 t) = _
  rw [after2_3]
  generalize (outsAt2 V c t.val t.isLt).2.1 = X at key ⊢
  funext j
  have hj0 : (j 0).val < 1 := (j 0).isLt
  have hj1 : (j 1).val < 256 := (j 1).isLt
  have ex : (cfg2.win 3).xinj (grid2.coords t) j = ix2 (⟨(j 0).val, hj0⟩ : Fin 1) (⟨(j 1).val, hj1⟩ : Fin 256) :=
    funext fun a => by match a with | ⟨0, _⟩ => rfl | ⟨1, _⟩ => rfl
  have hR : ∀ G : S1x256.Idx → EReal,
      ((cfg2.win 3).blk t).view.read (Elt Ideal) G j = G (((cfg2.win 3).blk t).view.emb j) := fun G => rfl
  have hL : (cfg2.win 3).cut (grid2.coords t) X j = X ((cfg2.win 3).xinj (grid2.coords t) j) := rfl
  rw [hL, hR, ex, key]
  unfold G3
  have eq : (⟨(j 1).val, hj1⟩ : Fin 256) = ⟨((((cfg2.win 3).blk t).view.emb j) 1).val, idx2_lt1 _⟩ := Fin.ext (by
    show (j 1).val = win2_3.index t (1 : Fin 2) * 256 + 1 * (j 1).val
    omega)
  rw [eq]

/-- The last point writes back the row of column sums of squares over all rows. -/
theorem flushed4_eq (t : Fin cfg2.N) (hf : (cfg2.win 4).flush t = true) :
    (dat2 V c).flushed 4 t = ((cfg2.win 4).blk t).view.read (Elt Ideal) (G4 V c) := by
  have hN : cfg2.N = 10 := N_2
  have h9 : t.val = 9 := by have := (flush2_4 t).mp hf; have := t.isLt; omega
  obtain ⟨-, -, -, -, -, -, -, -, e0, e1⟩ := idx_facts t
  have key : ∀ (u : Fin 1) (q : Fin 256),
      (outsAt2 V c t.val t.isLt).2.2 (ix2 u q) = ∑ r : Fin 20000, y2 V c r q * y2 V c r q := fun u q => by
    refine ((stats_inv V c t.val t.isLt u q).2).trans ?_
    rw [h9]
    exact all_blocks _
  show (cfg2.win 4).cut (grid2.coords t) ((dat2 V c).after 4 t) = _
  rw [after2_4]
  generalize (outsAt2 V c t.val t.isLt).2.2 = X at key ⊢
  funext j
  have hj0 : (j 0).val < 1 := (j 0).isLt
  have hj1 : (j 1).val < 256 := (j 1).isLt
  have ex : (cfg2.win 4).xinj (grid2.coords t) j = ix2 (⟨(j 0).val, hj0⟩ : Fin 1) (⟨(j 1).val, hj1⟩ : Fin 256) :=
    funext fun a => by match a with | ⟨0, _⟩ => rfl | ⟨1, _⟩ => rfl
  have hR : ∀ G : S1x256.Idx → EReal,
      ((cfg2.win 4).blk t).view.read (Elt Ideal) G j = G (((cfg2.win 4).blk t).view.emb j) := fun G => rfl
  have hL : (cfg2.win 4).cut (grid2.coords t) X j = X ((cfg2.win 4).xinj (grid2.coords t) j) := rfl
  rw [hL, hR, ex, key]
  unfold G4
  have eq : (⟨(j 1).val, hj1⟩ : Fin 256) = ⟨((((cfg2.win 4).blk t).view.emb j) 1).val, idx2_lt1 _⟩ := Fin.ext (by
    show (j 1).val = win2_4.index t (1 : Fin 2) * 256 + 1 * (j 1).val
    omega)
  rw [eq]

/-- The one block of a statistics row is the whole row, and the last point writes it back. -/
theorem cover3 (i : S1x256.Idx) :
    ∃ t : Fin cfg2.N, (cfg2.win 3).flush t = true ∧ i ∈ ((cfg2.win 3).blk t).view.set := by
  have hi0 : (i 0).val < 1 := (i 0).isLt
  have hi1 : (i 1).val < 256 := (i 1).isLt
  obtain ⟨-, -, -, -, -, -, e0, e1, -⟩ := idx_facts t2_9
  refine ⟨t2_9, (flush2_3 t2_9).mpr rfl, ?_⟩
  show i ∈ ((View.whole main_v71_1).slice (win2_3.rect t2_9)).set
  rw [View.set_slice_whole, Rect.mem_set_unit]
  intro a
  match a with
  | ⟨0, _⟩ =>
    show win2_3.index t2_9 (0 : Fin 2) * 1 ≤ (i 0).val ∧ (i 0).val < win2_3.index t2_9 (0 : Fin 2) * 1 + 1
    rw [e0]; omega
  | ⟨1, _⟩ =>
    show win2_3.index t2_9 (1 : Fin 2) * 256 ≤ (i 1).val ∧ (i 1).val < win2_3.index t2_9 (1 : Fin 2) * 256 + 256
    rw [e1]; omega

theorem cover4 (i : S1x256.Idx) :
    ∃ t : Fin cfg2.N, (cfg2.win 4).flush t = true ∧ i ∈ ((cfg2.win 4).blk t).view.set := by
  have hi0 : (i 0).val < 1 := (i 0).isLt
  have hi1 : (i 1).val < 256 := (i 1).isLt
  obtain ⟨-, -, -, -, -, -, -, -, e0, e1⟩ := idx_facts t2_9
  refine ⟨t2_9, (flush2_4 t2_9).mpr rfl, ?_⟩
  show i ∈ ((View.whole main_v71_2).slice (win2_4.rect t2_9)).set
  rw [View.set_slice_whole, Rect.mem_set_unit]
  intro a
  match a with
  | ⟨0, _⟩ =>
    show win2_4.index t2_9 (0 : Fin 2) * 1 ≤ (i 0).val ∧ (i 0).val < win2_4.index t2_9 (0 : Fin 2) * 1 + 1
    rw [e0]; omega
  | ⟨1, _⟩ =>
    show win2_4.index t2_9 (1 : Fin 2) * 256 ≤ (i 1).val ∧ (i 1).val < win2_4.index t2_9 (1 : Fin 2) * 256 + 256
    rw [e1]; omega

/-- So the two statistics arrays end holding the column sums over all rows. -/
theorem final3 : (dat2 V c).arrAt 3 cfg2.N = G3 V c :=
  (dat2 V c).arrAt_eq_of_cover 3 (G3 V c) (flushed3_eq V c) (cover3)

theorem final4 : (dat2 V c).arrAt 4 cfg2.N = G4 V c :=
  (dat2 V c).arrAt_eq_of_cover 4 (G4 V c) (flushed4_eq V c) (cover4)

end R2

/-- The product array after the region: entry (r, q) is y (r, q). -/
theorem region2_out2 (r : Fin 20000) (q : Fin 256) :
    ((dat2 V c).arrAt 2 cfg2.N : S20000x256.Idx → EReal) (ix2 r q) = y2 V c r q :=
  (congrFun (R2.final2 V c) (ix2 r q)).trans rfl

/-- The row of column sums after the region: column q is the sum of y (r, q) over all 20000 rows. -/
theorem region2_out3 (q : Fin 256) :
    ((dat2 V c).arrAt 3 cfg2.N : S1x256.Idx → EReal) (ix2 (0 : Fin 1) q) = ∑ r : Fin 20000, y2 V c r q :=
  (congrFun (R2.final3 V c) (ix2 (0 : Fin 1) q)).trans rfl

/-- The row of column sums of squares after the region: column q is the sum of y (r, q) * y (r, q) over all rows. -/
theorem region2_out4 (q : Fin 256) :
    ((dat2 V c).arrAt 4 cfg2.N : S1x256.Idx → EReal) (ix2 (0 : Fin 1) q) = ∑ r : Fin 20000, y2 V c r q * y2 V c r q :=
  (congrFun (R2.final4 V c) (ix2 (0 : Fin 1) q)).trans rfl

end Cert.KernelIdeal.RegionValue

end
-- ==== Proof.Region3Math.lean ====
/-
  The arithmetic of one row block of a normalise-then-multiply matrix product with running column statistics, on the
  extended reals.

  A block of n rows of the left matrix is first scaled and shifted column by column (one scale and one shift per
  column, each a one-row matrix) and cut off below at zero; the result is multiplied with the whole right matrix; the
  product block is kept, and two rows of statistics are carried from block to block: the column sums of the product and
  the column sums of its squares. Here: the product block read at an entry as the sum over the contracted coordinate;
  a column sum of a block, kept as a one-row matrix, read at a column; the zero row; and the sum over all rows of the
  full matrix cut into the consecutive blocks of a run.
-/
import proofs.«131702_j10462540333326_2_alg».proof.Proof.LibDotRecord
import proofs.«131702_j10462540333326_2_alg».proof.Proof.LibColumnSum
import proofs.«131702_j10462540333326_2_alg».proof.Proof.LibBlockSums
import Idealize.ShloMosaic.Lib.ValueLayout

open scoped BigOperators

namespace Cert.KernelIdeal.RegionValue.R3

open Idealize.ShloMosaic Idealize.ShloMosaic.ValueIdx

variable {n K N : ℕ}

/-- The scaled, shifted and cut-off block times the right matrix, both narrowed to the matrix unit's input format and
    accumulated into zero: at entry (p, q) the sum over the contracted coordinate k of
    max (x (p, k) * scale (0, k) + shift (0, k)) 0 * w (k, q), the zero spelt as the word the body carries (a change of
    format is the identity on the extended reals, so is a cast to the same shape, and a one-row matrix spread over the
    rows reads its column everywhere). -/
theorem bnprod_apply (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![n, K]⟩ .bf16) (sc sh : FVec Ideal ⟨2, ![1, K]⟩ .f32) (w : FVec Ideal ⟨2, ![K, N]⟩ .f32)
    (hcx : (⟨2, ![n, K]⟩ : Shape).ShapeCasts ⟨2, ![n, K]⟩) (hc1 : (⟨2, ![1, K]⟩ : Shape).ShapeCasts ⟨2, ![1, K]⟩)
    (hbc : (⟨2, ![1, K]⟩ : Shape).Broadcasts ⟨2, ![n, K]⟩) (hb : FTy.bits .bf16 < FTy.bits .f32)
    (p : Fin n) (q : Fin N) :
    matmul d none
        (truncf .bf16
          (maximumf
            (addf (mulf (extf .f32 (shapeCast ⟨2, ![n, K]⟩ x hcx) hb) (broadcastTo ⟨2, ![n, K]⟩ (shapeCast ⟨2, ![1, K]⟩ sc hc1) hbc))
              (broadcastTo ⟨2, ![n, K]⟩ (shapeCast ⟨2, ![1, K]⟩ sh hc1) hbc))
            (broadcast ⟨2, ![n, K]⟩ (Scalar.ofBits (F := Ideal) .f32 0x00000000#32))) hb)
        (truncf .bf16 w hb) (constant ⟨2, ![n, N]⟩ .f32 0x00000000#32) (ix2 p q)
      = ∑ k : Fin K, max (x (ix2 p k) * sc (ix2 (0 : Fin 1) k) + sh (ix2 (0 : Fin 1) k))
          (Ideal.ofBits .f32 0x00000000#32) * w (ix2 k q) := by
  refine (DotRecord.matmul_zero_apply d h1 h2 h3 h4 h5 h6 _ _ none p q).trans ?_
  refine Finset.sum_congr rfl fun k _ => ?_
  show max (shapeCast ⟨2, ![n, K]⟩ x hcx (ix2 p k) * broadcastTo ⟨2, ![n, K]⟩ (shapeCast ⟨2, ![1, K]⟩ sc hc1) hbc (ix2 p k)
      + broadcastTo ⟨2, ![n, K]⟩ (shapeCast ⟨2, ![1, K]⟩ sh hc1) hbc (ix2 p k)) (Ideal.ofBits .f32 0x00000000#32)
    * w (ix2 k q) = _
  rw [DotRecord.broadcastTo_1b_ab_apply, DotRecord.broadcastTo_1b_ab_apply, shapeCast_self, shapeCast_self, shapeCast_self]

/-- The column sums of a block, kept as a one-row matrix: at column q the sum of the block's n entries of that column. -/
theorem colRow_apply (v : FVec Ideal ⟨2, ![n, N]⟩ .f32) (h : Shape.Reduces ⟨2, ![n, N]⟩ [0] ⟨1, ![N]⟩)
    (hφ : FKind.Formats .f32) (hacc : (0x00000000#32 : BitVec 32) = FKind.add.neutral .f32 hφ)
    (hc : (⟨1, ![N]⟩ : Shape).ShapeCasts ⟨2, ![1, N]⟩) (u : Fin 1) (q : Fin N) :
    shapeCast ⟨2, ![1, N]⟩ (multiReduction .add [0] ⟨1, ![N]⟩ v 0x00000000#32 h hφ hacc) hc (ix2 u q)
      = ∑ j : Fin n, v (ix2 j q) :=
  (shapeCast_a_1a_apply _ hc u q).trans (ColumnSum.colSum_apply v h hφ hacc q)

/-- The row of zeros a run starts from. -/
theorem zeroRow_apply (i : (⟨2, ![1, N]⟩ : Shape).Idx) :
    (broadcast ⟨2, ![1, N]⟩ (Scalar.ofBits (F := Ideal) .f32 0x00000000#32) : FVec Ideal ⟨2, ![1, N]⟩ .f32) i = 0 :=
  Ideal.ofBits_zero_f32

/-- The blocks of a run, one after the other: block `s` of `b` rows contributes the sum of `f` over its rows
    `b s + i` (and nothing past the last block). -/
noncomputable def blockTerm {M : Type*} [AddCommMonoid M] (nb b : ℕ) (f : Fin (nb * b) → M) (s : ℕ) : M :=
  if h : s < nb then ∑ i : Fin b, f ⟨b * s + i.val, BlockSums.block_row_lt h i.isLt⟩ else 0

/-- All `nb` blocks together are the whole range of rows. -/
theorem sum_blockTerm {M : Type*} [AddCommMonoid M] (nb b : ℕ) (f : Fin (nb * b) → M) :
    ∑ s ∈ Finset.range nb, blockTerm nb b f s = ∑ r, f r := by
  rw [Finset.sum_range, BlockSums.sum_fin_mul_blocks nb b f]
  refine Finset.sum_congr rfl fun t _ => ?_
  unfold blockTerm
  rw [dif_pos t.isLt]

end Cert.KernelIdeal.RegionValue.R3
-- ==== Proof.Region3Pay.lean ====
/-
  What the body of the normalise-then-multiply kernel with statistics computes from the blocks it loads, on the
  extended reals.

  From a block x of 2000 rows of the left matrix, the one-row scale and shift, and the right matrix w it forms
  z (p, k) = max (x (p, k) * scale (0, k) + shift (0, k)) 0 and the product block P (p, q) = ∑ k, z (p, k) * w (k, q);
  it stores P; to the running row of column sums it adds ∑ p, P (p, q); to the running row of column sums of squares it
  adds ∑ p, P (p, q) * P (p, q); a run starts both rows at zero.
-/
import proofs.«131702_j10462540333326_2_alg».proof.Proof.Gen.KernelIdeal.Skeleton
import proofs.«131702_j10462540333326_2_alg».proof.Proof.Region3Math

open scoped BigOperators

namespace Cert.KernelIdeal.RegionValue.R3

open Cert.KernelIdeal Cert.KernelIdeal.Gen Idealize.ShloMosaic Idealize.ShloMosaic.ValueIdx

/-- The product block at entry (p, q): the sum over the 256 contracted coordinates. -/
theorem pay3_apply (x : Vec Ideal S2000x256 .bf16) (sc sh : Vec Ideal S1x256 .f32) (w : Vec Ideal S256x128 .f32)
    (p : Fin 2000) (q : Fin 128) :
    k3_pay3 (F := Ideal) x sc sh w (ix2 p q)
      = ∑ k : Fin 256, max (x (ix2 p k) * sc (ix2 (0 : Fin 1) k) + sh (ix2 (0 : Fin 1) k))
          (Ideal.ofBits .f32 0x00000000#32) * w (ix2 k q) := by
  unfold k3_pay3
  exact bnprod_apply dot_S2000x256_S256x128_S2000x128_1_0_0_1_n_n rfl rfl rfl rfl rfl rfl x sc sh w _ _ _ _ p q

/-- The running row of column sums after a block: what it held plus the block's column sum. -/
theorem pay4_apply (x : Vec Ideal S2000x256 .bf16) (sc sh : Vec Ideal S1x256 .f32) (w : Vec Ideal S256x128 .f32)
    (acc : Vec Ideal S1x128 .f32) (u : Fin 1) (q : Fin 128) :
    k3_pay4 (F := Ideal) x sc sh w acc (ix2 u q)
      = acc (ix2 u q) + ∑ p : Fin 2000, k3_pay3 (F := Ideal) x sc sh w (ix2 p q) := by
  unfold k3_pay4
  refine congrArg₂ (· + ·) ?_ ?_
  · exact congrFun (shapeCast_self acc _) (ix2 u q)
  · exact colRow_apply (k3_pay3 (F := Ideal) x sc sh w) _ _ _ _ u q

/-- The running row of column sums of squares after a block: what it held plus the block's column sum of squares. -/
theorem pay5_apply (x : Vec Ideal S2000x256 .bf16) (sc sh : Vec Ideal S1x256 .f32) (w : Vec Ideal S256x128 .f32)
    (acc : Vec Ideal S1x128 .f32) (u : Fin 1) (q : Fin 128) :
    k3_pay5 (F := Ideal) x sc sh w acc (ix2 u q)
      = acc (ix2 u q)
        + ∑ p : Fin 2000, k3_pay3 (F := Ideal) x sc sh w (ix2 p q) * k3_pay3 (F := Ideal) x sc sh w (ix2 p q) := by
  unfold k3_pay5
  refine congrArg₂ (· + ·) ?_ ?_
  · exact congrFun (shapeCast_self acc _) (ix2 u q)
  · exact colRow_apply (mulf (k3_pay3 (F := Ideal) x sc sh w) (k3_pay3 (F := Ideal) x sc sh w)) _ _ _ _ u q

/-- The two rows a run starts from are zero. -/
theorem pay1_apply (i : S1x128.Idx) : k3_pay1 (F := Ideal) i = 0 := by
  unfold k3_pay1
  exact zeroRow_apply i

theorem pay2_apply (i : S1x128.Idx) : k3_pay2 (F := Ideal) i = 0 := by
  unfold k3_pay2
  exact zeroRow_apply i

end Cert.KernelIdeal.RegionValue.R3
-- ==== Proof.Region3Pieces.lean ====
/-
  What each case of the kernel body leaves in its three output buffers, as the body's arithmetic applied to the blocks
  it loaded.

  The body stores each output through the whole of its buffer, so what a buffer holds afterwards is the payload of the
  last store into it. At the first point of the run the two statistics rows are first set to zero and then read back,
  so the addition starts from the zero row; at a later point it starts from what the buffer held.
-/
import proofs.«131702_j10462540333326_2_alg».proof.Proof.Gen.KernelIdeal.Frame
import Idealize.ShloMosaic.Lib.Pipeline.Value
import Idealize.ShloMosaic.Lib.Tactic

noncomputable section

namespace Cert.KernelIdeal.RegionValue.R3

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point, product block: the stored block is the product of the loaded blocks. -/
theorem outA_4 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : cond3_0 i)
    (x0 : Vec F S2000x256 .bf16) (x1 : Vec F S1x256 .f32) (x2 : Vec F S1x256 .f32) (x3 : Vec F S256x128 .f32) :
    out3_A_4 c i a1 h1 a2 h2 a3 h3 a4 h4 a5 h5 a6 h6 a7 h7 hc x0 x1 x2 x3 = k3_pay3 x0 x1 x2 x3 := by
  unfold out3_A_4
  rw [View.read_writes_eq_canon _ _ _ (cover3_A_4 c i a1 h1 a2 h2 a3 h3 a4 h4 a5 h5 a6 h6 a7 h7 hc x0 x1 x2 x3)]
  unfold kernelRun3_A
  dsimp only
  sl_unfold_words
  rw [View.canon_unit_zero hz]
  simp only [View.readAt_eq_ld, h1.read_unread, h2.read_unread, h3.read_unread, h4.read_unread,
    View.ld_unit_zero (S := S2000x256) hz, View.ld_unit_zero (S := S1x256) hz, View.ld_unit_zero (S := S256x128) hz]

/-- First point, row of column sums: the zero row plus the block's column sums. -/
theorem outA_5 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : cond3_0 i)
    (x0 : Vec F S2000x256 .bf16) (x1 : Vec F S1x256 .f32) (x2 : Vec F S1x256 .f32) (x3 : Vec F S256x128 .f32) :
    out3_A_5 c i a1 h1 a2 h2 a3 h3 a4 h4 a5 h5 a6 h6 a7 h7 hc x0 x1 x2 x3 = k3_pay4 x0 x1 x2 x3 (k3_pay1 (F := F)) := by
  unfold out3_A_5
  rw [View.read_writes_eq_canon _ _ _ (cover3_A_5 c i a1 h1 a2 h2 a3 h3 a4 h4 a5 h5 a6 h6 a7 h7 hc x0 x1 x2 x3)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S2000x256) hz, View.ld_unit_zero (S := S1x256) hz, View.ld_unit_zero (S := S256x128) hz]

/-- First point, row of column sums of squares: the zero row plus the block's column sums of squares. -/
theorem outA_6 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : cond3_0 i)
    (x0 : Vec F S2000x256 .bf16) (x1 : Vec F S1x256 .f32) (x2 : Vec F S1x256 .f32) (x3 : Vec F S256x128 .f32) :
    out3_A_6 c i a1 h1 a2 h2 a3 h3 a4 h4 a5 h5 a6 h6 a7 h7 hc x0 x1 x2 x3 = k3_pay5 x0 x1 x2 x3 (k3_pay2 (F := F)) := by
  unfold out3_A_6
  rw [View.read_writes_eq_canon _ _ _ (cover3_A_6 c i a1 h1 a2 h2 a3 h3 a4 h4 a5 h5 a6 h6 a7 h7 hc x0 x1 x2 x3)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S2000x256) hz, View.ld_unit_zero (S := S1x256) hz, View.ld_unit_zero (S := S256x128) hz]

/-- Later point, product block. -/
theorem outB_4 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : ¬cond3_0 i)
    (x0 : Vec F S2000x256 .bf16) (x1 : Vec F S1x256 .f32) (x2 : Vec F S1x256 .f32) (x3 : Vec F S256x128 .f32) (xo5 xo6 : Vec F S1x128 .f32) :
    out3_B_4 c i a1 h1 a2 h2 a3 h3 a4 h4 a5 h5 a6 h6 a7 h7 hc x0 x1 x2 x3 xo5 xo6 = k3_pay3 x0 x1 x2 x3 := by
  unfold out3_B_4
  rw [View.read_writes_eq_canon _ _ _ (cover3_B_4 c i a1 h1 a2 h2 a3 h3 a4 h4 a5 h5 a6 h6 a7 h7 hc x0 x1 x2 x3 xo5 xo6)]
  unfold kernelRun3_B
  dsimp only
  sl_unfold_words
  rw [View.canon_unit_zero hz]
  simp only [View.readAt_eq_ld, h1.read_unread, h2.read_unread, h3.read_unread, h4.read_unread,
    View.ld_unit_zero (S := S2000x256) hz, View.ld_unit_zero (S := S1x256) hz, View.ld_unit_zero (S := S256x128) hz]

/-- Later point, row of column sums: what the buffer held plus the block's column sums. -/
theorem outB_5 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : ¬cond3_0 i)
    (x0 : Vec F S2000x256 .bf16) (x1 : Vec F S1x256 .f32) (x2 : Vec F S1x256 .f32) (x3 : Vec F S256x128 .f32) (xo5 xo6 : Vec F S1x128 .f32) :
    out3_B_5 c i a1 h1 a2 h2 a3 h3 a4 h4 a5 h5 a6 h6 a7 h7 hc x0 x1 x2 x3 xo5 xo6 = k3_pay4 x0 x1 x2 x3 xo5 := by
  unfold out3_B_5
  rw [View.read_writes_eq_canon _ _ _ (cover3_B_5 c i a1 h1 a2 h2 a3 h3 a4 h4 a5 h5 a6 h6 a7 h7 hc x0 x1 x2 x3 xo5 xo6)]
  unfold kernelRun3_B
  dsimp only
  sl_unfold_words
  rw [View.canon_unit_zero hz]
  simp only [View.readAt_eq_ld, h1.read_unread, h2.read_unread, h3.read_unread, h4.read_unread, h6.read_unread,
    View.ld_unit_zero (S := S2000x256) hz, View.ld_unit_zero (S := S1x256) hz, View.ld_unit_zero (S := S256x128) hz,
    View.ld_unit_zero (S := S1x128) hz]

/-- Later point, row of column sums of squares: what the buffer held plus the block's column sums of squares. -/
theorem outB_6 (c : Dev nD) (i : grid3.Coords) (a1 : Memref sig .tc .vmem S2000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S2000x128 .f32) (h5 : a5.IsWhole) (a6 : Memref sig .tc .vmem S1x128 .f32) (h6 : a6.IsWhole) (a7 : Memref sig .tc .vmem S1x128 .f32) (h7 : a7.IsWhole) (hc : ¬cond3_0 i)
    (x0 : Vec F S2000x256 .bf16) (x1 : Vec F S1x256 .f32) (x2 : Vec F S1x256 .f32) (x3 : Vec F S256x128 .f32) (xo5 xo6 : Vec F S1x128 .f32) :
    out3_B_6 c i a1 h1 a2 h2 a3 h3 a4 h4 a5 h5 a6 h6 a7 h7 hc x0 x1 x2 x3 xo5 xo6 = k3_pay5 x0 x1 x2 x3 xo6 := by
  unfold out3_B_6
  rw [View.read_writes_eq_canon _ _ _ (cover3_B_6 c i a1 h1 a2 h2 a3 h3 a4 h4 a5 h5 a6 h6 a7 h7 hc x0 x1 x2 x3 xo5 xo6)]
  unfold kernelRun3_B
  dsimp only
  sl_unfold_words
  rw [View.canon_unit_zero hz]
  simp only [View.readAt_eq_ld, h1.read_unread, h2.read_unread, h3.read_unread, h4.read_unread, h7.read_unread,
    View.ld_unit_zero (S := S2000x256) hz, View.ld_unit_zero (S := S1x256) hz, View.ld_unit_zero (S := S256x128) hz,
    View.ld_unit_zero (S := S1x128) hz]

end Cert.KernelIdeal.RegionValue.R3

end
-- ==== Proof.Region3Value.lean ====
/-
  Region 3 (the normalise-then-multiply matrix product with running statistics over 10 blocks of 2000 rows): what its
  three output arrays hold after the region, as functions of the arrays it finds.

  Write A 0 for the [20000, 256] left matrix, A 1 and A 2 for the one-row scale and shift, A 3 for the [256, 128] right
  matrix as the region finds them, and y (r, q) = ∑ j, max (A 0 (r, j) * A 1 (0, j) + A 2 (0, j)) 0 * A 3 (j, q). Point t
  of the grid loads rows 2000 t … 2000 t + 1999 of A 0 and all of the other three, so its product block is rows 2000 t … of
  y; it is written back at every point, and the blocks tile the output. The two statistics rows are carried from point to
  point and written back after the last: after point n they hold the column sums (of y, of y * y) over the rows below
  2000 (n + 1), by induction on n; after point 9 that is every row.
-/
import proofs.«131702_j10462540333326_2_alg».proof.Proof.Gen.KernelIdeal.Frame
import proofs.«131702_j10462540333326_2_alg».proof.Proof.Region3Pay
import proofs.«131702_j10462540333326_2_alg».proof.Proof.Region3Pieces
import proofs.«131702_j10462540333326_2_alg».proof.Proof.HostArgs
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open Cert.KernelIdeal.HostValue (rd2)

variable (V : (c : Dev nD) → (b : Ref sig .tc) → Buf (Elt Ideal) ((c : Thread nD τ).loc b)) (c : Dev nD)

/-- Entry (r, q) of the product of the scaled, shifted and cut-off left matrix with the right matrix, all as the region
    finds them. -/
def y3 (r : Fin 20000) (q : Fin 128) : EReal :=
  ∑ j : Fin 256, max (rd2 (V c (Pipeline.arrRef spec3 0)) r j * rd2 (V c (Pipeline.arrRef spec3 1)) (0 : Fin 1) j
      + rd2 (V c (Pipeline.arrRef spec3 2)) (0 : Fin 1) j) EdgeNodeLayer.cZero
    * rd2 (V c (Pipeline.arrRef spec3 3)) j q

namespace R3

/-- The four arrays the region reads, at their function types. -/
abbrev A0 : S20000x256.Idx → EReal := V c (Pipeline.arrRef spec3 0)
abbrev A1 : S1x256.Idx → EReal := V c (Pipeline.arrRef spec3 1)
abbrev A2 : S1x256.Idx → EReal := V c (Pipeline.arrRef spec3 2)
abbrev A3 : S256x128.Idx → EReal := V c (Pipeline.arrRef spec3 3)

/-- Where each window's block sits at point t: the row blocks of windows 0 and 4 move with the point, every other
    block index is zero. Decided over the 10 points. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The last point of the run. -/
def tl : Fin cfg3.N := ⟨9, by have : cfg3.N = 10 := N_3; omega⟩

/-- Row p of the left block at point t is row 2000 t + p of the left matrix. -/
theorem iblk0_apply (t : Fin cfg3.N) (p : Fin 2000) (k : Fin 256) (hr : 2000 * t.val + p.val < 20000) :
    (iblk3 V c 0 t : Vec Ideal S2000x256 .bf16) (ix2 p k) = A0 V c (ix2 ⟨2000 * t.val + p.val, hr⟩ k) := by
  obtain ⟨e0, e1, -⟩ := idx_facts t
  unfold iblk3
  rw [View.read_apply]
  show V c (Pipeline.arrRef spec3 0) (((cfg3.win 0).blk t).view.emb (ix2 p k)) = _
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 256 + 1 * k.val = k.val; omega

/-- The scale block at every point is the whole scale row. -/
theorem iblk1_apply (t : Fin cfg3.N) (u : Fin 1) (k : Fin 256) :
    (iblk3 V c 1 t : Vec Ideal S1x256 .f32) (ix2 u k) = A1 V c (ix2 (0 : Fin 1) k) := by
  obtain ⟨-, -, e0, e1, -⟩ := idx_facts t
  unfold iblk3
  rw [View.read_apply]
  show V c (Pipeline.arrRef spec3 1) (((cfg3.win 1).blk t).view.emb (ix2 u k)) = _
  refine congrArg _ (funext fun a => Fin.ext ?_)
  match a with
  | ⟨0, _⟩ => show win3_1.index t (0 : Fin 2) * 1 + 1 * u.val = 0; omega
  | ⟨1, _⟩ => show win3_1.index t (1 : Fin 2) * 256 + 1 * k.val = k.val; omega

/-- The shift block at every point is the whole shift row. -/
theorem iblk2_apply (t : Fin cfg3.N) (u : Fin 1) (k : Fin 256) :
    (iblk3 V c 2 t : Vec Ideal S1x256 .f32) (ix2 u k) = A2 V c (ix2 (0 : Fin 1) k) := by
  obtain ⟨-, -, -, -, e0, e1, -⟩ := idx_facts t
  unfold iblk3
  rw [View.read_apply]
  show V c (Pipeline.arrRef spec3 2) (((cfg3.win 2).blk t).view.emb (ix2 u k)) = _
  refine congrArg _ (funext fun a => Fin.ext ?_)
  match a with
  | ⟨0, _⟩ => show win3_2.index t (0 : Fin 2) * 1 + 1 * u.val = 0; omega
  | ⟨1, _⟩ => show win3_2.index t (1 : Fin 2) * 256 + 1 * k.val = k.val; omega

/-- The right block at every point is the whole right matrix. -/
theorem iblk3_apply (t : Fin cfg3.N) (k : Fin 256) (q : Fin 128) :
    (iblk3 V c 3 t : Vec Ideal S256x128 .f32) (ix2 k q) = A3 V c (ix2 k q) := by
  obtain ⟨-, -, -, -, -, -, e0, e1, -⟩ := idx_facts t
  unfold iblk3
  rw [View.read_apply]
  show V c (Pipeline.arrRef spec3 3) (((cfg3.win 3).blk t).view.emb (ix2 k q)) = _
  refine congrArg _ (funext fun a => Fin.ext ?_)
  match a with
  | ⟨0, _⟩ => show win3_3.index t (0 : Fin 2) * 256 + 1 * k.val = k.val; omega
  | ⟨1, _⟩ => show win3_3.index t (1 : Fin 2) * 128 + 1 * q.val = q.val; omega

/-- The product block of point t at (p, q) is y at row 2000 t + p. -/
theorem prod_entry (t : Fin cfg3.N) (p : Fin 2000) (q : Fin 128) (hr : 2000 * t.val + p.val < 20000) :
    k3_pay3 (F := Ideal) (iblk3 V c 0 t) (iblk3 V c 1 t) (iblk3 V c 2 t) (iblk3 V c 3 t) (ix2 p q) = y3 V c ⟨2000 * t.val + p.val, hr⟩ q := by
  refine (pay3_apply (iblk3 V c 0 t) (iblk3 V c 1 t) (iblk3 V c 2 t) (iblk3 V c 3 t) p q).trans ?_
  unfold y3
  refine Finset.sum_congr rfl fun k _ => ?_
  rw [iblk0_apply V c t p k hr, iblk1_apply V c t 0 k, iblk2_apply V c t 0 k, iblk3_apply V c t k q]

/-- The column sum of point t's product block is the sum of y over the rows of block t. -/
theorem block_sum (t : Fin cfg3.N) (q : Fin 128) :
    ∑ p : Fin 2000, k3_pay3 (F := Ideal) (iblk3 V c 0 t) (iblk3 V c 1 t) (iblk3 V c 2 t) (iblk3 V c 3 t) (ix2 p q)
      = blockTerm 10 2000 (fun r : Fin 20000 => y3 V c r q) t.val := by
  have hN : t.val < 10 := lt_of_lt_of_eq t.isLt (show cfg3.N = 10 from N_3)
  unfold blockTerm
  rw [dif_pos hN]
  exact Finset.sum_congr rfl fun p _ => prod_entry V c t p q _

/-- The column sum of squares of point t's product block is the sum of y * y over the rows of block t. -/
theorem block_sumsq (t : Fin cfg3.N) (q : Fin 128) :
    ∑ p : Fin 2000, k3_pay3 (F := Ideal) (iblk3 V c 0 t) (iblk3 V c 1 t) (iblk3 V c 2 t) (iblk3 V c 3 t) (ix2 p q) * k3_pay3 (F := Ideal) (iblk3 V c 0 t) (iblk3 V c 1 t) (iblk3 V c 2 t) (iblk3 V c 3 t) (ix2 p q)
      = blockTerm 10 2000 (fun r : Fin 20000 => y3 V c r q * y3 V c r q) t.val := by
  have hN : t.val < 10 := lt_of_lt_of_eq t.isLt (show cfg3.N = 10 from N_3)
  unfold blockTerm
  rw [dif_pos hN]
  refine Finset.sum_congr rfl fun p _ => ?_
  rw [prod_entry V c t p q (BlockSums.block_row_lt hN p.isLt)]

/-- What the three output buffers hold after the first point, as the body's arithmetic of the blocks loaded there. -/
theorem at_first (t : Fin cfg3.N) (h0 : t.val % 10 = 0) :
    outsAt3 V c t.val t.isLt
      = (k3_pay3 (iblk3 V c 0 t) (iblk3 V c 1 t) (iblk3 V c 2 t) (iblk3 V c 3 t), k3_pay4 (iblk3 V c 0 t) (iblk3 V c 1 t) (iblk3 V c 2 t) (iblk3 V c 3 t) (k3_pay1 (F := Ideal)),
          k3_pay5 (iblk3 V c 0 t) (iblk3 V c 1 t) (iblk3 V c 2 t) (iblk3 V c 3 t) (k3_pay2 (F := Ideal))) := by
  refine (outsAt3_A V c t h0).trans ?_
  refine congrArg₂ Prod.mk ?_ (congrArg₂ Prod.mk ?_ ?_)
  · exact outA_4 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) ((hcond3_0 t).mpr h0) (iblk3 V c 0 t) (iblk3 V c 1 t) (iblk3 V c 2 t) (iblk3 V c 3 t)
  · exact outA_5 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) ((hcond3_0 t).mpr h0) (iblk3 V c 0 t) (iblk3 V c 1 t) (iblk3 V c 2 t) (iblk3 V c 3 t)
  · exact outA_6 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) ((hcond3_0 t).mpr h0) (iblk3 V c 0 t) (iblk3 V c 1 t) (iblk3 V c 2 t) (iblk3 V c 3 t)

/-- What they hold after a later point, over what the point before left in the two statistics rows. -/
theorem at_later (t : Fin cfg3.N) (h0 : ¬t.val % 10 = 0) :
    outsAt3 V c t.val t.isLt
      = (k3_pay3 (iblk3 V c 0 t) (iblk3 V c 1 t) (iblk3 V c 2 t) (iblk3 V c 3 t),
          k3_pay4 (iblk3 V c 0 t) (iblk3 V c 1 t) (iblk3 V c 2 t) (iblk3 V c 3 t) (outsAt3 V c (t.val - 1) (Nat.lt_of_le_of_lt (Nat.sub_le _ _) t.isLt)).2.1,
          k3_pay5 (iblk3 V c 0 t) (iblk3 V c 1 t) (iblk3 V c 2 t) (iblk3 V c 3 t) (outsAt3 V c (t.val - 1) (Nat.lt_of_le_of_lt (Nat.sub_le _ _) t.isLt)).2.2) := by
  refine (outsAt3_B V c t h0).trans ?_
  refine congrArg₂ Prod.mk ?_ (congrArg₂ Prod.mk ?_ ?_)
  · exact outB_4 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _
  · exact outB_5 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _
  · exact outB_6 (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _

/-- The product block a point leaves is the product of the blocks it loaded, whichever case the point is in. -/
theorem prod_block (t : Fin cfg3.N) :
    (outsAt3 V c t.val t.isLt).1 = k3_pay3 (iblk3 V c 0 t) (iblk3 V c 1 t) (iblk3 V c 2 t) (iblk3 V c 3 t) := by
  by_cases h0 : t.val % 10 = 0
  · rw [at_first V c t h0]
  · rw [at_later V c t h0]

/-- After point n the row of column sums holds the column sums of y over the rows of blocks 0 … n, and the row of
    column sums of squares those of y * y: by induction on the point. -/
theorem stats_inv : ∀ (n : ℕ) (h : n < cfg3.N) (u : Fin 1) (q : Fin 128),
    (outsAt3 V c n h).2.1 (ix2 u q)
        = ∑ s ∈ Finset.range (n + 1), blockTerm 10 2000 (fun r : Fin 20000 => y3 V c r q) s
      ∧ (outsAt3 V c n h).2.2 (ix2 u q)
        = ∑ s ∈ Finset.range (n + 1), blockTerm 10 2000 (fun r : Fin 20000 => y3 V c r q * y3 V c r q) s
  | 0, h, u, q => by
    have e := at_first V c ⟨0, h⟩ rfl
    constructor
    · refine (congrFun (congrArg (fun x => x.2.1) e) (ix2 u q)).trans ?_
      refine (pay4_apply (iblk3 V c 0 ⟨0, h⟩) (iblk3 V c 1 ⟨0, h⟩) (iblk3 V c 2 ⟨0, h⟩) (iblk3 V c 3 ⟨0, h⟩) (k3_pay1 (F := Ideal)) u q).trans ?_
      rw [pay1_apply, zero_add, Finset.sum_range_one]
      exact block_sum V c ⟨0, h⟩ q
    · refine (congrFun (congrArg (fun x => x.2.2) e) (ix2 u q)).trans ?_
      refine (pay5_apply (iblk3 V c 0 ⟨0, h⟩) (iblk3 V c 1 ⟨0, h⟩) (iblk3 V c 2 ⟨0, h⟩) (iblk3 V c 3 ⟨0, h⟩) (k3_pay2 (F := Ideal)) u q).trans ?_
      rw [pay2_apply, zero_add, Finset.sum_range_one]
      exact block_sumsq V c ⟨0, h⟩ q
  | n + 1, h, u, q => by
    have hN : cfg3.N = 10 := N_3
    have hB : ¬(⟨n + 1, h⟩ : Fin cfg3.N).val % 10 = 0 := by dsimp only; omega
    have e := at_later V c ⟨n + 1, h⟩ hB
    obtain ⟨ih1, ih2⟩ := stats_inv n (Nat.lt_of_succ_lt h) u q
    constructor
    · refine (congrFun (congrArg (fun x => x.2.1) e) (ix2 u q)).trans ?_
      refine (pay4_apply (iblk3 V c 0 ⟨n + 1, h⟩) (iblk3 V c 1 ⟨n + 1, h⟩) (iblk3 V c 2 ⟨n + 1, h⟩) (iblk3 V c 3 ⟨n + 1, h⟩) _ u q).trans ?_
      rw [Finset.sum_range_succ _ (n + 1)]
      exact congrArg₂ (· + ·) ih1 (block_sum V c ⟨n + 1, h⟩ q)
    · refine (congrFun (congrArg (fun x => x.2.2) e) (ix2 u q)).trans ?_
      refine (pay5_apply (iblk3 V c 0 ⟨n + 1, h⟩) (iblk3 V c 1 ⟨n + 1, h⟩) (iblk3 V c 2 ⟨n + 1, h⟩) (iblk3 V c 3 ⟨n + 1, h⟩) _ u q).trans ?_
      rw [Finset.sum_range_succ _ (n + 1)]
      exact congrArg₂ (· + ·) ih2 (block_sumsq V c ⟨n + 1, h⟩ q)

/-- The three arrays the region leaves: the product, its column sums, the column sums of its squares. -/
def G4 : S20000x128.Idx → EReal := fun i => y3 V c ⟨(i 0).val, idx2_lt0 i⟩ ⟨(i 1).val, idx2_lt1 i⟩
def G5 : S1x128.Idx → EReal := fun i => ∑ r : Fin 20000, y3 V c r ⟨(i 1).val, idx2_lt1 i⟩
def G6 : S1x128.Idx → EReal :=
  fun i => ∑ r : Fin 20000, y3 V c r ⟨(i 1).val, idx2_lt1 i⟩ * y3 V c r ⟨(i 1).val, idx2_lt1 i⟩

/-- Point t writes back rows 2000 t … 2000 t + 1999 of the product. -/
theorem flushed4_eq (t : Fin cfg3.N) :
    (dat3 V c).flushed 4 t = ((cfg3.win 4).blk t).view.read (Elt Ideal) (G4 V c) := by
  have hN : t.val < 10 := lt_of_lt_of_eq t.isLt (show cfg3.N = 10 from N_3)
  obtain ⟨-, -, -, -, -, -, -, -, e0, e1, -⟩ := idx_facts t
  show (cfg3.win 4).cut (grid3.coords t) ((dat3 V c).after 4 t) = _
  rw [after3_4, prod_block]
  funext j
  have hj0 : (j 0).val < 2000 := (j 0).isLt
  have hj1 : (j 1).val < 128 := (j 1).isLt
  have ex : (cfg3.win 4).xinj (grid3.coords t) j = ix2 (⟨(j 0).val, hj0⟩ : Fin 2000) (⟨(j 1).val, hj1⟩ : Fin 128) :=
    funext fun a => by match a with | ⟨0, _⟩ => rfl | ⟨1, _⟩ => rfl
  have hR : ∀ G : S20000x128.Idx → EReal,
      ((cfg3.win 4).blk t).view.read (Elt Ideal) G j = G (((cfg3.win 4).blk t).view.emb j) := fun G => rfl
  have hL : ∀ X : Vec Ideal S2000x128 .f32,
      (cfg3.win 4).cut (grid3.coords t) X j = X ((cfg3.win 4).xinj (grid3.coords t) j) := fun X => rfl
  rw [hL, hR, ex]
  refine (prod_entry V c t ⟨(j 0).val, hj0⟩ ⟨(j 1).val, hj1⟩ (by dsimp only; omega)).trans ?_
  unfold G4
  refine congrArg₂ (y3 V c) (Fin.ext ?_) (Fin.ext ?_)
  · show 2000 * t.val + (j 0).val = win3_4.index t (0 : Fin 2) * 2000 + 1 * (j 0).val
    omega
  · show (j 1).val = win3_4.index t (1 : Fin 2) * 128 + 1 * (j 1).val
    omega

/-- An entry of the product array is in point t's block iff each coordinate is in the block's range. -/
theorem mem_blk4 (t : Fin cfg3.N) (i : S20000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v89_0).slice (win3_4.rect t)).set ↔ _
  rw [View.set_slice_whole, Rect.mem_set_unit]
  exact Iff.rfl

/-- Every row is in the block of the point its quotient by 2000 names. -/
theorem cover4 (i : S20000x128.Idx) :
    ∃ t : Fin cfg3.N, (cfg3.win 4).flush t = true ∧ i ∈ ((cfg3.win 4).blk t).view.set := by
  have hi0 : (i 0).val < 20000 := (i 0).isLt
  have hi1 : (i 1).val < 128 := (i 1).isLt
  have hN : cfg3.N = 10 := N_3
  have ht : (i 0).val / 2000 < cfg3.N := by omega
  obtain ⟨-, -, -, -, -, -, -, -, e0, e1, -⟩ := idx_facts ⟨(i 0).val / 2000, ht⟩
  refine ⟨⟨(i 0).val / 2000, ht⟩, flush3_4 _, ?_⟩
  rw [mem_blk4]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e0]; dsimp only; omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e1]; omega

/-- So the product array ends holding y. -/
theorem final4 : (dat3 V c).arrAt 4 cfg3.N = G4 V c :=
  (dat3 V c).arrAt_eq_of_cover 4 (G4 V c) (fun t _ => flushed4_eq V c t) (cover4)

/-- All 10 blocks together are all 20000 rows. -/
theorem all_blocks {M : Type*} [AddCommMonoid M] (f : Fin 20000 → M) :
    ∑ s ∈ Finset.range (9 + 1), blockTerm 10 2000 f s = ∑ r : Fin 20000, f r :=
  sum_blockTerm 10 2000 f

/-- The last point writes back the row of column sums over all rows. -/
theorem flushed5_eq (t : Fin cfg3.N) (hf : (cfg3.win 5).flush t = true) :
    (dat3 V c).flushed 5 t = ((cfg3.win 5).blk t).view.read (Elt Ideal) (G5 V c) := by
  have hN : cfg3.N = 10 := N_3
  have h9 : t.val = 9 := by have := (flush3_5 t).mp hf; have := t.isLt; omega
  obtain ⟨-, -, -, -, -, -, -, -, -, -, e0, e1, -⟩ := idx_facts t
  have key : ∀ (u : Fin 1) (q : Fin 128),
      (outsAt3 V c t.val t.isLt).2.1 (ix2 u q) = ∑ r : Fin 20000, y3 V c r q := fun u q => by
    refine ((stats_inv V c t.val t.isLt u q).1).trans ?_
    rw [h9]
    exact all_blocks _
  show (cfg3.win 5).cut (grid3.coords t) ((dat3 V c).after 5 t) = _
  rw [after3_5]
  generalize (outsAt3 V c t.val t.isLt).2.1 = X at key ⊢
  funext j
  have hj0 : (j 0).val < 1 := (j 0).isLt
  have hj1 : (j 1).val < 128 := (j 1).isLt
  have ex : (cfg3.win 5).xinj (grid3.coords t) j = ix2 (⟨(j 0).val, hj0⟩ : Fin 1) (⟨(j 1).val, hj1⟩ : Fin 128) :=
    funext fun a => by match a with | ⟨0, _⟩ => rfl | ⟨1, _⟩ => rfl
  have hR : ∀ G : S1x128.Idx → EReal,
      ((cfg3.win 5).blk t).view.read (Elt Ideal) G j = G (((cfg3.win 5).blk t).view.emb j) := fun G => rfl
  have hL : (cfg3.win 5).cut (grid3.coords t) X j = X ((cfg3.win 5).xinj (grid3.coords t) j) := rfl
  rw [hL, hR, ex, key]
  unfold G5
  have eq : (⟨(j 1).val, hj1⟩ : Fin 128) = ⟨((((cfg3.win 5).blk t).view.emb j) 1).val, idx2_lt1 _⟩ := Fin.ext (by
    show (j 1).val = win3_5.index t (1 : Fin 2) * 128 + 1 * (j 1).val
    omega)
  rw [eq]

/-- The last point writes back the row of column sums of squares over all rows. -/
theorem flushed6_eq (t : Fin cfg3.N) (hf : (cfg3.win 6).flush t = true) :
    (dat3 V c).flushed 6 t = ((cfg3.win 6).blk t).view.read (Elt Ideal) (G6 V c) := by
  have hN : cfg3.N = 10 := N_3
  have h9 : t.val = 9 := by have := (flush3_6 t).mp hf; have := t.isLt; omega
  obtain ⟨-, -, -, -, -, -, -, -, -, -, -, -, e0, e1⟩ := idx_facts t
  have key : ∀ (u : Fin 1) (q : Fin 128),
      (outsAt3 V c t.val t.isLt).2.2 (ix2 u q) = ∑ r : Fin 20000, y3 V c r q * y3 V c r q := fun u q => by
    refine ((stats_inv V c t.val t.isLt u q).2).trans ?_
    rw [h9]
    exact all_blocks _
  show (cfg3.win 6).cut (grid3.coords t) ((dat3 V c).after 6 t) = _
  rw [after3_6]
  generalize (outsAt3 V c t.val t.isLt).2.2 = X at key ⊢
  funext j
  have hj0 : (j 0).val < 1 := (j 0).isLt
  have hj1 : (j 1).val < 128 := (j 1).isLt
  have ex : (cfg3.win 6).xinj (grid3.coords t) j = ix2 (⟨(j 0).val, hj0⟩ : Fin 1) (⟨(j 1).val, hj1⟩ : Fin 128) :=
    funext fun a => by match a with | ⟨0, _⟩ => rfl | ⟨1, _⟩ => rfl
  have hR : ∀ G : S1x128.Idx → EReal,
      ((cfg3.win 6).blk t).view.read (Elt Ideal) G j = G (((cfg3.win 6).blk t).view.emb j) := fun G => rfl
  have hL : (cfg3.win 6).cut (grid3.coords t) X j = X ((cfg3.win 6).xinj (grid3.coords t) j) := rfl
  rw [hL, hR, ex, key]
  unfold G6
  have eq : (⟨(j 1).val, hj1⟩ : Fin 128) = ⟨((((cfg3.win 6).blk t).view.emb j) 1).val, idx2_lt1 _⟩ := Fin.ext (by
    show (j 1).val = win3_6.index t (1 : Fin 2) * 128 + 1 * (j 1).val
    omega)
  rw [eq]

/-- The one block of a statistics row is the whole row, and the last point writes it back. -/
theorem cover5 (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  obtain ⟨-, -, -, -, -, -, -, -, -, -, e0, e1, -⟩ := idx_facts tl
  refine ⟨tl, (flush3_5 tl).mpr rfl, ?_⟩
  show i ∈ ((View.whole main_v89_1).slice (win3_5.rect tl)).set
  rw [View.set_slice_whole, Rect.mem_set_unit]
  intro a
  match a with
  | ⟨0, _⟩ =>
    show win3_5.index tl (0 : Fin 2) * 1 ≤ (i 0).val ∧ (i 0).val < win3_5.index tl (0 : Fin 2) * 1 + 1
    rw [e0]; omega
  | ⟨1, _⟩ =>
    show win3_5.index tl (1 : Fin 2) * 128 ≤ (i 1).val ∧ (i 1).val < win3_5.index tl (1 : Fin 2) * 128 + 128
    rw [e1]; omega

theorem cover6 (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  obtain ⟨-, -, -, -, -, -, -, -, -, -, -, -, e0, e1⟩ := idx_facts tl
  refine ⟨tl, (flush3_6 tl).mpr rfl, ?_⟩
  show i ∈ ((View.whole main_v89_2).slice (win3_6.rect tl)).set
  rw [View.set_slice_whole, Rect.mem_set_unit]
  intro a
  match a with
  | ⟨0, _⟩ =>
    show win3_6.index tl (0 : Fin 2) * 1 ≤ (i 0).val ∧ (i 0).val < win3_6.index tl (0 : Fin 2) * 1 + 1
    rw [e0]; omega
  | ⟨1, _⟩ =>
    show win3_6.index tl (1 : Fin 2) * 128 ≤ (i 1).val ∧ (i 1).val < win3_6.index tl (1 : Fin 2) * 128 + 128
    rw [e1]; omega

/-- So the two statistics arrays end holding the column sums over all rows. -/
theorem final5 : (dat3 V c).arrAt 5 cfg3.N = G5 V c :=
  (dat3 V c).arrAt_eq_of_cover 5 (G5 V c) (flushed5_eq V c) (cover5)

theorem final6 : (dat3 V c).arrAt 6 cfg3.N = G6 V c :=
  (dat3 V c).arrAt_eq_of_cover 6 (G6 V c) (flushed6_eq V c) (cover6)

end R3

/-- The product array after the region: entry (r, q) is y (r, q). -/
theorem region3_out4 (r : Fin 20000) (q : Fin 128) :
    ((dat3 V c).arrAt 4 cfg3.N : S20000x128.Idx → EReal) (ix2 r q) = y3 V c r q :=
  (congrFun (R3.final4 V c) (ix2 r q)).trans rfl

/-- The row of column sums after the region: column q is the sum of y (r, q) over all 20000 rows. -/
theorem region3_out5 (q : Fin 128) :
    ((dat3 V c).arrAt 5 cfg3.N : S1x128.Idx → EReal) (ix2 (0 : Fin 1) q) = ∑ r : Fin 20000, y3 V c r q :=
  (congrFun (R3.final5 V c) (ix2 (0 : Fin 1) q)).trans rfl

/-- The row of column sums of squares after the region: column q is the sum of y (r, q) * y (r, q) over all rows. -/
theorem region3_out6 (q : Fin 128) :
    ((dat3 V c).arrAt 6 cfg3.N : S1x128.Idx → EReal) (ix2 (0 : Fin 1) q)
      = ∑ r : Fin 20000, y3 V c r q * y3 V c r q :=
  (congrFun (R3.final6 V c) (ix2 (0 : Fin 1) q)).trans rfl

end Cert.KernelIdeal.RegionValue

end
-- ==== Proof.Region4.lean ====
/-
  Region 4 (scale, shift and cut off below at zero, over 10 blocks of 2000 rows): what its output array holds after
  the region, as a function of the arrays it finds.

  Write A 0 for the [20000, 128] matrix, A 1 and A 2 for the one-row scale and shift as the region finds them. Point t of
  the grid loads rows 2000 t … 2000 t + 1999 of A 0 and both rows, and stores max (x * scale + shift) 0 entry by entry; the
  block is written back at every point, and the blocks tile the output.
-/
import proofs.«131702_j10462540333326_2_alg».proof.Proof.Gen.KernelIdeal.Frame
import proofs.«131702_j10462540333326_2_alg».proof.Proof.HostArgs
import Idealize.ShloMosaic.Lib.Pipeline.Value
import Idealize.ShloMosaic.Lib.ValueLayout

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open Cert.KernelIdeal.HostValue (rd2)

variable (V : (c : Dev nD) → (b : Ref sig .tc) → Buf (Elt Ideal) ((c : Thread nD τ).loc b)) (c : Dev nD)

namespace R4

theorem hz : (![0, 0] : Fin 2 → Nat) = fun _ => 0 := funext fun a => by fin_cases a <;> rfl

/-- The three arrays the region reads, at their function types. -/
abbrev A0 : S20000x128.Idx → EReal := V c (Pipeline.arrRef spec4 0)
abbrev A1 : S1x128.Idx → EReal := V c (Pipeline.arrRef spec4 1)
abbrev A2 : S1x128.Idx → EReal := V c (Pipeline.arrRef spec4 2)

/-- The stored block at entry (p, q): the loaded entry scaled and shifted by column q's scale and shift, cut off below
    at zero (a cast to the same shape is the identity; a one-row matrix spread over the rows reads its column
    everywhere). -/
theorem pay1_apply (x : Vec Ideal S2000x128 .f32) (sc sh : Vec Ideal S1x128 .f32) (p : Fin 2000) (q : Fin 128) :
    k4_pay1 (F := Ideal) x sc sh (ix2 p q)
      = max (x (ix2 p q) * sc (ix2 (0 : Fin 1) q) + sh (ix2 (0 : Fin 1) q)) (Ideal.ofBits .f32 0x00000000#32) := by
  unfold k4_pay1
  show max (shapeCast S2000x128 x shapeCasts_S2000x128_S2000x128 (ix2 p q)
        * broadcastTo S2000x128 (shapeCast S1x128 sc shapeCasts_S1x128_S1x128) broadcasts_S1x128_S2000x128 (ix2 p q)
      + broadcastTo S2000x128 (shapeCast S1x128 sh shapeCasts_S1x128_S1x128) broadcasts_S1x128_S2000x128 (ix2 p q))
    (Ideal.ofBits .f32 0x00000000#32) = _
  rw [broadcastTo_1b_ab_apply, broadcastTo_1b_ab_apply, shapeCast_self, shapeCast_self, shapeCast_self]

/-- The body's one store covers its buffer: what it leaves is its payload of the loaded blocks. -/
theorem out_eq (x0 : Vec Ideal S2000x128 .f32) (x1 x2 : Vec Ideal S1x128 .f32) :
    out4_3 (F := Ideal) x0 x1 x2 = k4_pay1 x0 x1 x2 := by
  unfold out4_3
  rw [View.canon_unit_zero hz]
  simp only [View.ld_unit_zero (S := S2000x128) hz, View.ld_unit_zero (S := S1x128) hz]

/-- Where each window's block sits at point t: the row blocks of windows 0 and 3 move with the point, the scale and
    shift rows stay. Decided over the 10 points. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the block at point t is row 2000 t + p of the matrix. -/
theorem iblk0_apply (t : Fin cfg4.N) (p : Fin 2000) (q : Fin 128) (hr : 2000 * t.val + p.val < 20000) :
    (iblk4 V c 0 t : Vec Ideal S2000x128 .f32) (ix2 p q) = A0 V c (ix2 ⟨2000 * t.val + p.val, hr⟩ q) := by
  obtain ⟨e0, e1, -⟩ := idx_facts t
  unfold iblk4
  rw [View.read_apply]
  show V c (Pipeline.arrRef spec4 0) (((cfg4.win 0).blk t).view.emb (ix2 p q)) = _
  refine congrArg _ (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * q.val = q.val; omega

/-- The scale block at every point is the whole scale row. -/
theorem iblk1_apply (t : Fin cfg4.N) (u : Fin 1) (q : Fin 128) :
    (iblk4 V c 1 t : Vec Ideal S1x128 .f32) (ix2 u q) = A1 V c (ix2 (0 : Fin 1) q) := by
  obtain ⟨-, -, e0, e1, -⟩ := idx_facts t
  unfold iblk4
  rw [View.read_apply]
  show V c (Pipeline.arrRef spec4 1) (((cfg4.win 1).blk t).view.emb (ix2 u q)) = _
  refine congrArg _ (funext fun a => Fin.ext ?_)
  match a with
  | ⟨0, _⟩ => show win4_1.index t (0 : Fin 2) * 1 + 1 * u.val = 0; omega
  | ⟨1, _⟩ => show win4_1.index t (1 : Fin 2) * 128 + 1 * q.val = q.val; omega

/-- The shift block at every point is the whole shift row. -/
theorem iblk2_apply (t : Fin cfg4.N) (u : Fin 1) (q : Fin 128) :
    (iblk4 V c 2 t : Vec Ideal S1x128 .f32) (ix2 u q) = A2 V c (ix2 (0 : Fin 1) q) := by
  obtain ⟨-, -, -, -, e0, e1, -⟩ := idx_facts t
  unfold iblk4
  rw [View.read_apply]
  show V c (Pipeline.arrRef spec4 2) (((cfg4.win 2).blk t).view.emb (ix2 u q)) = _
  refine congrArg _ (funext fun a => Fin.ext ?_)
  match a with
  | ⟨0, _⟩ => show win4_2.index t (0 : Fin 2) * 1 + 1 * u.val = 0; omega
  | ⟨1, _⟩ => show win4_2.index t (1 : Fin 2) * 128 + 1 * q.val = q.val; omega

/-- The array the region leaves. -/
def G3 : S20000x128.Idx → EReal := fun i =>
  max (rd2 (V c (Pipeline.arrRef spec4 0)) ⟨(i 0).val, idx2_lt0 i⟩ ⟨(i 1).val, idx2_lt1 i⟩
      * rd2 (V c (Pipeline.arrRef spec4 1)) (0 : Fin 1) ⟨(i 1).val, idx2_lt1 i⟩
    + rd2 (V c (Pipeline.arrRef spec4 2)) (0 : Fin 1) ⟨(i 1).val, idx2_lt1 i⟩) EdgeNodeLayer.cZero

/-- The stored block of point t at (p, q), in terms of the arrays. -/
theorem block_entry (t : Fin cfg4.N) (p : Fin 2000) (q : Fin 128) (hr : 2000 * t.val + p.val < 20000) :
    k4_pay1 (F := Ideal) (iblk4 V c 0 t) (iblk4 V c 1 t) (iblk4 V c 2 t) (ix2 p q)
      = max (A0 V c (ix2 ⟨2000 * t.val + p.val, hr⟩ q) * A1 V c (ix2 (0 : Fin 1) q) + A2 V c (ix2 (0 : Fin 1) q))
          EdgeNodeLayer.cZero := by
  refine (pay1_apply (iblk4 V c 0 t) (iblk4 V c 1 t) (iblk4 V c 2 t) p q).trans ?_
  rw [iblk0_apply V c t p q hr, iblk1_apply V c t 0 q, iblk2_apply V c t 0 q]

/-- Point t writes back rows 2000 t … 2000 t + 1999 of that array. -/
theorem flushed3_eq (t : Fin cfg4.N) :
    (dat4 V c).flushed 3 t = ((cfg4.win 3).blk t).view.read (Elt Ideal) (G3 V c) := by
  have hN : t.val < 10 := lt_of_lt_of_eq t.isLt (show cfg4.N = 10 from N_4)
  obtain ⟨-, -, -, -, -, -, e0, e1⟩ := idx_facts t
  show (cfg4.win 3).cut (grid4.coords t) ((dat4 V c).after 3 t) = _
  rw [after4_3, out_eq]
  funext j
  have hj0 : (j 0).val < 2000 := (j 0).isLt
  have hj1 : (j 1).val < 128 := (j 1).isLt
  have ex : (cfg4.win 3).xinj (grid4.coords t) j = ix2 (⟨(j 0).val, hj0⟩ : Fin 2000) (⟨(j 1).val, hj1⟩ : Fin 128) :=
    funext fun a => by match a with | ⟨0, _⟩ => rfl | ⟨1, _⟩ => rfl
  have hR : ∀ G : S20000x128.Idx → EReal,
      ((cfg4.win 3).blk t).view.read (Elt Ideal) G j = G (((cfg4.win 3).blk t).view.emb j) := fun G => rfl
  have hL : ∀ X : Vec Ideal S2000x128 .f32,
      (cfg4.win 3).cut (grid4.coords t) X j = X ((cfg4.win 3).xinj (grid4.coords t) j) := fun X => rfl
  rw [hL, hR, ex]
  refine (block_entry V c t ⟨(j 0).val, hj0⟩ ⟨(j 1).val, hj1⟩ (by dsimp only; omega)).trans ?_
  unfold G3
  have eq0 : (⟨2000 * t.val + (j 0).val, by omega⟩ : Fin 20000)
      = ⟨((((cfg4.win 3).blk t).view.emb j) 0).val, idx2_lt0 _⟩ := Fin.ext (by
    show 2000 * t.val + (j 0).val = win4_3.index t (0 : Fin 2) * 2000 + 1 * (j 0).val
    omega)
  have eq1 : (⟨(j 1).val, hj1⟩ : Fin 128) = ⟨((((cfg4.win 3).blk t).view.emb j) 1).val, idx2_lt1 _⟩ := Fin.ext (by
    show (j 1).val = win4_3.index t (1 : Fin 2) * 128 + 1 * (j 1).val
    omega)
  rw [← eq0, ← eq1]

/-- An entry of the output array is in point t's block iff each coordinate is in the block's range. -/
theorem mem_blk3 (t : Fin cfg4.N) (i : S20000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v107).slice (win4_3.rect t)).set ↔ _
  rw [View.set_slice_whole, Rect.mem_set_unit]
  exact Iff.rfl

/-- Every row is in the block of the point its quotient by 2000 names. -/
theorem cover3 (i : S20000x128.Idx) :
    ∃ t : Fin cfg4.N, (cfg4.win 3).flush t = true ∧ i ∈ ((cfg4.win 3).blk t).view.set := by
  have hi0 : (i 0).val < 20000 := (i 0).isLt
  have hi1 : (i 1).val < 128 := (i 1).isLt
  have hN : cfg4.N = 10 := N_4
  have ht : (i 0).val / 2000 < cfg4.N := by omega
  obtain ⟨-, -, -, -, -, -, e0, e1⟩ := idx_facts ⟨(i 0).val / 2000, ht⟩
  refine ⟨⟨(i 0).val / 2000, ht⟩, flush4_3 _, ?_⟩
  rw [mem_blk3]
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [e0]; dsimp only; omega
  | ⟨1, _⟩ =>
    show win4_3.index ⟨(i 0).val / 2000, ht⟩ (1 : Fin 2) * 128 ≤ (i 1).val
      ∧ (i 1).val < win4_3.index ⟨(i 0).val / 2000, ht⟩ (1 : Fin 2) * 128 + 128
    rw [e1]; omega

/-- So the output array ends holding the scaled, shifted and cut-off matrix. -/
theorem final3 : (dat4 V c).arrAt 3 cfg4.N = G3 V c :=
  (dat4 V c).arrAt_eq_of_cover 3 (G3 V c) (fun t _ => flushed3_eq V c t) (cover3)

end R4

/-- The output array after the region: entry (r, q) is the found entry scaled and shifted by column q's scale and
    shift, cut off below at zero. -/
theorem region4_out3 (r : Fin 20000) (q : Fin 128) :
    ((dat4 V c).arrAt 3 cfg4.N : S20000x128.Idx → EReal) (ix2 r q)
      = max (rd2 (V c (Pipeline.arrRef spec4 0)) r q * rd2 (V c (Pipeline.arrRef spec4 1)) (0 : Fin 1) q
          + rd2 (V c (Pipeline.arrRef spec4 2)) (0 : Fin 1) q) EdgeNodeLayer.cZero :=
  (congrFun (R4.final3 V c) (ix2 r q)).trans rfl

end Cert.KernelIdeal.RegionValue

end
-- ==== Proof.Region5Cases.lean ====
/-
  What each control case of the two-operand product kernel leaves in its three output blocks.

  The body has two cases. At the first grid point it stores zeros into the two statistics rows, then runs the common
  part; at later points it runs the common part on the rows as the point before left them. The common part stores
  the product block (narrowed to bf16), adds its column sums to the first row and the column sums of its square to
  the second. This module reads the stores each case was found to make back as values.
-/
import proofs.«131702_j10462540333326_2_alg».proof.Proof.Gen.KernelIdeal.Frame
import Idealize.ShloMosaic.Lib.Pipeline.Value
import Idealize.ShloMosaic.Lib.Tactic

noncomputable section

namespace Cert.KernelIdeal.RegionValue

open Cert.KernelIdeal Cert.KernelIdeal.Gen Idealize.ShloMosaic Idealize.ShloMosaic.Tactic

variable {F : FTy → Type} [FloatOps F]

theorem r5_hz : (![0, 0] : Fin 2 → Nat) = fun _ => 0 := funext fun a => by fin_cases a <;> rfl

/-- First point, product window: the one covering store's value, its loads reading the four input blocks whole. -/
theorem out5_A_4_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : cond5_0 i) (x0 : Vec F S4000x128 .f32) (x1 : Vec F S4000x128 .f32) (x2 : Vec F S128x256 .f32) (x3 : Vec F S128x256 .f32) :
    out5_A_4 c i arg1 harg1 arg2 harg2 arg3 harg3 arg4 harg4 arg5 harg5 arg6 harg6 arg7 harg7 hc0 x0 x1 x2 x3 = k5_pay4 x0 x1 x2 x3 := by
  unfold out5_A_4
  rw [View.read_writes_eq_canon _ _ _ (cover5_A_4 c i arg1 harg1 arg2 harg2 arg3 harg3 arg4 harg4 arg5 harg5 arg6 harg6 arg7 harg7 hc0 x0 x1 x2 x3)]
  unfold kernelRun5_A
  dsimp only
  sl_unfold_words
  rw [View.canon_unit_zero (S := S4000x256) r5_hz]
  simp only [View.readAt_eq_ld, harg1.read_unread, harg2.read_unread, harg3.read_unread, harg4.read_unread, View.ld_unit_zero (S := S4000x128) r5_hz, View.ld_unit_zero (S := S128x256) r5_hz]

/-- First point, column-sum row: the last store wins; the row it adds to is the zero row stored just before. -/
theorem out5_A_5_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : cond5_0 i) (x0 : Vec F S4000x128 .f32) (x1 : Vec F S4000x128 .f32) (x2 : Vec F S128x256 .f32) (x3 : Vec F S128x256 .f32) :
    out5_A_5 c i arg1 harg1 arg2 harg2 arg3 harg3 arg4 harg4 arg5 harg5 arg6 harg6 arg7 harg7 hc0 x0 x1 x2 x3 = k5_pay5 x0 x1 x2 x3 k5_pay1 := by
  unfold out5_A_5
  rw [View.read_writes_eq_canon _ _ _ (cover5_A_5 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) r5_hz, View.readCov_unit_zero (S := S1x256) _ r5_hz]
  simp only [View.readAt_eq_ld, harg1.read_unread, harg2.read_unread, harg3.read_unread, harg4.read_unread, View.ld_unit_zero (S := S4000x128) r5_hz, View.ld_unit_zero (S := S128x256) r5_hz]

/-- First point, sum-of-squares row: likewise, over the zero row stored just before. -/
theorem out5_A_6_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : cond5_0 i) (x0 : Vec F S4000x128 .f32) (x1 : Vec F S4000x128 .f32) (x2 : Vec F S128x256 .f32) (x3 : Vec F S128x256 .f32) :
    out5_A_6 c i arg1 harg1 arg2 harg2 arg3 harg3 arg4 harg4 arg5 harg5 arg6 harg6 arg7 harg7 hc0 x0 x1 x2 x3 = k5_pay6 x0 x1 x2 x3 k5_pay2 := by
  unfold out5_A_6
  rw [View.read_writes_eq_canon _ _ _ (cover5_A_6 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) r5_hz, View.readCov_unit_zero (S := S1x256) _ r5_hz]
  simp only [View.readAt_eq_ld, harg1.read_unread, harg2.read_unread, harg3.read_unread, harg4.read_unread, View.ld_unit_zero (S := S4000x128) r5_hz, View.ld_unit_zero (S := S128x256) r5_hz]

/-- Later points, product window. -/
theorem out5_B_4_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : ¬cond5_0 i) (x0 : Vec F S4000x128 .f32) (x1 : Vec F S4000x128 .f32) (x2 : Vec F S128x256 .f32) (x3 : Vec F S128x256 .f32) (xo5 : Vec F S1x256 .f32) (xo6 : Vec F S1x256 .f32) :
    out5_B_4 c i arg1 harg1 arg2 harg2 arg3 harg3 arg4 harg4 arg5 harg5 arg6 harg6 arg7 harg7 hc0 x0 x1 x2 x3 xo5 xo6 = k5_pay4 x0 x1 x2 x3 := by
  unfold out5_B_4
  rw [View.read_writes_eq_canon _ _ _ (cover5_B_4 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero (S := S4000x256) r5_hz]
  simp only [View.readAt_eq_ld, harg1.read_unread, harg2.read_unread, harg3.read_unread, harg4.read_unread, harg6.read_unread, harg7.read_unread, View.ld_unit_zero (S := S4000x128) r5_hz, View.ld_unit_zero (S := S128x256) r5_hz, View.ld_unit_zero (S := S1x256) r5_hz]

/-- Later points, column-sum row: what the point before left, plus this block's column sums. -/
theorem out5_B_5_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : ¬cond5_0 i) (x0 : Vec F S4000x128 .f32) (x1 : Vec F S4000x128 .f32) (x2 : Vec F S128x256 .f32) (x3 : Vec F S128x256 .f32) (xo5 : Vec F S1x256 .f32) (xo6 : Vec F S1x256 .f32) :
    out5_B_5 c i arg1 harg1 arg2 harg2 arg3 harg3 arg4 harg4 arg5 harg5 arg6 harg6 arg7 harg7 hc0 x0 x1 x2 x3 xo5 xo6 = k5_pay5 x0 x1 x2 x3 xo5 := by
  unfold out5_B_5
  rw [View.read_writes_eq_canon _ _ _ (cover5_B_5 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero (S := S1x256) r5_hz]
  simp only [View.readAt_eq_ld, harg1.read_unread, harg2.read_unread, harg3.read_unread, harg4.read_unread, harg6.read_unread, harg7.read_unread, View.ld_unit_zero (S := S4000x128) r5_hz, View.ld_unit_zero (S := S128x256) r5_hz, View.ld_unit_zero (S := S1x256) r5_hz]

/-- Later points, sum-of-squares row. -/
theorem out5_B_6_eq (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S4000x256 .bf16) (harg5 : arg5.IsWhole) (arg6 : Memref sig .tc .vmem S1x256 .f32) (harg6 : arg6.IsWhole) (arg7 : Memref sig .tc .vmem S1x256 .f32) (harg7 : arg7.IsWhole) (hc0 : ¬cond5_0 i) (x0 : Vec F S4000x128 .f32) (x1 : Vec F S4000x128 .f32) (x2 : Vec F S128x256 .f32) (x3 : Vec F S128x256 .f32) (xo5 : Vec F S1x256 .f32) (xo6 : Vec F S1x256 .f32) :
    out5_B_6 c i arg1 harg1 arg2 harg2 arg3 harg3 arg4 harg4 arg5 harg5 arg6 harg6 arg7 harg7 hc0 x0 x1 x2 x3 xo5 xo6 = k5_pay6 x0 x1 x2 x3 xo6 := by
  unfold out5_B_6
  rw [View.read_writes_eq_canon _ _ _ (cover5_B_6 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero (S := S1x256) r5_hz]
  simp only [View.readAt_eq_ld, harg1.read_unread, harg2.read_unread, harg3.read_unread, harg4.read_unread, harg6.read_unread, harg7.read_unread, View.ld_unit_zero (S := S4000x128) r5_hz, View.ld_unit_zero (S := S128x256) r5_hz, View.ld_unit_zero (S := S1x256) r5_hz]

end Cert.KernelIdeal.RegionValue

end
-- ==== Proof.Region5Def.lean ====
/-
  What the two-operand product region computes, as functions of the arrays it finds.

  The region reads two [320000,128] row arrays (windows 0, 1) and two [128,256] weight matrices (windows 2, 3). Row r
  of its product is the sum of the two row-by-matrix products; its two [1,256] statistics are the column sums of the
  product and of its square over all 320000 rows.
-/
import proofs.«131702_j10462540333326_2_alg».proof.Proof.Gen.KernelIdeal
import proofs.«131702_j10462540333326_2_alg».proof.Proof.HostArgs
import Idealize.ShloMosaic.Lib.ValueIdx
import Idealize.ShloMosaic.Lib.Pipeline.Launch

noncomputable section

namespace Cert.KernelIdeal.RegionValue

open Cert.KernelIdeal Cert.KernelIdeal.HostValue Idealize.ShloMosaic Idealize.ShloMosaic.TcCoe ValueIdx

variable (V : (c : Dev nD) → (b : Ref sig .tc) → Buf (Elt Ideal) ((c : Thread nD τ).loc b)) (c : Dev nD)

/-- Entry (r, q) of the product: two contractions over the 128 shared coordinates, added left to right. -/
def y5 (r : Fin 320000) (q : Fin 256) : EReal :=
  (∑ j : Fin 128, rd2 (V c (Pipeline.arrRef spec5 0)) r j * rd2 (V c (Pipeline.arrRef spec5 2)) j q)
    + (∑ j : Fin 128, rd2 (V c (Pipeline.arrRef spec5 1)) r j * rd2 (V c (Pipeline.arrRef spec5 3)) j q)

/-- The column sum of the product over the 4000 rows of block s (zero past the 80 blocks). -/
def blockSum5 (s : ℕ) (q : Fin 256) : EReal :=
  if h : s < 80 then ∑ p : Fin 4000, y5 V c ⟨4000 * s + p.val, by omega⟩ q else 0

/-- The column sum of the product's square over the 4000 rows of block s (zero past the 80 blocks). -/
def blockSq5 (s : ℕ) (q : Fin 256) : EReal :=
  if h : s < 80 then ∑ p : Fin 4000, y5 V c ⟨4000 * s + p.val, by omega⟩ q * y5 V c ⟨4000 * s + p.val, by omega⟩ q else 0

end Cert.KernelIdeal.RegionValue

end
-- ==== Proof.Region5Pay.lean ====
/-
  One grid point of the two-operand product kernel, entry by entry on the extended reals.

  At a grid point the body holds two [4000,128] row blocks x0, x1 and two [128,256] weight matrices x2, x3. It forms
  the product block  y = x0·x2 + x1·x3  (each factor narrowed to bf16 first, which on the extended reals changes
  nothing; each product accumulated into the zero block), stores it narrowed to bf16 (again no change), adds the
  block's column sums to a running [1,256] row and the column sums of the squares y·y to a second running row. This
  module reads each of those values at one entry.
-/
import proofs.«131702_j10462540333326_2_alg».proof.Proof.Gen.KernelIdeal.Skeleton
import proofs.«131702_j10462540333326_2_alg».proof.Proof.LibDotRecord
import proofs.«131702_j10462540333326_2_alg».proof.Proof.LibColumnSum
import Idealize.ShloMosaic.Lib.Pipeline.Value
import Idealize.ShloMosaic.Lib.ValueIdx

noncomputable section

namespace Cert.KernelIdeal.RegionValue

open Cert.KernelIdeal Cert.KernelIdeal.Gen Idealize.ShloMosaic ValueIdx

/-- A length-b vector cast to the row [1, b] reads, at (u, q), the vector's entry q. -/
theorem r5_shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- One of the two products of the body: a [4000,128] block by a [128,256] matrix, both narrowed to bf16, accumulated
    into the zero block; at entry (p, q) it is the contraction over the 128 shared coordinates. -/
theorem k5_product_apply (a : Vec Ideal S4000x128 .f32) (b : Vec Ideal S128x256 .f32) (p : Fin 4000) (q : Fin 256) :
    matmul (F := Ideal) dot_S4000x128_S128x256_S4000x256_1_0_0_1_n_n none
        (truncf .bf16 (shapeCast S4000x128 a shapeCasts_S4000x128_S4000x128) bitsLt_bf16_f32)
        (truncf .bf16 (shapeCast S128x256 b shapeCasts_S128x256_S128x256) bitsLt_bf16_f32)
        (constant (F := Ideal) S4000x256 .f32 0x00000000#32) (ix2 p q)
      = ∑ j : Fin 128, a (ix2 p j) * b (ix2 j q) := by
  refine (DotRecord.matmul_zero_apply dot_S4000x128_S128x256_S4000x256_1_0_0_1_n_n rfl rfl rfl rfl rfl rfl _ _ none p q).trans ?_
  refine Finset.sum_congr rfl fun j _ => ?_
  rw [truncf_apply, truncf_apply, shapeCast_self, shapeCast_self]

/-- The product block at entry (p, q): the two contractions added in the body's order. -/
theorem k5_pay3_apply (x0 x1 : Vec Ideal S4000x128 .f32) (x2 x3 : Vec Ideal S128x256 .f32)
    (p : Fin 4000) (q : Fin 256) :
    k5_pay3 x0 x1 x2 x3 (ix2 p q)
      = (∑ j : Fin 128, x0 (ix2 p j) * x2 (ix2 j q)) + (∑ j : Fin 128, x1 (ix2 p j) * x3 (ix2 j q)) := by
  unfold k5_pay3
  refine (addf_apply _ _ _).trans ?_
  refine congrArg₂ (· + ·) ?_ ?_
  · exact k5_product_apply x0 x2 p q
  · exact k5_product_apply x1 x3 p q

/-- What is stored in the product window is the product block narrowed to bf16: the same extended real. -/
theorem k5_pay4_apply (x0 x1 : Vec Ideal S4000x128 .f32) (x2 x3 : Vec Ideal S128x256 .f32) (j : S4000x256.Idx) :
    k5_pay4 x0 x1 x2 x3 j = k5_pay3 x0 x1 x2 x3 j := rfl

/-- The running column-sum row after the point: what it held, plus the product block's column sum. -/
theorem k5_pay5_apply (x0 x1 : Vec Ideal S4000x128 .f32) (x2 x3 : Vec Ideal S128x256 .f32)
    (v20 : Vec Ideal S1x256 .f32) (q : Fin 256) :
    k5_pay5 x0 x1 x2 x3 v20 (ix2 (0 : Fin 1) q)
      = v20 (ix2 (0 : Fin 1) q) + ∑ p : Fin 4000, k5_pay3 x0 x1 x2 x3 (ix2 p q) := by
  unfold k5_pay5
  refine (addf_apply _ _ _).trans ?_
  refine congrArg₂ (· + ·) (congrFun (shapeCast_self _ _) _) ?_
  refine (r5_shapeCast_b_1b_apply _ _ (0 : Fin 1) q).trans ?_
  exact ColumnSum.colSum_apply _ _ _ _ q

/-- The running sum-of-squares row after the point: what it held, plus the column sum of the block's squares. -/
theorem k5_pay6_apply (x0 x1 : Vec Ideal S4000x128 .f32) (x2 x3 : Vec Ideal S128x256 .f32)
    (v26 : Vec Ideal S1x256 .f32) (q : Fin 256) :
    k5_pay6 x0 x1 x2 x3 v26 (ix2 (0 : Fin 1) q)
      = v26 (ix2 (0 : Fin 1) q) + ∑ p : Fin 4000, k5_pay3 x0 x1 x2 x3 (ix2 p q) * k5_pay3 x0 x1 x2 x3 (ix2 p q) := by
  unfold k5_pay6
  refine (addf_apply _ _ _).trans ?_
  refine congrArg₂ (· + ·) (congrFun (shapeCast_self _ _) _) ?_
  refine (r5_shapeCast_b_1b_apply _ _ (0 : Fin 1) q).trans ?_
  refine (ColumnSum.colSum_apply _ _ _ _ q).trans ?_
  rfl

/-- The rows the first point stores before accumulating: zero at every column. -/
theorem k5_pay1_apply (j : S1x256.Idx) : k5_pay1 (F := Ideal) j = 0 := Ideal.ofBits_zero_f32

theorem k5_pay2_apply (j : S1x256.Idx) : k5_pay2 (F := Ideal) j = 0 := Ideal.ofBits_zero_f32

end Cert.KernelIdeal.RegionValue

end
-- ==== Proof.Region5Blocks.lean ====
/-
  Where the windows of the two-operand product region sit at each grid point.

  The grid has 80 points. At point t the two row windows and the product window hold rows 4000 t … 4000 t + 3999 of
  their arrays; the two weight windows and the two statistics windows hold their whole arrays at every point. So a
  block entry is an array entry at a shifted row, and the product block's entry (p, q) is the product's entry
  (4000 t + p, q).
-/
import proofs.«131702_j10462540333326_2_alg».proof.Proof.Gen.KernelIdeal.Frame
import proofs.«131702_j10462540333326_2_alg».proof.Proof.Region5Def
import proofs.«131702_j10462540333326_2_alg».proof.Proof.Region5Pay
import Idealize.ShloMosaic.Lib.Pipeline.Value

noncomputable section

namespace Cert.KernelIdeal.RegionValue

open Cert.KernelIdeal Cert.KernelIdeal.Gen Cert.KernelIdeal.HostValue Idealize.ShloMosaic Idealize.ShloMosaic.TcCoe ValueIdx

/-- The block indices of the seven windows at a point: the row windows (0, 1) and the product window (4) move with
    the point; the others stay at their only block. -/
structure R5Idx (t : Fin cfg5.N) : Prop where
  w0 : win5_0.index t (0 : Fin 2) = t.val ∧ win5_0.index t (1 : Fin 2) = 0
  w1 : win5_1.index t (0 : Fin 2) = t.val ∧ win5_1.index t (1 : Fin 2) = 0
  w2 : win5_2.index t (0 : Fin 2) = 0 ∧ win5_2.index t (1 : Fin 2) = 0
  w3 : win5_3.index t (0 : Fin 2) = 0 ∧ win5_3.index t (1 : Fin 2) = 0
  w4 : win5_4.index t (0 : Fin 2) = t.val ∧ win5_4.index t (1 : Fin 2) = 0
  w5 : win5_5.index t (0 : Fin 2) = 0 ∧ win5_5.index t (1 : Fin 2) = 0
  w6 : win5_6.index t (0 : Fin 2) = 0 ∧ win5_6.index t (1 : Fin 2) = 0

/-- Decided over the grid. -/
theorem r5_idx_all : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0) :=
  (by decide +kernel : ∀ t : Fin grid5.N, _)

theorem r5_idx (t : Fin cfg5.N) : R5Idx t := by
  obtain ⟨h0, h1, h2, h3, h4, h5, h6⟩ := r5_idx_all t
  exact ⟨h0, h1, h2, h3, h4, h5, h6⟩

variable (V : (c : Dev nD) → (b : Ref sig .tc) → Buf (Elt Ideal) ((c : Thread nD τ).loc b)) (c : Dev nD)

/-- Entry (p, j) of window 0's block at point t is entry (4000 t + p, j) of its array. -/
theorem r5_blk0 (t : Fin cfg5.N) (p : Fin 4000) (j : Fin 128) (r : Fin 320000) (hr : r.val = 4000 * t.val + p.val) :
    iblk5 V c 0 t (ix2 p j) = rd2 (V c (Pipeline.arrRef spec5 0)) r j := by
  have e0 : win5_0.index t (0 : Fin 2) = t.val := (r5_idx t).w0.1
  have e1 : win5_0.index t (1 : Fin 2) = 0 := (r5_idx t).w0.2
  unfold iblk5
  rw [View.read_apply]
  show V c (Pipeline.arrRef spec5 0) (((cfg5.win 0).blk t).view.emb (ix2 p j)) = _
  refine congrArg (V c (Pipeline.arrRef spec5 0)) (funext fun a => Fin.ext ?_)
  match a with
  | ⟨0, _⟩ => show win5_0.index t (0 : Fin 2) * 4000 + 1 * p.val = r.val; rw [e0, hr]; omega
  | ⟨1, _⟩ => show win5_0.index t (1 : Fin 2) * 128 + 1 * j.val = j.val; rw [e1]; omega

/-- Entry (p, j) of window 1's block at point t is entry (4000 t + p, j) of its array. -/
theorem r5_blk1 (t : Fin cfg5.N) (p : Fin 4000) (j : Fin 128) (r : Fin 320000) (hr : r.val = 4000 * t.val + p.val) :
    iblk5 V c 1 t (ix2 p j) = rd2 (V c (Pipeline.arrRef spec5 1)) r j := by
  have e0 : win5_1.index t (0 : Fin 2) = t.val := (r5_idx t).w1.1
  have e1 : win5_1.index t (1 : Fin 2) = 0 := (r5_idx t).w1.2
  unfold iblk5
  rw [View.read_apply]
  show V c (Pipeline.arrRef spec5 1) (((cfg5.win 1).blk t).view.emb (ix2 p j)) = _
  refine congrArg (V c (Pipeline.arrRef spec5 1)) (funext fun a => Fin.ext ?_)
  match a with
  | ⟨0, _⟩ => show win5_1.index t (0 : Fin 2) * 4000 + 1 * p.val = r.val; rw [e0, hr]; omega
  | ⟨1, _⟩ => show win5_1.index t (1 : Fin 2) * 128 + 1 * j.val = j.val; rw [e1]; omega

/-- Window 2's block at any point is its whole array. -/
theorem r5_blk2 (t : Fin cfg5.N) (j : Fin 128) (q : Fin 256) :
    iblk5 V c 2 t (ix2 j q) = rd2 (V c (Pipeline.arrRef spec5 2)) j q := by
  have e0 : win5_2.index t (0 : Fin 2) = 0 := (r5_idx t).w2.1
  have e1 : win5_2.index t (1 : Fin 2) = 0 := (r5_idx t).w2.2
  unfold iblk5
  rw [View.read_apply]
  show V c (Pipeline.arrRef spec5 2) (((cfg5.win 2).blk t).view.emb (ix2 j q)) = _
  refine congrArg (V c (Pipeline.arrRef spec5 2)) (funext fun a => Fin.ext ?_)
  match a with
  | ⟨0, _⟩ => show win5_2.index t (0 : Fin 2) * 128 + 1 * j.val = j.val; rw [e0]; omega
  | ⟨1, _⟩ => show win5_2.index t (1 : Fin 2) * 256 + 1 * q.val = q.val; rw [e1]; omega

/-- Window 3's block at any point is its whole array. -/
theorem r5_blk3 (t : Fin cfg5.N) (j : Fin 128) (q : Fin 256) :
    iblk5 V c 3 t (ix2 j q) = rd2 (V c (Pipeline.arrRef spec5 3)) j q := by
  have e0 : win5_3.index t (0 : Fin 2) = 0 := (r5_idx t).w3.1
  have e1 : win5_3.index t (1 : Fin 2) = 0 := (r5_idx t).w3.2
  unfold iblk5
  rw [View.read_apply]
  show V c (Pipeline.arrRef spec5 3) (((cfg5.win 3).blk t).view.emb (ix2 j q)) = _
  refine congrArg (V c (Pipeline.arrRef spec5 3)) (funext fun a => Fin.ext ?_)
  match a with
  | ⟨0, _⟩ => show win5_3.index t (0 : Fin 2) * 128 + 1 * j.val = j.val; rw [e0]; omega
  | ⟨1, _⟩ => show win5_3.index t (1 : Fin 2) * 256 + 1 * q.val = q.val; rw [e1]; omega

/-- The product block of point t at entry (p, q) is the product at row 4000 t + p. -/
theorem r5_pay3_blk (t : Fin cfg5.N) (p : Fin 4000) (q : Fin 256) (r : Fin 320000) (hr : r.val = 4000 * t.val + p.val) :
    k5_pay3 (iblk5 V c 0 t) (iblk5 V c 1 t) (iblk5 V c 2 t) (iblk5 V c 3 t) (ix2 p q) = y5 V c r q := by
  refine (k5_pay3_apply (iblk5 V c 0 t) (iblk5 V c 1 t) (iblk5 V c 2 t) (iblk5 V c 3 t) p q).trans ?_
  unfold y5
  refine congrArg₂ (· + ·) ?_ ?_
  · exact Finset.sum_congr rfl fun j _ => congrArg₂ (· * ·) (r5_blk0 V c t p j r hr) (r5_blk2 V c t j q)
  · exact Finset.sum_congr rfl fun j _ => congrArg₂ (· * ·) (r5_blk1 V c t p j r hr) (r5_blk3 V c t j q)

end Cert.KernelIdeal.RegionValue

end
-- ==== Proof.Region5Acc.lean ====
/-
  The two running statistics rows of the two-operand product region, after each grid point.

  At the first point the body zeroes both rows and then adds the first block's column sums; at every later point it
  adds that point's block to what the point before left. So after point n the first row holds, at column q, the sum
  of the product over the rows of blocks 0 … n, and the second the sum of its square. The proof is an induction on
  the point over the two cases of the body; the product block itself is the same in both cases.
-/
import proofs.«131702_j10462540333326_2_alg».proof.Proof.Region5Cases
import proofs.«131702_j10462540333326_2_alg».proof.Proof.Region5Blocks
import proofs.«131702_j10462540333326_2_alg».proof.Proof.LibBlockSums

noncomputable section

namespace Cert.KernelIdeal.RegionValue

open Cert.KernelIdeal Cert.KernelIdeal.Gen Idealize.ShloMosaic Idealize.ShloMosaic.TcCoe ValueIdx

variable (V : (c : Dev nD) → (b : Ref sig .tc) → Buf (Elt Ideal) ((c : Thread nD τ).loc b)) (c : Dev nD)

/-- At the first point: the product block, and the two rows at zero plus the block's sums. -/
theorem r5_first (t : Fin cfg5.N) (h0 : t.val % 80 = 0) :
    (outsAt5 V c t.val t.isLt).1 = k5_pay4 (iblk5 V c 0 t) (iblk5 V c 1 t) (iblk5 V c 2 t) (iblk5 V c 3 t)
    ∧ (outsAt5 V c t.val t.isLt).2.1 = k5_pay5 (iblk5 V c 0 t) (iblk5 V c 1 t) (iblk5 V c 2 t) (iblk5 V c 3 t) (k5_pay1 (F := Ideal))
    ∧ (outsAt5 V c t.val t.isLt).2.2 = k5_pay6 (iblk5 V c 0 t) (iblk5 V c 1 t) (iblk5 V c 2 t) (iblk5 V c 3 t) (k5_pay2 (F := Ideal)) := by
  rw [outsAt5_A V c t h0]
  dsimp only
  exact ⟨out5_A_4_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t),
    out5_A_5_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t),
    out5_A_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)⟩

/-- At a later point: the product block, and the two rows at what the point before left plus the block's sums. -/
theorem r5_later (t : Fin cfg5.N) (h0 : ¬t.val % 80 = 0) :
    (outsAt5 V c t.val t.isLt).1 = k5_pay4 (iblk5 V c 0 t) (iblk5 V c 1 t) (iblk5 V c 2 t) (iblk5 V c 3 t)
    ∧ (outsAt5 V c t.val t.isLt).2.1 = k5_pay5 (iblk5 V c 0 t) (iblk5 V c 1 t) (iblk5 V c 2 t) (iblk5 V c 3 t) (outsAt5 V c (t.val - 1) (Nat.lt_of_le_of_lt (Nat.sub_le _ _) t.isLt)).2.1
    ∧ (outsAt5 V c t.val t.isLt).2.2 = k5_pay6 (iblk5 V c 0 t) (iblk5 V c 1 t) (iblk5 V c 2 t) (iblk5 V c 3 t) (outsAt5 V c (t.val - 1) (Nat.lt_of_le_of_lt (Nat.sub_le _ _) t.isLt)).2.2 := by
  rw [outsAt5_B V c t h0]
  dsimp only
  exact ⟨out5_B_4_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2,
    out5_B_5_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2,
    out5_B_6_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2⟩

/-- At every point the product window's buffer holds the product block (narrowed to bf16). -/
theorem r5_prod (t : Fin cfg5.N) : (outsAt5 V c t.val t.isLt).1 = k5_pay4 (iblk5 V c 0 t) (iblk5 V c 1 t) (iblk5 V c 2 t) (iblk5 V c 3 t) := by
  by_cases h0 : t.val % 80 = 0
  · exact (r5_first V c t h0).1
  · exact (r5_later V c t h0).1

/-- The column sum of the product block of point t is the block sum of block t. -/
theorem r5_blockSum (t : Fin cfg5.N) (q : Fin 256) :
    ∑ p : Fin 4000, k5_pay3 (iblk5 V c 0 t) (iblk5 V c 1 t) (iblk5 V c 2 t) (iblk5 V c 3 t) (ix2 p q) = blockSum5 V c t.val q := by
  have hN : t.val < 80 := lt_of_lt_of_eq t.isLt (show cfg5.N = 80 from N_5)
  unfold blockSum5
  rw [dif_pos hN]
  exact Finset.sum_congr rfl fun p _ => r5_pay3_blk V c t p q ⟨4000 * t.val + p.val, by omega⟩ rfl

/-- The column sum of the squared product block of point t is the square sum of block t. -/
theorem r5_blockSq (t : Fin cfg5.N) (q : Fin 256) :
    ∑ p : Fin 4000, k5_pay3 (iblk5 V c 0 t) (iblk5 V c 1 t) (iblk5 V c 2 t) (iblk5 V c 3 t) (ix2 p q) * k5_pay3 (iblk5 V c 0 t) (iblk5 V c 1 t) (iblk5 V c 2 t) (iblk5 V c 3 t) (ix2 p q) = blockSq5 V c t.val q := by
  have hN : t.val < 80 := lt_of_lt_of_eq t.isLt (show cfg5.N = 80 from N_5)
  unfold blockSq5
  rw [dif_pos hN]
  refine Finset.sum_congr rfl fun p _ => ?_
  rw [r5_pay3_blk V c t p q ⟨4000 * t.val + p.val, by omega⟩ rfl]

/-- THE INVARIANT: after point n the rows hold the sums over blocks 0 … n. -/
theorem r5_inv : ∀ (n : ℕ) (h : n < cfg5.N) (q : Fin 256),
    (outsAt5 V c n h).2.1 (ix2 (0 : Fin 1) q) = ∑ s ∈ Finset.range (n + 1), blockSum5 V c s q
    ∧ (outsAt5 V c n h).2.2 (ix2 (0 : Fin 1) q) = ∑ s ∈ Finset.range (n + 1), blockSq5 V c s q
  | 0, h, q => by
    obtain ⟨-, e5, e6⟩ := r5_first V c ⟨0, h⟩ rfl
    have e5' : (outsAt5 V c 0 h).2.1 = _ := e5
    have e6' : (outsAt5 V c 0 h).2.2 = _ := e6
    constructor
    · rw [e5', k5_pay5_apply, k5_pay1_apply, zero_add, Finset.sum_range_one]
      exact r5_blockSum V c ⟨0, h⟩ q
    · rw [e6', k5_pay6_apply, k5_pay2_apply, zero_add, Finset.sum_range_one]
      exact r5_blockSq V c ⟨0, h⟩ q
  | n + 1, h, q => by
    have hN : cfg5.N = 80 := N_5
    have hB : ¬(⟨n + 1, h⟩ : Fin cfg5.N).val % 80 = 0 := by dsimp only; omega
    obtain ⟨-, e5, e6⟩ := r5_later V c ⟨n + 1, h⟩ hB
    have e5' : (outsAt5 V c (n + 1) h).2.1 = k5_pay5 (iblk5 V c 0 ⟨n + 1, h⟩) (iblk5 V c 1 ⟨n + 1, h⟩) (iblk5 V c 2 ⟨n + 1, h⟩) (iblk5 V c 3 ⟨n + 1, h⟩) (outsAt5 V c n (Nat.lt_of_succ_lt h)).2.1 := e5
    have e6' : (outsAt5 V c (n + 1) h).2.2 = k5_pay6 (iblk5 V c 0 ⟨n + 1, h⟩) (iblk5 V c 1 ⟨n + 1, h⟩) (iblk5 V c 2 ⟨n + 1, h⟩) (iblk5 V c 3 ⟨n + 1, h⟩) (outsAt5 V c n (Nat.lt_of_succ_lt h)).2.2 := e6
    obtain ⟨ih5, ih6⟩ := r5_inv n (Nat.lt_of_succ_lt h) q
    constructor
    · rw [e5', k5_pay5_apply, ih5, Finset.sum_range_succ _ (n + 1)]
      exact congrArg _ (r5_blockSum V c ⟨n + 1, h⟩ q)
    · rw [e6', k5_pay6_apply, ih6, Finset.sum_range_succ _ (n + 1)]
      exact congrArg _ (r5_blockSq V c ⟨n + 1, h⟩ q)

/-- The 80 block sums add up to the sum over all rows. -/
theorem r5_total (q : Fin 256) : ∑ s ∈ Finset.range 80, blockSum5 V c s q = ∑ r : Fin 320000, y5 V c r q := by
  rw [BlockSums.sum_fin320000_blocks (fun r => y5 V c r q), ← Fin.sum_univ_eq_sum_range (fun s => blockSum5 V c s q) 80]
  refine Finset.sum_congr rfl fun t _ => ?_
  unfold blockSum5
  rw [dif_pos t.isLt]

theorem r5_totalSq (q : Fin 256) :
    ∑ s ∈ Finset.range 80, blockSq5 V c s q = ∑ r : Fin 320000, y5 V c r q * y5 V c r q := by
  rw [BlockSums.sum_fin320000_blocks (fun r => y5 V c r q * y5 V c r q), ← Fin.sum_univ_eq_sum_range (fun s => blockSq5 V c s q) 80]
  refine Finset.sum_congr rfl fun t _ => ?_
  unfold blockSq5
  rw [dif_pos t.isLt]

end Cert.KernelIdeal.RegionValue

end
-- ==== Proof.Region5.lean ====
/-
  The three arrays the two-operand product region leaves, entry by entry.

  The product window is written back at every grid point, block t of the array at point t, and the 80 blocks tile the
  320000 rows: the array ends holding the product at every entry (stored as bf16, the same extended real). The two
  statistics windows are one [1,256] block, written back once, after the last point, when they hold the sums over all
  80 blocks: the column sums of the product and of its square over all 320000 rows.
-/
import proofs.«131702_j10462540333326_2_alg».proof.Proof.Region5Acc

noncomputable section

namespace Cert.KernelIdeal.RegionValue

open Cert.KernelIdeal Cert.KernelIdeal.Gen Idealize.ShloMosaic Idealize.ShloMosaic.TcCoe ValueIdx
open Idealize.ShloMosaic.Pipeline (Dat)

variable (V : (c : Dev nD) → (b : Ref sig .tc) → Buf (Elt Ideal) ((c : Thread nD τ).loc b)) (c : Dev nD)

/-! ## The product array -/

/-- The product as one function of the array index. -/
def prodArr5 : S320000x256.Idx → EReal := fun i => y5 V c (i 0) (i 1)

/-- What point t writes back is block t of the product. -/
theorem r5_flushed4 (t : Fin cfg5.N) :
    (dat5 V c).flushed 4 t = ((cfg5.win 4).blk t).view.read (Elt Ideal) (prodArr5 V c) := by
  have hN : t.val < 80 := lt_of_lt_of_eq t.isLt (show cfg5.N = 80 from N_5)
  have e0 : win5_4.index t (0 : Fin 2) = t.val := (r5_idx t).w4.1
  have e1 : win5_4.index t (1 : Fin 2) = 0 := (r5_idx t).w4.2
  show (cfg5.win 4).cut (grid5.coords t) ((dat5 V c).after 4 t) = _
  rw [after5_4, r5_prod V c t]
  funext j
  obtain ⟨p, q, rfl⟩ : ∃ (p : Fin 4000) (q : Fin 256), j = ix2 p q := ⟨j 0, j 1, eq_ix2 j⟩
  show k5_pay4 (iblk5 V c 0 t) (iblk5 V c 1 t) (iblk5 V c 2 t) (iblk5 V c 3 t) (ix2 p q) = prodArr5 V c (((cfg5.win 4).blk t).view.emb (ix2 p q))
  have hemb : ((cfg5.win 4).blk t).view.emb (ix2 p q) = (ix2 (⟨4000 * t.val + p.val, by omega⟩ : Fin 320000) q : S320000x256.Idx) := by
    funext a; apply Fin.ext
    match a with
    | ⟨0, _⟩ => show win5_4.index t (0 : Fin 2) * 4000 + 1 * p.val = 4000 * t.val + p.val; rw [e0]; omega
    | ⟨1, _⟩ => show win5_4.index t (1 : Fin 2) * 256 + 1 * q.val = q.val; rw [e1]; omega
  rw [hemb]
  exact r5_pay3_blk V c t p q ⟨4000 * t.val + p.val, by omega⟩ rfl

/-- An index of the product array is in point t's block iff each coordinate is in the block's range on its axis. -/
theorem r5_mem_blk4 (t : Fin cfg5.N) (i : S320000x256.Idx) :
    i ∈ ((cfg5.win 4).blk t).view.set ↔ ∀ a : Fin 2, win5_4.index t a * S4000x256.size a ≤ (i a).val ∧ (i a).val < win5_4.index t a * S4000x256.size a + S4000x256.size a := by
  show i ∈ ((View.whole main_v122_0).slice (win5_4.rect t)).set ↔ _
  rw [View.set_slice_whole, Rect.mem_set_unit]
  exact Iff.rfl

/-- Row r lies in the block of point r / 4000. -/
theorem r5_cover4 (i : S320000x256.Idx) :
    ∃ t : Fin cfg5.N, (cfg5.win 4).flush t = true ∧ i ∈ ((cfg5.win 4).blk t).view.set := by
  have hi0 : (i 0).val < 320000 := (i 0).isLt
  have hi1 : (i 1).val < 256 := (i 1).isLt
  have hN : cfg5.N = 80 := N_5
  have e0 := (r5_idx ⟨(i 0).val / 4000, by rw [hN]; omega⟩).w4.1
  have e1 := (r5_idx ⟨(i 0).val / 4000, by rw [hN]; omega⟩).w4.2
  refine ⟨⟨(i 0).val / 4000, by rw [hN]; omega⟩, flush5_4 _, ?_⟩
  rw [r5_mem_blk4]
  intro a
  match a with
  | ⟨0, _⟩ =>
    show win5_4.index _ (0 : Fin 2) * 4000 ≤ (i 0).val ∧ (i 0).val < win5_4.index _ (0 : Fin 2) * 4000 + 4000
    rw [e0]; dsimp only; omega
  | ⟨1, _⟩ =>
    show win5_4.index _ (1 : Fin 2) * 256 ≤ (i 1).val ∧ (i 1).val < win5_4.index _ (1 : Fin 2) * 256 + 256
    rw [e1]; omega

/-- The product array after the region. -/
theorem region5_out4 (r : Fin 320000) (q : Fin 256) :
    ((dat5 V c).arrAt 4 cfg5.N : S320000x256.Idx → EReal) (ix2 r q) = y5 V c r q :=
  congrFun ((dat5 V c).arrAt_eq_of_cover 4 (prodArr5 V c) (fun t _ => r5_flushed4 V c t) (r5_cover4)) (ix2 r q)

/-! ## The two statistics rows -/

/-- The column sums of the product, and of its square, as functions of the [1,256] index. -/
def sumArr5 : S1x256.Idx → EReal := fun i => ∑ r : Fin 320000, y5 V c r (i 1)
def sqArr5 : S1x256.Idx → EReal := fun i => ∑ r : Fin 320000, y5 V c r (i 1) * y5 V c r (i 1)

/-- The one write-back of window 5, after the last point, writes the sums over all rows: the block is the whole row. -/
theorem r5_flushed5 (t : Fin cfg5.N) (hf : (cfg5.win 5).flush t = true) :
    (dat5 V c).flushed 5 t = ((cfg5.win 5).blk t).view.read (Elt Ideal) (sumArr5 V c) := by
  have hN : cfg5.N = 80 := N_5
  have h79 : t.val = 79 := by have := (flush5_5 t).mp hf; have := t.isLt; omega
  have e0 : win5_5.index t (0 : Fin 2) = 0 := (r5_idx t).w5.1
  have e1 : win5_5.index t (1 : Fin 2) = 0 := (r5_idx t).w5.2
  have hX : (outsAt5 V c t.val t.isLt).2.1 = sumArr5 V c := by
    funext j
    obtain ⟨u, q, rfl⟩ : ∃ (u : Fin 1) (q : Fin 256), j = ix2 u q := ⟨j 0, j 1, eq_ix2 j⟩
    have hu : u = 0 := Subsingleton.elim _ _
    subst hu
    refine ((r5_inv V c t.val t.isLt q).1).trans ?_
    rw [h79]
    exact r5_total V c q
  show (cfg5.win 5).cut (grid5.coords t) ((dat5 V c).after 5 t) = _
  rw [after5_5, hX]
  have hz' : (fun a => win5_5.index t a * main_v122_1.ty.shape.size a) = fun _ => 0 := funext fun a => by
    match a with
    | ⟨0, _⟩ => show win5_5.index t (0 : Fin 2) * 1 = 0; rw [e0]
    | ⟨1, _⟩ => show win5_5.index t (1 : Fin 2) * 256 = 0; rw [e1]
  exact (Memref.read_access_unit_zero (Elt Ideal) main_v122_1 hz' (fun a => by rw [congrFun hz' a]; simp) (sumArr5 V c)).symm

/-- An index of window 5's row is in point t's block iff each coordinate is in the block's range on its axis. -/
theorem r5_mem_blk5 (t : Fin cfg5.N) (i : S1x256.Idx) :
    i ∈ ((cfg5.win 5).blk t).view.set ↔ ∀ a : Fin 2, win5_5.index t a * S1x256.size a ≤ (i a).val ∧ (i a).val < win5_5.index t a * S1x256.size a + S1x256.size a := by
  show i ∈ ((View.whole main_v122_1).slice (win5_5.rect t)).set ↔ _
  rw [View.set_slice_whole, Rect.mem_set_unit]
  exact Iff.rfl

/-- Every index of window 5's row is in the last point's block. -/
theorem r5_cover5 (i : S1x256.Idx) :
    ∃ t : Fin cfg5.N, (cfg5.win 5).flush t = true ∧ i ∈ ((cfg5.win 5).blk t).view.set := by
  have hi0 : (i 0).val < 1 := (i 0).isLt
  have hi1 : (i 1).val < 256 := (i 1).isLt
  have hN : cfg5.N = 80 := N_5
  have e0 := (r5_idx ⟨79, by rw [hN]; omega⟩).w5.1
  have e1 := (r5_idx ⟨79, by rw [hN]; omega⟩).w5.2
  refine ⟨⟨79, by rw [hN]; omega⟩, (flush5_5 _).mpr rfl, ?_⟩
  rw [r5_mem_blk5]
  intro a
  match a with
  | ⟨0, _⟩ =>
    show win5_5.index _ (0 : Fin 2) * 1 ≤ (i 0).val ∧ (i 0).val < win5_5.index _ (0 : Fin 2) * 1 + 1
    rw [e0]; omega
  | ⟨1, _⟩ =>
    show win5_5.index _ (1 : Fin 2) * 256 ≤ (i 1).val ∧ (i 1).val < win5_5.index _ (1 : Fin 2) * 256 + 256
    rw [e1]; omega

/-- The one write-back of window 6, after the last point, writes the sums over all rows: the block is the whole row. -/
theorem r5_flushed6 (t : Fin cfg5.N) (hf : (cfg5.win 6).flush t = true) :
    (dat5 V c).flushed 6 t = ((cfg5.win 6).blk t).view.read (Elt Ideal) (sqArr5 V c) := by
  have hN : cfg5.N = 80 := N_5
  have h79 : t.val = 79 := by have := (flush5_6 t).mp hf; have := t.isLt; omega
  have e0 : win5_6.index t (0 : Fin 2) = 0 := (r5_idx t).w6.1
  have e1 : win5_6.index t (1 : Fin 2) = 0 := (r5_idx t).w6.2
  have hX : (outsAt5 V c t.val t.isLt).2.2 = sqArr5 V c := by
    funext j
    obtain ⟨u, q, rfl⟩ : ∃ (u : Fin 1) (q : Fin 256), j = ix2 u q := ⟨j 0, j 1, eq_ix2 j⟩
    have hu : u = 0 := Subsingleton.elim _ _
    subst hu
    refine ((r5_inv V c t.val t.isLt q).2).trans ?_
    rw [h79]
    exact r5_totalSq V c q
  show (cfg5.win 6).cut (grid5.coords t) ((dat5 V c).after 6 t) = _
  rw [after5_6, hX]
  have hz' : (fun a => win5_6.index t a * main_v122_2.ty.shape.size a) = fun _ => 0 := funext fun a => by
    match a with
    | ⟨0, _⟩ => show win5_6.index t (0 : Fin 2) * 1 = 0; rw [e0]
    | ⟨1, _⟩ => show win5_6.index t (1 : Fin 2) * 256 = 0; rw [e1]
  exact (Memref.read_access_unit_zero (Elt Ideal) main_v122_2 hz' (fun a => by rw [congrFun hz' a]; simp) (sqArr5 V c)).symm

/-- An index of window 6's row is in point t's block iff each coordinate is in the block's range on its axis. -/
theorem r5_mem_blk6 (t : Fin cfg5.N) (i : S1x256.Idx) :
    i ∈ ((cfg5.win 6).blk t).view.set ↔ ∀ a : Fin 2, win5_6.index t a * S1x256.size a ≤ (i a).val ∧ (i a).val < win5_6.index t a * S1x256.size a + S1x256.size a := by
  show i ∈ ((View.whole main_v122_2).slice (win5_6.rect t)).set ↔ _
  rw [View.set_slice_whole, Rect.mem_set_unit]
  exact Iff.rfl

/-- Every index of window 6's row is in the last point's block. -/
theorem r5_cover6 (i : S1x256.Idx) :
    ∃ t : Fin cfg5.N, (cfg5.win 6).flush t = true ∧ i ∈ ((cfg5.win 6).blk t).view.set := by
  have hi0 : (i 0).val < 1 := (i 0).isLt
  have hi1 : (i 1).val < 256 := (i 1).isLt
  have hN : cfg5.N = 80 := N_5
  have e0 := (r5_idx ⟨79, by rw [hN]; omega⟩).w6.1
  have e1 := (r5_idx ⟨79, by rw [hN]; omega⟩).w6.2
  refine ⟨⟨79, by rw [hN]; omega⟩, (flush5_6 _).mpr rfl, ?_⟩
  rw [r5_mem_blk6]
  intro a
  match a with
  | ⟨0, _⟩ =>
    show win5_6.index _ (0 : Fin 2) * 1 ≤ (i 0).val ∧ (i 0).val < win5_6.index _ (0 : Fin 2) * 1 + 1
    rw [e0]; omega
  | ⟨1, _⟩ =>
    show win5_6.index _ (1 : Fin 2) * 256 ≤ (i 1).val ∧ (i 1).val < win5_6.index _ (1 : Fin 2) * 256 + 256
    rw [e1]; omega

/-- The column-sum row after the region. -/
theorem region5_out5 (q : Fin 256) :
    ((dat5 V c).arrAt 5 cfg5.N : S1x256.Idx → EReal) (ix2 (0 : Fin 1) q) = ∑ r : Fin 320000, y5 V c r q :=
  congrFun ((dat5 V c).arrAt_eq_of_cover 5 (sumArr5 V c) (r5_flushed5 V c) (r5_cover5)) (ix2 (0 : Fin 1) q)

/-- The sum-of-squares row after the region. -/
theorem region5_out6 (q : Fin 256) :
    ((dat5 V c).arrAt 6 cfg5.N : S1x256.Idx → EReal) (ix2 (0 : Fin 1) q) = ∑ r : Fin 320000, y5 V c r q * y5 V c r q :=
  congrFun ((dat5 V c).arrAt_eq_of_cover 6 (sqArr5 V c) (r5_flushed6 V c) (r5_cover6)) (ix2 (0 : Fin 1) q)

end Cert.KernelIdeal.RegionValue

end
-- ==== Proof.Region6Math.lean ====
/-
  The arithmetic of one row block of a normalise-then-multiply matrix product with running column statistics, on the
  extended reals.

  A block of n rows of the left matrix is first scaled and shifted column by column (one scale and one shift per
  column, each a one-row matrix) and cut off below at zero; the result is multiplied with the whole right matrix; the
  product block is kept, and two rows of statistics are carried from block to block: the column sums of the product and
  the column sums of its squares. Here: the product block read at an entry as the sum over the contracted coordinate;
  a column sum of a block, kept as a one-row matrix, read at a column; the zero row; and the sum over all rows of the
  full matrix cut into the consecutive blocks of a run.
-/
import proofs.«131702_j10462540333326_2_alg».proof.Proof.LibDotRecord
import proofs.«131702_j10462540333326_2_alg».proof.Proof.LibColumnSum
import proofs.«131702_j10462540333326_2_alg».proof.Proof.LibBlockSums
import Idealize.ShloMosaic.Lib.ValueLayout

open scoped BigOperators

namespace Cert.KernelIdeal.RegionValue.R6

open Idealize.ShloMosaic Idealize.ShloMosaic.ValueIdx

variable {n K N : ℕ}

/-- The scaled, shifted and cut-off block times the right matrix, both narrowed to the matrix unit's input format and
    accumulated into zero: at entry (p, q) the sum over the contracted coordinate k of
    max (x (p, k) * scale (0, k) + shift (0, k)) 0 * w (k, q), the zero spelt as the word the body carries (a change of
    format is the identity on the extended reals, so is a cast to the same shape, and a one-row matrix spread over the
    rows reads its column everywhere). -/
theorem bnprod_apply (d : DotDims ⟨2, ![n, K]⟩ ⟨2, ![K, N]⟩ ⟨2, ![n, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![n, K]⟩ .bf16) (sc sh : FVec Ideal ⟨2, ![1, K]⟩ .f32) (w : FVec Ideal ⟨2, ![K, N]⟩ .f32)
    (hcx : (⟨2, ![n, K]⟩ : Shape).ShapeCasts ⟨2, ![n, K]⟩) (hc1 : (⟨2, ![1, K]⟩ : Shape).ShapeCasts ⟨2, ![1, K]⟩)
    (hbc : (⟨2, ![1, K]⟩ : Shape).Broadcasts ⟨2, ![n, K]⟩) (hb : FTy.bits .bf16 < FTy.bits .f32)
    (p : Fin n) (q : Fin N) :
    matmul d none
        (truncf .bf16
          (maximumf
            (addf (mulf (extf .f32 (shapeCast ⟨2, ![n, K]⟩ x hcx) hb) (broadcastTo ⟨2, ![n, K]⟩ (shapeCast ⟨2, ![1, K]⟩ sc hc1) hbc))
              (broadcastTo ⟨2, ![n, K]⟩ (shapeCast ⟨2, ![1, K]⟩ sh hc1) hbc))
            (broadcast ⟨2, ![n, K]⟩ (Scalar.ofBits (F := Ideal) .f32 0x00000000#32))) hb)
        (truncf .bf16 w hb) (constant ⟨2, ![n, N]⟩ .f32 0x00000000#32) (ix2 p q)
      = ∑ k : Fin K, max (x (ix2 p k) * sc (ix2 (0 : Fin 1) k) + sh (ix2 (0 : Fin 1) k))
          (Ideal.ofBits .f32 0x00000000#32) * w (ix2 k q) := by
  refine (DotRecord.matmul_zero_apply d h1 h2 h3 h4 h5 h6 _ _ none p q).trans ?_
  refine Finset.sum_congr rfl fun k _ => ?_
  show max (shapeCast ⟨2, ![n, K]⟩ x hcx (ix2 p k) * broadcastTo ⟨2, ![n, K]⟩ (shapeCast ⟨2, ![1, K]⟩ sc hc1) hbc (ix2 p k)
      + broadcastTo ⟨2, ![n, K]⟩ (shapeCast ⟨2, ![1, K]⟩ sh hc1) hbc (ix2 p k)) (Ideal.ofBits .f32 0x00000000#32)
    * w (ix2 k q) = _
  rw [DotRecord.broadcastTo_1b_ab_apply, DotRecord.broadcastTo_1b_ab_apply, shapeCast_self, shapeCast_self, shapeCast_self]

/-- The column sums of a block, kept as a one-row matrix: at column q the sum of the block's n entries of that column. -/
theorem colRow_apply (v : FVec Ideal ⟨2, ![n, N]⟩ .f32) (h : Shape.Reduces ⟨2, ![n, N]⟩ [0] ⟨1, ![N]⟩)
    (hφ : FKind.Formats .f32) (hacc : (0x00000000#32 : BitVec 32) = FKind.add.neutral .f32 hφ)
    (hc : (⟨1, ![N]⟩ : Shape).ShapeCasts ⟨2, ![1, N]⟩) (u : Fin 1) (q : Fin N) :
    shapeCast ⟨2, ![1, N]⟩ (multiReduction .add [0] ⟨1, ![N]⟩ v 0x00000000#32 h hφ hacc) hc (ix2 u q)
      = ∑ j : Fin n, v (ix2 j q) :=
  (shapeCast_a_1a_apply _ hc u q).trans (ColumnSum.colSum_apply v h hφ hacc q)

/-- The row of zeros a run starts from. -/
theorem zeroRow_apply (i : (⟨2, ![1, N]⟩ : Shape).Idx) :
    (broadcast ⟨2, ![1, N]⟩ (Scalar.ofBits (F := Ideal) .f32 0x00000000#32) : FVec Ideal ⟨2, ![1, N]⟩ .f32) i = 0 :=
  Ideal.ofBits_zero_f32

/-- The blocks of a run, one after the other: block `s` of `b` rows contributes the sum of `f` over its rows
    `b s + i` (and nothing past the last block). -/
noncomputable def blockTerm {M : Type*} [AddCommMonoid M] (nb b : ℕ) (f : Fin (nb * b) → M) (s : ℕ) : M :=
  if h : s < nb then ∑ i : Fin b, f ⟨b * s + i.val, BlockSums.block_row_lt h i.isLt⟩ else 0

/-- All `nb` blocks together are the whole range of rows. -/
theorem sum_blockTerm {M : Type*} [AddCommMonoid M] (nb b : ℕ) (f : Fin (nb * b) → M) :
    ∑ s ∈ Finset.range nb, blockTerm nb b f s = ∑ r, f r := by
  rw [Finset.sum_range, BlockSums.sum_fin_mul_blocks nb b f]
  refine Finset.sum_congr rfl fun t _ => ?_
  unfold blockTerm
  rw [dif_pos t.isLt]

end Cert.KernelIdeal.RegionValue.R6
-- ==== Proof.Region6Pay.lean ====
/-
  What the body of the normalise-then-multiply kernel with statistics computes from the blocks it loads, on the
  extended reals.

  From a block x of 4000 rows of the left matrix, the one-row scale and shift, and the right matrix w it forms
  z (p, k) = max (x (p, k) * scale (0, k) + shift (0, k)) 0 and the product block P (p, q) = ∑ k, z (p, k) * w (k, q);
  it stores P; to the running row of column sums it adds ∑ p, P (p, q); to the running row of column sums of squares it
  adds ∑ p, P (p, q) * P (p, q); a run starts both rows at zero.
-/
import proofs.«131702_j10462540333326_2_alg».proof.Proof.Gen.KernelIdeal.Skeleton
import proofs.«131702_j10462540333326_2_alg».proof.Proof.Region6Math

open scoped BigOperators

namespace Cert.KernelIdeal.RegionValue.R6

open Cert.KernelIdeal Cert.KernelIdeal.Gen Idealize.ShloMosaic Idealize.ShloMosaic.ValueIdx

/-- The product block at entry (p, q): the sum over the 256 contracted coordinates. -/
theorem pay3_apply (x : Vec Ideal S4000x256 .bf16) (sc sh : Vec Ideal S1x256 .f32) (w : Vec Ideal S256x128 .f32)
    (p : Fin 4000) (q : Fin 128) :
    k6_pay3 (F := Ideal) x sc sh w (ix2 p q)
      = ∑ k : Fin 256, max (x (ix2 p k) * sc (ix2 (0 : Fin 1) k) + sh (ix2 (0 : Fin 1) k))
          (Ideal.ofBits .f32 0x00000000#32) * w (ix2 k q) := by
  unfold k6_pay3
  exact bnprod_apply dot_S4000x256_S256x128_S4000x128_1_0_0_1_n_n rfl rfl rfl rfl rfl rfl x sc sh w _ _ _ _ p q

/-- The running row of column sums after a block: what it held plus the block's column sum. -/
theorem pay4_apply (x : Vec Ideal S4000x256 .bf16) (sc sh : Vec Ideal S1x256 .f32) (w : Vec Ideal S256x128 .f32)
    (acc : Vec Ideal S1x128 .f32) (u : Fin 1) (q : Fin 128) :
    k6_pay4 (F := Ideal) x sc sh w acc (ix2 u q)
      = acc (ix2 u q) + ∑ p : Fin 4000, k6_pay3 (F := Ideal) x sc sh w (ix2 p q) := by
  unfold k6_pay4
  refine congrArg₂ (· + ·) ?_ ?_
  · exact congrFun (shapeCast_self acc _) (ix2 u q)
  · exact colRow_apply (k6_pay3 (F := Ideal) x sc sh w) _ _ _ _ u q

/-- The running row of column sums of squares after a block: what it held plus the block's column sum of squares. -/
theorem pay5_apply (x : Vec Ideal S4000x256 .bf16) (sc sh : Vec Ideal S1x256 .f32) (w : Vec Ideal S256x128 .f32)
    (acc : Vec Ideal S1x128 .f32) (u : Fin 1) (q : Fin 128) :
    k6_pay5 (F := Ideal) x sc sh w acc (ix2 u q)
      = acc (ix2 u q)
        + ∑ p : Fin 4000, k6_pay3 (F := Ideal) x sc sh w (ix2 p q) * k6_pay3 (F := Ideal) x sc sh w (ix2 p q) := by
  unfold k6_pay5
  refine congrArg₂ (· + ·) ?_ ?_
  · exact congrFun (shapeCast_self acc _) (ix2 u q)
  · exact colRow_apply (mulf (k6_pay3 (F := Ideal) x sc sh w) (k6_pay3 (F := Ideal) x sc sh w)) _ _ _ _ u q

/-- The two rows a run starts from are zero. -/
theorem pay1_apply (i : S1x128.Idx) : k6_pay1 (F := Ideal) i = 0 := by
  unfold k6_pay1
  exact zeroRow_apply i

theorem pay2_apply (i : S1x128.Idx) : k6_pay2 (F := Ideal) i = 0 := by
  unfold k6_pay2
  exact zeroRow_apply i

end Cert.KernelIdeal.RegionValue.R6
-- ==== Proof.Region6Pieces.lean ====
/-
  What each case of the kernel body leaves in its three output buffers, as the body's arithmetic applied to the blocks
  it loaded.

  The body stores each output through the whole of its buffer, so what a buffer holds afterwards is the payload of the
  last store into it. At the first point of the run the two statistics rows are first set to zero and then read back,
  so the addition starts from the zero row; at a later point it starts from what the buffer held.
-/
import proofs.«131702_j10462540333326_2_alg».proof.Proof.Gen.KernelIdeal.Frame
import Idealize.ShloMosaic.Lib.Pipeline.Value
import Idealize.ShloMosaic.Lib.Tactic

noncomputable section

namespace Cert.KernelIdeal.RegionValue.R6

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point, product block: the stored block is the product of the loaded blocks. -/
theorem outA_4 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S4000x256 .bf16) (x1 : Vec F S1x256 .f32) (x2 : Vec F S1x256 .f32) (x3 : Vec F S256x128 .f32) :
    out6_A_4 c i a1 h1 a2 h2 a3 h3 a4 h4 a5 h5 a6 h6 a7 h7 hc x0 x1 x2 x3 = k6_pay3 x0 x1 x2 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  sl_unfold_words
  rw [View.canon_unit_zero hz]
  simp only [View.readAt_eq_ld, h1.read_unread, h2.read_unread, h3.read_unread, h4.read_unread,
    View.ld_unit_zero (S := S4000x256) hz, View.ld_unit_zero (S := S1x256) hz, View.ld_unit_zero (S := S256x128) hz]

/-- First point, row of column sums: the zero row plus the block's column sums. -/
theorem outA_5 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S4000x256 .bf16) (x1 : Vec F S1x256 .f32) (x2 : Vec F S1x256 .f32) (x3 : Vec F S256x128 .f32) :
    out6_A_5 c i a1 h1 a2 h2 a3 h3 a4 h4 a5 h5 a6 h6 a7 h7 hc x0 x1 x2 x3 = k6_pay4 x0 x1 x2 x3 (k6_pay1 (F := F)) := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S4000x256) hz, View.ld_unit_zero (S := S1x256) hz, View.ld_unit_zero (S := S256x128) hz]

/-- First point, row of column sums of squares: the zero row plus the block's column sums of squares. -/
theorem outA_6 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : cond6_0 i)
    (x0 : Vec F S4000x256 .bf16) (x1 : Vec F S1x256 .f32) (x2 : Vec F S1x256 .f32) (x3 : Vec F S256x128 .f32) :
    out6_A_6 c i a1 h1 a2 h2 a3 h3 a4 h4 a5 h5 a6 h6 a7 h7 hc x0 x1 x2 x3 = k6_pay5 x0 x1 x2 x3 (k6_pay2 (F := F)) := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S4000x256) hz, View.ld_unit_zero (S := S1x256) hz, View.ld_unit_zero (S := S256x128) hz]

/-- Later point, product block. -/
theorem outB_4 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S4000x256 .bf16) (x1 : Vec F S1x256 .f32) (x2 : Vec F S1x256 .f32) (x3 : Vec F S256x128 .f32) (xo5 xo6 : Vec F S1x128 .f32) :
    out6_B_4 c i a1 h1 a2 h2 a3 h3 a4 h4 a5 h5 a6 h6 a7 h7 hc x0 x1 x2 x3 xo5 xo6 = k6_pay3 x0 x1 x2 x3 := by
  unfold out6_B_4
  rw [View.read_writes_eq_canon _ _ _ (cover6_B_4 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread,
    View.ld_unit_zero (S := S4000x256) hz, View.ld_unit_zero (S := S1x256) hz, View.ld_unit_zero (S := S256x128) hz]

/-- Later point, row of column sums: what the buffer held plus the block's column sums. -/
theorem outB_5 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S4000x256 .bf16) (x1 : Vec F S1x256 .f32) (x2 : Vec F S1x256 .f32) (x3 : Vec F S256x128 .f32) (xo5 xo6 : Vec F S1x128 .f32) :
    out6_B_5 c i a1 h1 a2 h2 a3 h3 a4 h4 a5 h5 a6 h6 a7 h7 hc x0 x1 x2 x3 xo5 xo6 = k6_pay4 x0 x1 x2 x3 xo5 := by
  unfold out6_B_5
  rw [View.read_writes_eq_canon _ _ _ (cover6_B_5 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread, h6.read_unread,
    View.ld_unit_zero (S := S4000x256) hz, View.ld_unit_zero (S := S1x256) hz, View.ld_unit_zero (S := S256x128) hz,
    View.ld_unit_zero (S := S1x128) hz]

/-- Later point, row of column sums of squares: what the buffer held plus the block's column sums of squares. -/
theorem outB_6 (c : Dev nD) (i : grid6.Coords) (a1 : Memref sig .tc .vmem S4000x256 .bf16) (h1 : a1.IsWhole) (a2 : Memref sig .tc .vmem S1x256 .f32) (h2 : a2.IsWhole) (a3 : Memref sig .tc .vmem S1x256 .f32) (h3 : a3.IsWhole) (a4 : Memref sig .tc .vmem S256x128 .f32) (h4 : a4.IsWhole) (a5 : Memref sig .tc .vmem S4000x128 .f32) (h5 : a5.IsWhole) (a6 : Memref sig .tc .vmem S1x128 .f32) (h6 : a6.IsWhole) (a7 : Memref sig .tc .vmem S1x128 .f32) (h7 : a7.IsWhole) (hc : ¬cond6_0 i)
    (x0 : Vec F S4000x256 .bf16) (x1 : Vec F S1x256 .f32) (x2 : Vec F S1x256 .f32) (x3 : Vec F S256x128 .f32) (xo5 xo6 : Vec F S1x128 .f32) :
    out6_B_6 c i a1 h1 a2 h2 a3 h3 a4 h4 a5 h5 a6 h6 a7 h7 hc x0 x1 x2 x3 xo5 xo6 = k6_pay5 x0 x1 x2 x3 xo6 := by
  unfold out6_B_6
  rw [View.read_writes_eq_canon _ _ _ (cover6_B_6 c i a1 h1 a2 h2 a3 h3 a4 h4 a5 h5 a6 h6 a7 h7 hc x0 x1 x2 x3 xo5 xo6)]
  unfold kernelRun6_B
  dsimp only
  sl_unfold_words
  rw [View.canon_unit_zero hz]
  simp only [View.readAt_eq_ld, h1.read_unread, h2.read_unread, h3.read_unread, h4.read_unread, h7.read_unread,
    View.ld_unit_zero (S := S4000x256) hz, View.ld_unit_zero (S := S1x256) hz, View.ld_unit_zero (S := S256x128) hz,
    View.ld_unit_zero (S := S1x128) hz]

end Cert.KernelIdeal.RegionValue.R6

end
-- ==== Proof.Region6Value.lean ====
/-
  Region 6 (the normalise-then-multiply matrix product with running statistics over 80 blocks of 4000 rows): what its
  three output arrays hold after the region, as functions of the arrays it finds.

  Write A 0 for the [320000, 256] left matrix, A 1 and A 2 for the one-row scale and shift, A 3 for the [256, 128] right
  matrix as the region finds them, and y (r, q) = ∑ j, max (A 0 (r, j) * A 1 (0, j) + A 2 (0, j)) 0 * A 3 (j, q). Point t
  of the grid loads rows 4000 t … 4000 t + 3999 of A 0 and all of the other three, so its product block is rows 4000 t … of
  y; it is written back at every point, and the blocks tile the output. The two statistics rows are carried from point to
  point and written back after the last: after point n they hold the column sums (of y, of y * y) over the rows below
  4000 (n + 1), by induction on n; after point 79 that is every row.
-/
import proofs.«131702_j10462540333326_2_alg».proof.Proof.Gen.KernelIdeal.Frame
import proofs.«131702_j10462540333326_2_alg».proof.Proof.Region6Pay
import proofs.«131702_j10462540333326_2_alg».proof.Proof.Region6Pieces
import proofs.«131702_j10462540333326_2_alg».proof.Proof.HostArgs
import Idealize.ShloMosaic.Lib.Pipeline.Value

open scoped BigOperators

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open Cert.KernelIdeal.HostValue (rd2)

variable (V : (c : Dev nD) → (b : Ref sig .tc) → Buf (Elt Ideal) ((c : Thread nD τ).loc b)) (c : Dev nD)

/-- Entry (r, q) of the product of the scaled, shifted and cut-off left matrix with the right matrix, all as the region
    finds them. -/
def y6 (r : Fin 320000) (q : Fin 128) : EReal :=
  ∑ j : Fin 256, max (rd2 (V c (Pipeline.arrRef spec6 0)) r j * rd2 (V c (Pipeline.arrRef spec6 1)) (0 : Fin 1) j
      + rd2 (V c (Pipeline.arrRef spec6 2)) (0 : Fin 1) j) EdgeNodeLayer.cZero
    * rd2 (V c (Pipeline.arrRef spec6 3)) j q

namespace R6

/-- The four arrays the region reads, at their function types. -/
abbrev A0 : S320000x256.Idx → EReal := V c (Pipeline.arrRef spec6 0)
abbrev A1 : S1x256.Idx → EReal := V c (Pipeline.arrRef spec6 1)
abbrev A2 : S1x256.Idx → EReal := V c (Pipeline.arrRef spec6 2)
abbrev A3 : S256x128.Idx → EReal := V c (Pipeline.arrRef spec6 3)

/-- Where each window's block sits at point t: the row blocks of windows 0 and 4 move with the point, every other
    block index is zero. Decided over the 80 points. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The last point of the run. -/
def tl : Fin cfg6.N := ⟨79, by have : cfg6.N = 80 := N_6; omega⟩

/-- Row p of the left block at point t is row 4000 t + p of the left matrix. -/
theorem iblk0_apply (t : Fin cfg6.N) (p : Fin 4000) (k : Fin 256) (hr : 4000 * t.val + p.val < 320000) :
    (iblk6 V c 0 t : Vec Ideal S4000x256 .bf16) (ix2 p k) = A0 V c (ix2 ⟨4000 * t.val + p.val, hr⟩ k) := by
  obtain ⟨e0, e1, -⟩ := idx_facts t
  unfold iblk6
  rw [View.read_apply]
  show V c (Pipeline.arrRef spec6 0) (((cfg6.win 0).blk t).view.emb (ix2 p k)) = _
  refine congrArg _ (funext fun a => Fin.ext ?_)
  match a with
  | ⟨0, _⟩ => show win6_0.index t (0 : Fin 2) * 4000 + 1 * p.val = 4000 * t.val + p.val; omega
  | ⟨1, _⟩ => show win6_0.index t (1 : Fin 2) * 256 + 1 * k.val = k.val; omega

/-- The scale block at every point is the whole scale row. -/
theorem iblk1_apply (t : Fin cfg6.N) (u : Fin 1) (k : Fin 256) :
    (iblk6 V c 1 t : Vec Ideal S1x256 .f32) (ix2 u k) = A1 V c (ix2 (0 : Fin 1) k) := by
  obtain ⟨-, -, e0, e1, -⟩ := idx_facts t
  unfold iblk6
  rw [View.read_apply]
  show V c (Pipeline.arrRef spec6 1) (((cfg6.win 1).blk t).view.emb (ix2 u k)) = _
  refine congrArg _ (funext fun a => Fin.ext ?_)
  match a with
  | ⟨0, _⟩ => show win6_1.index t (0 : Fin 2) * 1 + 1 * u.val = 0; omega
  | ⟨1, _⟩ => show win6_1.index t (1 : Fin 2) * 256 + 1 * k.val = k.val; omega

/-- The shift block at every point is the whole shift row. -/
theorem iblk2_apply (t : Fin cfg6.N) (u : Fin 1) (k : Fin 256) :
    (iblk6 V c 2 t : Vec Ideal S1x256 .f32) (ix2 u k) = A2 V c (ix2 (0 : Fin 1) k) := by
  obtain ⟨-, -, -, -, e0, e1, -⟩ := idx_facts t
  unfold iblk6
  rw [View.read_apply]
  show V c (Pipeline.arrRef spec6 2) (((cfg6.win 2).blk t).view.emb (ix2 u k)) = _
  refine congrArg _ (funext fun a => Fin.ext ?_)
  match a with
  | ⟨0, _⟩ => show win6_2.index t (0 : Fin 2) * 1 + 1 * u.val = 0; omega
  | ⟨1, _⟩ => show win6_2.index t (1 : Fin 2) * 256 + 1 * k.val = k.val; omega

/-- The right block at every point is the whole right matrix. -/
theorem iblk3_apply (t : Fin cfg6.N) (k : Fin 256) (q : Fin 128) :
    (iblk6 V c 3 t : Vec Ideal S256x128 .f32) (ix2 k q) = A3 V c (ix2 k q) := by
  obtain ⟨-, -, -, -, -, -, e0, e1, -⟩ := idx_facts t
  unfold iblk6
  rw [View.read_apply]
  show V c (Pipeline.arrRef spec6 3) (((cfg6.win 3).blk t).view.emb (ix2 k q)) = _
  refine congrArg _ (funext fun a => Fin.ext ?_)
  match a with
  | ⟨0, _⟩ => show win6_3.index t (0 : Fin 2) * 256 + 1 * k.val = k.val; omega
  | ⟨1, _⟩ => show win6_3.index t (1 : Fin 2) * 128 + 1 * q.val = q.val; omega

/-- The product block of point t at (p, q) is y at row 4000 t + p. -/
theorem prod_entry (t : Fin cfg6.N) (p : Fin 4000) (q : Fin 128) (hr : 4000 * t.val + p.val < 320000) :
    k6_pay3 (F := Ideal) (iblk6 V c 0 t) (iblk6 V c 1 t) (iblk6 V c 2 t) (iblk6 V c 3 t) (ix2 p q) = y6 V c ⟨4000 * t.val + p.val, hr⟩ q := by
  refine (pay3_apply (iblk6 V c 0 t) (iblk6 V c 1 t) (iblk6 V c 2 t) (iblk6 V c 3 t) p q).trans ?_
  unfold y6
  refine Finset.sum_congr rfl fun k _ => ?_
  rw [iblk0_apply V c t p k hr, iblk1_apply V c t 0 k, iblk2_apply V c t 0 k, iblk3_apply V c t k q]

/-- The column sum of point t's product block is the sum of y over the rows of block t. -/
theorem block_sum (t : Fin cfg6.N) (q : Fin 128) :
    ∑ p : Fin 4000, k6_pay3 (F := Ideal) (iblk6 V c 0 t) (iblk6 V c 1 t) (iblk6 V c 2 t) (iblk6 V c 3 t) (ix2 p q)
      = blockTerm 80 4000 (fun r : Fin 320000 => y6 V c r q) t.val := by
  have hN : t.val < 80 := lt_of_lt_of_eq t.isLt (show cfg6.N = 80 from N_6)
  unfold blockTerm
  rw [dif_pos hN]
  exact Finset.sum_congr rfl fun p _ => prod_entry V c t p q _

/-- The column sum of squares of point t's product block is the sum of y * y over the rows of block t. -/
theorem block_sumsq (t : Fin cfg6.N) (q : Fin 128) :
    ∑ p : Fin 4000, k6_pay3 (F := Ideal) (iblk6 V c 0 t) (iblk6 V c 1 t) (iblk6 V c 2 t) (iblk6 V c 3 t) (ix2 p q) * k6_pay3 (F := Ideal) (iblk6 V c 0 t) (iblk6 V c 1 t) (iblk6 V c 2 t) (iblk6 V c 3 t) (ix2 p q)
      = blockTerm 80 4000 (fun r : Fin 320000 => y6 V c r q * y6 V c r q) t.val := by
  have hN : t.val < 80 := lt_of_lt_of_eq t.isLt (show cfg6.N = 80 from N_6)
  unfold blockTerm
  rw [dif_pos hN]
  refine Finset.sum_congr rfl fun p _ => ?_
  rw [prod_entry V c t p q (BlockSums.block_row_lt hN p.isLt)]

/-- What the three output buffers hold after the first point, as the body's arithmetic of the blocks loaded there. -/
theorem at_first (t : Fin cfg6.N) (h0 : t.val % 80 = 0) :
    outsAt6 V c t.val t.isLt
      = (k6_pay3 (iblk6 V c 0 t) (iblk6 V c 1 t) (iblk6 V c 2 t) (iblk6 V c 3 t), k6_pay4 (iblk6 V c 0 t) (iblk6 V c 1 t) (iblk6 V c 2 t) (iblk6 V c 3 t) (k6_pay1 (F := Ideal)),
          k6_pay5 (iblk6 V c 0 t) (iblk6 V c 1 t) (iblk6 V c 2 t) (iblk6 V c 3 t) (k6_pay2 (F := Ideal))) := by
  refine (outsAt6_A V c t h0).trans ?_
  refine congrArg₂ Prod.mk ?_ (congrArg₂ Prod.mk ?_ ?_)
  · exact outA_4 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) ((hcond6_0 t).mpr h0) (iblk6 V c 0 t) (iblk6 V c 1 t) (iblk6 V c 2 t) (iblk6 V c 3 t)
  · exact outA_5 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) ((hcond6_0 t).mpr h0) (iblk6 V c 0 t) (iblk6 V c 1 t) (iblk6 V c 2 t) (iblk6 V c 3 t)
  · exact outA_6 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) ((hcond6_0 t).mpr h0) (iblk6 V c 0 t) (iblk6 V c 1 t) (iblk6 V c 2 t) (iblk6 V c 3 t)

/-- What they hold after a later point, over what the point before left in the two statistics rows. -/
theorem at_later (t : Fin cfg6.N) (h0 : ¬t.val % 80 = 0) :
    outsAt6 V c t.val t.isLt
      = (k6_pay3 (iblk6 V c 0 t) (iblk6 V c 1 t) (iblk6 V c 2 t) (iblk6 V c 3 t),
          k6_pay4 (iblk6 V c 0 t) (iblk6 V c 1 t) (iblk6 V c 2 t) (iblk6 V c 3 t) (outsAt6 V c (t.val - 1) (Nat.lt_of_le_of_lt (Nat.sub_le _ _) t.isLt)).2.1,
          k6_pay5 (iblk6 V c 0 t) (iblk6 V c 1 t) (iblk6 V c 2 t) (iblk6 V c 3 t) (outsAt6 V c (t.val - 1) (Nat.lt_of_le_of_lt (Nat.sub_le _ _) t.isLt)).2.2) := by
  refine (outsAt6_B V c t h0).trans ?_
  refine congrArg₂ Prod.mk ?_ (congrArg₂ Prod.mk ?_ ?_)
  · exact outB_4 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _
  · exact outB_5 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _
  · exact outB_6 (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _

/-- The product block a point leaves is the product of the blocks it loaded, whichever case the point is in. -/
theorem prod_block (t : Fin cfg6.N) :
    (outsAt6 V c t.val t.isLt).1 = k6_pay3 (iblk6 V c 0 t) (iblk6 V c 1 t) (iblk6 V c 2 t) (iblk6 V c 3 t) := by
  by_cases h0 : t.val % 80 = 0
  · rw [at_first V c t h0]
  · rw [at_later V c t h0]

/-- After point n the row of column sums holds the column sums of y over the rows of blocks 0 … n, and the row of
    column sums of squares those of y * y: by induction on the point. -/
theorem stats_inv : ∀ (n : ℕ) (h : n < cfg6.N) (u : Fin 1) (q : Fin 128),
    (outsAt6 V c n h).2.1 (ix2 u q)
        = ∑ s ∈ Finset.range (n + 1), blockTerm 80 4000 (fun r : Fin 320000 => y6 V c r q) s
      ∧ (outsAt6 V c n h).2.2 (ix2 u q)
        = ∑ s ∈ Finset.range (n + 1), blockTerm 80 4000 (fun r : Fin 320000 => y6 V c r q * y6 V c r q) s
  | 0, h, u, q => by
    have e := at_first V c ⟨0, h⟩ rfl
    constructor
    · refine (congrFun (congrArg (fun x => x.2.1) e) (ix2 u q)).trans ?_
      refine (pay4_apply (iblk6 V c 0 ⟨0, h⟩) (iblk6 V c 1 ⟨0, h⟩) (iblk6 V c 2 ⟨0, h⟩) (iblk6 V c 3 ⟨0, h⟩) (k6_pay1 (F := Ideal)) u q).trans ?_
      rw [pay1_apply, zero_add, Finset.sum_range_one]
      exact block_sum V c ⟨0, h⟩ q
    · refine (congrFun (congrArg (fun x => x.2.2) e) (ix2 u q)).trans ?_
      refine (pay5_apply (iblk6 V c 0 ⟨0, h⟩) (iblk6 V c 1 ⟨0, h⟩) (iblk6 V c 2 ⟨0, h⟩) (iblk6 V c 3 ⟨0, h⟩) (k6_pay2 (F := Ideal)) u q).trans ?_
      rw [pay2_apply, zero_add, Finset.sum_range_one]
      exact block_sumsq V c ⟨0, h⟩ q
  | n + 1, h, u, q => by
    have hN : cfg6.N = 80 := N_6
    have hB : ¬(⟨n + 1, h⟩ : Fin cfg6.N).val % 80 = 0 := by dsimp only; omega
    have e := at_later V c ⟨n + 1, h⟩ hB
    obtain ⟨ih1, ih2⟩ := stats_inv n (Nat.lt_of_succ_lt h) u q
    constructor
    · refine (congrFun (congrArg (fun x => x.2.1) e) (ix2 u q)).trans ?_
      refine (pay4_apply (iblk6 V c 0 ⟨n + 1, h⟩) (iblk6 V c 1 ⟨n + 1, h⟩) (iblk6 V c 2 ⟨n + 1, h⟩) (iblk6 V c 3 ⟨n + 1, h⟩) _ u q).trans ?_
      rw [Finset.sum_range_succ _ (n + 1)]
      exact congrArg₂ (· + ·) ih1 (block_sum V c ⟨n + 1, h⟩ q)
    · refine (congrFun (congrArg (fun x => x.2.2) e) (ix2 u q)).trans ?_
      refine (pay5_apply (iblk6 V c 0 ⟨n + 1, h⟩) (iblk6 V c 1 ⟨n + 1, h⟩) (iblk6 V c 2 ⟨n + 1, h⟩) (iblk6 V c 3 ⟨n + 1, h⟩) _ u q).trans ?_
      rw [Finset.sum_range_succ _ (n + 1)]
      exact congrArg₂ (· + ·) ih2 (block_sumsq V c ⟨n + 1, h⟩ q)

/-- The three arrays the region leaves: the product, its column sums, the column sums of its squares. -/
def G4 : S320000x128.Idx → EReal := fun i => y6 V c ⟨(i 0).val, idx2_lt0 i⟩ ⟨(i 1).val, idx2_lt1 i⟩
def G5 : S1x128.Idx → EReal := fun i => ∑ r : Fin 320000, y6 V c r ⟨(i 1).val, idx2_lt1 i⟩
def G6 : S1x128.Idx → EReal :=
  fun i => ∑ r : Fin 320000, y6 V c r ⟨(i 1).val, idx2_lt1 i⟩ * y6 V c r ⟨(i 1).val, idx2_lt1 i⟩

/-- Point t writes back rows 4000 t … 4000 t + 3999 of the product. -/
theorem flushed4_eq (t : Fin cfg6.N) :
    (dat6 V c).flushed 4 t = ((cfg6.win 4).blk t).view.read (Elt Ideal) (G4 V c) := by
  have hN : t.val < 80 := lt_of_lt_of_eq t.isLt (show cfg6.N = 80 from N_6)
  obtain ⟨-, -, -, -, -, -, -, -, e0, e1, -⟩ := idx_facts t
  show (cfg6.win 4).cut (grid6.coords t) ((dat6 V c).after 4 t) = _
  rw [after6_4, prod_block]
  funext j
  have hj0 : (j 0).val < 4000 := (j 0).isLt
  have hj1 : (j 1).val < 128 := (j 1).isLt
  have ex : (cfg6.win 4).xinj (grid6.coords t) j = ix2 (⟨(j 0).val, hj0⟩ : Fin 4000) (⟨(j 1).val, hj1⟩ : Fin 128) :=
    funext fun a => by match a with | ⟨0, _⟩ => rfl | ⟨1, _⟩ => rfl
  have hR : ∀ G : S320000x128.Idx → EReal,
      ((cfg6.win 4).blk t).view.read (Elt Ideal) G j = G (((cfg6.win 4).blk t).view.emb j) := fun G => rfl
  have hL : ∀ X : Vec Ideal S4000x128 .f32,
      (cfg6.win 4).cut (grid6.coords t) X j = X ((cfg6.win 4).xinj (grid6.coords t) j) := fun X => rfl
  rw [hL, hR, ex]
  refine (prod_entry V c t ⟨(j 0).val, hj0⟩ ⟨(j 1).val, hj1⟩ (by dsimp only; omega)).trans ?_
  unfold G4
  refine congrArg₂ (y6 V c) (Fin.ext ?_) (Fin.ext ?_)
  · show 4000 * t.val + (j 0).val = win6_4.index t (0 : Fin 2) * 4000 + 1 * (j 0).val
    omega
  · show (j 1).val = win6_4.index t (1 : Fin 2) * 128 + 1 * (j 1).val
    omega

/-- An entry of the product array is in point t's block iff each coordinate is in the block's range. -/
theorem mem_blk4 (t : Fin cfg6.N) (i : S320000x128.Idx) :
    i ∈ ((cfg6.win 4).blk t).view.set ↔ ∀ a : Fin 2, win6_4.index t a * S4000x128.size a ≤ (i a).val
      ∧ (i a).val < win6_4.index t a * S4000x128.size a + S4000x128.size a := by
  show i ∈ ((View.whole main_v140_0).slice (win6_4.rect t)).set ↔ _
  rw [View.set_slice_whole, Rect.mem_set_unit]
  exact Iff.rfl

/-- Every row is in the block of the point its quotient by 4000 names. -/
theorem cover4 (i : S320000x128.Idx) :
    ∃ t : Fin cfg6.N, (cfg6.win 4).flush t = true ∧ i ∈ ((cfg6.win 4).blk t).view.set := by
  have hi0 : (i 0).val < 320000 := (i 0).isLt
  have hi1 : (i 1).val < 128 := (i 1).isLt
  have hN : cfg6.N = 80 := N_6
  have ht : (i 0).val / 4000 < cfg6.N := by omega
  obtain ⟨-, -, -, -, -, -, -, -, e0, e1, -⟩ := idx_facts ⟨(i 0).val / 4000, ht⟩
  refine ⟨⟨(i 0).val / 4000, ht⟩, flush6_4 _, ?_⟩
  rw [mem_blk4]
  intro a
  match a with
  | ⟨0, _⟩ =>
    show win6_4.index ⟨(i 0).val / 4000, ht⟩ (0 : Fin 2) * 4000 ≤ (i 0).val
      ∧ (i 0).val < win6_4.index ⟨(i 0).val / 4000, ht⟩ (0 : Fin 2) * 4000 + 4000
    rw [e0]; dsimp only; omega
  | ⟨1, _⟩ =>
    show win6_4.index ⟨(i 0).val / 4000, ht⟩ (1 : Fin 2) * 128 ≤ (i 1).val
      ∧ (i 1).val < win6_4.index ⟨(i 0).val / 4000, ht⟩ (1 : Fin 2) * 128 + 128
    rw [e1]; omega

/-- So the product array ends holding y. -/
theorem final4 : (dat6 V c).arrAt 4 cfg6.N = G4 V c :=
  (dat6 V c).arrAt_eq_of_cover 4 (G4 V c) (fun t _ => flushed4_eq V c t) (cover4)

/-- All 80 blocks together are all 320000 rows. -/
theorem all_blocks {M : Type*} [AddCommMonoid M] (f : Fin 320000 → M) :
    ∑ s ∈ Finset.range (79 + 1), blockTerm 80 4000 f s = ∑ r : Fin 320000, f r :=
  sum_blockTerm 80 4000 f

/-- The last point writes back the row of column sums over all rows. -/
theorem flushed5_eq (t : Fin cfg6.N) (hf : (cfg6.win 5).flush t = true) :
    (dat6 V c).flushed 5 t = ((cfg6.win 5).blk t).view.read (Elt Ideal) (G5 V c) := by
  have hN : cfg6.N = 80 := N_6
  have h9 : t.val = 79 := by have := (flush6_5 t).mp hf; have := t.isLt; omega
  obtain ⟨-, -, -, -, -, -, -, -, -, -, e0, e1, -⟩ := idx_facts t
  have key : ∀ (u : Fin 1) (q : Fin 128),
      (outsAt6 V c t.val t.isLt).2.1 (ix2 u q) = ∑ r : Fin 320000, y6 V c r q := fun u q => by
    refine ((stats_inv V c t.val t.isLt u q).1).trans ?_
    rw [h9]
    exact all_blocks _
  show (cfg6.win 5).cut (grid6.coords t) ((dat6 V c).after 5 t) = _
  rw [after6_5]
  generalize (outsAt6 V c t.val t.isLt).2.1 = X at key ⊢
  funext j
  have hj0 : (j 0).val < 1 := (j 0).isLt
  have hj1 : (j 1).val < 128 := (j 1).isLt
  have ex : (cfg6.win 5).xinj (grid6.coords t) j = ix2 (⟨(j 0).val, hj0⟩ : Fin 1) (⟨(j 1).val, hj1⟩ : Fin 128) :=
    funext fun a => by match a with | ⟨0, _⟩ => rfl | ⟨1, _⟩ => rfl
  have hR : ∀ G : S1x128.Idx → EReal,
      ((cfg6.win 5).blk t).view.read (Elt Ideal) G j = G (((cfg6.win 5).blk t).view.emb j) := fun G => rfl
  have hL : (cfg6.win 5).cut (grid6.coords t) X j = X ((cfg6.win 5).xinj (grid6.coords t) j) := rfl
  rw [hL, hR, ex, key]
  unfold G5
  have eq : (⟨(j 1).val, hj1⟩ : Fin 128) = ⟨((((cfg6.win 5).blk t).view.emb j) 1).val, idx2_lt1 _⟩ := Fin.ext (by
    show (j 1).val = win6_5.index t (1 : Fin 2) * 128 + 1 * (j 1).val
    omega)
  rw [eq]

/-- The last point writes back the row of column sums of squares over all rows. -/
theorem flushed6_eq (t : Fin cfg6.N) (hf : (cfg6.win 6).flush t = true) :
    (dat6 V c).flushed 6 t = ((cfg6.win 6).blk t).view.read (Elt Ideal) (G6 V c) := by
  have hN : cfg6.N = 80 := N_6
  have h9 : t.val = 79 := by have := (flush6_6 t).mp hf; have := t.isLt; omega
  obtain ⟨-, -, -, -, -, -, -, -, -, -, -, -, e0, e1⟩ := idx_facts t
  have key : ∀ (u : Fin 1) (q : Fin 128),
      (outsAt6 V c t.val t.isLt).2.2 (ix2 u q) = ∑ r : Fin 320000, y6 V c r q * y6 V c r q := fun u q => by
    refine ((stats_inv V c t.val t.isLt u q).2).trans ?_
    rw [h9]
    exact all_blocks _
  show (cfg6.win 6).cut (grid6.coords t) ((dat6 V c).after 6 t) = _
  rw [after6_6]
  generalize (outsAt6 V c t.val t.isLt).2.2 = X at key ⊢
  funext j
  have hj0 : (j 0).val < 1 := (j 0).isLt
  have hj1 : (j 1).val < 128 := (j 1).isLt
  have ex : (cfg6.win 6).xinj (grid6.coords t) j = ix2 (⟨(j 0).val, hj0⟩ : Fin 1) (⟨(j 1).val, hj1⟩ : Fin 128) :=
    funext fun a => by match a with | ⟨0, _⟩ => rfl | ⟨1, _⟩ => rfl
  have hR : ∀ G : S1x128.Idx → EReal,
      ((cfg6.win 6).blk t).view.read (Elt Ideal) G j = G (((cfg6.win 6).blk t).view.emb j) := fun G => rfl
  have hL : (cfg6.win 6).cut (grid6.coords t) X j = X ((cfg6.win 6).xinj (grid6.coords t) j) := rfl
  rw [hL, hR, ex, key]
  unfold G6
  have eq : (⟨(j 1).val, hj1⟩ : Fin 128) = ⟨((((cfg6.win 6).blk t).view.emb j) 1).val, idx2_lt1 _⟩ := Fin.ext (by
    show (j 1).val = win6_6.index t (1 : Fin 2) * 128 + 1 * (j 1).val
    omega)
  rw [eq]

/-- The one block of a statistics row is the whole row, and the last point writes it back. -/
theorem cover5 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  obtain ⟨-, -, -, -, -, -, -, -, -, -, e0, e1, -⟩ := idx_facts tl
  refine ⟨tl, (flush6_5 tl).mpr rfl, ?_⟩
  show i ∈ ((View.whole main_v140_1).slice (win6_5.rect tl)).set
  rw [View.set_slice_whole, Rect.mem_set_unit]
  intro a
  match a with
  | ⟨0, _⟩ =>
    show win6_5.index tl (0 : Fin 2) * 1 ≤ (i 0).val ∧ (i 0).val < win6_5.index tl (0 : Fin 2) * 1 + 1
    rw [e0]; omega
  | ⟨1, _⟩ =>
    show win6_5.index tl (1 : Fin 2) * 128 ≤ (i 1).val ∧ (i 1).val < win6_5.index tl (1 : Fin 2) * 128 + 128
    rw [e1]; omega

theorem cover6 (i : S1x128.Idx) :
    ∃ t : Fin cfg6.N, (cfg6.win 6).flush t = true ∧ i ∈ ((cfg6.win 6).blk t).view.set := by
  have hi0 : (i 0).val < 1 := (i 0).isLt
  have hi1 : (i 1).val < 128 := (i 1).isLt
  obtain ⟨-, -, -, -, -, -, -, -, -, -, -, -, e0, e1⟩ := idx_facts tl
  refine ⟨tl, (flush6_6 tl).mpr rfl, ?_⟩
  show i ∈ ((View.whole main_v140_2).slice (win6_6.rect tl)).set
  rw [View.set_slice_whole, Rect.mem_set_unit]
  intro a
  match a with
  | ⟨0, _⟩ =>
    show win6_6.index tl (0 : Fin 2) * 1 ≤ (i 0).val ∧ (i 0).val < win6_6.index tl (0 : Fin 2) * 1 + 1
    rw [e0]; omega
  | ⟨1, _⟩ =>
    show win6_6.index tl (1 : Fin 2) * 128 ≤ (i 1).val ∧ (i 1).val < win6_6.index tl (1 : Fin 2) * 128 + 128
    rw [e1]; omega

/-- So the two statistics arrays end holding the column sums over all rows. -/
theorem final5 : (dat6 V c).arrAt 5 cfg6.N = G5 V c :=
  (dat6 V c).arrAt_eq_of_cover 5 (G5 V c) (flushed5_eq V c) (cover5)

theorem final6 : (dat6 V c).arrAt 6 cfg6.N = G6 V c :=
  (dat6 V c).arrAt_eq_of_cover 6 (G6 V c) (flushed6_eq V c) (cover6)

end R6

/-- The product array after the region: entry (r, q) is y (r, q). -/
theorem region6_out4 (r : Fin 320000) (q : Fin 128) :
    ((dat6 V c).arrAt 4 cfg6.N : S320000x128.Idx → EReal) (ix2 r q) = y6 V c r q :=
  (congrFun (R6.final4 V c) (ix2 r q)).trans rfl

/-- The row of column sums after the region: column q is the sum of y (r, q) over all 320000 rows. -/
theorem region6_out5 (q : Fin 128) :
    ((dat6 V c).arrAt 5 cfg6.N : S1x128.Idx → EReal) (ix2 (0 : Fin 1) q) = ∑ r : Fin 320000, y6 V c r q :=
  (congrFun (R6.final5 V c) (ix2 (0 : Fin 1) q)).trans rfl

/-- The row of column sums of squares after the region: column q is the sum of y (r, q) * y (r, q) over all rows. -/
theorem region6_out6 (q : Fin 128) :
    ((dat6 V c).arrAt 6 cfg6.N : S1x128.Idx → EReal) (ix2 (0 : Fin 1) q)
      = ∑ r : Fin 320000, y6 V c r q * y6 V c r q :=
  (congrFun (R6.final6 V c) (ix2 (0 : Fin 1) q)).trans rfl

end Cert.KernelIdeal.RegionValue

end
-- ==== Proof.Region7.lean ====
/-
  The scale-shift-and-rectify kernel of region 7, read entry by entry on the extended reals.

  The kernel walks the 320000 rows of a [320000,128] array in 80 blocks of 4000 rows. At each block it multiplies every
  entry by the scale of its column, adds the column's shift (both are [1,128] rows, read whole at every block)
  and takes the maximum with zero. Each block of the result depends only on the same block of the input, the
  blocks tile the array, so the result array holds that expression at every entry (r, q).
-/
import proofs.«131702_j10462540333326_2_alg».proof.Proof.Gen.KernelIdeal.Frame
import proofs.«131702_j10462540333326_2_alg».proof.Proof.LibDotRecord
import proofs.«131702_j10462540333326_2_alg».proof.Proof.Spec
import proofs.«131702_j10462540333326_2_alg».proof.Proof.HostArgs
import Idealize.ShloMosaic.Lib.Pipeline.Value
import Idealize.ShloMosaic.Lib.Tactic

noncomputable section

namespace Cert.KernelIdeal.RegionValue

open Cert.KernelIdeal Cert.KernelIdeal.Gen Cert.KernelIdeal.HostValue Idealize.ShloMosaic Idealize.ShloMosaic.TcCoe ValueIdx
open Idealize.ShloMosaic.Pipeline (Dat)

/-! ## One block -/

theorem r7_hz : (![0, 0] : Fin 2 → Nat) = fun _ => 0 := funext fun a => by fin_cases a <;> rfl

/-- The body's one store, at entry (p, q) of the block: the input entry times the column's scale plus the column's
    shift, or zero if that is negative. -/
theorem k7_pay1_apply (x0 : Vec Ideal S4000x128 .f32) (x1 x2 : Vec Ideal S1x128 .f32) (p : Fin 4000) (q : Fin 128) :
    k7_pay1 x0 x1 x2 (ix2 p q)
      = max (x0 (ix2 p q) * x1 (ix2 (0 : Fin 1) q) + x2 (ix2 (0 : Fin 1) q)) EdgeNodeLayer.cZero := by
  unfold k7_pay1
  refine (maximumf_apply _ _ _).trans ?_
  refine congrArg₂ max ?_ rfl
  refine (addf_apply _ _ _).trans ?_
  refine congrArg₂ (· + ·) ((mulf_apply _ _ _).trans (congrArg₂ (· * ·) ?_ ?_)) ?_
  · exact congrFun (shapeCast_self _ _) _
  · exact (DotRecord.broadcastTo_1b_ab_apply _ _ p q).trans (congrFun (shapeCast_self _ _) _)
  · exact (DotRecord.broadcastTo_1b_ab_apply _ _ p q).trans (congrFun (shapeCast_self _ _) _)

/-- What the body leaves in the output's block is that store's value: the store covers the block and its loads read
    the three input blocks whole. -/
theorem out7_3_eq {F : FTy → Type} [FloatOps F] (x0 : Vec F S4000x128 .f32) (x1 x2 : Vec F S1x128 .f32) :
    out7_3 x0 x1 x2 = k7_pay1 x0 x1 x2 := by
  unfold out7_3
  rw [View.canon_unit_zero r7_hz]
  simp only [View.ld_unit_zero (S := S4000x128) r7_hz, View.ld_unit_zero (S := S1x128) r7_hz]

/-! ## From blocks to the array -/

variable (V : (c : Dev nD) → (b : Ref sig .tc) → Buf (Elt Ideal) ((c : Thread nD τ).loc b)) (c : Dev nD)

/-- The value at entry (r, q) of the result: entry (r, q) of the input array times the scale of column q plus its
    shift, or zero if that is negative. -/
def bnRelu7 (r : Fin 320000) (q : Fin 128) : EReal :=
  max (rd2 (V c (Pipeline.arrRef spec7 0)) r q * rd2 (V c (Pipeline.arrRef spec7 1)) (0 : Fin 1) q
    + rd2 (V c (Pipeline.arrRef spec7 2)) (0 : Fin 1) q) EdgeNodeLayer.cZero

/-- The same as one function of the array index. -/
def bnReluArr7 : S320000x128.Idx → EReal := fun i => bnRelu7 V c (i 0) (i 1)

/-- Where the windows' blocks sit at point t: the row blocks of the input and of the result at block t, the scale and
    shift rows at their only block. Decided over the grid. -/
theorem r7_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Entry (p, q) of the input's block at point t is entry (4000 t + p, q) of the input array. -/
theorem r7_blk0 (t : Fin cfg7.N) (p : Fin 4000) (q : Fin 128) (r : Fin 320000) (hr : r.val = 4000 * t.val + p.val) :
    iblk7 V c 0 t (ix2 p q) = rd2 (V c (Pipeline.arrRef spec7 0)) r q := by
  obtain ⟨e0, e1, -⟩ := r7_idx t
  unfold iblk7
  rw [View.read_apply]
  show V c (Pipeline.arrRef spec7 0) (((cfg7.win 0).blk t).view.emb (ix2 p q)) = _
  refine congrArg (V c (Pipeline.arrRef spec7 0)) (funext fun a => Fin.ext ?_)
  match a with
  | ⟨0, _⟩ => show win7_0.index t (0 : Fin 2) * 4000 + 1 * p.val = r.val; rw [e0, hr]; omega
  | ⟨1, _⟩ => show win7_0.index t (1 : Fin 2) * 128 + 1 * q.val = q.val; rw [e1]; omega

/-- The scale row's block at any point is the scale row. -/
theorem r7_blk1 (t : Fin cfg7.N) (q : Fin 128) :
    iblk7 V c 1 t (ix2 (0 : Fin 1) q) = rd2 (V c (Pipeline.arrRef spec7 1)) (0 : Fin 1) q := by
  obtain ⟨-, -, e2, e3, -⟩ := r7_idx t
  unfold iblk7
  rw [View.read_apply]
  show V c (Pipeline.arrRef spec7 1) (((cfg7.win 1).blk t).view.emb (ix2 (0 : Fin 1) q)) = _
  refine congrArg (V c (Pipeline.arrRef spec7 1)) (funext fun a => Fin.ext ?_)
  match a with
  | ⟨0, _⟩ => show win7_1.index t (0 : Fin 2) * 1 + 1 * 0 = 0; rw [e2]
  | ⟨1, _⟩ => show win7_1.index t (1 : Fin 2) * 128 + 1 * q.val = q.val; rw [e3]; omega

/-- The shift row's block at any point is the shift row. -/
theorem r7_blk2 (t : Fin cfg7.N) (q : Fin 128) :
    iblk7 V c 2 t (ix2 (0 : Fin 1) q) = rd2 (V c (Pipeline.arrRef spec7 2)) (0 : Fin 1) q := by
  obtain ⟨-, -, -, -, e4, e5, -⟩ := r7_idx t
  unfold iblk7
  rw [View.read_apply]
  show V c (Pipeline.arrRef spec7 2) (((cfg7.win 2).blk t).view.emb (ix2 (0 : Fin 1) q)) = _
  refine congrArg (V c (Pipeline.arrRef spec7 2)) (funext fun a => Fin.ext ?_)
  match a with
  | ⟨0, _⟩ => show win7_2.index t (0 : Fin 2) * 1 + 1 * 0 = 0; rw [e4]
  | ⟨1, _⟩ => show win7_2.index t (1 : Fin 2) * 128 + 1 * q.val = q.val; rw [e5]; omega

/-- What point t writes back is block t of the whole-array function. -/
theorem r7_flushed (t : Fin cfg7.N) :
    (dat7 V c).flushed 3 t = ((cfg7.win 3).blk t).view.read (Elt Ideal) (bnReluArr7 V c) := by
  have hN : t.val < 80 := lt_of_lt_of_eq t.isLt (show cfg7.N = 80 from N_7)
  obtain ⟨-, -, -, -, -, -, e6, e7⟩ := r7_idx t
  show (cfg7.win 3).cut (grid7.coords t) ((dat7 V c).after 3 t) = _
  rw [after7_3, out7_3_eq]
  funext j
  obtain ⟨p, q, rfl⟩ : ∃ (p : Fin 4000) (q : Fin 128), j = ix2 p q := ⟨j 0, j 1, eq_ix2 j⟩
  show k7_pay1 (iblk7 V c 0 t) (iblk7 V c 1 t) (iblk7 V c 2 t) (ix2 p q)
    = bnReluArr7 V c (((cfg7.win 3).blk t).view.emb (ix2 p q))
  have hemb : ((cfg7.win 3).blk t).view.emb (ix2 p q) = (ix2 (⟨4000 * t.val + p.val, by omega⟩ : Fin 320000) q : S320000x128.Idx) := by
    funext a; apply Fin.ext
    match a with
    | ⟨0, _⟩ => show win7_3.index t (0 : Fin 2) * 4000 + 1 * p.val = 4000 * t.val + p.val; rw [e6]; omega
    | ⟨1, _⟩ => show win7_3.index t (1 : Fin 2) * 128 + 1 * q.val = q.val; rw [e7]; omega
  rw [hemb]
  refine (k7_pay1_apply (iblk7 V c 0 t) (iblk7 V c 1 t) (iblk7 V c 2 t) p q).trans ?_
  rw [r7_blk0 V c t p q ⟨4000 * t.val + p.val, by omega⟩ rfl, r7_blk1 V c t q, r7_blk2 V c t q]
  rfl

/-- An index of the result array is in point t's block iff each coordinate is in the block's range on its axis. -/
theorem r7_mem_blk (t : Fin cfg7.N) (i : S320000x128.Idx) :
    i ∈ ((cfg7.win 3).blk t).view.set ↔ ∀ a : Fin 2, win7_3.index t a * S4000x128.size a ≤ (i a).val ∧ (i a).val < win7_3.index t a * S4000x128.size a + S4000x128.size a := by
  show i ∈ ((View.whole main_v158).slice (win7_3.rect t)).set ↔ _
  rw [View.set_slice_whole, Rect.mem_set_unit]
  exact Iff.rfl

/-- Row r lies in the block of point r / 4000: the blocks tile the array. -/
theorem r7_cover (i : S320000x128.Idx) :
    ∃ t : Fin cfg7.N, (cfg7.win 3).flush t = true ∧ i ∈ ((cfg7.win 3).blk t).view.set := by
  have hi0 : (i 0).val < 320000 := (i 0).isLt
  have hi1 : (i 1).val < 128 := (i 1).isLt
  have hN : cfg7.N = 80 := N_7
  refine ⟨⟨(i 0).val / 4000, by rw [hN]; omega⟩, flush7_3 _, ?_⟩
  obtain ⟨-, -, -, -, -, -, e6, e7⟩ := r7_idx ⟨(i 0).val / 4000, by rw [hN]; omega⟩
  rw [r7_mem_blk]
  intro a
  match a with
  | ⟨0, _⟩ =>
    show win7_3.index _ (0 : Fin 2) * 4000 ≤ (i 0).val ∧ (i 0).val < win7_3.index _ (0 : Fin 2) * 4000 + 4000
    rw [e6]; dsimp only; omega
  | ⟨1, _⟩ =>
    show win7_3.index _ (1 : Fin 2) * 128 ≤ (i 1).val ∧ (i 1).val < win7_3.index _ (1 : Fin 2) * 128 + 128
    rw [e7]; omega

/-- The result array after the region, entry by entry. -/
theorem region7_out3 (r : Fin 320000) (q : Fin 128) :
    ((dat7 V c).arrAt 3 cfg7.N : S320000x128.Idx → EReal) (ix2 r q)
      = max (rd2 (V c (Pipeline.arrRef spec7 0)) r q * rd2 (V c (Pipeline.arrRef spec7 1)) (0 : Fin 1) q
    + rd2 (V c (Pipeline.arrRef spec7 2)) (0 : Fin 1) q) EdgeNodeLayer.cZero :=
  congrFun ((dat7 V c).arrAt_eq_of_cover 3 (bnReluArr7 V c) (fun t _ => r7_flushed V c t) (r7_cover)) (ix2 r q)

end Cert.KernelIdeal.RegionValue

end
-- ==== Proof.KerChain.lean ====
/-
  The kernel program's two results at the end of its run are the layer's node result and edge result, with the folded form
  of the batch normalisation, of the program's own arguments.

  The records of what each stretch of host operations and each kernel region computes (`AllFacts`) are filled in from the
  per-stretch and per-region value lemmas; the chain of boundary values then gives the two results.
-/
import proofs.«131702_j10462540333326_2_alg».proof.Proof.Gen.KernelIdeal.Frame
import proofs.«131702_j10462540333326_2_alg».proof.Proof.HostArgs
import proofs.«131702_j10462540333326_2_alg».proof.Proof.ArgsOf
import proofs.«131702_j10462540333326_2_alg».proof.Proof.KerChainFacts
import proofs.«131702_j10462540333326_2_alg».proof.Proof.KerChain01
import proofs.«131702_j10462540333326_2_alg».proof.Proof.KerChain02
import proofs.«131702_j10462540333326_2_alg».proof.Proof.KerChain03
import proofs.«131702_j10462540333326_2_alg».proof.Proof.Host0
import proofs.«131702_j10462540333326_2_alg».proof.Proof.Host1
import proofs.«131702_j10462540333326_2_alg».proof.Proof.Host2
import proofs.«131702_j10462540333326_2_alg».proof.Proof.Host3
import proofs.«131702_j10462540333326_2_alg».proof.Proof.Host4
import proofs.«131702_j10462540333326_2_alg».proof.Proof.Host5
import proofs.«131702_j10462540333326_2_alg».proof.Proof.Host6
import proofs.«131702_j10462540333326_2_alg».proof.Proof.Host7
import proofs.«131702_j10462540333326_2_alg».proof.Proof.Host8
import proofs.«131702_j10462540333326_2_alg».proof.Proof.Region0
import proofs.«131702_j10462540333326_2_alg».proof.Proof.Region1
import proofs.«131702_j10462540333326_2_alg».proof.Proof.Region2Value
import proofs.«131702_j10462540333326_2_alg».proof.Proof.Region3Value
import proofs.«131702_j10462540333326_2_alg».proof.Proof.Region4
import proofs.«131702_j10462540333326_2_alg».proof.Proof.Region5
import proofs.«131702_j10462540333326_2_alg».proof.Proof.Region6Value
import proofs.«131702_j10462540333326_2_alg».proof.Proof.Region7

set_option maxRecDepth 16384

noncomputable section

open scoped BigOperators

namespace Cert.KernelIdeal.Chain

open Cert.KernelIdeal Cert.KernelIdeal.Gen Cert.KernelIdeal.HostValue Idealize.ShloMosaic Idealize.ShloMosaic.TcCoe
open Idealize.SL.Sem ValueIdx EdgeNodeLayer BlockSums

open Cert.KernelIdeal.RegionValue

/-- What every stretch and every region computes. -/
theorem allFacts : AllFacts where
  H0 := fun W => ⟨after0_v1_apply W, after0_v3_apply W, after0_v18_apply W, after0_v19_apply W, after0_v20_apply W,
    after0_v23_apply W, after0_v25_apply W, after0_v26_apply W, after0_v27_apply W, after0_v28_apply W,
    after0_v29_apply W⟩
  H1 := fun W => ⟨after1_scale_apply W, after1_shift_apply W⟩
  H2 := fun W => ⟨after2_v70_apply W⟩
  H3 := fun W => ⟨after3_scale_apply W, after3_shift_apply W⟩
  H4 := fun W => ⟨after4_scale_apply W, after4_shift_apply W⟩
  H5 := fun W => ⟨after5_v115_apply W, after5_v119_apply W, after5_v120_apply W, after5_v121_apply W⟩
  H6 := fun W => ⟨after6_scale_apply W, after6_shift_apply W⟩
  H7 := fun W => ⟨after7_scale_apply W, after7_shift_apply W⟩
  H8 := fun W => ⟨after8_out_apply W⟩
  R0 := fun V c => ⟨region0_out6 V c, region0_out7 V c, region0_out8 V c⟩
  R1 := fun V c => ⟨region1_out3 V c⟩
  R2 := fun V c => ⟨region2_out2 V c, region2_out3 V c, region2_out4 V c⟩
  R3 := fun V c => ⟨region3_out4 V c, region3_out5 V c, region3_out6 V c⟩
  R4 := fun V c => ⟨region4_out3 V c⟩
  R5 := fun V c => ⟨region5_out4 V c, region5_out5 V c, region5_out6 V c⟩
  R6 := fun V c => ⟨region6_out4 V c, region6_out5 V c, region6_out6 V c⟩
  R7 := fun V c => ⟨region7_out3 V c⟩

/-- The arguments read off the launch memory through the launch valuation are the program's arguments. -/
theorem ka_eq (m : (ℓ : Loc nD τ sig) → Buf (Elt Ideal) ℓ) (ρ : Dev nD → PrngReg) (c : Dev nD) :
    ka m ρ c = Cert.KernelIdeal.ArgsOf.kerArgs m c := rfl

/-- THE NODE RESULT: at the end of the run the node-result buffer holds the layer's node result of the arguments. -/
theorem node_value (m : (ℓ : Loc nD τ sig) → Buf (Elt Ideal) ℓ) (ρ : Dev nD → PrngReg) (c : Dev nD)
    (n : Fin 20000) (q : Fin 128) :
    Cert.KernelIdeal.Gen.W17 m ρ c (Proc.devRef .tc main_v107) (ValueIdx.ix2 n q)
      = EdgeNodeLayer.nodeOut (Cert.KernelIdeal.ArgsOf.kerArgs m c) true n q := by
  rw [← ka_eq m ρ c]
  exact node_value_of m ρ c allFacts n q

/-- THE EDGE RESULT: at the end of the run row `2 e + h` of the edge-result buffer holds the layer's edge result of pair
    `(e, h)`. -/
theorem edge_value (m : (ℓ : Loc nD τ sig) → Buf (Elt Ideal) ℓ) (ρ : Dev nD → PrngReg) (c : Dev nD)
    (e : Fin 160000) (h : Fin 2) (q : Fin 128) :
    Cert.KernelIdeal.Gen.W17 m ρ c (Proc.devRef .tc main_v164)
        (ValueIdx.ix2 (⟨2 * e.val + h.val, by omega⟩ : Fin 320000) q)
      = EdgeNodeLayer.edgeOut (Cert.KernelIdeal.ArgsOf.kerArgs m c) true (e, h) q := by
  rw [← ka_eq m ρ c]
  exact edge_value_of m ρ c allFacts e h q

end Cert.KernelIdeal.Chain

end
-- ==== Proof.RefArgs.lean ====
/-
  The reference program's argument arrays as the layer's arguments, entry by entry.

  The program has 21 arguments, in the order of the layer's signature: node features [20000, 128], edge-row features
  [320000, 128], endpoints [2, 160000] (32-bit words), then the weights, scales and shifts of the three maps, then the
  three scalars. `RefIn` bundles 21 arrays of those shapes; `argsOf` reads them entry by entry; `refIn` takes the arrays a
  memory holds at the program's argument buffers.
-/
import proofs.«131702_j10462540333326_2_alg».proof.Proof.Spec
import proofs.«131702_j10462540333326_2_alg».proof.Proof.Gen.ReferenceIdeal
import Idealize.ShloMosaic.Lib.ValueIdx

noncomputable section

namespace Cert.ReferenceIdeal.RefValue

open Cert.ReferenceIdeal Idealize.ShloMosaic Idealize.ShloMosaic.TcCoe Idealize.SL.Sem Idealize.ShloMosaic.StableHlo Idealize.ShloMosaic.ValueIdx

/-- Twenty-one arrays of the argument shapes, on the extended reals. -/
structure RefIn where
  x0 : (⟨S20000x128, .f32⟩ : BufTy).Contents (Elt Ideal)
  x1 : (⟨S320000x128, .f32⟩ : BufTy).Contents (Elt Ideal)
  x2 : (⟨S2x160000, .i32⟩ : BufTy).Contents (Elt Ideal)
  x3 : (⟨S256x256, .f32⟩ : BufTy).Contents (Elt Ideal)
  x4 : (⟨S256, .f32⟩ : BufTy).Contents (Elt Ideal)
  x5 : (⟨S256, .f32⟩ : BufTy).Contents (Elt Ideal)
  x6 : (⟨S256x128, .f32⟩ : BufTy).Contents (Elt Ideal)
  x7 : (⟨S128, .f32⟩ : BufTy).Contents (Elt Ideal)
  x8 : (⟨S128, .f32⟩ : BufTy).Contents (Elt Ideal)
  x9 : (⟨S384x128, .f32⟩ : BufTy).Contents (Elt Ideal)
  x10 : (⟨S128, .f32⟩ : BufTy).Contents (Elt Ideal)
  x11 : (⟨S128, .f32⟩ : BufTy).Contents (Elt Ideal)
  x12 : (⟨S128x256, .f32⟩ : BufTy).Contents (Elt Ideal)
  x13 : (⟨S256, .f32⟩ : BufTy).Contents (Elt Ideal)
  x14 : (⟨S256, .f32⟩ : BufTy).Contents (Elt Ideal)
  x15 : (⟨S256x128, .f32⟩ : BufTy).Contents (Elt Ideal)
  x16 : (⟨S128, .f32⟩ : BufTy).Contents (Elt Ideal)
  x17 : (⟨S128, .f32⟩ : BufTy).Contents (Elt Ideal)
  x18 : (⟨S_, .f32⟩ : BufTy).Contents (Elt Ideal)
  x19 : (⟨S_, .f32⟩ : BufTy).Contents (Elt Ideal)
  x20 : (⟨S_, .f32⟩ : BufTy).Contents (Elt Ideal)

/-- The arrays read entry by entry. -/
def argsOf (X : RefIn) : EdgeNodeLayer.Args where
  nr := fun n q => X.x0 (ix2 n q)
  er := fun r q => X.x1 (ix2 r q)
  ei := fun h e => X.x2 (ix2 h e)
  lw1 := fun i j => X.x3 (ix2 i j)
  lg1 := fun i => X.x4 (ix1 i)
  lb1 := fun i => X.x5 (ix1 i)
  lw2 := fun i j => X.x6 (ix2 i j)
  lg2 := fun i => X.x7 (ix1 i)
  lb2 := fun i => X.x8 (ix1 i)
  v1w := fun i j => X.x9 (ix2 i j)
  v1g := fun i => X.x10 (ix1 i)
  v1b := fun i => X.x11 (ix1 i)
  v2w1 := fun i j => X.x12 (ix2 i j)
  v2g1 := fun i => X.x13 (ix1 i)
  v2b1 := fun i => X.x14 (ix1 i)
  v2w2 := fun i j => X.x15 (ix2 i j)
  v2g2 := fun i => X.x16 (ix1 i)
  v2b2 := fun i => X.x17 (ix1 i)
  e11 := X.x18 ix0
  e12 := X.x19 ix0
  e2 := X.x20 ix0

/-- The arrays a memory holds at the argument buffers. -/
def refIn (m : (ℓ : Loc nD τ sig) → Buf (Elt Ideal) ℓ) (c : Dev nD) : RefIn where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)

end Cert.ReferenceIdeal.RefValue

end
-- ==== Proof.RefLaws.lean ====
/-
  Laws used to read the reference program as the layer's specification; none of them mentions a program.

  * Batch normalisation over a set of rows does not depend on how the rows are named: along a bijection of the row
    names it is the same function (`bnTwoPass_comp`).
  * The 320000 edge rows are the pairs (edge, endpoint): row `2 e + h` is the pair `(e, h)` (`rowOf`), so a sum over
    the rows is the sum over the pairs, and the rows `r` with `r / 2 = e` are exactly `2 e` and `2 e + 1`.
  * A sum over 384 (256) columns splits into three (two) sums over 128 columns.
  * Words: the comparison with zero, the addition of the row count and the selection between them is the reading
    of a possibly negative index as counted from the end; a row number below 2^31 written as a 32-bit word reads back, signed, as
    itself, is not negative, and lies in the table.
-/
import proofs.«131702_j10462540333326_2_alg».proof.Proof.Spec
import Idealize.ShloMosaic.Lib.ValueIdx

noncomputable section

open scoped BigOperators

namespace Cert.ReferenceIdeal.RefValue

open Idealize.ShloMosaic EdgeNodeLayer

/-- Batch normalisation along a bijection `σ` of the row names: the column sums are the same sums. -/
theorem bnTwoPass_comp {ι ι' κ : Type} [Fintype ι] [Fintype ι'] (σ : ι' ≃ ι) (cnt : EReal) (X : ι → κ → EReal)
    (g b : κ → EReal) (p : ι') (c : κ) :
    bnTwoPass cnt X g b (σ p) c = bnTwoPass cnt (fun p c => X (σ p) c) g b p c := by
  unfold bnTwoPass
  have h1 : ∑ s, X (σ s) c = ∑ s, X s c := Equiv.sum_comp σ (fun s => X s c)
  have h2 : ∑ s, (X (σ s) c - Ideal.div (∑ s, X s c) cnt) * (X (σ s) c - Ideal.div (∑ s, X s c) cnt)
      = ∑ s, (X s c - Ideal.div (∑ s, X s c) cnt) * (X s c - Ideal.div (∑ s, X s c) cnt) :=
    Equiv.sum_comp σ (fun s => (X s c - Ideal.div (∑ s, X s c) cnt) * (X s c - Ideal.div (∑ s, X s c) cnt))
  simp only [h1, h2]

/-- Batch normalisation of two tables that agree entry by entry. -/
theorem bnTwoPass_congr {ι κ : Type} [Fintype ι] (cnt : EReal) (X X' : ι → κ → EReal) (g g' b b' : κ → EReal)
    (hX : ∀ r c, X r c = X' r c) (hg : ∀ c, g c = g' c) (hb : ∀ c, b c = b' c) (r : ι) (c : κ) :
    bnTwoPass cnt X g b r c = bnTwoPass cnt X' g' b' r c := by
  have e1 : X = X' := funext fun r => funext fun c => hX r c
  have e2 : g = g' := funext hg
  have e3 : b = b' := funext hb
  rw [e1, e2, e3]

/-- Row `2 e + h` of the 320000 edge rows is the pair (edge `e`, endpoint `h`). -/
def rowOf : Fin 160000 × Fin 2 ≃ Fin 320000 where
  toFun p := ⟨2 * p.1.val + p.2.val, by have := p.1.isLt; have := p.2.isLt; omega⟩
  invFun r := (⟨r.val / 2, by have := r.isLt; omega⟩, ⟨r.val % 2, by omega⟩)
  left_inv p := by
    have h1 := p.1.isLt; have h2 := p.2.isLt
    refine Prod.ext (Fin.ext ?_) (Fin.ext ?_)
    · show (2 * p.1.val + p.2.val) / 2 = p.1.val; omega
    · show (2 * p.1.val + p.2.val) % 2 = p.2.val; omega
  right_inv r := by
    refine Fin.ext ?_
    show 2 * (r.val / 2) + r.val % 2 = r.val; omega

theorem rowOf_val (e : Fin 160000) (h : Fin 2) : (rowOf (e, h)).val = 2 * e.val + h.val := rfl

/-- A sum over the rows is the sum over the pairs. -/
theorem sum_rows {M : Type} [AddCommMonoid M] (f : Fin 320000 → M) :
    ∑ r : Fin 320000, f r = ∑ p : Fin 160000 × Fin 2, f (rowOf p) := (Equiv.sum_comp rowOf f).symm

/-- The rows owned by edge `e` (`r / 2 = e`) are `2 e` and `2 e + 1`. -/
theorem sum_rows_of_edge {M : Type} [AddCommMonoid M] (e : Fin 160000) (g : Fin 320000 → M) :
    ∑ r : Fin 320000, (if r.val / 2 = e.val then g r else 0) = g (rowOf (e, 0)) + g (rowOf (e, 1)) := by
  rw [sum_rows, Fintype.sum_prod_type]
  have h : ∀ e' : Fin 160000, (∑ h : Fin 2, if (rowOf (e', h)).val / 2 = e.val then g (rowOf (e', h)) else 0)
      = if e' = e then g (rowOf (e', 0)) + g (rowOf (e', 1)) else 0 := by
    intro e'
    rw [Fin.sum_univ_two]
    have q0 : (rowOf (e', (0 : Fin 2))).val / 2 = e'.val := by rw [rowOf_val]; show (2 * e'.val + 0) / 2 = e'.val; omega
    have q1 : (rowOf (e', (1 : Fin 2))).val / 2 = e'.val := by rw [rowOf_val]; show (2 * e'.val + 1) / 2 = e'.val; omega
    rw [q0, q1]
    by_cases he : e' = e
    · subst he; simp
    · have : ¬ e'.val = e.val := fun hh => he (Fin.ext hh)
      simp [this, he]
  simp only [h]
  rw [Finset.sum_ite_eq' Finset.univ e (fun e' => g (rowOf (e', 0)) + g (rowOf (e', 1)))]
  simp

/-- A sum over 384 columns is three sums over 128 columns. -/
theorem sum_fin384 {M : Type} [AddCommMonoid M] (f : Fin 384 → M) :
    ∑ k : Fin 384, f k = (∑ j : Fin 128, f ⟨j.val, by omega⟩) + (∑ j : Fin 128, f ⟨j.val + 128, by omega⟩)
      + (∑ j : Fin 128, f ⟨j.val + 256, by omega⟩) := by
  have e : ∑ k : Fin 384, f k = ∑ k : Fin (128 + 128 + 128), f ⟨k.val, by omega⟩ := rfl
  rw [e, Fin.sum_univ_add, Fin.sum_univ_add]
  refine congrArg₂ (· + ·) (congrArg₂ (· + ·) ?_ ?_) ?_
  · exact Finset.sum_congr rfl fun j _ => rfl
  · exact Finset.sum_congr rfl fun j _ => congrArg f (Fin.ext (by show 128 + j.val = j.val + 128; omega))
  · exact Finset.sum_congr rfl fun j _ => congrArg f (Fin.ext (by show 128 + 128 + j.val = j.val + 256; omega))

/-- A sum over 256 columns is two sums over 128 columns. -/
theorem sum_fin256 {M : Type} [AddCommMonoid M] (f : Fin 256 → M) :
    ∑ k : Fin 256, f k = (∑ j : Fin 128, f ⟨j.val, by omega⟩) + (∑ j : Fin 128, f ⟨j.val + 128, by omega⟩) := by
  have e : ∑ k : Fin 256, f k = ∑ k : Fin (128 + 128), f ⟨k.val, by omega⟩ := rfl
  rw [e, Fin.sum_univ_add]
  refine congrArg₂ (· + ·) ?_ ?_
  · exact Finset.sum_congr rfl fun j _ => rfl
  · exact Finset.sum_congr rfl fun j _ => congrArg f (Fin.ext (by show 128 + j.val = j.val + 128; omega))

/-- "Negative? then add the row count" reads a negative index as counted from the end. -/
theorem select_wrap (n : Nat) (w : BitVec 32) :
    Scalar.select (IntOp.cmpi .slt w 0#32) (IntOp.addi w (BitVec.ofNat 32 n)) w = wrapIdx n w := by
  unfold Scalar.select IntOp.cmpi IntOp.addi wrapIdx
  cases h : w.slt 0#32 <;> simp

/-- A number below 2^31, written as a 32-bit word, reads back signed as itself. -/
theorem toInt_ofNat_small (k : Nat) (hk : k < 2147483648) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1, if_pos (by omega)]

/-- Such a word is not negative, so that reading leaves it alone. -/
theorem wrapIdx_ofNat_small (n k : Nat) (hk : k < 2147483648) : wrapIdx n (BitVec.ofNat 32 k) = BitVec.ofNat 32 k := by
  unfold wrapIdx
  have : (BitVec.ofNat 32 k).slt 0#32 = false := by
    rw [BitVec.slt, toInt_ofNat_small k hk]
    simp
  rw [this]; rfl

/-- A row number inside the table, written as a word, is clamped to itself. -/
theorem clampRow_ofNat (n : Nat) (hn : 0 < n) (k : Nat) (hk : k < n) (hk' : k < 2147483648) :
    clampRow n hn (BitVec.ofNat 32 k) = ⟨k, hk⟩ := by
  refine Fin.ext ?_
  show min (BitVec.ofNat 32 k).toInt.toNat (n - 1) = k
  rw [toInt_ofNat_small k hk']
  simp; omega

end Cert.ReferenceIdeal.RefValue

end
-- ==== Proof.RefOps.lean ====
/-
  The reference program's gathers, accumulating scatters and concatenations, read at an entry, for arbitrary tables.

  * The gather of node rows: entry `(r, q)` is the table at the row named by start index `r`, read signed and clamped
    into the table, column `q`.
  * The gather of edge rows when start index `r` is the word `r / 2`: entry `(r, q)` is the table at row `r / 2`.
  * The accumulating scatter onto the edges, from a zero table, when start index `r` is the word `r / 2`: entry
    `(e, q)` is the sum of the update's rows `2 e` and `2 e + 1` at column `q`.
  * The accumulating scatter onto the nodes, from a zero table: entry `(n, q)` is the sum, over the pairs (edge,
    endpoint) whose start index read signed is `n`, of the update's row at column `q`.
  * A concatenation along the columns reads the left table below its width and the right table from there on.
-/
import proofs.«131702_j10462540333326_2_alg».proof.Proof.Gen.ReferenceIdeal
import proofs.«131702_j10462540333326_2_alg».proof.Proof.LibRowGather
import proofs.«131702_j10462540333326_2_alg».proof.Proof.LibScatterAddRead
import proofs.«131702_j10462540333326_2_alg».proof.Proof.RefLaws
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx EdgeNodeLayer

/-- The node-row gather at `(r, q)`. -/
theorem nodeGather_apply (x : FVec Ideal S20000x128 .f32)
    (idx : IVec S320000x1 32) (r : Fin 320000) (q : Fin 128) :
    Host.gather gather_S20000x128_S320000x1_S320000x128_1_0_n_n_0_1_1128 x idx (ix2 r q)
      = x (ix2 (clampRow 20000 (by norm_num) (idx (ix2 r (0 : Fin 1)))) q) :=
  RowGather.gather_apply (by norm_num) _ rfl rfl rfl rfl rfl rfl rfl x idx r q

/-- The edge-row gather at `(r, q)` when start index `r` is the word `r / 2`. -/
theorem edgeGather_apply (x : FVec Ideal S160000x128 .f32)
    (idx : IVec S320000x1 32)
    (hidx : ∀ r : Fin 320000, idx (ix2 r (0 : Fin 1)) = BitVec.ofNat 32 (r.val / 2)) (r : Fin 320000) (q : Fin 128) :
    Host.gather gather_S160000x128_S320000x1_S320000x128_1_0_n_n_0_1_1128 x idx (ix2 r q)
      = x (ix2 (rowOf.symm r).1 q) := by
  refine (RowGather.gather_apply (by norm_num) _ rfl rfl rfl rfl rfl rfl rfl x idx r q).trans ?_
  refine congrArg (fun t : Fin 160000 => x (ix2 t q)) (Fin.ext ?_)
  show min (idx (ix2 r (0 : Fin 1))).toInt.toNat (160000 - 1) = r.val / 2
  have hr := r.isLt
  rw [hidx r, toInt_ofNat_small _ (by omega), Int.toNat_natCast]
  omega

/-- The accumulating scatter onto the edges at `(e, q)`, from a zero table, start index `r` the word `r / 2`. -/
theorem edgeScatter_apply (Z : FVec Ideal S160000x128 .f32)
    (hZ : ∀ (e : Fin 160000) (q : Fin 128), Z (ix2 e q) = 0)
    (idx : IVec S320000x1 32)
    (hidx : ∀ r : Fin 320000, idx (ix2 r (0 : Fin 1)) = BitVec.ofNat 32 (r.val / 2))
    (U : FVec Ideal S320000x128 .f32) (e : Fin 160000) (q : Fin 128) :
    Host.scatterAdd (F := Ideal) scatter_S160000x128_S320000x1_S320000x128_1_0_0_1 Z idx U (ix2 e q)
      = U (ix2 (rowOf (e, 0)) q) + U (ix2 (rowOf (e, 1)) q) := by
  refine (ScatterRead.rowScatterAdd_apply _ rfl rfl rfl rfl Z idx U e q).trans ?_
  rw [hZ, zero_add]
  have h : ∀ r : Fin 320000, ((idx (ix2 r (0 : Fin 1))).toInt = (e.val : ℤ)) ↔ r.val / 2 = e.val := by
    intro r
    have hr := r.isLt
    rw [hidx r, toInt_ofNat_small _ (by omega)]
    exact Nat.cast_inj
  simp only [h]
  exact sum_rows_of_edge e (fun r => U (ix2 r q))

/-- The accumulating scatter onto the nodes at `(n, q)`, from a zero table. -/
theorem nodeScatter_apply (Z : FVec Ideal S20000x128 .f32)
    (hZ : ∀ (n : Fin 20000) (q : Fin 128), Z (ix2 n q) = 0)
    (idx : IVec S320000x1 32)
    (U : FVec Ideal S320000x128 .f32) (n : Fin 20000) (q : Fin 128) :
    Host.scatterAdd (F := Ideal) scatter_S20000x128_S320000x1_S320000x128_1_0_0_1 Z idx U (ix2 n q)
      = ∑ p : Fin 160000 × Fin 2,
          if (idx (ix2 (rowOf p) (0 : Fin 1))).toInt = (n.val : ℤ) then U (ix2 (rowOf p) q) else 0 := by
  refine (ScatterRead.rowScatterAdd_apply _ rfl rfl rfl rfl Z idx U n q).trans ?_
  rw [hZ, zero_add]
  exact sum_rows (fun r => if (idx (ix2 r (0 : Fin 1))).toInt = (n.val : ℤ) then U (ix2 r q) else 0)

/-- Two tables of 128 columns side by side: a column below 128 reads the left table. -/
theorem cat256_left (A B : FVec Ideal S320000x128 .f32) (r : Fin 320000) (j : Fin 128) :
    concatenate S320000x256 1 [⟨S320000x128, A⟩, ⟨S320000x128, B⟩]
        concatenates_S320000x128_S320000x128_S320000x256_d1 (ix2 r (⟨j.val, by omega⟩ : Fin 256)) = A (ix2 r j) :=
  concatenate_pair_apply_left (t := S320000x256) (s₁ := S320000x128) (s₂ := S320000x128) 1 A B concatenates_S320000x128_S320000x128_S320000x256_d1
    (ix2 r (⟨j.val, by omega⟩ : Fin 256)) rfl (ix2 r j) (fun b => by
    match b with
    | ⟨0, _⟩ => rfl
    | ⟨1, _⟩ => rfl)

/-- … and a column from 128 on reads the right table, 128 less. -/
theorem cat256_right (A B : FVec Ideal S320000x128 .f32) (r : Fin 320000) (j : Fin 128) :
    concatenate S320000x256 1 [⟨S320000x128, A⟩, ⟨S320000x128, B⟩]
        concatenates_S320000x128_S320000x128_S320000x256_d1 (ix2 r (⟨j.val + 128, by omega⟩ : Fin 256)) = B (ix2 r j) :=
  concatenate_pair_apply_right (t := S320000x256) (s₁ := S320000x128) (s₂ := S320000x128) 1 A B concatenates_S320000x128_S320000x128_S320000x256_d1
    (ix2 r (⟨j.val + 128, by omega⟩ : Fin 256)) rfl rfl (ix2 r j)
    (fun b hb => by
      match b with
      | ⟨0, _⟩ => rfl
      | ⟨1, _⟩ => exact absurd rfl hb)
    rfl

/-- A table of 256 columns beside one of 128: a column below 256 reads the left table. -/
theorem cat384_left (A : FVec Ideal S320000x256 .f32)
    (B : FVec Ideal S320000x128 .f32) (r : Fin 320000) (j : Fin 256) :
    concatenate S320000x384 1 [⟨S320000x256, A⟩, ⟨S320000x128, B⟩]
        concatenates_S320000x256_S320000x128_S320000x384_d1 (ix2 r (⟨j.val, by omega⟩ : Fin 384)) = A (ix2 r j) :=
  concatenate_pair_apply_left (t := S320000x384) (s₁ := S320000x256) (s₂ := S320000x128) 1 A B concatenates_S320000x256_S320000x128_S320000x384_d1
    (ix2 r (⟨j.val, by omega⟩ : Fin 384)) rfl (ix2 r j) (fun b => by
    match b with
    | ⟨0, _⟩ => rfl
    | ⟨1, _⟩ => rfl)

/-- … and a column from 256 on reads the right table, 256 less. -/
theorem cat384_right (A : FVec Ideal S320000x256 .f32)
    (B : FVec Ideal S320000x128 .f32) (r : Fin 320000) (j : Fin 128) :
    concatenate S320000x384 1 [⟨S320000x256, A⟩, ⟨S320000x128, B⟩]
        concatenates_S320000x256_S320000x128_S320000x384_d1 (ix2 r (⟨j.val + 256, by omega⟩ : Fin 384)) = B (ix2 r j) :=
  concatenate_pair_apply_right (t := S320000x384) (s₁ := S320000x256) (s₂ := S320000x128) 1 A B concatenates_S320000x256_S320000x128_S320000x384_d1
    (ix2 r (⟨j.val + 256, by omega⟩ : Fin 384)) rfl rfl (ix2 r j)
    (fun b hb => by
      match b with
      | ⟨0, _⟩ => rfl
      | ⟨1, _⟩ => exact absurd rfl hb)
    rfl

end Cert.ReferenceIdeal.RefValue

end
-- ==== Proof.RefEdgeIn.lean ====
/-
  The reference's gathered features and first linear map are the specification's `gat`, `dom` and `y1`.

  The reference lists the endpoints row by row (row `r = 2 e + h` holds endpoint `h` of edge `e`), reads a possibly
  negative endpoint as counted from the end, gathers the node rows (`gat`), adds each edge's two gathered rows by an
  accumulating scatter whose start index of row `r` is the word `r / 2` (`dom`), gathers that sum back to the rows,
  lays [dom | gat | edge features] side by side (384 columns) and multiplies by the weights: a sum over 384 columns,
  which is the three sums over 128 columns of `y1`.
-/
import proofs.«131702_j10462540333326_2_alg».proof.Proof.ReadP
import proofs.«131702_j10462540333326_2_alg».proof.Proof.RefOps
import proofs.«131702_j10462540333326_2_alg».proof.Proof.RefArgs

noncomputable section

open scoped BigOperators

namespace Cert.ReferenceIdeal.RefValue

open Cert.ReferenceIdeal Cert.ReferenceIdeal.Gen Idealize.ShloMosaic Idealize.ShloMosaic.ValueIdx EdgeNodeLayer

/-- The endpoint list at row `r`: endpoint `r % 2` of edge `r / 2`. -/
theorem atoms_apply (x2 : (⟨S2x160000, .i32⟩ : BufTy).Contents (Elt Ideal)) (r : Fin 320000) :
    Read.val_main_v1 (F := Ideal) x2 (ix1 r) = x2 (ix2 (rowOf.symm r).2 (rowOf.symm r).1) := by
  rw [Read.val_main_v1_apply, Read.val_main_v0_apply]
  exact congrArg x2 (funext fun a => Fin.ext (by match a with | ⟨0, _⟩ => rfl | ⟨1, _⟩ => rfl))

/-- The endpoint of row `r` with a negative word counted from the end. -/
theorem wrapped_apply (x2 : (⟨S2x160000, .i32⟩ : BufTy).Contents (Elt Ideal)) (r : Fin 320000) :
    Read.val_main_v9 (F := Ideal) x2 (ix1 r) = wrapIdx 20000 (Read.val_main_v1 (F := Ideal) x2 (ix1 r)) := by
  rw [Read.val_main_v9_apply, Read.val_main_v6_apply, Read.val_main_v8_apply, Read.val_main_v5_apply,
    Read.val_main_v7_apply, Read.val_main_c_apply, Read.val_main_c_0_apply]
  exact select_wrap 20000 _

/-- The same as a column of start indices. -/
theorem wrappedCol_apply (x2 : (⟨S2x160000, .i32⟩ : BufTy).Contents (Elt Ideal)) (r : Fin 320000) :
    Read.val_main_v10 (F := Ideal) x2 (ix2 r (0 : Fin 1)) = Read.val_main_v9 (F := Ideal) x2 (ix1 r) := by
  rw [Read.val_main_v10_apply]
  exact congrArg _ (funext fun a => Fin.ext (by match a with | ⟨0, _⟩ => rfl))

variable (X : RefIn)

/-- The gathered node row of row `r` is `gat`. -/
theorem gat_apply (r : Fin 320000) (q : Fin 128) :
    Read.val_main_v11 (F := Ideal) X.x0 X.x2 (ix2 r q) = gat (argsOf X) (rowOf.symm r).1 (rowOf.symm r).2 q := by
  unfold Read.val_main_v11
  rw [nodeGather_apply, wrappedCol_apply, wrapped_apply, atoms_apply]
  rfl

/-- The owning edge of row `r`, as a word: `r / 2`. -/
theorem edgeWord_apply (r : Fin 320000) : Read.val_main_v4 (F := Ideal) (ix1 r) = BitVec.ofNat 32 (r.val / 2) := by
  rw [Read.val_main_v4_apply, Read.val_main_v3_apply, Read.val_main_v2_apply]

/-- … as a column of start indices. -/
theorem edgeCol13 (r : Fin 320000) : Read.val_main_v13 (F := Ideal) (ix2 r (0 : Fin 1)) = BitVec.ofNat 32 (r.val / 2) := by
  rw [Read.val_main_v13_apply,
    show Read.idx_main_v13 (ix2 r (0 : Fin 1)) = ix1 r from funext fun a => Fin.ext (by match a with | ⟨0, _⟩ => rfl)]
  exact edgeWord_apply r

/-- The owning edge's word is not negative, so counting from the end leaves it alone. -/
theorem edgeWrapped19 (r : Fin 320000) : Read.val_main_v19 (F := Ideal) (ix1 r) = BitVec.ofNat 32 (r.val / 2) := by
  rw [Read.val_main_v19_apply, Read.val_main_v16_apply, Read.val_main_v18_apply, Read.val_main_v15_apply,
    Read.val_main_v17_apply, Read.val_main_c_1_apply, Read.val_main_c_2_apply, edgeWord_apply]
  have hr := r.isLt
  exact (select_wrap 160000 _).trans (wrapIdx_ofNat_small 160000 _ (by omega))

theorem edgeCol20 (r : Fin 320000) : Read.val_main_v20 (F := Ideal) (ix2 r (0 : Fin 1)) = BitVec.ofNat 32 (r.val / 2) := by
  rw [Read.val_main_v20_apply,
    show Read.idx_main_v20 (ix2 r (0 : Fin 1)) = ix1 r from funext fun a => Fin.ext (by match a with | ⟨0, _⟩ => rfl)]
  exact edgeWrapped19 r

/-- The table the scatter accumulates into is zero. -/
theorem zero12 (e : Fin 160000) (q : Fin 128) : Read.val_main_v12 (F := Ideal) (ix2 e q) = 0 := by
  rw [Read.val_main_v12_apply, Read.val_main_cst_apply]
  exact Ideal.ofBits_zero_f32

/-- The two gathered rows of edge `e` summed: `dom`. -/
theorem dom_apply (e : Fin 160000) (q : Fin 128) :
    Read.val_main_v14 (F := Ideal) X.x0 X.x2 (ix2 e q) = dom (argsOf X) e q := by
  unfold Read.val_main_v14
  rw [edgeScatter_apply _ zero12 _ edgeCol13, gat_apply, gat_apply]
  simp only [Equiv.symm_apply_apply]
  rfl

/-- … gathered back to the rows. -/
theorem domRow_apply (r : Fin 320000) (q : Fin 128) :
    Read.val_main_v21 (F := Ideal) X.x0 X.x2 (ix2 r q) = dom (argsOf X) (rowOf.symm r).1 q := by
  unfold Read.val_main_v21
  rw [edgeGather_apply _ _ edgeCol20, dom_apply]

/-- [dom | gat]: columns below 128. -/
theorem cat22_left (r : Fin 320000) (j : Fin 128) :
    Read.val_main_v22 (F := Ideal) X.x0 X.x2 (ix2 r (⟨j.val, by omega⟩ : Fin 256)) = dom (argsOf X) (rowOf.symm r).1 j := by
  unfold Read.val_main_v22
  exact (cat256_left _ _ r j).trans (domRow_apply X r j)

/-- [dom | gat]: columns from 128 on. -/
theorem cat22_right (r : Fin 320000) (j : Fin 128) :
    Read.val_main_v22 (F := Ideal) X.x0 X.x2 (ix2 r (⟨j.val + 128, by omega⟩ : Fin 256))
      = gat (argsOf X) (rowOf.symm r).1 (rowOf.symm r).2 j := by
  unfold Read.val_main_v22
  exact (cat256_right _ _ r j).trans (gat_apply X r j)

/-- Row `r` of the edge features is the specification's row of the pair it names. -/
theorem erp_row (r : Fin 320000) (q : Fin 128) :
    erp (argsOf X) (rowOf.symm r).1 (rowOf.symm r).2 q = X.x1 (ix2 r q) :=
  congrArg (fun t : Fin 320000 => X.x1 (ix2 t q)) (rowOf.apply_symm_apply r)

/-- [dom | gat | edge features]: the three blocks of 128 columns. -/
theorem cat23_a (r : Fin 320000) (j : Fin 128) :
    Read.val_main_v23 (F := Ideal) X.x0 X.x1 X.x2 (ix2 r (⟨j.val, by omega⟩ : Fin 384)) = dom (argsOf X) (rowOf.symm r).1 j := by
  unfold Read.val_main_v23
  exact (cat384_left _ _ r (⟨j.val, by omega⟩ : Fin 256)).trans (cat22_left X r j)

theorem cat23_b (r : Fin 320000) (j : Fin 128) :
    Read.val_main_v23 (F := Ideal) X.x0 X.x1 X.x2 (ix2 r (⟨j.val + 128, by omega⟩ : Fin 384))
      = gat (argsOf X) (rowOf.symm r).1 (rowOf.symm r).2 j := by
  unfold Read.val_main_v23
  exact (cat384_left _ _ r (⟨j.val + 128, by omega⟩ : Fin 256)).trans (cat22_right X r j)

theorem cat23_c (r : Fin 320000) (j : Fin 128) :
    Read.val_main_v23 (F := Ideal) X.x0 X.x1 X.x2 (ix2 r (⟨j.val + 256, by omega⟩ : Fin 384))
      = erp (argsOf X) (rowOf.symm r).1 (rowOf.symm r).2 j := by
  unfold Read.val_main_v23
  exact (cat384_right _ _ r j).trans (erp_row X r j).symm

/-- The contraction index `k` of entry `(r, c)`: left operand `(r, k)`, right operand `(k, c)`. -/
theorem lidx24 (r : Fin 320000) (c : Fin 128) (k : Fin 384) : Read.lidx_main_v24 (ix2 r c) k = ix2 r k :=
  funext fun a => Fin.ext (by match a with | ⟨0, _⟩ => rfl | ⟨1, _⟩ => rfl)
theorem ridx24 (r : Fin 320000) (c : Fin 128) (k : Fin 384) : Read.ridx_main_v24 (ix2 r c) k = ix2 k c :=
  funext fun a => Fin.ext (by match a with | ⟨0, _⟩ => rfl | ⟨1, _⟩ => rfl)

/-- The first linear map at row `r` is `y1` at the pair `r` names. -/
theorem y1_apply (r : Fin 320000) (c : Fin 128) :
    Read.val_main_v24 (F := Ideal) X.x0 X.x1 X.x2 X.x9 (ix2 r c) = y1 (argsOf X) (rowOf.symm r) c := by
  rw [Read.val_main_v24_apply, sum_fin384]
  simp only [lidx24, ridx24, cat23_a, cat23_b, cat23_c]
  rfl

end Cert.ReferenceIdeal.RefValue

end
-- ==== Proof.RefBn1.lean ====
/-
  The first batch normalisation of the reference (the edge rows' first map, 128 columns), read at an entry.

  The reference normalises the columns of a table `Y` of 320000 rows and 128 columns in the centred form: the column
  mean `m = (Σ_s Y s c) / 320000`, the column variance `v = (Σ_s (Y s c - m)²) / 320000`, and entry `(r, c)` of the result
  `max (((Y r c - m) · rsqrt (v + ε)) · g c + b c) 0`. Each stage is read at an entry; a column statistic broadcast
  to the rows reads the statistic at the entry's column.
-/
import proofs.«131702_j10462540333326_2_alg».proof.Proof.ReadP
import proofs.«131702_j10462540333326_2_alg».proof.Proof.Spec

noncomputable section

open scoped BigOperators

namespace Cert.ReferenceIdeal.RefValue

open Cert.ReferenceIdeal Cert.ReferenceIdeal.Gen Idealize.ShloMosaic Idealize.ShloMosaic.ValueIdx EdgeNodeLayer

/-! A column statistic broadcast to one row and then to all rows, read at `(r, q)`, is read at column `q`. -/
theorem idx1_4 (r : Fin 320000) (q : Fin 128) : Read.idx_main_v28 (Read.idx_main_v29 (ix2 r q)) = ix1 q :=
  funext fun a => Fin.ext (by match a with | ⟨0, _⟩ => rfl)
theorem idx1_11 (r : Fin 320000) (q : Fin 128) : Read.idx_main_v35 (Read.idx_main_v36 (ix2 r q)) = ix1 q :=
  funext fun a => Fin.ext (by match a with | ⟨0, _⟩ => rfl)
theorem idx1_17 (r : Fin 320000) (q : Fin 128) : Read.idx_main_v41 (Read.idx_main_v42 (ix2 r q)) = ix1 q :=
  funext fun a => Fin.ext (by match a with | ⟨0, _⟩ => rfl)
theorem idx1_20 (r : Fin 320000) (q : Fin 128) : Read.idx_main_v44 (Read.idx_main_v45 (ix2 r q)) = ix1 q :=
  funext fun a => Fin.ext (by match a with | ⟨0, _⟩ => rfl)
theorem idx1_23 (r : Fin 320000) (q : Fin 128) : Read.idx_main_v47 (Read.idx_main_v48 (ix2 r q)) = ix1 q :=
  funext fun a => Fin.ext (by match a with | ⟨0, _⟩ => rfl)
/-! The `s`-th term of a column's sum over the rows is entry `(s, q)`. -/
theorem idx1_1 (q : Fin 128) (s : Fin 320000) : Read.idx_main_v25 (ix1 q) s = ix2 s q :=
  funext fun a => Fin.ext (by match a with | ⟨0, _⟩ => rfl | ⟨1, _⟩ => rfl)
theorem idx1_8 (q : Fin 128) (s : Fin 320000) : Read.idx_main_v32 (ix1 q) s = ix2 s q :=
  funext fun a => Fin.ext (by match a with | ⟨0, _⟩ => rfl | ⟨1, _⟩ => rfl)

/-- The column mean. -/
theorem bn1_mean (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (q : Fin 128) :
    Read.val_main_v27 (F := Ideal) x0 x1 x2 x9 (ix1 q) = Ideal.div (∑ s : Fin 320000, Read.val_main_v24 (F := Ideal) x0 x1 x2 x9 (ix2 s q)) cRowsE := by
  rw [Read.val_main_v27_apply, Read.val_main_v25_apply, Read.val_main_v26_apply, Read.val_main_cst_3_apply, Read.val_main_cst_4_apply]
  simp only [Ideal.hostDivf_def, Ideal.ofBits_def, Ideal.ofBits_zero_f32, zero_add, idx1_1]

/-- An entry less its column's mean. -/
theorem bn1_ctr (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (r : Fin 320000) (q : Fin 128) :
    Read.val_main_v30 (F := Ideal) x0 x1 x2 x9 (ix2 r q) = Read.val_main_v24 (F := Ideal) x0 x1 x2 x9 (ix2 r q) - Read.val_main_v27 (F := Ideal) x0 x1 x2 x9 (ix1 q) := by
  rw [Read.val_main_v30_apply, Read.val_main_v29_apply, Read.val_main_v28_apply, idx1_4]
  rfl

/-- The column variance. -/
theorem bn1_var (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (q : Fin 128) :
    Read.val_main_v34 (F := Ideal) x0 x1 x2 x9 (ix1 q) = Ideal.div (∑ s : Fin 320000, (Read.val_main_v24 (F := Ideal) x0 x1 x2 x9 (ix2 s q) - Read.val_main_v27 (F := Ideal) x0 x1 x2 x9 (ix1 q)) * (Read.val_main_v24 (F := Ideal) x0 x1 x2 x9 (ix2 s q) - Read.val_main_v27 (F := Ideal) x0 x1 x2 x9 (ix1 q))) cRowsE := by
  rw [Read.val_main_v34_apply, Read.val_main_v32_apply, Read.val_main_v33_apply, Read.val_main_cst_5_apply, Read.val_main_cst_6_apply]
  simp only [Ideal.hostDivf_def, Ideal.ofBits_def, Ideal.ofBits_zero_f32, zero_add, idx1_8, Read.val_main_v31_apply, bn1_ctr,
    Ideal.mulf_def]

/-- The normalised, scaled, shifted and rectified entry is the centred form of batch normalisation. -/
theorem bn1_out (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (r : Fin 320000) (q : Fin 128) :
    Read.val_main_v50 (F := Ideal) x0 x1 x2 x9 x10 x11 (ix2 r q)
      = bnTwoPass cRowsE (fun (s : Fin 320000) (c : Fin 128) => Read.val_main_v24 (F := Ideal) x0 x1 x2 x9 (ix2 s c))
          (fun c : Fin 128 => x10 (ix1 c)) (fun c : Fin 128 => x11 (ix1 c)) r q := by
  rw [Read.val_main_v50_apply, Read.val_main_v49_apply, Read.val_main_v46_apply, Read.val_main_v43_apply, Read.val_main_v37_apply,
    Read.val_main_v36_apply, Read.val_main_v35_apply, Read.val_main_v42_apply, Read.val_main_v41_apply, Read.val_main_v40_apply,
    Read.val_main_v39_apply, Read.val_main_v38_apply, Read.val_main_cst_7_apply, Read.val_main_v45_apply, Read.val_main_v44_apply,
    Read.val_main_v48_apply, Read.val_main_v47_apply, Read.val_main_call0_v0_apply, Read.val_main_call0_cst_apply,
    idx1_11, idx1_17, idx1_20, idx1_23, bn1_var, bn1_mean]
  rfl

end Cert.ReferenceIdeal.RefValue

end
-- ==== Proof.RefNodeIn.lean ====
/-
  The reference's scatters back to the nodes are the specification's `h1`, `lvlLocal`, `ds`, `lvlDom` and `nodeIn`.

  The first map's normalised rows are `h1` (batch normalisation does not see that the rows are named `2 e + h`
  rather than `(e, h)`). They are added into the nodes by an accumulating scatter whose start index of row `r` is
  the endpoint of `r` (`lvlLocal`); added per edge (`ds`), gathered back to the rows and added into the nodes the
  same way (`lvlDom`); and the node input is `(1 + ε11) · node + (1 + ε12) · lvlLocal + lvlDom`.
-/
import proofs.«131702_j10462540333326_2_alg».proof.Proof.ReadP
import proofs.«131702_j10462540333326_2_alg».proof.Proof.RefOps
import proofs.«131702_j10462540333326_2_alg».proof.Proof.RefArgs
import proofs.«131702_j10462540333326_2_alg».proof.Proof.RefEdgeIn
import proofs.«131702_j10462540333326_2_alg».proof.Proof.RefBn1

noncomputable section

open scoped BigOperators

namespace Cert.ReferenceIdeal.RefValue

open Cert.ReferenceIdeal Cert.ReferenceIdeal.Gen Idealize.ShloMosaic Idealize.ShloMosaic.ValueIdx EdgeNodeLayer

variable (X : RefIn)

/-- The first map, normalised, at row `r` is `h1` at the pair `r` names. -/
theorem h1_apply (r : Fin 320000) (q : Fin 128) :
    Read.val_main_v50 (F := Ideal) X.x0 X.x1 X.x2 X.x9 X.x10 X.x11 (ix2 r q) = h1 (argsOf X) false (rowOf.symm r) q := by
  rw [bn1_out]
  exact (bnTwoPass_congr cRowsE _ (fun s c => y1 (argsOf X) (rowOf.symm s) c) _ (argsOf X).v1g _ (argsOf X).v1b
      (fun s c => y1_apply X s c) (fun _ => rfl) (fun _ => rfl) r q).trans
    (bnTwoPass_comp rowOf.symm cRowsE (y1 (argsOf X)) (argsOf X).v1g (argsOf X).v1b r q).symm

/-! The tables the scatters accumulate into are zero; their start indices are the endpoints, or the owning edges. -/
theorem zero51 (e : Fin 20000) (q : Fin 128) : Read.val_main_v51 (F := Ideal) (ix2 e q) = 0 := by
  rw [Read.val_main_v51_apply, Read.val_main_cst_8_apply]
  exact Ideal.ofBits_zero_f32

theorem atomsCol52 (r : Fin 320000) :
    Read.val_main_v52 (F := Ideal) X.x2 (ix2 r (0 : Fin 1)) = (argsOf X).ei (rowOf.symm r).2 (rowOf.symm r).1 := by
  rw [Read.val_main_v52_apply,
    show Read.idx_main_v52 (ix2 r (0 : Fin 1)) = ix1 r from funext fun a => Fin.ext (by match a with | ⟨0, _⟩ => rfl),
    atoms_apply]
  rfl

/-- `h1` added into the nodes by endpoint: `lvlLocal`. -/
theorem lvlLocal_apply (n : Fin 20000) (q : Fin 128) :
    Read.val_main_v53 (F := Ideal) X.x0 X.x1 X.x2 X.x9 X.x10 X.x11 (ix2 n q) = lvlLocal (argsOf X) false n q := by
  unfold Read.val_main_v53
  rw [nodeScatter_apply _ zero51]
  unfold lvlLocal
  refine Finset.sum_congr rfl fun p _ => ?_
  rw [atomsCol52, h1_apply, Equiv.symm_apply_apply]

theorem zero54 (e : Fin 160000) (q : Fin 128) : Read.val_main_v54 (F := Ideal) (ix2 e q) = 0 := by
  rw [Read.val_main_v54_apply, Read.val_main_cst_9_apply]
  exact Ideal.ofBits_zero_f32

theorem edgeCol55 (r : Fin 320000) : Read.val_main_v55 (F := Ideal) (ix2 r (0 : Fin 1)) = BitVec.ofNat 32 (r.val / 2) := by
  rw [Read.val_main_v55_apply,
    show Read.idx_main_v55 (ix2 r (0 : Fin 1)) = ix1 r from funext fun a => Fin.ext (by match a with | ⟨0, _⟩ => rfl)]
  exact edgeWord_apply r

/-- `h1` added over each edge's two rows: `ds`. -/
theorem ds_apply (e : Fin 160000) (q : Fin 128) :
    Read.val_main_v56 (F := Ideal) X.x0 X.x1 X.x2 X.x9 X.x10 X.x11 (ix2 e q) = ds (argsOf X) false e q := by
  unfold Read.val_main_v56
  rw [edgeScatter_apply _ zero54 _ edgeCol55, h1_apply, h1_apply]
  simp only [Equiv.symm_apply_apply]
  rfl

/-- The owning edge's word again, read as a start index. -/
theorem edgeWrapped61 (r : Fin 320000) : Read.val_main_v61 (F := Ideal) (ix1 r) = BitVec.ofNat 32 (r.val / 2) := by
  rw [Read.val_main_v61_apply, Read.val_main_v58_apply, Read.val_main_v60_apply, Read.val_main_v57_apply,
    Read.val_main_v59_apply, Read.val_main_c_10_apply, Read.val_main_c_11_apply, edgeWord_apply]
  have hr := r.isLt
  exact (select_wrap 160000 _).trans (wrapIdx_ofNat_small 160000 _ (by omega))

theorem edgeCol62 (r : Fin 320000) : Read.val_main_v62 (F := Ideal) (ix2 r (0 : Fin 1)) = BitVec.ofNat 32 (r.val / 2) := by
  rw [Read.val_main_v62_apply,
    show Read.idx_main_v62 (ix2 r (0 : Fin 1)) = ix1 r from funext fun a => Fin.ext (by match a with | ⟨0, _⟩ => rfl)]
  exact edgeWrapped61 r

/-- … gathered back to the rows. -/
theorem dsRow_apply (r : Fin 320000) (q : Fin 128) :
    Read.val_main_v63 (F := Ideal) X.x0 X.x1 X.x2 X.x9 X.x10 X.x11 (ix2 r q) = ds (argsOf X) false (rowOf.symm r).1 q := by
  unfold Read.val_main_v63
  rw [edgeGather_apply _ _ edgeCol62, ds_apply]

theorem zero64 (e : Fin 20000) (q : Fin 128) : Read.val_main_v64 (F := Ideal) (ix2 e q) = 0 := by
  rw [Read.val_main_v64_apply, Read.val_main_cst_12_apply]
  exact Ideal.ofBits_zero_f32

theorem atomsCol65 (r : Fin 320000) :
    Read.val_main_v65 (F := Ideal) X.x2 (ix2 r (0 : Fin 1)) = (argsOf X).ei (rowOf.symm r).2 (rowOf.symm r).1 := by
  rw [Read.val_main_v65_apply,
    show Read.idx_main_v65 (ix2 r (0 : Fin 1)) = ix1 r from funext fun a => Fin.ext (by match a with | ⟨0, _⟩ => rfl),
    atoms_apply]
  rfl

/-- `ds` added into the nodes by endpoint: `lvlDom`. -/
theorem lvlDom_apply (n : Fin 20000) (q : Fin 128) :
    Read.val_main_v66 (F := Ideal) X.x0 X.x1 X.x2 X.x9 X.x10 X.x11 (ix2 n q) = lvlDom (argsOf X) false n q := by
  unfold Read.val_main_v66
  rw [nodeScatter_apply _ zero64]
  unfold lvlDom
  refine Finset.sum_congr rfl fun p _ => ?_
  rw [atomsCol65, dsRow_apply, Equiv.symm_apply_apply]

/-- The node input. -/
theorem nodeIn_apply (n : Fin 20000) (q : Fin 128) :
    Read.val_main_v74 (F := Ideal) X.x0 X.x1 X.x2 X.x9 X.x10 X.x11 X.x18 X.x19 (ix2 n q) = nodeIn (argsOf X) false n q := by
  rw [Read.val_main_v74_apply, Read.val_main_v73_apply, Read.val_main_v69_apply, Read.val_main_v68_apply,
    Read.val_main_v67_apply, Read.val_main_cst_13_apply, Read.val_main_v72_apply, Read.val_main_v71_apply,
    Read.val_main_v70_apply, Read.val_main_cst_14_apply, lvlLocal_apply, lvlDom_apply]
  rfl

end Cert.ReferenceIdeal.RefValue

end
-- ==== Proof.RefBn2.lean ====
/-
  The second batch normalisation of the reference (the nodes' first map, 256 columns), read at an entry.

  The reference normalises the columns of a table `Y` of 20000 rows and 256 columns in the centred form: the column
  mean `m = (Σ_s Y s c) / 20000`, the column variance `v = (Σ_s (Y s c - m)²) / 20000`, and entry `(r, c)` of the result
  `max (((Y r c - m) · rsqrt (v + ε)) · g c + b c) 0`. Each stage is read at an entry; a column statistic broadcast
  to the rows reads the statistic at the entry's column.
-/
import proofs.«131702_j10462540333326_2_alg».proof.Proof.ReadP
import proofs.«131702_j10462540333326_2_alg».proof.Proof.Spec

noncomputable section

open scoped BigOperators

namespace Cert.ReferenceIdeal.RefValue

open Cert.ReferenceIdeal Cert.ReferenceIdeal.Gen Idealize.ShloMosaic Idealize.ShloMosaic.ValueIdx EdgeNodeLayer

/-! A column statistic broadcast to one row and then to all rows, read at `(r, q)`, is read at column `q`. -/
theorem idx2_4 (r : Fin 20000) (q : Fin 256) : Read.idx_main_v79 (Read.idx_main_v80 (ix2 r q)) = ix1 q :=
  funext fun a => Fin.ext (by match a with | ⟨0, _⟩ => rfl)
theorem idx2_11 (r : Fin 20000) (q : Fin 256) : Read.idx_main_v86 (Read.idx_main_v87 (ix2 r q)) = ix1 q :=
  funext fun a => Fin.ext (by match a with | ⟨0, _⟩ => rfl)
theorem idx2_17 (r : Fin 20000) (q : Fin 256) : Read.idx_main_v92 (Read.idx_main_v93 (ix2 r q)) = ix1 q :=
  funext fun a => Fin.ext (by match a with | ⟨0, _⟩ => rfl)
theorem idx2_20 (r : Fin 20000) (q : Fin 256) : Read.idx_main_v95 (Read.idx_main_v96 (ix2 r q)) = ix1 q :=
  funext fun a => Fin.ext (by match a with | ⟨0, _⟩ => rfl)
theorem idx2_23 (r : Fin 20000) (q : Fin 256) : Read.idx_main_v98 (Read.idx_main_v99 (ix2 r q)) = ix1 q :=
  funext fun a => Fin.ext (by match a with | ⟨0, _⟩ => rfl)
/-! The `s`-th term of a column's sum over the rows is entry `(s, q)`. -/
theorem idx2_1 (q : Fin 256) (s : Fin 20000) : Read.idx_main_v76 (ix1 q) s = ix2 s q :=
  funext fun a => Fin.ext (by match a with | ⟨0, _⟩ => rfl | ⟨1, _⟩ => rfl)
theorem idx2_8 (q : Fin 256) (s : Fin 20000) : Read.idx_main_v83 (ix1 q) s = ix2 s q :=
  funext fun a => Fin.ext (by match a with | ⟨0, _⟩ => rfl | ⟨1, _⟩ => rfl)

/-- The column mean. -/
theorem bn2_mean (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x18 : (⟨S_, .f32⟩ : BufTy).Contents (Elt Ideal)) (x19 : (⟨S_, .f32⟩ : BufTy).Contents (Elt Ideal)) (q : Fin 256) :
    Read.val_main_v78 (F := Ideal) x0 x1 x2 x9 x10 x11 x12 x18 x19 (ix1 q) = Ideal.div (∑ s : Fin 20000, Read.val_main_v75 (F := Ideal) x0 x1 x2 x9 x10 x11 x12 x18 x19 (ix2 s q)) cRowsN := by
  rw [Read.val_main_v78_apply, Read.val_main_v76_apply, Read.val_main_v77_apply, Read.val_main_cst_15_apply, Read.val_main_cst_16_apply]
  simp only [Ideal.hostDivf_def, Ideal.ofBits_def, Ideal.ofBits_zero_f32, zero_add, idx2_1]

/-- An entry less its column's mean. -/
theorem bn2_ctr (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x18 : (⟨S_, .f32⟩ : BufTy).Contents (Elt Ideal)) (x19 : (⟨S_, .f32⟩ : BufTy).Contents (Elt Ideal)) (r : Fin 20000) (q : Fin 256) :
    Read.val_main_v81 (F := Ideal) x0 x1 x2 x9 x10 x11 x12 x18 x19 (ix2 r q) = Read.val_main_v75 (F := Ideal) x0 x1 x2 x9 x10 x11 x12 x18 x19 (ix2 r q) - Read.val_main_v78 (F := Ideal) x0 x1 x2 x9 x10 x11 x12 x18 x19 (ix1 q) := by
  rw [Read.val_main_v81_apply, Read.val_main_v80_apply, Read.val_main_v79_apply, idx2_4]
  rfl

/-- The column variance. -/
theorem bn2_var (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x18 : (⟨S_, .f32⟩ : BufTy).Contents (Elt Ideal)) (x19 : (⟨S_, .f32⟩ : BufTy).Contents (Elt Ideal)) (q : Fin 256) :
    Read.val_main_v85 (F := Ideal) x0 x1 x2 x9 x10 x11 x12 x18 x19 (ix1 q) = Ideal.div (∑ s : Fin 20000, (Read.val_main_v75 (F := Ideal) x0 x1 x2 x9 x10 x11 x12 x18 x19 (ix2 s q) - Read.val_main_v78 (F := Ideal) x0 x1 x2 x9 x10 x11 x12 x18 x19 (ix1 q)) * (Read.val_main_v75 (F := Ideal) x0 x1 x2 x9 x10 x11 x12 x18 x19 (ix2 s q) - Read.val_main_v78 (F := Ideal) x0 x1 x2 x9 x10 x11 x12 x18 x19 (ix1 q))) cRowsN := by
  rw [Read.val_main_v85_apply, Read.val_main_v83_apply, Read.val_main_v84_apply, Read.val_main_cst_17_apply, Read.val_main_cst_18_apply]
  simp only [Ideal.hostDivf_def, Ideal.ofBits_def, Ideal.ofBits_zero_f32, zero_add, idx2_8, Read.val_main_v82_apply, bn2_ctr,
    Ideal.mulf_def]

/-- The normalised, scaled, shifted and rectified entry is the centred form of batch normalisation. -/
theorem bn2_out (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x18 : (⟨S_, .f32⟩ : BufTy).Contents (Elt Ideal)) (x19 : (⟨S_, .f32⟩ : BufTy).Contents (Elt Ideal)) (r : Fin 20000) (q : Fin 256) :
    Read.val_main_v101 (F := Ideal) x0 x1 x2 x9 x10 x11 x12 x13 x14 x18 x19 (ix2 r q)
      = bnTwoPass cRowsN (fun (s : Fin 20000) (c : Fin 256) => Read.val_main_v75 (F := Ideal) x0 x1 x2 x9 x10 x11 x12 x18 x19 (ix2 s c))
          (fun c : Fin 256 => x13 (ix1 c)) (fun c : Fin 256 => x14 (ix1 c)) r q := by
  rw [Read.val_main_v101_apply, Read.val_main_v100_apply, Read.val_main_v97_apply, Read.val_main_v94_apply, Read.val_main_v88_apply,
    Read.val_main_v87_apply, Read.val_main_v86_apply, Read.val_main_v93_apply, Read.val_main_v92_apply, Read.val_main_v91_apply,
    Read.val_main_v90_apply, Read.val_main_v89_apply, Read.val_main_cst_19_apply, Read.val_main_v96_apply, Read.val_main_v95_apply,
    Read.val_main_v99_apply, Read.val_main_v98_apply, Read.val_main_call1_v0_apply, Read.val_main_call1_cst_apply,
    idx2_11, idx2_17, idx2_20, idx2_23, bn2_var, bn2_mean]
  rfl

end Cert.ReferenceIdeal.RefValue

end
-- ==== Proof.RefBn3.lean ====
/-
  The third batch normalisation of the reference (the nodes' second map, 128 columns), read at an entry.

  The reference normalises the columns of a table `Y` of 20000 rows and 128 columns in the centred form: the column
  mean `m = (Σ_s Y s c) / 20000`, the column variance `v = (Σ_s (Y s c - m)²) / 20000`, and entry `(r, c)` of the result
  `max (((Y r c - m) · rsqrt (v + ε)) · g c + b c) 0`. Each stage is read at an entry; a column statistic broadcast
  to the rows reads the statistic at the entry's column.
-/
import proofs.«131702_j10462540333326_2_alg».proof.Proof.ReadP
import proofs.«131702_j10462540333326_2_alg».proof.Proof.Spec

noncomputable section

open scoped BigOperators

namespace Cert.ReferenceIdeal.RefValue

open Cert.ReferenceIdeal Cert.ReferenceIdeal.Gen Idealize.ShloMosaic Idealize.ShloMosaic.ValueIdx EdgeNodeLayer

/-! A column statistic broadcast to one row and then to all rows, read at `(r, q)`, is read at column `q`. -/
theorem idx3_4 (r : Fin 20000) (q : Fin 128) : Read.idx_main_v106 (Read.idx_main_v107 (ix2 r q)) = ix1 q :=
  funext fun a => Fin.ext (by match a with | ⟨0, _⟩ => rfl)
theorem idx3_11 (r : Fin 20000) (q : Fin 128) : Read.idx_main_v113 (Read.idx_main_v114 (ix2 r q)) = ix1 q :=
  funext fun a => Fin.ext (by match a with | ⟨0, _⟩ => rfl)
theorem idx3_17 (r : Fin 20000) (q : Fin 128) : Read.idx_main_v119 (Read.idx_main_v120 (ix2 r q)) = ix1 q :=
  funext fun a => Fin.ext (by match a with | ⟨0, _⟩ => rfl)
theorem idx3_20 (r : Fin 20000) (q : Fin 128) : Read.idx_main_v122 (Read.idx_main_v123 (ix2 r q)) = ix1 q :=
  funext fun a => Fin.ext (by match a with | ⟨0, _⟩ => rfl)
theorem idx3_23 (r : Fin 20000) (q : Fin 128) : Read.idx_main_v125 (Read.idx_main_v126 (ix2 r q)) = ix1 q :=
  funext fun a => Fin.ext (by match a with | ⟨0, _⟩ => rfl)
/-! The `s`-th term of a column's sum over the rows is entry `(s, q)`. -/
theorem idx3_1 (q : Fin 128) (s : Fin 20000) : Read.idx_main_v103 (ix1 q) s = ix2 s q :=
  funext fun a => Fin.ext (by match a with | ⟨0, _⟩ => rfl | ⟨1, _⟩ => rfl)
theorem idx3_8 (q : Fin 128) (s : Fin 20000) : Read.idx_main_v110 (ix1 q) s = ix2 s q :=
  funext fun a => Fin.ext (by match a with | ⟨0, _⟩ => rfl | ⟨1, _⟩ => rfl)

/-- The column mean. -/
theorem bn3_mean (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x15 : (⟨S256x128, .f32⟩ : BufTy).Contents (Elt Ideal)) (x18 : (⟨S_, .f32⟩ : BufTy).Contents (Elt Ideal)) (x19 : (⟨S_, .f32⟩ : BufTy).Contents (Elt Ideal)) (q : Fin 128) :
    Read.val_main_v105 (F := Ideal) x0 x1 x2 x9 x10 x11 x12 x13 x14 x15 x18 x19 (ix1 q) = Ideal.div (∑ s : Fin 20000, Read.val_main_v102 (F := Ideal) x0 x1 x2 x9 x10 x11 x12 x13 x14 x15 x18 x19 (ix2 s q)) cRowsN := by
  rw [Read.val_main_v105_apply, Read.val_main_v103_apply, Read.val_main_v104_apply, Read.val_main_cst_20_apply, Read.val_main_cst_21_apply]
  simp only [Ideal.hostDivf_def, Ideal.ofBits_def, Ideal.ofBits_zero_f32, zero_add, idx3_1]

/-- An entry less its column's mean. -/
theorem bn3_ctr (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x15 : (⟨S256x128, .f32⟩ : BufTy).Contents (Elt Ideal)) (x18 : (⟨S_, .f32⟩ : BufTy).Contents (Elt Ideal)) (x19 : (⟨S_, .f32⟩ : BufTy).Contents (Elt Ideal)) (r : Fin 20000) (q : Fin 128) :
    Read.val_main_v108 (F := Ideal) x0 x1 x2 x9 x10 x11 x12 x13 x14 x15 x18 x19 (ix2 r q) = Read.val_main_v102 (F := Ideal) x0 x1 x2 x9 x10 x11 x12 x13 x14 x15 x18 x19 (ix2 r q) - Read.val_main_v105 (F := Ideal) x0 x1 x2 x9 x10 x11 x12 x13 x14 x15 x18 x19 (ix1 q) := by
  rw [Read.val_main_v108_apply, Read.val_main_v107_apply, Read.val_main_v106_apply, idx3_4]
  rfl

/-- The column variance. -/
theorem bn3_var (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x15 : (⟨S256x128, .f32⟩ : BufTy).Contents (Elt Ideal)) (x18 : (⟨S_, .f32⟩ : BufTy).Contents (Elt Ideal)) (x19 : (⟨S_, .f32⟩ : BufTy).Contents (Elt Ideal)) (q : Fin 128) :
    Read.val_main_v112 (F := Ideal) x0 x1 x2 x9 x10 x11 x12 x13 x14 x15 x18 x19 (ix1 q) = Ideal.div (∑ s : Fin 20000, (Read.val_main_v102 (F := Ideal) x0 x1 x2 x9 x10 x11 x12 x13 x14 x15 x18 x19 (ix2 s q) - Read.val_main_v105 (F := Ideal) x0 x1 x2 x9 x10 x11 x12 x13 x14 x15 x18 x19 (ix1 q)) * (Read.val_main_v102 (F := Ideal) x0 x1 x2 x9 x10 x11 x12 x13 x14 x15 x18 x19 (ix2 s q) - Read.val_main_v105 (F := Ideal) x0 x1 x2 x9 x10 x11 x12 x13 x14 x15 x18 x19 (ix1 q))) cRowsN := by
  rw [Read.val_main_v112_apply, Read.val_main_v110_apply, Read.val_main_v111_apply, Read.val_main_cst_22_apply, Read.val_main_cst_23_apply]
  simp only [Ideal.hostDivf_def, Ideal.ofBits_def, Ideal.ofBits_zero_f32, zero_add, idx3_8, Read.val_main_v109_apply, bn3_ctr,
    Ideal.mulf_def]

/-- The normalised, scaled, shifted and rectified entry is the centred form of batch normalisation. -/
theorem bn3_out (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S128, .f32⟩ : BufTy).Contents (Elt Ideal)) (x18 : (⟨S_, .f32⟩ : BufTy).Contents (Elt Ideal)) (x19 : (⟨S_, .f32⟩ : BufTy).Contents (Elt Ideal)) (r : Fin 20000) (q : Fin 128) :
    Read.val_main_v128 (F := Ideal) x0 x1 x2 x9 x10 x11 x12 x13 x14 x15 x16 x17 x18 x19 (ix2 r q)
      = bnTwoPass cRowsN (fun (s : Fin 20000) (c : Fin 128) => Read.val_main_v102 (F := Ideal) x0 x1 x2 x9 x10 x11 x12 x13 x14 x15 x18 x19 (ix2 s c))
          (fun c : Fin 128 => x16 (ix1 c)) (fun c : Fin 128 => x17 (ix1 c)) r q := by
  rw [Read.val_main_v128_apply, Read.val_main_v127_apply, Read.val_main_v124_apply, Read.val_main_v121_apply, Read.val_main_v115_apply,
    Read.val_main_v114_apply, Read.val_main_v113_apply, Read.val_main_v120_apply, Read.val_main_v119_apply, Read.val_main_v118_apply,
    Read.val_main_v117_apply, Read.val_main_v116_apply, Read.val_main_cst_24_apply, Read.val_main_v123_apply, Read.val_main_v122_apply,
    Read.val_main_v126_apply, Read.val_main_v125_apply, Read.val_main_call2_v0_apply, Read.val_main_call2_cst_apply,
    idx3_11, idx3_17, idx3_20, idx3_23, bn3_var, bn3_mean]
  rfl

end Cert.ReferenceIdeal.RefValue

end
-- ==== Proof.RefNodeOut.lean ====
/-
  The reference's node branch is the specification's `yA`, `hA`, `yB` and `nodeOut`.

  Two linear maps (sums over 128 and over 256 columns), each followed by batch normalisation over the 20000 node
  rows in the centred form.
-/
import proofs.«131702_j10462540333326_2_alg».proof.Proof.ReadP
import proofs.«131702_j10462540333326_2_alg».proof.Proof.RefArgs
import proofs.«131702_j10462540333326_2_alg».proof.Proof.RefNodeIn
import proofs.«131702_j10462540333326_2_alg».proof.Proof.RefBn2
import proofs.«131702_j10462540333326_2_alg».proof.Proof.RefBn3

noncomputable section

open scoped BigOperators

namespace Cert.ReferenceIdeal.RefValue

open Cert.ReferenceIdeal Cert.ReferenceIdeal.Gen Idealize.ShloMosaic Idealize.ShloMosaic.ValueIdx EdgeNodeLayer

variable (X : RefIn)

/-! The contraction index `k` of entry `(r, c)`: left operand `(r, k)`, right operand `(k, c)`. -/
theorem lidx75 (r : Fin 20000) (c : Fin 256) (k : Fin 128) : Read.lidx_main_v75 (ix2 r c) k = ix2 r k :=
  funext fun a => Fin.ext (by match a with | ⟨0, _⟩ => rfl | ⟨1, _⟩ => rfl)
theorem ridx75 (r : Fin 20000) (c : Fin 256) (k : Fin 128) : Read.ridx_main_v75 (ix2 r c) k = ix2 k c :=
  funext fun a => Fin.ext (by match a with | ⟨0, _⟩ => rfl | ⟨1, _⟩ => rfl)

/-- The nodes' first linear map. -/
theorem yA_apply (n : Fin 20000) (c : Fin 256) :
    Read.val_main_v75 (F := Ideal) X.x0 X.x1 X.x2 X.x9 X.x10 X.x11 X.x12 X.x18 X.x19 (ix2 n c) = yA (argsOf X) false n c := by
  rw [Read.val_main_v75_apply]
  simp only [lidx75, ridx75, nodeIn_apply]
  rfl

/-- … normalised. -/
theorem hA_apply (n : Fin 20000) (c : Fin 256) :
    Read.val_main_v101 (F := Ideal) X.x0 X.x1 X.x2 X.x9 X.x10 X.x11 X.x12 X.x13 X.x14 X.x18 X.x19 (ix2 n c) = hA (argsOf X) false n c := by
  rw [bn2_out]
  exact bnTwoPass_congr cRowsN _ (yA (argsOf X) false) _ (argsOf X).v2g1 _ (argsOf X).v2b1
    (fun s c => yA_apply X s c) (fun _ => rfl) (fun _ => rfl) n c

theorem lidx102 (r : Fin 20000) (c : Fin 128) (k : Fin 256) : Read.lidx_main_v102 (ix2 r c) k = ix2 r k :=
  funext fun a => Fin.ext (by match a with | ⟨0, _⟩ => rfl | ⟨1, _⟩ => rfl)
theorem ridx102 (r : Fin 20000) (c : Fin 128) (k : Fin 256) : Read.ridx_main_v102 (ix2 r c) k = ix2 k c :=
  funext fun a => Fin.ext (by match a with | ⟨0, _⟩ => rfl | ⟨1, _⟩ => rfl)

/-- The nodes' second linear map. -/
theorem yB_apply (n : Fin 20000) (c : Fin 128) :
    Read.val_main_v102 (F := Ideal) X.x0 X.x1 X.x2 X.x9 X.x10 X.x11 X.x12 X.x13 X.x14 X.x15 X.x18 X.x19 (ix2 n c) = yB (argsOf X) false n c := by
  rw [Read.val_main_v102_apply]
  simp only [lidx102, ridx102, hA_apply]
  rfl

/-- The node result. -/
theorem nodeOut_apply (n : Fin 20000) (q : Fin 128) :
    Read.val_main_v128 (F := Ideal) X.x0 X.x1 X.x2 X.x9 X.x10 X.x11 X.x12 X.x13 X.x14 X.x15 X.x16 X.x17 X.x18 X.x19 (ix2 n q) = nodeOut (argsOf X) false n q := by
  rw [bn3_out]
  exact bnTwoPass_congr cRowsN _ (yB (argsOf X) false) _ (argsOf X).v2g2 _ (argsOf X).v2b2
    (fun s c => yB_apply X s c) (fun _ => rfl) (fun _ => rfl) n q

end Cert.ReferenceIdeal.RefValue

end
-- ==== Proof.RefEdgeLift.lean ====
/-
  The reference's edge branch up to its first linear map is the specification's `emean`, `p0`, `p1` and `yC`.

  Each edge's two feature rows are added by an accumulating scatter (start index of row `r` the word `r / 2`) and
  halved (`emean`), gathered back to the rows, laid beside the rows' own features (256 columns), scaled by
  `1 + ε2` and added to [dom | gat]: columns below 128 are `p0`, the others `p1`. The linear map is a sum over 256
  columns, which is the two sums over 128 columns of `yC`.
-/
import proofs.«131702_j10462540333326_2_alg».proof.Proof.ReadP
import proofs.«131702_j10462540333326_2_alg».proof.Proof.RefOps
import proofs.«131702_j10462540333326_2_alg».proof.Proof.RefArgs
import proofs.«131702_j10462540333326_2_alg».proof.Proof.RefEdgeIn

noncomputable section

open scoped BigOperators

namespace Cert.ReferenceIdeal.RefValue

open Cert.ReferenceIdeal Cert.ReferenceIdeal.Gen Idealize.ShloMosaic Idealize.ShloMosaic.ValueIdx EdgeNodeLayer

variable (X : RefIn)

theorem zero129 (e : Fin 160000) (q : Fin 128) : Read.val_main_v129 (F := Ideal) (ix2 e q) = 0 := by
  rw [Read.val_main_v129_apply, Read.val_main_cst_25_apply]
  exact Ideal.ofBits_zero_f32

theorem edgeCol130 (r : Fin 320000) : Read.val_main_v130 (F := Ideal) (ix2 r (0 : Fin 1)) = BitVec.ofNat 32 (r.val / 2) := by
  rw [Read.val_main_v130_apply,
    show Read.idx_main_v130 (ix2 r (0 : Fin 1)) = ix1 r from funext fun a => Fin.ext (by match a with | ⟨0, _⟩ => rfl)]
  exact edgeWord_apply r

/-- An edge's two feature rows added. -/
theorem esum_apply (e : Fin 160000) (q : Fin 128) :
    Read.val_main_v131 (F := Ideal) X.x1 (ix2 e q) = X.x1 (ix2 (rowOf (e, 0)) q) + X.x1 (ix2 (rowOf (e, 1)) q) := by
  unfold Read.val_main_v131
  exact edgeScatter_apply _ zero129 _ edgeCol130 _ e q

/-- … and halved: `emean`. -/
theorem emean_apply (e : Fin 160000) (q : Fin 128) :
    Read.val_main_v133 (F := Ideal) X.x1 (ix2 e q) = emean (argsOf X) e q := by
  rw [Read.val_main_v133_apply, Read.val_main_v132_apply, Read.val_main_cst_26_apply, esum_apply]
  rfl

/-- The owning edge's word again, read as a start index. -/
theorem edgeWrapped138 (r : Fin 320000) : Read.val_main_v138 (F := Ideal) (ix1 r) = BitVec.ofNat 32 (r.val / 2) := by
  rw [Read.val_main_v138_apply, Read.val_main_v135_apply, Read.val_main_v137_apply, Read.val_main_v134_apply,
    Read.val_main_v136_apply, Read.val_main_c_27_apply, Read.val_main_c_28_apply, edgeWord_apply]
  have hr := r.isLt
  exact (select_wrap 160000 _).trans (wrapIdx_ofNat_small 160000 _ (by omega))

theorem edgeCol139 (r : Fin 320000) : Read.val_main_v139 (F := Ideal) (ix2 r (0 : Fin 1)) = BitVec.ofNat 32 (r.val / 2) := by
  rw [Read.val_main_v139_apply,
    show Read.idx_main_v139 (ix2 r (0 : Fin 1)) = ix1 r from funext fun a => Fin.ext (by match a with | ⟨0, _⟩ => rfl)]
  exact edgeWrapped138 r

/-- … gathered back to the rows. -/
theorem emeanRow_apply (r : Fin 320000) (q : Fin 128) :
    Read.val_main_v140 (F := Ideal) X.x1 (ix2 r q) = emean (argsOf X) (rowOf.symm r).1 q := by
  unfold Read.val_main_v140
  rw [edgeGather_apply _ _ edgeCol139, emean_apply]

/-- [emean | edge features]: columns below 128. -/
theorem cat141_left (r : Fin 320000) (j : Fin 128) :
    Read.val_main_v141 (F := Ideal) X.x1 (ix2 r (⟨j.val, by omega⟩ : Fin 256)) = emean (argsOf X) (rowOf.symm r).1 j := by
  unfold Read.val_main_v141
  exact (cat256_left _ _ r j).trans (emeanRow_apply X r j)

/-- [emean | edge features]: columns from 128 on. -/
theorem cat141_right (r : Fin 320000) (j : Fin 128) :
    Read.val_main_v141 (F := Ideal) X.x1 (ix2 r (⟨j.val + 128, by omega⟩ : Fin 256))
      = erp (argsOf X) (rowOf.symm r).1 (rowOf.symm r).2 j := by
  unfold Read.val_main_v141
  exact (cat256_right _ _ r j).trans (erp_row X r j).symm

/-- The lift map's input, columns below 128: `p0`. -/
theorem p0_apply (r : Fin 320000) (j : Fin 128) :
    Read.val_main_v145 (F := Ideal) X.x0 X.x1 X.x2 X.x20 (ix2 r (⟨j.val, by omega⟩ : Fin 256)) = p0 (argsOf X) (rowOf.symm r).1 j := by
  rw [Read.val_main_v145_apply, Read.val_main_v144_apply, Read.val_main_v143_apply, Read.val_main_v142_apply,
    Read.val_main_cst_29_apply, cat141_left, cat22_left]
  rfl

/-- The lift map's input, columns from 128 on: `p1`. -/
theorem p1_apply (r : Fin 320000) (j : Fin 128) :
    Read.val_main_v145 (F := Ideal) X.x0 X.x1 X.x2 X.x20 (ix2 r (⟨j.val + 128, by omega⟩ : Fin 256))
      = p1 (argsOf X) (rowOf.symm r).1 (rowOf.symm r).2 j := by
  rw [Read.val_main_v145_apply, Read.val_main_v144_apply, Read.val_main_v143_apply, Read.val_main_v142_apply,
    Read.val_main_cst_29_apply, cat141_right, cat22_right]
  rfl

theorem lidx146 (r : Fin 320000) (c : Fin 256) (k : Fin 256) : Read.lidx_main_v146 (ix2 r c) k = ix2 r k :=
  funext fun a => Fin.ext (by match a with | ⟨0, _⟩ => rfl | ⟨1, _⟩ => rfl)
theorem ridx146 (r : Fin 320000) (c : Fin 256) (k : Fin 256) : Read.ridx_main_v146 (ix2 r c) k = ix2 k c :=
  funext fun a => Fin.ext (by match a with | ⟨0, _⟩ => rfl | ⟨1, _⟩ => rfl)

/-- The lift map at row `r` is `yC` at the pair `r` names. -/
theorem yC_apply (r : Fin 320000) (c : Fin 256) :
    Read.val_main_v146 (F := Ideal) X.x0 X.x1 X.x2 X.x3 X.x20 (ix2 r c) = yC (argsOf X) (rowOf.symm r) c := by
  rw [Read.val_main_v146_apply, sum_fin256]
  simp only [lidx146, ridx146, p0_apply, p1_apply]
  rfl

end Cert.ReferenceIdeal.RefValue

end
-- ==== Proof.RefBn4.lean ====
/-
  The fourth batch normalisation of the reference (the edge rows' lift map, 256 columns), read at an entry.

  The reference normalises the columns of a table `Y` of 320000 rows and 256 columns in the centred form: the column
  mean `m = (Σ_s Y s c) / 320000`, the column variance `v = (Σ_s (Y s c - m)²) / 320000`, and entry `(r, c)` of the result
  `max (((Y r c - m) · rsqrt (v + ε)) · g c + b c) 0`. Each stage is read at an entry; a column statistic broadcast
  to the rows reads the statistic at the entry's column.
-/
import proofs.«131702_j10462540333326_2_alg».proof.Proof.ReadP
import proofs.«131702_j10462540333326_2_alg».proof.Proof.Spec

noncomputable section

open scoped BigOperators

namespace Cert.ReferenceIdeal.RefValue

open Cert.ReferenceIdeal Cert.ReferenceIdeal.Gen Idealize.ShloMosaic Idealize.ShloMosaic.ValueIdx EdgeNodeLayer

/-! A column statistic broadcast to one row and then to all rows, read at `(r, q)`, is read at column `q`. -/
theorem idx4_4 (r : Fin 320000) (q : Fin 256) : Read.idx_main_v150 (Read.idx_main_v151 (ix2 r q)) = ix1 q :=
  funext fun a => Fin.ext (by match a with | ⟨0, _⟩ => rfl)
theorem idx4_11 (r : Fin 320000) (q : Fin 256) : Read.idx_main_v157 (Read.idx_main_v158 (ix2 r q)) = ix1 q :=
  funext fun a => Fin.ext (by match a with | ⟨0, _⟩ => rfl)
theorem idx4_17 (r : Fin 320000) (q : Fin 256) : Read.idx_main_v163 (Read.idx_main_v164 (ix2 r q)) = ix1 q :=
  funext fun a => Fin.ext (by match a with | ⟨0, _⟩ => rfl)
theorem idx4_20 (r : Fin 320000) (q : Fin 256) : Read.idx_main_v166 (Read.idx_main_v167 (ix2 r q)) = ix1 q :=
  funext fun a => Fin.ext (by match a with | ⟨0, _⟩ => rfl)
theorem idx4_23 (r : Fin 320000) (q : Fin 256) : Read.idx_main_v169 (Read.idx_main_v170 (ix2 r q)) = ix1 q :=
  funext fun a => Fin.ext (by match a with | ⟨0, _⟩ => rfl)
/-! The `s`-th term of a column's sum over the rows is entry `(s, q)`. -/
theorem idx4_1 (q : Fin 256) (s : Fin 320000) : Read.idx_main_v147 (ix1 q) s = ix2 s q :=
  funext fun a => Fin.ext (by match a with | ⟨0, _⟩ => rfl | ⟨1, _⟩ => rfl)
theorem idx4_8 (q : Fin 256) (s : Fin 320000) : Read.idx_main_v154 (ix1 q) s = ix2 s q :=
  funext fun a => Fin.ext (by match a with | ⟨0, _⟩ => rfl | ⟨1, _⟩ => rfl)

/-- The column mean. -/
theorem bn4_mean (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x20 : (⟨S_, .f32⟩ : BufTy).Contents (Elt Ideal)) (q : Fin 256) :
    Read.val_main_v149 (F := Ideal) x0 x1 x2 x3 x20 (ix1 q) = Ideal.div (∑ s : Fin 320000, Read.val_main_v146 (F := Ideal) x0 x1 x2 x3 x20 (ix2 s q)) cRowsE := by
  rw [Read.val_main_v149_apply, Read.val_main_v147_apply, Read.val_main_v148_apply, Read.val_main_cst_30_apply, Read.val_main_cst_31_apply]
  simp only [Ideal.hostDivf_def, Ideal.ofBits_def, Ideal.ofBits_zero_f32, zero_add, idx4_1]

/-- An entry less its column's mean. -/
theorem bn4_ctr (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x20 : (⟨S_, .f32⟩ : BufTy).Contents (Elt Ideal)) (r : Fin 320000) (q : Fin 256) :
    Read.val_main_v152 (F := Ideal) x0 x1 x2 x3 x20 (ix2 r q) = Read.val_main_v146 (F := Ideal) x0 x1 x2 x3 x20 (ix2 r q) - Read.val_main_v149 (F := Ideal) x0 x1 x2 x3 x20 (ix1 q) := by
  rw [Read.val_main_v152_apply, Read.val_main_v151_apply, Read.val_main_v150_apply, idx4_4]
  rfl

/-- The column variance. -/
theorem bn4_var (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x20 : (⟨S_, .f32⟩ : BufTy).Contents (Elt Ideal)) (q : Fin 256) :
    Read.val_main_v156 (F := Ideal) x0 x1 x2 x3 x20 (ix1 q) = Ideal.div (∑ s : Fin 320000, (Read.val_main_v146 (F := Ideal) x0 x1 x2 x3 x20 (ix2 s q) - Read.val_main_v149 (F := Ideal) x0 x1 x2 x3 x20 (ix1 q)) * (Read.val_main_v146 (F := Ideal) x0 x1 x2 x3 x20 (ix2 s q) - Read.val_main_v149 (F := Ideal) x0 x1 x2 x3 x20 (ix1 q))) cRowsE := by
  rw [Read.val_main_v156_apply, Read.val_main_v154_apply, Read.val_main_v155_apply, Read.val_main_cst_32_apply, Read.val_main_cst_33_apply]
  simp only [Ideal.hostDivf_def, Ideal.ofBits_def, Ideal.ofBits_zero_f32, zero_add, idx4_8, Read.val_main_v153_apply, bn4_ctr,
    Ideal.mulf_def]

/-- The normalised, scaled, shifted and rectified entry is the centred form of batch normalisation. -/
theorem bn4_out (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x20 : (⟨S_, .f32⟩ : BufTy).Contents (Elt Ideal)) (r : Fin 320000) (q : Fin 256) :
    Read.val_main_v172 (F := Ideal) x0 x1 x2 x3 x4 x5 x20 (ix2 r q)
      = bnTwoPass cRowsE (fun (s : Fin 320000) (c : Fin 256) => Read.val_main_v146 (F := Ideal) x0 x1 x2 x3 x20 (ix2 s c))
          (fun c : Fin 256 => x4 (ix1 c)) (fun c : Fin 256 => x5 (ix1 c)) r q := by
  rw [Read.val_main_v172_apply, Read.val_main_v171_apply, Read.val_main_v168_apply, Read.val_main_v165_apply, Read.val_main_v159_apply,
    Read.val_main_v158_apply, Read.val_main_v157_apply, Read.val_main_v164_apply, Read.val_main_v163_apply, Read.val_main_v162_apply,
    Read.val_main_v161_apply, Read.val_main_v160_apply, Read.val_main_cst_34_apply, Read.val_main_v167_apply, Read.val_main_v166_apply,
    Read.val_main_v170_apply, Read.val_main_v169_apply, Read.val_main_call3_v0_apply, Read.val_main_call3_cst_apply,
    idx4_11, idx4_17, idx4_20, idx4_23, bn4_var, bn4_mean]
  rfl

end Cert.ReferenceIdeal.RefValue

end
-- ==== Proof.RefBn5.lean ====
/-
  The fifth batch normalisation of the reference (the edge rows' last map, 128 columns), read at an entry.

  The reference normalises the columns of a table `Y` of 320000 rows and 128 columns in the centred form: the column
  mean `m = (Σ_s Y s c) / 320000`, the column variance `v = (Σ_s (Y s c - m)²) / 320000`, and entry `(r, c)` of the result
  `max (((Y r c - m) · rsqrt (v + ε)) · g c + b c) 0`. Each stage is read at an entry; a column statistic broadcast
  to the rows reads the statistic at the entry's column.
-/
import proofs.«131702_j10462540333326_2_alg».proof.Proof.ReadP
import proofs.«131702_j10462540333326_2_alg».proof.Proof.Spec

noncomputable section

open scoped BigOperators

namespace Cert.ReferenceIdeal.RefValue

open Cert.ReferenceIdeal Cert.ReferenceIdeal.Gen Idealize.ShloMosaic Idealize.ShloMosaic.ValueIdx EdgeNodeLayer

/-! A column statistic broadcast to one row and then to all rows, read at `(r, q)`, is read at column `q`. -/
theorem idx5_4 (r : Fin 320000) (q : Fin 128) : Read.idx_main_v177 (Read.idx_main_v178 (ix2 r q)) = ix1 q :=
  funext fun a => Fin.ext (by match a with | ⟨0, _⟩ => rfl)
theorem idx5_11 (r : Fin 320000) (q : Fin 128) : Read.idx_main_v184 (Read.idx_main_v185 (ix2 r q)) = ix1 q :=
  funext fun a => Fin.ext (by match a with | ⟨0, _⟩ => rfl)
theorem idx5_17 (r : Fin 320000) (q : Fin 128) : Read.idx_main_v190 (Read.idx_main_v191 (ix2 r q)) = ix1 q :=
  funext fun a => Fin.ext (by match a with | ⟨0, _⟩ => rfl)
theorem idx5_20 (r : Fin 320000) (q : Fin 128) : Read.idx_main_v193 (Read.idx_main_v194 (ix2 r q)) = ix1 q :=
  funext fun a => Fin.ext (by match a with | ⟨0, _⟩ => rfl)
theorem idx5_23 (r : Fin 320000) (q : Fin 128) : Read.idx_main_v196 (Read.idx_main_v197 (ix2 r q)) = ix1 q :=
  funext fun a => Fin.ext (by match a with | ⟨0, _⟩ => rfl)
/-! The `s`-th term of a column's sum over the rows is entry `(s, q)`. -/
theorem idx5_1 (q : Fin 128) (s : Fin 320000) : Read.idx_main_v174 (ix1 q) s = ix2 s q :=
  funext fun a => Fin.ext (by match a with | ⟨0, _⟩ => rfl | ⟨1, _⟩ => rfl)
theorem idx5_8 (q : Fin 128) (s : Fin 320000) : Read.idx_main_v181 (ix1 q) s = ix2 s q :=
  funext fun a => Fin.ext (by match a with | ⟨0, _⟩ => rfl | ⟨1, _⟩ => rfl)

/-- The column mean. -/
theorem bn5_mean (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x20 : (⟨S_, .f32⟩ : BufTy).Contents (Elt Ideal)) (q : Fin 128) :
    Read.val_main_v176 (F := Ideal) x0 x1 x2 x3 x4 x5 x6 x20 (ix1 q) = Ideal.div (∑ s : Fin 320000, Read.val_main_v173 (F := Ideal) x0 x1 x2 x3 x4 x5 x6 x20 (ix2 s q)) cRowsE := by
  rw [Read.val_main_v176_apply, Read.val_main_v174_apply, Read.val_main_v175_apply, Read.val_main_cst_35_apply, Read.val_main_cst_36_apply]
  simp only [Ideal.hostDivf_def, Ideal.ofBits_def, Ideal.ofBits_zero_f32, zero_add, idx5_1]

/-- An entry less its column's mean. -/
theorem bn5_ctr (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x20 : (⟨S_, .f32⟩ : BufTy).Contents (Elt Ideal)) (r : Fin 320000) (q : Fin 128) :
    Read.val_main_v179 (F := Ideal) x0 x1 x2 x3 x4 x5 x6 x20 (ix2 r q) = Read.val_main_v173 (F := Ideal) x0 x1 x2 x3 x4 x5 x6 x20 (ix2 r q) - Read.val_main_v176 (F := Ideal) x0 x1 x2 x3 x4 x5 x6 x20 (ix1 q) := by
  rw [Read.val_main_v179_apply, Read.val_main_v178_apply, Read.val_main_v177_apply, idx5_4]
  rfl

/-- The column variance. -/
theorem bn5_var (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x20 : (⟨S_, .f32⟩ : BufTy).Contents (Elt Ideal)) (q : Fin 128) :
    Read.val_main_v183 (F := Ideal) x0 x1 x2 x3 x4 x5 x6 x20 (ix1 q) = Ideal.div (∑ s : Fin 320000, (Read.val_main_v173 (F := Ideal) x0 x1 x2 x3 x4 x5 x6 x20 (ix2 s q) - Read.val_main_v176 (F := Ideal) x0 x1 x2 x3 x4 x5 x6 x20 (ix1 q)) * (Read.val_main_v173 (F := Ideal) x0 x1 x2 x3 x4 x5 x6 x20 (ix2 s q) - Read.val_main_v176 (F := Ideal) x0 x1 x2 x3 x4 x5 x6 x20 (ix1 q))) cRowsE := by
  rw [Read.val_main_v183_apply, Read.val_main_v181_apply, Read.val_main_v182_apply, Read.val_main_cst_37_apply, Read.val_main_cst_38_apply]
  simp only [Ideal.hostDivf_def, Ideal.ofBits_def, Ideal.ofBits_zero_f32, zero_add, idx5_8, Read.val_main_v180_apply, bn5_ctr,
    Ideal.mulf_def]

/-- The normalised, scaled, shifted and rectified entry is the centred form of batch normalisation. -/
theorem bn5_out (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128, .f32⟩ : BufTy).Contents (Elt Ideal)) (x20 : (⟨S_, .f32⟩ : BufTy).Contents (Elt Ideal)) (r : Fin 320000) (q : Fin 128) :
    Read.val_main_v199 (F := Ideal) x0 x1 x2 x3 x4 x5 x6 x7 x8 x20 (ix2 r q)
      = bnTwoPass cRowsE (fun (s : Fin 320000) (c : Fin 128) => Read.val_main_v173 (F := Ideal) x0 x1 x2 x3 x4 x5 x6 x20 (ix2 s c))
          (fun c : Fin 128 => x7 (ix1 c)) (fun c : Fin 128 => x8 (ix1 c)) r q := by
  rw [Read.val_main_v199_apply, Read.val_main_v198_apply, Read.val_main_v195_apply, Read.val_main_v192_apply, Read.val_main_v186_apply,
    Read.val_main_v185_apply, Read.val_main_v184_apply, Read.val_main_v191_apply, Read.val_main_v190_apply, Read.val_main_v189_apply,
    Read.val_main_v188_apply, Read.val_main_v187_apply, Read.val_main_cst_39_apply, Read.val_main_v194_apply, Read.val_main_v193_apply,
    Read.val_main_v197_apply, Read.val_main_v196_apply, Read.val_main_call4_v0_apply, Read.val_main_call4_cst_apply,
    idx5_11, idx5_17, idx5_20, idx5_23, bn5_var, bn5_mean]
  rfl

end Cert.ReferenceIdeal.RefValue

end
-- ==== Proof.RefEdgeOut.lean ====
/-
  The reference's edge branch after its first linear map is the specification's `hC`, `yD` and `edgeOut`.

  Batch normalisation over the 320000 edge rows in the centred form (it does not see that the rows are named
  `2 e + h` rather than `(e, h)`), a linear map (a sum over 256 columns), and batch normalisation again.
-/
import proofs.«131702_j10462540333326_2_alg».proof.Proof.ReadP
import proofs.«131702_j10462540333326_2_alg».proof.Proof.RefArgs
import proofs.«131702_j10462540333326_2_alg».proof.Proof.RefEdgeLift
import proofs.«131702_j10462540333326_2_alg».proof.Proof.RefBn4
import proofs.«131702_j10462540333326_2_alg».proof.Proof.RefBn5

noncomputable section

open scoped BigOperators

namespace Cert.ReferenceIdeal.RefValue

open Cert.ReferenceIdeal Cert.ReferenceIdeal.Gen Idealize.ShloMosaic Idealize.ShloMosaic.ValueIdx EdgeNodeLayer

variable (X : RefIn)

/-- The lift map, normalised, at row `r` is `hC` at the pair `r` names. -/
theorem hC_apply (r : Fin 320000) (c : Fin 256) :
    Read.val_main_v172 (F := Ideal) X.x0 X.x1 X.x2 X.x3 X.x4 X.x5 X.x20 (ix2 r c) = hC (argsOf X) false (rowOf.symm r) c := by
  rw [bn4_out]
  exact (bnTwoPass_congr cRowsE _ (fun s c => yC (argsOf X) (rowOf.symm s) c) _ (argsOf X).lg1 _ (argsOf X).lb1
      (fun s c => yC_apply X s c) (fun _ => rfl) (fun _ => rfl) r c).trans
    (bnTwoPass_comp rowOf.symm cRowsE (yC (argsOf X)) (argsOf X).lg1 (argsOf X).lb1 r c).symm

theorem lidx173 (r : Fin 320000) (c : Fin 128) (k : Fin 256) : Read.lidx_main_v173 (ix2 r c) k = ix2 r k :=
  funext fun a => Fin.ext (by match a with | ⟨0, _⟩ => rfl | ⟨1, _⟩ => rfl)
theorem ridx173 (r : Fin 320000) (c : Fin 128) (k : Fin 256) : Read.ridx_main_v173 (ix2 r c) k = ix2 k c :=
  funext fun a => Fin.ext (by match a with | ⟨0, _⟩ => rfl | ⟨1, _⟩ => rfl)

/-- The last linear map at row `r` is `yD` at the pair `r` names. -/
theorem yD_apply (r : Fin 320000) (c : Fin 128) :
    Read.val_main_v173 (F := Ideal) X.x0 X.x1 X.x2 X.x3 X.x4 X.x5 X.x6 X.x20 (ix2 r c) = yD (argsOf X) false (rowOf.symm r) c := by
  rw [Read.val_main_v173_apply]
  simp only [lidx173, ridx173, hC_apply]
  rfl

/-- The edge result at row `r` is `edgeOut` at the pair `r` names. -/
theorem edgeOut_apply (r : Fin 320000) (q : Fin 128) :
    Read.val_main_v199 (F := Ideal) X.x0 X.x1 X.x2 X.x3 X.x4 X.x5 X.x6 X.x7 X.x8 X.x20 (ix2 r q) = edgeOut (argsOf X) false (rowOf.symm r) q := by
  rw [bn5_out]
  exact (bnTwoPass_congr cRowsE _ (fun s c => yD (argsOf X) false (rowOf.symm s) c) _ (argsOf X).lg2 _ (argsOf X).lb2
      (fun s c => yD_apply X s c) (fun _ => rfl) (fun _ => rfl) r q).trans
    (bnTwoPass_comp rowOf.symm cRowsE (yD (argsOf X) false) (argsOf X).lg2 (argsOf X).lb2 r q).symm

end Cert.ReferenceIdeal.RefValue

end
-- ==== Proof.RefValue.lean ====
/-
  The reference program computes the layer's specification in its centred form.

  Its two results, read at an entry, are `nodeOut` and `edgeOut` of the argument arrays with the centred batch
  normalisation (`k = false`); row `2 e + h` of the edge result is the specification's row `(e, h)`.
-/
import proofs.«131702_j10462540333326_2_alg».proof.Proof.ReadP
import proofs.«131702_j10462540333326_2_alg».proof.Proof.ArgsOf
import proofs.«131702_j10462540333326_2_alg».proof.Proof.RefArgs
import proofs.«131702_j10462540333326_2_alg».proof.Proof.RefNodeOut
import proofs.«131702_j10462540333326_2_alg».proof.Proof.RefEdgeOut

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx EdgeNodeLayer

/-- The argument arrays a memory holds, read entry by entry, are `refArgs`. -/
theorem refArgs_eq (m : (ℓ : Loc nD τ sig) → Buf (Elt Ideal) ℓ) (c : Dev nD) : refArgs m c = argsOf (refIn m c) := rfl

/-- The reference's node result is the specification's, centred form. -/
theorem ref_node (m : (ℓ : Loc nD τ sig) → Buf (Elt Ideal) ℓ) (c : Dev nD) (n : Fin 20000) (q : Fin 128) :
    Read.val_main_v128 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (ix2 n q)
      = nodeOut (refArgs m c) false n q := by
  rw [refArgs_eq]
  exact nodeOut_apply (refIn m c) n q

/-- The reference's edge result at row `2 e + h` is the specification's at `(e, h)`, centred form. -/
theorem ref_edge (m : (ℓ : Loc nD τ sig) → Buf (Elt Ideal) ℓ) (c : Dev nD) (e : Fin 160000) (h : Fin 2) (q : Fin 128) :
    Read.val_main_v199 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg20))
        (ix2 (⟨2 * e.val + h.val, by have := e.isLt; have := h.isLt; omega⟩ : Fin 320000) q)
      = edgeOut (refArgs m c) false (e, h) q := by
  rw [refArgs_eq]
  have key := edgeOut_apply (refIn m c) (rowOf (e, h)) q
  rw [Equiv.symm_apply_apply] at key
  exact key

end Cert.ReferenceIdeal.RefValue

end
-- ==== Proof.lean ====
/-
  One layer of an edge-and-node message-passing network, computed two ways.

  A graph has 20000 nodes and 160000 edges, each edge owning two rows (one per endpoint).  Node features are gathered to the
  edge rows and summed per edge; a linear map with batch normalisation and a rectifier acts on the rows; the rows are
  scattered back to the nodes; two further two-stage maps with batch normalisation give the node result and the edge
  result (`Proof/Spec.lean`: `EdgeNodeLayer.nodeOut`, `edgeOut`).  The kernel program keeps the rows as two halves (all
  first endpoints, then all second endpoints), multiplies against blocks of the weight rows instead of joined features,
  accumulates each column's sum and sum of squares over the row blocks, and normalises with the variance
  `Σx²/n − m²` folded into one scale and one shift; the reference keeps the two rows of an edge adjacent and normalises
  by centring first.  Sums do not depend on the order of the rows, a product against joined features is the sum of the
  products against the blocks, and on finite data the two normalisations agree (`nodeOut_forms`, `edgeOut_forms`: the
  only place the finiteness of the inputs is used — distributivity fails at the infinities of the extended reals).
-/
import proofs.«131702_j10462540333326_2_alg».proof.Defs
import proofs.«131702_j10462540333326_2_alg».proof.Proof.Gen.Kernel
import proofs.«131702_j10462540333326_2_alg».proof.Proof.Gen.Kernel.Frame
import proofs.«131702_j10462540333326_2_alg».proof.Proof.Gen.KernelIdeal
import proofs.«131702_j10462540333326_2_alg».proof.Proof.Gen.KernelIdeal.Frame
import proofs.«131702_j10462540333326_2_alg».proof.Proof.Gen.ReferenceIdeal
import proofs.«131702_j10462540333326_2_alg».proof.Proof.RunP
import proofs.«131702_j10462540333326_2_alg».proof.Proof.Gen.Pre_finite_inputs
import proofs.«131702_j10462540333326_2_alg».proof.Proof.Spec
import proofs.«131702_j10462540333326_2_alg».proof.Proof.BnFinite
import proofs.«131702_j10462540333326_2_alg».proof.Proof.ArgsOf
import proofs.«131702_j10462540333326_2_alg».proof.Proof.KerRun
import proofs.«131702_j10462540333326_2_alg».proof.Proof.KerChain
import proofs.«131702_j10462540333326_2_alg».proof.Proof.RefValue
import Idealize.ShloMosaic.Adequacy
import Idealize.ShloMosaic.Init

noncomputable section

namespace Cert.Proof

open Idealize.ShloMosaic Idealize.ShloMosaic.TcCoe Idealize.SL.Sem ValueIdx

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's node and edge results of the same arguments: the kernel's in the folded
    normalisation, the reference's in the centred one, which agree because every input is finite. -/
theorem algebraic : Cert.algebraic_KernelIdeal_ReferenceIdeal := by
  intro m ρ m' ρ' hpre hagree
  refine ⟨fun c => Cert.KernelIdeal.Gen.W17 m ρ c (Proc.devRef .tc Cert.KernelIdeal.main_v107),
    fun c => Cert.KernelIdeal.Gen.W17 m ρ c (Proc.devRef .tc Cert.KernelIdeal.main_v164),
    Cert.KernelIdeal.RunValue.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · funext i
    obtain ⟨n, q, rfl⟩ : ∃ (n : Fin 20000) (q : Fin 128), i = ix2 n q := ⟨i 0, i 1, eq_ix2 i⟩
    refine (Cert.ReferenceIdeal.RefValue.ref_node m' c n q).trans ?_
    rw [Cert.ReferenceIdeal.RefValue.refArgs_eq_kerArgs m m' c (hagree c),
      ← EdgeNodeLayer.nodeOut_forms _ (Cert.KernelIdeal.ArgsOf.kerArgs_finite m hpre c)]
    exact (Cert.KernelIdeal.Chain.node_value m ρ c n q).symm
  · funext i
    obtain ⟨r, q, rfl⟩ : ∃ (r : Fin 320000) (q : Fin 128), i = ix2 r q := ⟨i 0, i 1, eq_ix2 i⟩
    obtain ⟨e, h, rfl⟩ : ∃ (e : Fin 160000) (h : Fin 2), r = ⟨2 * e.val + h.val, by omega⟩ :=
      ⟨⟨r.val / 2, by omega⟩, ⟨r.val % 2, by omega⟩, Fin.ext (by simp only []; omega)⟩
    refine (Cert.ReferenceIdeal.RefValue.ref_edge m' c e h q).trans ?_
    rw [Cert.ReferenceIdeal.RefValue.refArgs_eq_kerArgs m m' c (hagree c),
      ← EdgeNodeLayer.edgeOut_forms _ (Cert.KernelIdeal.ArgsOf.kerArgs_finite m hpre c)]
    exact (Cert.KernelIdeal.Chain.edge_value m ρ c e h q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
